-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v272)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v272) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v378) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S2x12800000 : Shape := ⟨2, ![2, 12800000]⟩
abbrev S6x3 : Shape := ⟨2, ![6, 3]⟩
abbrev S3 : Shape := ⟨1, ![3]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S6x3 : S_.BroadcastsInDim S6x3 (![] : Fin 0 → Fin S6x3.rank)
  reducesTo_S6x3_S_d0_1 : S6x3.ReducesTo [0, 1] S_
  bcast_S_S3 : S_.BroadcastsInDim S3 (![] : Fin 0 → Fin S3.rank)
  reducesTo_S3_S_d0 : S3.ReducesTo [0] S_

variable [Facts]

def fn {F : FTy → Type} [FloatOps F] (main_arg0 : FVec F S200000x3 .f32) (main_arg1 : IVec S2x12800000 32) (main_arg2 : FVec F S6x3 .f32) (main_arg3 : FVec F S3 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S6x3 .f32 := Host.absf main_arg2
  let main_cst_0 : FVec F S_ .f32 := constant S_ .f32 0x7F800000#32
  let main_v5 : FVec F S6x3 .f32 := broadcastInDim S6x3 ![] bcast_S_S6x3 main_cst_0
  let main_v6 : IVec S6x3 1 := cmpf .olt main_v4 main_v5
  let main_c_1 : IVec S_ 1 := constantI S_ 1 1#1
  let main_v7 : IVec S_ 1 := (fun x v => Host.reduce IntOp.andi x v reducesTo_S6x3_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S200000x3 : Shape := ⟨2, ![200000, 3]⟩
abbrev S2x12800000 : Shape := ⟨2, ![2, 12800000]⟩
abbrev S6x3 : Shape := ⟨2, ![6, 3]⟩
abbrev S3 : Shape := ⟨1, ![3]⟩
abbrev S1x12800000 : Shape := ⟨2, ![1, 12800000]⟩
abbrev S12800000 : Shape := ⟨1, ![12800000]⟩
abbrev S_ : Shape := ⟨0, ![]⟩
abbrev S200000 : Shape := ⟨1, ![200000]⟩
abbrev S12800000x1 : Shape := ⟨2, ![12800000, 1]⟩
abbrev S1x200000 : Shape := ⟨2, ![1, 200000]⟩
abbrev S1x204800 : Shape := ⟨2, ![1, 204800]⟩
abbrev S3x6 : Shape := ⟨2, ![3, 6]⟩
abbrev S3x3 : Shape := ⟨2, ![3, 3]⟩
abbrev S3x1 : Shape := ⟨2, ![3, 1]⟩
abbrev S12800000x3 : Shape := ⟨2, ![12800000, 3]⟩
abbrev S3x200000 : Shape := ⟨2, ![3, 200000]⟩
abbrev S3x204800 : Shape := ⟨2, ![3, 204800]⟩
abbrev S3x51200 : Shape := ⟨2, ![3, 51200]⟩
abbrev S1x51200 : Shape := ⟨2, ![1, 51200]⟩

abbrev nBuf : Space → Nat
  | .hbm => 388
  | .vmem => 165
  | .smem => 0
  | _ => 0

abbrev hbmTy0_0 (i : Nat) : BufTy := match i % 128 with
  | 0 => ⟨S200000x3, .f32⟩
  | 1 => ⟨S2x12800000, .i32⟩
  | 2 => ⟨S6x3, .f32⟩
  | 3 => ⟨S3, .f32⟩
  | 4 => ⟨S1x12800000, .i32⟩
  | 5 => ⟨S12800000, .i32⟩
  | 6 => ⟨S1x12800000, .i32⟩
  | 7 => ⟨S12800000, .i32⟩
  | 8 => ⟨S_, .f32⟩
  | 9 => ⟨S12800000, .f32⟩
  | 10 => ⟨S_, .f32⟩
  | 11 => ⟨S200000, .f32⟩
  | 12 => ⟨S12800000x1, .i32⟩
  | 13 => ⟨S200000, .f32⟩
  | 14 => ⟨S_, .f32⟩
  | 15 => ⟨S200000, .f32⟩
  | 16 => ⟨S200000, .f32⟩
  | 17 => ⟨S_, .f32⟩
  | 18 => ⟨S200000, .f32⟩
  | 19 => ⟨S200000, .f32⟩
  | 20 => ⟨S1x200000, .f32⟩
  | 21 => ⟨S_, .f32⟩
  | 22 => ⟨S_, .f32⟩
  | 23 => ⟨S1x204800, .f32⟩
  | 24 => ⟨S3x6, .f32⟩
  | 25 => ⟨S3x3, .f32⟩
  | 26 => ⟨S3x3, .f32⟩
  | 27 => ⟨S3x1, .f32⟩
  | 28 => ⟨S_, .i32⟩
  | 29 => ⟨S12800000, .i32⟩
  | 30 => ⟨S12800000, .i1⟩
  | 31 => ⟨S_, .i32⟩
  | 32 => ⟨S12800000, .i32⟩
  | 33 => ⟨S12800000, .i32⟩
  | 34 => ⟨S12800000, .i32⟩
  | 35 => ⟨S12800000x1, .i32⟩
  | 36 => ⟨S12800000x3, .f32⟩
  | 37 => ⟨S_, .f32⟩
  | 38 => ⟨S200000x3, .f32⟩
  | 39 => ⟨S12800000x1, .i32⟩
  | 40 => ⟨S200000x3, .f32⟩
  | 41 => ⟨S3x200000, .f32⟩
  | 42 => ⟨S3x200000, .f32⟩
  | 43 => ⟨S_, .i32⟩
  | 44 => ⟨S_, .f32⟩
  | 45 => ⟨S3x204800, .f32⟩
  | 46 => ⟨S_, .i32⟩
  | 47 => ⟨S_, .f32⟩
  | 48 => ⟨S3x204800, .f32⟩
  | 49 => ⟨S3x204800, .f32⟩
  | 50 => ⟨S3x200000, .f32⟩
  | 51 => ⟨S200000x3, .f32⟩
  | 52 => ⟨S_, .i32⟩
  | 53 => ⟨S12800000, .i32⟩
  | 54 => ⟨S12800000, .i1⟩
  | 55 => ⟨S_, .i32⟩
  | 56 => ⟨S12800000, .i32⟩
  | 57 => ⟨S12800000, .i32⟩
  | 58 => ⟨S12800000, .i32⟩
  | 59 => ⟨S12800000x1, .i32⟩
  | 60 => ⟨S12800000x3, .f32⟩
  | 61 => ⟨S_, .f32⟩
  | 62 => ⟨S200000x3, .f32⟩
  | 63 => ⟨S12800000x1, .i32⟩
  | 64 => ⟨S200000x3, .f32⟩
  | 65 => ⟨S3x200000, .f32⟩
  | 66 => ⟨S3x200000, .f32⟩
  | 67 => ⟨S_, .i32⟩
  | 68 => ⟨S_, .f32⟩
  | 69 => ⟨S3x204800, .f32⟩
  | 70 => ⟨S_, .i32⟩
  | 71 => ⟨S_, .f32⟩
  | 72 => ⟨S3x204800, .f32⟩
  | 73 => ⟨S3x204800, .f32⟩
  | 74 => ⟨S3x200000, .f32⟩
  | 75 => ⟨S200000x3, .f32⟩
  | 76 => ⟨S_, .i32⟩
  | 77 => ⟨S12800000, .i32⟩
  | 78 => ⟨S12800000, .i1⟩
  | 79 => ⟨S_, .i32⟩
  | 80 => ⟨S12800000, .i32⟩
  | 81 => ⟨S12800000, .i32⟩
  | 82 => ⟨S12800000, .i32⟩
  | 83 => ⟨S12800000x1, .i32⟩
  | 84 => ⟨S12800000x3, .f32⟩
  | 85 => ⟨S_, .f32⟩
  | 86 => ⟨S200000x3, .f32⟩
  | 87 => ⟨S12800000x1, .i32⟩
  | 88 => ⟨S200000x3, .f32⟩
  | 89 => ⟨S3x200000, .f32⟩
  | 90 => ⟨S3x200000, .f32⟩
  | 91 => ⟨S_, .i32⟩
  | 92 => ⟨S_, .f32⟩
  | 93 => ⟨S3x204800, .f32⟩
  | 94 => ⟨S_, .i32⟩
  | 95 => ⟨S_, .f32⟩
  | 96 => ⟨S3x204800, .f32⟩
  | 97 => ⟨S3x204800, .f32⟩
  | 98 => ⟨S3x200000, .f32⟩
  | 99 => ⟨S200000x3, .f32⟩
  | 100 => ⟨S_, .i32⟩
  | 101 => ⟨S12800000, .i32⟩
  | 102 => ⟨S12800000, .i1⟩
  | 103 => ⟨S_, .i32⟩
  | 104 => ⟨S12800000, .i32⟩
  | 105 => ⟨S12800000, .i32⟩
  | 106 => ⟨S12800000, .i32⟩
  | 107 => ⟨S12800000x1, .i32⟩
  | 108 => ⟨S12800000x3, .f32⟩
  | 109 => ⟨S_, .f32⟩
  | 110 => ⟨S200000x3, .f32⟩
  | 111 => ⟨S12800000x1, .i32⟩
  | 112 => ⟨S200000x3, .f32⟩
  | 113 => ⟨S3x200000, .f32⟩
  | 114 => ⟨S3x200000, .f32⟩
  | 115 => ⟨S_, .i32⟩
  | 116 => ⟨S_, .f32⟩
  | 117 => ⟨S3x204800, .f32⟩
  | 118 => ⟨S_, .i32⟩
  | 119 => ⟨S_, .f32⟩
  | 120 => ⟨S3x204800, .f32⟩
  | 121 => ⟨S3x204800, .f32⟩
  | 122 => ⟨S3x200000, .f32⟩
  | 123 => ⟨S200000x3, .f32⟩
  | 124 => ⟨S_, .i32⟩
  | 125 => ⟨S12800000, .i32⟩
  | 126 => ⟨S12800000, .i1⟩
  | 127 => ⟨S_, .i32⟩
  | _ => ⟨S200000x3, .f32⟩

abbrev hbmTy0_1 (i : Nat) : BufTy := match i % 128 with
  | 0 => ⟨S12800000, .i32⟩
  | 1 => ⟨S12800000, .i32⟩
  | 2 => ⟨S12800000, .i32⟩
  | 3 => ⟨S12800000x1, .i32⟩
  | 4 => ⟨S12800000x3, .f32⟩
  | 5 => ⟨S_, .f32⟩
  | 6 => ⟨S200000x3, .f32⟩
  | 7 => ⟨S12800000x1, .i32⟩
  | 8 => ⟨S200000x3, .f32⟩
  | 9 => ⟨S3x200000, .f32⟩
  | 10 => ⟨S3x200000, .f32⟩
  | 11 => ⟨S_, .i32⟩
  | 12 => ⟨S_, .f32⟩
  | 13 => ⟨S3x204800, .f32⟩
  | 14 => ⟨S_, .i32⟩
  | 15 => ⟨S_, .f32⟩
  | 16 => ⟨S3x204800, .f32⟩
  | 17 => ⟨S3x204800, .f32⟩
  | 18 => ⟨S3x200000, .f32⟩
  | 19 => ⟨S200000x3, .f32⟩
  | 20 => ⟨S_, .i32⟩
  | 21 => ⟨S12800000, .i32⟩
  | 22 => ⟨S12800000, .i1⟩
  | 23 => ⟨S_, .i32⟩
  | 24 => ⟨S12800000, .i32⟩
  | 25 => ⟨S12800000, .i32⟩
  | 26 => ⟨S12800000, .i32⟩
  | 27 => ⟨S12800000x1, .i32⟩
  | 28 => ⟨S12800000x3, .f32⟩
  | 29 => ⟨S_, .f32⟩
  | 30 => ⟨S200000x3, .f32⟩
  | 31 => ⟨S12800000x1, .i32⟩
  | 32 => ⟨S200000x3, .f32⟩
  | 33 => ⟨S3x200000, .f32⟩
  | 34 => ⟨S3x200000, .f32⟩
  | 35 => ⟨S_, .i32⟩
  | 36 => ⟨S_, .f32⟩
  | 37 => ⟨S3x204800, .f32⟩
  | 38 => ⟨S_, .i32⟩
  | 39 => ⟨S_, .f32⟩
  | 40 => ⟨S3x204800, .f32⟩
  | 41 => ⟨S3x204800, .f32⟩
  | 42 => ⟨S3x200000, .f32⟩
  | 43 => ⟨S200000x3, .f32⟩
  | 44 => ⟨S_, .i32⟩
  | 45 => ⟨S12800000, .i32⟩
  | 46 => ⟨S12800000, .i1⟩
  | 47 => ⟨S_, .i32⟩
  | 48 => ⟨S12800000, .i32⟩
  | 49 => ⟨S12800000, .i32⟩
  | 50 => ⟨S12800000, .i32⟩
  | 51 => ⟨S12800000x1, .i32⟩
  | 52 => ⟨S12800000x3, .f32⟩
  | 53 => ⟨S_, .f32⟩
  | 54 => ⟨S200000x3, .f32⟩
  | 55 => ⟨S12800000x1, .i32⟩
  | 56 => ⟨S200000x3, .f32⟩
  | 57 => ⟨S3x200000, .f32⟩
  | 58 => ⟨S3x200000, .f32⟩
  | 59 => ⟨S_, .i32⟩
  | 60 => ⟨S_, .f32⟩
  | 61 => ⟨S3x204800, .f32⟩
  | 62 => ⟨S_, .i32⟩
  | 63 => ⟨S_, .f32⟩
  | 64 => ⟨S3x204800, .f32⟩
  | 65 => ⟨S3x204800, .f32⟩
  | 66 => ⟨S3x200000, .f32⟩
  | 67 => ⟨S200000x3, .f32⟩
  | 68 => ⟨S_, .i32⟩
  | 69 => ⟨S12800000, .i32⟩
  | 70 => ⟨S12800000, .i1⟩
  | 71 => ⟨S_, .i32⟩
  | 72 => ⟨S12800000, .i32⟩
  | 73 => ⟨S12800000, .i32⟩
  | 74 => ⟨S12800000, .i32⟩
  | 75 => ⟨S12800000x1, .i32⟩
  | 76 => ⟨S12800000x3, .f32⟩
  | 77 => ⟨S_, .f32⟩
  | 78 => ⟨S200000x3, .f32⟩
  | 79 => ⟨S12800000x1, .i32⟩
  | 80 => ⟨S200000x3, .f32⟩
  | 81 => ⟨S3x200000, .f32⟩
  | 82 => ⟨S3x200000, .f32⟩
  | 83 => ⟨S_, .i32⟩
  | 84 => ⟨S_, .f32⟩
  | 85 => ⟨S3x204800, .f32⟩
  | 86 => ⟨S_, .i32⟩
  | 87 => ⟨S_, .f32⟩
  | 88 => ⟨S3x204800, .f32⟩
  | 89 => ⟨S3x204800, .f32⟩
  | 90 => ⟨S3x200000, .f32⟩
  | 91 => ⟨S200000x3, .f32⟩
  | 92 => ⟨S_, .i32⟩
  | 93 => ⟨S12800000, .i32⟩
  | 94 => ⟨S12800000, .i1⟩
  | 95 => ⟨S_, .i32⟩
  | 96 => ⟨S12800000, .i32⟩
  | 97 => ⟨S12800000, .i32⟩
  | 98 => ⟨S12800000, .i32⟩
  | 99 => ⟨S12800000x1, .i32⟩
  | 100 => ⟨S12800000x3, .f32⟩
  | 101 => ⟨S_, .f32⟩
  | 102 => ⟨S200000x3, .f32⟩
  | 103 => ⟨S12800000x1, .i32⟩
  | 104 => ⟨S200000x3, .f32⟩
  | 105 => ⟨S3x200000, .f32⟩
  | 106 => ⟨S3x200000, .f32⟩
  | 107 => ⟨S_, .i32⟩
  | 108 => ⟨S_, .f32⟩
  | 109 => ⟨S3x204800, .f32⟩
  | 110 => ⟨S_, .i32⟩
  | 111 => ⟨S_, .f32⟩
  | 112 => ⟨S3x204800, .f32⟩
  | 113 => ⟨S3x204800, .f32⟩
  | 114 => ⟨S3x200000, .f32⟩
  | 115 => ⟨S200000x3, .f32⟩
  | 116 => ⟨S_, .i32⟩
  | 117 => ⟨S12800000, .i32⟩
  | 118 => ⟨S12800000, .i1⟩
  | 119 => ⟨S_, .i32⟩
  | 120 => ⟨S12800000, .i32⟩
  | 121 => ⟨S12800000, .i32⟩
  | 122 => ⟨S12800000, .i32⟩
  | 123 => ⟨S12800000x1, .i32⟩
  | 124 => ⟨S12800000x3, .f32⟩
  | 125 => ⟨S_, .f32⟩
  | 126 => ⟨S200000x3, .f32⟩
  | 127 => ⟨S12800000x1, .i32⟩
  | _ => ⟨S200000x3, .f32⟩

abbrev hbmTy0_2 (i : Nat) : BufTy := match i % 128 with
  | 0 => ⟨S200000x3, .f32⟩
  | 1 => ⟨S3x200000, .f32⟩
  | 2 => ⟨S3x200000, .f32⟩
  | 3 => ⟨S_, .i32⟩
  | 4 => ⟨S_, .f32⟩
  | 5 => ⟨S3x204800, .f32⟩
  | 6 => ⟨S_, .i32⟩
  | 7 => ⟨S_, .f32⟩
  | 8 => ⟨S3x204800, .f32⟩
  | 9 => ⟨S3x204800, .f32⟩
  | 10 => ⟨S3x200000, .f32⟩
  | 11 => ⟨S200000x3, .f32⟩
  | 12 => ⟨S_, .i32⟩
  | 13 => ⟨S12800000, .i32⟩
  | 14 => ⟨S12800000, .i1⟩
  | 15 => ⟨S_, .i32⟩
  | 16 => ⟨S12800000, .i32⟩
  | 17 => ⟨S12800000, .i32⟩
  | 18 => ⟨S12800000, .i32⟩
  | 19 => ⟨S12800000x1, .i32⟩
  | 20 => ⟨S12800000x3, .f32⟩
  | 21 => ⟨S_, .f32⟩
  | 22 => ⟨S200000x3, .f32⟩
  | 23 => ⟨S12800000x1, .i32⟩
  | 24 => ⟨S200000x3, .f32⟩
  | 25 => ⟨S3x200000, .f32⟩
  | 26 => ⟨S3x200000, .f32⟩
  | 27 => ⟨S_, .i32⟩
  | 28 => ⟨S_, .f32⟩
  | 29 => ⟨S3x204800, .f32⟩
  | 30 => ⟨S_, .i32⟩
  | 31 => ⟨S_, .f32⟩
  | 32 => ⟨S3x204800, .f32⟩
  | 33 => ⟨S3x204800, .f32⟩
  | 34 => ⟨S3x200000, .f32⟩
  | 35 => ⟨S200000x3, .f32⟩
  | 36 => ⟨S_, .i32⟩
  | 37 => ⟨S12800000, .i32⟩
  | 38 => ⟨S12800000, .i1⟩
  | 39 => ⟨S_, .i32⟩
  | 40 => ⟨S12800000, .i32⟩
  | 41 => ⟨S12800000, .i32⟩
  | 42 => ⟨S12800000, .i32⟩
  | 43 => ⟨S12800000x1, .i32⟩
  | 44 => ⟨S12800000x3, .f32⟩
  | 45 => ⟨S_, .f32⟩
  | 46 => ⟨S200000x3, .f32⟩
  | 47 => ⟨S12800000x1, .i32⟩
  | 48 => ⟨S200000x3, .f32⟩
  | 49 => ⟨S3x200000, .f32⟩
  | 50 => ⟨S3x200000, .f32⟩
  | 51 => ⟨S_, .i32⟩
  | 52 => ⟨S_, .f32⟩
  | 53 => ⟨S3x204800, .f32⟩
  | 54 => ⟨S_, .i32⟩
  | 55 => ⟨S_, .f32⟩
  | 56 => ⟨S3x204800, .f32⟩
  | 57 => ⟨S3x204800, .f32⟩
  | 58 => ⟨S3x200000, .f32⟩
  | 59 => ⟨S200000x3, .f32⟩
  | 60 => ⟨S_, .i32⟩
  | 61 => ⟨S12800000, .i32⟩
  | 62 => ⟨S12800000, .i1⟩
  | 63 => ⟨S_, .i32⟩
  | 64 => ⟨S12800000, .i32⟩
  | 65 => ⟨S12800000, .i32⟩
  | 66 => ⟨S12800000, .i32⟩
  | 67 => ⟨S12800000x1, .i32⟩
  | 68 => ⟨S12800000x3, .f32⟩
  | 69 => ⟨S_, .f32⟩
  | 70 => ⟨S200000x3, .f32⟩
  | 71 => ⟨S12800000x1, .i32⟩
  | 72 => ⟨S200000x3, .f32⟩
  | 73 => ⟨S3x200000, .f32⟩
  | 74 => ⟨S3x200000, .f32⟩
  | 75 => ⟨S_, .i32⟩
  | 76 => ⟨S_, .f32⟩
  | 77 => ⟨S3x204800, .f32⟩
  | 78 => ⟨S_, .i32⟩
  | 79 => ⟨S_, .f32⟩
  | 80 => ⟨S3x204800, .f32⟩
  | 81 => ⟨S3x204800, .f32⟩
  | 82 => ⟨S3x200000, .f32⟩
  | 83 => ⟨S200000x3, .f32⟩
  | 84 => ⟨S_, .i32⟩
  | 85 => ⟨S12800000, .i32⟩
  | 86 => ⟨S12800000, .i1⟩
  | 87 => ⟨S_, .i32⟩
  | 88 => ⟨S12800000, .i32⟩
  | 89 => ⟨S12800000, .i32⟩
  | 90 => ⟨S12800000, .i32⟩
  | 91 => ⟨S12800000x1, .i32⟩
  | 92 => ⟨S12800000x3, .f32⟩
  | 93 => ⟨S_, .f32⟩
  | 94 => ⟨S200000x3, .f32⟩
  | 95 => ⟨S12800000x1, .i32⟩
  | 96 => ⟨S200000x3, .f32⟩
  | 97 => ⟨S3x200000, .f32⟩
  | 98 => ⟨S3x200000, .f32⟩
  | 99 => ⟨S_, .i32⟩
  | 100 => ⟨S_, .f32⟩
  | 101 => ⟨S3x204800, .f32⟩
  | 102 => ⟨S_, .i32⟩
  | 103 => ⟨S_, .f32⟩
  | 104 => ⟨S3x204800, .f32⟩
  | 105 => ⟨S3x204800, .f32⟩
  | 106 => ⟨S3x200000, .f32⟩
  | 107 => ⟨S200000x3, .f32⟩
  | 108 => ⟨S_, .i32⟩
  | 109 => ⟨S12800000, .i32⟩
  | 110 => ⟨S12800000, .i1⟩
  | 111 => ⟨S_, .i32⟩
  | 112 => ⟨S12800000, .i32⟩
  | 113 => ⟨S12800000, .i32⟩
  | 114 => ⟨S12800000, .i32⟩
  | 115 => ⟨S12800000x1, .i32⟩
  | 116 => ⟨S12800000x3, .f32⟩
  | 117 => ⟨S_, .f32⟩
  | 118 => ⟨S200000x3, .f32⟩
  | 119 => ⟨S12800000x1, .i32⟩
  | 120 => ⟨S200000x3, .f32⟩
  | 121 => ⟨S3x200000, .f32⟩
  | 122 => ⟨S3x200000, .f32⟩
  | 123 => ⟨S_, .i32⟩
  | 124 => ⟨S_, .f32⟩
  | 125 => ⟨S3x204800, .f32⟩
  | 126 => ⟨S_, .i32⟩
  | 127 => ⟨S_, .f32⟩
  | _ => ⟨S200000x3, .f32⟩

abbrev hbmTy0_3 (i : Nat) : BufTy := match i % 128 with
  | 0 => ⟨S3x204800, .f32⟩
  | 1 => ⟨S3x204800, .f32⟩
  | 2 => ⟨S3x200000, .f32⟩
  | 3 => ⟨S200000x3, .f32⟩
  | _ => ⟨S200000x3, .f32⟩

abbrev hbmTy (i : Nat) : BufTy := match i / 128 with
  | 0 => hbmTy0_0 i
  | 1 => hbmTy0_1 i
  | 2 => hbmTy0_2 i
  | 3 => hbmTy0_3 i
  | _ => ⟨S200000x3, .f32⟩

abbrev vmemTy0_0 (i : Nat) : BufTy := match i % 128 with
  | 0 => ⟨S3x51200, .f32⟩
  | 1 => ⟨S3x51200, .f32⟩
  | 2 => ⟨S3x51200, .f32⟩
  | 3 => ⟨S3x51200, .f32⟩
  | 4 => ⟨S1x51200, .f32⟩
  | 5 => ⟨S1x51200, .f32⟩
  | 6 => ⟨S3x3, .f32⟩
  | 7 => ⟨S3x3, .f32⟩
  | 8 => ⟨S3x1, .f32⟩
  | 9 => ⟨S3x51200, .f32⟩
  | 10 => ⟨S3x51200, .f32⟩
  | 11 => ⟨S3x51200, .f32⟩
  | 12 => ⟨S3x51200, .f32⟩
  | 13 => ⟨S3x51200, .f32⟩
  | 14 => ⟨S3x51200, .f32⟩
  | 15 => ⟨S1x51200, .f32⟩
  | 16 => ⟨S1x51200, .f32⟩
  | 17 => ⟨S3x3, .f32⟩
  | 18 => ⟨S3x3, .f32⟩
  | 19 => ⟨S3x1, .f32⟩
  | 20 => ⟨S3x51200, .f32⟩
  | 21 => ⟨S3x51200, .f32⟩
  | 22 => ⟨S3x51200, .f32⟩
  | 23 => ⟨S3x51200, .f32⟩
  | 24 => ⟨S3x51200, .f32⟩
  | 25 => ⟨S3x51200, .f32⟩
  | 26 => ⟨S1x51200, .f32⟩
  | 27 => ⟨S1x51200, .f32⟩
  | 28 => ⟨S3x3, .f32⟩
  | 29 => ⟨S3x3, .f32⟩
  | 30 => ⟨S3x1, .f32⟩
  | 31 => ⟨S3x51200, .f32⟩
  | 32 => ⟨S3x51200, .f32⟩
  | 33 => ⟨S3x51200, .f32⟩
  | 34 => ⟨S3x51200, .f32⟩
  | 35 => ⟨S3x51200, .f32⟩
  | 36 => ⟨S3x51200, .f32⟩
  | 37 => ⟨S1x51200, .f32⟩
  | 38 => ⟨S1x51200, .f32⟩
  | 39 => ⟨S3x3, .f32⟩
  | 40 => ⟨S3x3, .f32⟩
  | 41 => ⟨S3x1, .f32⟩
  | 42 => ⟨S3x51200, .f32⟩
  | 43 => ⟨S3x51200, .f32⟩
  | 44 => ⟨S3x51200, .f32⟩
  | 45 => ⟨S3x51200, .f32⟩
  | 46 => ⟨S3x51200, .f32⟩
  | 47 => ⟨S3x51200, .f32⟩
  | 48 => ⟨S1x51200, .f32⟩
  | 49 => ⟨S1x51200, .f32⟩
  | 50 => ⟨S3x3, .f32⟩
  | 51 => ⟨S3x3, .f32⟩
  | 52 => ⟨S3x1, .f32⟩
  | 53 => ⟨S3x51200, .f32⟩
  | 54 => ⟨S3x51200, .f32⟩
  | 55 => ⟨S3x51200, .f32⟩
  | 56 => ⟨S3x51200, .f32⟩
  | 57 => ⟨S3x51200, .f32⟩
  | 58 => ⟨S3x51200, .f32⟩
  | 59 => ⟨S1x51200, .f32⟩
  | 60 => ⟨S1x51200, .f32⟩
  | 61 => ⟨S3x3, .f32⟩
  | 62 => ⟨S3x3, .f32⟩
  | 63 => ⟨S3x1, .f32⟩
  | 64 => ⟨S3x51200, .f32⟩
  | 65 => ⟨S3x51200, .f32⟩
  | 66 => ⟨S3x51200, .f32⟩
  | 67 => ⟨S3x51200, .f32⟩
  | 68 => ⟨S3x51200, .f32⟩
  | 69 => ⟨S3x51200, .f32⟩
  | 70 => ⟨S1x51200, .f32⟩
  | 71 => ⟨S1x51200, .f32⟩
  | 72 => ⟨S3x3, .f32⟩
  | 73 => ⟨S3x3, .f32⟩
  | 74 => ⟨S3x1, .f32⟩
  | 75 => ⟨S3x51200, .f32⟩
  | 76 => ⟨S3x51200, .f32⟩
  | 77 => ⟨S3x51200, .f32⟩
  | 78 => ⟨S3x51200, .f32⟩
  | 79 => ⟨S3x51200, .f32⟩
  | 80 => ⟨S3x51200, .f32⟩
  | 81 => ⟨S1x51200, .f32⟩
  | 82 => ⟨S1x51200, .f32⟩
  | 83 => ⟨S3x3, .f32⟩
  | 84 => ⟨S3x3, .f32⟩
  | 85 => ⟨S3x1, .f32⟩
  | 86 => ⟨S3x51200, .f32⟩
  | 87 => ⟨S3x51200, .f32⟩
  | 88 => ⟨S3x51200, .f32⟩
  | 89 => ⟨S3x51200, .f32⟩
  | 90 => ⟨S3x51200, .f32⟩
  | 91 => ⟨S3x51200, .f32⟩
  | 92 => ⟨S1x51200, .f32⟩
  | 93 => ⟨S1x51200, .f32⟩
  | 94 => ⟨S3x3, .f32⟩
  | 95 => ⟨S3x3, .f32⟩
  | 96 => ⟨S3x1, .f32⟩
  | 97 => ⟨S3x51200, .f32⟩
  | 98 => ⟨S3x51200, .f32⟩
  | 99 => ⟨S3x51200, .f32⟩
  | 100 => ⟨S3x51200, .f32⟩
  | 101 => ⟨S3x51200, .f32⟩
  | 102 => ⟨S3x51200, .f32⟩
  | 103 => ⟨S1x51200, .f32⟩
  | 104 => ⟨S1x51200, .f32⟩
  | 105 => ⟨S3x3, .f32⟩
  | 106 => ⟨S3x3, .f32⟩
  | 107 => ⟨S3x1, .f32⟩
  | 108 => ⟨S3x51200, .f32⟩
  | 109 => ⟨S3x51200, .f32⟩
  | 110 => ⟨S3x51200, .f32⟩
  | 111 => ⟨S3x51200, .f32⟩
  | 112 => ⟨S3x51200, .f32⟩
  | 113 => ⟨S3x51200, .f32⟩
  | 114 => ⟨S1x51200, .f32⟩
  | 115 => ⟨S1x51200, .f32⟩
  | 116 => ⟨S3x3, .f32⟩
  | 117 => ⟨S3x3, .f32⟩
  | 118 => ⟨S3x1, .f32⟩
  | 119 => ⟨S3x51200, .f32⟩
  | 120 => ⟨S3x51200, .f32⟩
  | 121 => ⟨S3x51200, .f32⟩
  | 122 => ⟨S3x51200, .f32⟩
  | 123 => ⟨S3x51200, .f32⟩
  | 124 => ⟨S3x51200, .f32⟩
  | 125 => ⟨S1x51200, .f32⟩
  | 126 => ⟨S1x51200, .f32⟩
  | 127 => ⟨S3x3, .f32⟩
  | _ => ⟨S200000x3, .f32⟩

abbrev vmemTy0_1 (i : Nat) : BufTy := match i % 128 with
  | 0 => ⟨S3x3, .f32⟩
  | 1 => ⟨S3x1, .f32⟩
  | 2 => ⟨S3x51200, .f32⟩
  | 3 => ⟨S3x51200, .f32⟩
  | 4 => ⟨S3x51200, .f32⟩
  | 5 => ⟨S3x51200, .f32⟩
  | 6 => ⟨S3x51200, .f32⟩
  | 7 => ⟨S3x51200, .f32⟩
  | 8 => ⟨S1x51200, .f32⟩
  | 9 => ⟨S1x51200, .f32⟩
  | 10 => ⟨S3x3, .f32⟩
  | 11 => ⟨S3x3, .f32⟩
  | 12 => ⟨S3x1, .f32⟩
  | 13 => ⟨S3x51200, .f32⟩
  | 14 => ⟨S3x51200, .f32⟩
  | 15 => ⟨S3x51200, .f32⟩
  | 16 => ⟨S3x51200, .f32⟩
  | 17 => ⟨S3x51200, .f32⟩
  | 18 => ⟨S3x51200, .f32⟩
  | 19 => ⟨S1x51200, .f32⟩
  | 20 => ⟨S1x51200, .f32⟩
  | 21 => ⟨S3x3, .f32⟩
  | 22 => ⟨S3x3, .f32⟩
  | 23 => ⟨S3x1, .f32⟩
  | 24 => ⟨S3x51200, .f32⟩
  | 25 => ⟨S3x51200, .f32⟩
  | 26 => ⟨S3x51200, .f32⟩
  | 27 => ⟨S3x51200, .f32⟩
  | 28 => ⟨S3x51200, .f32⟩
  | 29 => ⟨S3x51200, .f32⟩
  | 30 => ⟨S1x51200, .f32⟩
  | 31 => ⟨S1x51200, .f32⟩
  | 32 => ⟨S3x3, .f32⟩
  | 33 => ⟨S3x3, .f32⟩
  | 34 => ⟨S3x1, .f32⟩
  | 35 => ⟨S3x51200, .f32⟩
  | 36 => ⟨S3x51200, .f32⟩
  | _ => ⟨S200000x3, .f32⟩

abbrev vmemTy (i : Nat) : BufTy := match i / 128 with
  | 0 => vmemTy0_0 i
  | 1 => vmemTy0_1 i
  | _ => ⟨S200000x3, .f32⟩

abbrev bufTy : (tb : Table) → Fin (tcTables nBuf tb) → BufTy
  | .hbm, ⟨i, _⟩ => hbmTy i
  | .local _ .vmem, ⟨i, _⟩ => vmemTy i
  | _, _ => ⟨S200000x3, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 165 → Bool
  | ⟨i, _⟩ => dmaSemScopedAt i

abbrev sig : RefSig :=
  ofTc nBuf bufTy 0 165 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_call1_v0 : Ref sig .tc := ⟨.hbm, 44, rfl⟩
abbrev main_v30 : Ref sig .tc := ⟨.hbm, 45, rfl⟩
abbrev main_c_7 : Ref sig .tc := ⟨.hbm, 46, rfl⟩
abbrev main_call2_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_call3_v0 : Ref sig .tc := ⟨.hbm, 68, rfl⟩
abbrev main_v47 : Ref sig .tc := ⟨.hbm, 69, rfl⟩
abbrev main_c_12 : Ref sig .tc := ⟨.hbm, 70, rfl⟩
abbrev main_call4_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_13 : Ref sig .tc := ⟨.hbm, 76, rfl⟩
abbrev main_v52 : Ref sig .tc := ⟨.hbm, 77, rfl⟩
abbrev main_v53 : Ref sig .tc := ⟨.hbm, 78, rfl⟩
abbrev main_c_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_16 : Ref sig .tc := ⟨.hbm, 91, rfl⟩
abbrev main_call5_v0 : Ref sig .tc := ⟨.hbm, 92, rfl⟩
abbrev main_v64 : Ref sig .tc := ⟨.hbm, 93, rfl⟩
abbrev main_c_17 : Ref sig .tc := ⟨.hbm, 94, rfl⟩
abbrev main_call6_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_18 : Ref sig .tc := ⟨.hbm, 100, rfl⟩
abbrev main_v69 : Ref sig .tc := ⟨.hbm, 101, rfl⟩
abbrev main_v70 : Ref sig .tc := ⟨.hbm, 102, rfl⟩
abbrev main_c_19 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_20 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_21 : Ref sig .tc := ⟨.hbm, 115, rfl⟩
abbrev main_call7_v0 : Ref sig .tc := ⟨.hbm, 116, rfl⟩
abbrev main_v81 : Ref sig .tc := ⟨.hbm, 117, rfl⟩
abbrev main_c_22 : Ref sig .tc := ⟨.hbm, 118, rfl⟩
abbrev main_call8_v0 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_23 : Ref sig .tc := ⟨.hbm, 124, rfl⟩
abbrev main_v86 : Ref sig .tc := ⟨.hbm, 125, rfl⟩
abbrev main_v87 : Ref sig .tc := ⟨.hbm, 126, rfl⟩
abbrev main_c_24 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_25 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_26 : Ref sig .tc := ⟨.hbm, 139, rfl⟩
abbrev main_call9_v0 : Ref sig .tc := ⟨.hbm, 140, rfl⟩
abbrev main_v98 : Ref sig .tc := ⟨.hbm, 141, rfl⟩
abbrev main_c_27 : Ref sig .tc := ⟨.hbm, 142, rfl⟩
abbrev main_call10_v0 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_28 : Ref sig .tc := ⟨.hbm, 148, rfl⟩
abbrev main_v103 : Ref sig .tc := ⟨.hbm, 149, rfl⟩
abbrev main_v104 : Ref sig .tc := ⟨.hbm, 150, rfl⟩
abbrev main_c_29 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_30 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_31 : Ref sig .tc := ⟨.hbm, 163, rfl⟩
abbrev main_call11_v0 : Ref sig .tc := ⟨.hbm, 164, rfl⟩
abbrev main_v115 : Ref sig .tc := ⟨.hbm, 165, rfl⟩
abbrev main_c_32 : Ref sig .tc := ⟨.hbm, 166, rfl⟩
abbrev main_call12_v0 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_c_33 : Ref sig .tc := ⟨.hbm, 172, rfl⟩
abbrev main_v120 : Ref sig .tc := ⟨.hbm, 173, rfl⟩
abbrev main_v121 : Ref sig .tc := ⟨.hbm, 174, rfl⟩
abbrev main_c_34 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_35 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_c_36 : Ref sig .tc := ⟨.hbm, 187, rfl⟩
abbrev main_call13_v0 : Ref sig .tc := ⟨.hbm, 188, rfl⟩
abbrev main_v132 : Ref sig .tc := ⟨.hbm, 189, rfl⟩
abbrev main_c_37 : Ref sig .tc := ⟨.hbm, 190, rfl⟩
abbrev main_call14_v0 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_c_38 : Ref sig .tc := ⟨.hbm, 196, rfl⟩
abbrev main_v137 : Ref sig .tc := ⟨.hbm, 197, rfl⟩
abbrev main_v138 : Ref sig .tc := ⟨.hbm, 198, rfl⟩
abbrev main_c_39 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_cst_40 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_c_41 : Ref sig .tc := ⟨.hbm, 211, rfl⟩
abbrev main_call15_v0 : Ref sig .tc := ⟨.hbm, 212, rfl⟩
abbrev main_v149 : Ref sig .tc := ⟨.hbm, 213, rfl⟩
abbrev main_c_42 : Ref sig .tc := ⟨.hbm, 214, rfl⟩
abbrev main_call16_v0 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_c_43 : Ref sig .tc := ⟨.hbm, 220, rfl⟩
abbrev main_v154 : Ref sig .tc := ⟨.hbm, 221, rfl⟩
abbrev main_v155 : Ref sig .tc := ⟨.hbm, 222, rfl⟩
abbrev main_c_44 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_45 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_c_46 : Ref sig .tc := ⟨.hbm, 235, rfl⟩
abbrev main_call17_v0 : Ref sig .tc := ⟨.hbm, 236, rfl⟩
abbrev main_v166 : Ref sig .tc := ⟨.hbm, 237, rfl⟩
abbrev main_c_47 : Ref sig .tc := ⟨.hbm, 238, rfl⟩
abbrev main_call18_v0 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_c_48 : Ref sig .tc := ⟨.hbm, 244, rfl⟩
abbrev main_v171 : Ref sig .tc := ⟨.hbm, 245, rfl⟩
abbrev main_v172 : Ref sig .tc := ⟨.hbm, 246, rfl⟩
abbrev main_c_49 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_cst_50 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_c_51 : Ref sig .tc := ⟨.hbm, 259, rfl⟩
abbrev main_call19_v0 : Ref sig .tc := ⟨.hbm, 260, rfl⟩
abbrev main_v183 : Ref sig .tc := ⟨.hbm, 261, rfl⟩
abbrev main_c_52 : Ref sig .tc := ⟨.hbm, 262, rfl⟩
abbrev main_call20_v0 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_c_53 : Ref sig .tc := ⟨.hbm, 268, rfl⟩
abbrev main_v188 : Ref sig .tc := ⟨.hbm, 269, rfl⟩
abbrev main_v189 : Ref sig .tc := ⟨.hbm, 270, rfl⟩
abbrev main_c_54 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_cst_55 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_c_56 : Ref sig .tc := ⟨.hbm, 283, rfl⟩
abbrev main_call21_v0 : Ref sig .tc := ⟨.hbm, 284, rfl⟩
abbrev main_v200 : Ref sig .tc := ⟨.hbm, 285, rfl⟩
abbrev main_c_57 : Ref sig .tc := ⟨.hbm, 286, rfl⟩
abbrev main_call22_v0 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_c_58 : Ref sig .tc := ⟨.hbm, 292, rfl⟩
abbrev main_v205 : Ref sig .tc := ⟨.hbm, 293, rfl⟩
abbrev main_v206 : Ref sig .tc := ⟨.hbm, 294, rfl⟩
abbrev main_c_59 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_cst_60 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_c_61 : Ref sig .tc := ⟨.hbm, 307, rfl⟩
abbrev main_call23_v0 : Ref sig .tc := ⟨.hbm, 308, rfl⟩
abbrev main_v217 : Ref sig .tc := ⟨.hbm, 309, rfl⟩
abbrev main_c_62 : Ref sig .tc := ⟨.hbm, 310, rfl⟩
abbrev main_call24_v0 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_c_63 : Ref sig .tc := ⟨.hbm, 316, rfl⟩
abbrev main_v222 : Ref sig .tc := ⟨.hbm, 317, rfl⟩
abbrev main_v223 : Ref sig .tc := ⟨.hbm, 318, rfl⟩
abbrev main_c_64 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_cst_65 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_c_66 : Ref sig .tc := ⟨.hbm, 331, rfl⟩
abbrev main_call25_v0 : Ref sig .tc := ⟨.hbm, 332, rfl⟩
abbrev main_v234 : Ref sig .tc := ⟨.hbm, 333, rfl⟩
abbrev main_c_67 : Ref sig .tc := ⟨.hbm, 334, rfl⟩
abbrev main_call26_v0 : Ref sig .tc := ⟨.hbm, 335, rfl⟩
abbrev main_v235 : Ref sig .tc := ⟨.hbm, 336, rfl⟩
abbrev main_v236 : Ref sig .tc := ⟨.hbm, 337, rfl⟩
abbrev main_v237 : Ref sig .tc := ⟨.hbm, 338, rfl⟩
abbrev main_v238 : Ref sig .tc := ⟨.hbm, 339, rfl⟩
abbrev main_c_68 : Ref sig .tc := ⟨.hbm, 340, rfl⟩
abbrev main_v239 : Ref sig .tc := ⟨.hbm, 341, rfl⟩
abbrev main_v240 : Ref sig .tc := ⟨.hbm, 342, rfl⟩
abbrev main_c_69 : Ref sig .tc := ⟨.hbm, 343, rfl⟩
abbrev main_v241 : Ref sig .tc := ⟨.hbm, 344, rfl⟩
abbrev main_v242 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_cst_70 : Ref sig .tc := ⟨.hbm, 349, rfl⟩
abbrev main_v246 : Ref sig .tc := ⟨.hbm, 350, rfl⟩
abbrev main_v247 : Ref sig .tc := ⟨.hbm, 351, rfl⟩
abbrev main_v248 : Ref sig .tc := ⟨.hbm, 352, rfl⟩
abbrev main_v249 : Ref sig .tc := ⟨.hbm, 353, rfl⟩
abbrev main_v250 : Ref sig .tc := ⟨.hbm, 354, rfl⟩
abbrev main_c_71 : Ref sig .tc := ⟨.hbm, 355, rfl⟩
abbrev main_call27_v0 : Ref sig .tc := ⟨.hbm, 356, rfl⟩
abbrev main_v251 : Ref sig .tc := ⟨.hbm, 357, rfl⟩
abbrev main_c_72 : Ref sig .tc := ⟨.hbm, 358, rfl⟩
abbrev main_call28_v0 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_v255 : Ref sig .tc := ⟨.hbm, 363, rfl⟩
abbrev main_c_73 : Ref sig .tc := ⟨.hbm, 364, rfl⟩
abbrev main_v256 : Ref sig .tc := ⟨.hbm, 365, rfl⟩
abbrev main_v257 : Ref sig .tc := ⟨.hbm, 366, rfl⟩
abbrev main_c_74 : Ref sig .tc := ⟨.hbm, 367, rfl⟩
abbrev main_v258 : Ref sig .tc := ⟨.hbm, 368, rfl⟩
abbrev main_v259 : Ref sig .tc := ⟨.hbm, 369, rfl⟩
abbrev main_v260 : Ref sig .tc := ⟨.hbm, 370, rfl⟩
abbrev main_v261 : Ref sig .tc := ⟨.hbm, 371, rfl⟩
abbrev main_v262 : Ref sig .tc := ⟨.hbm, 372, rfl⟩
abbrev main_cst_75 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_c_76 : Ref sig .tc := ⟨.hbm, 379, rfl⟩
abbrev main_call29_v0 : Ref sig .tc := ⟨.hbm, 380, rfl⟩
abbrev main_v268 : Ref sig .tc := ⟨.hbm, 381, rfl⟩
abbrev main_c_77 : Ref sig .tc := ⟨.hbm, 382, rfl⟩
abbrev main_call30_v0 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg6_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg4_0 : Ref sig .tc := ⟨.vmem, 73, rfl⟩
abbrev cc6_stg5_0 : Ref sig .tc := ⟨.vmem, 74, rfl⟩
abbrev cc6_stg6_0 : Ref sig .tc := ⟨.vmem, 75, rfl⟩
abbrev cc6_stg6_1 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg1_1 : Ref sig .tc := ⟨.vmem, 80, rfl⟩
abbrev cc7_stg2_0 : Ref sig .tc := ⟨.vmem, 81, rfl⟩
abbrev cc7_stg2_1 : Ref sig .tc := ⟨.vmem, 82, rfl⟩
abbrev cc7_stg3_0 : Ref sig .tc := ⟨.vmem, 83, rfl⟩
abbrev cc7_stg4_0 : Ref sig .tc := ⟨.vmem, 84, rfl⟩
abbrev cc7_stg5_0 : Ref sig .tc := ⟨.vmem, 85, rfl⟩
abbrev cc7_stg6_0 : Ref sig .tc := ⟨.vmem, 86, rfl⟩
abbrev cc7_stg6_1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg2_1 : Ref sig .tc := ⟨.vmem, 93, rfl⟩
abbrev cc8_stg3_0 : Ref sig .tc := ⟨.vmem, 94, rfl⟩
abbrev cc8_stg4_0 : Ref sig .tc := ⟨.vmem, 95, rfl⟩
abbrev cc8_stg5_0 : Ref sig .tc := ⟨.vmem, 96, rfl⟩
abbrev cc8_stg6_0 : Ref sig .tc := ⟨.vmem, 97, rfl⟩
abbrev cc8_stg6_1 : Ref sig .tc := ⟨.vmem, 98, rfl⟩
abbrev cc9_stg0_0 : Ref sig .tc := ⟨.vmem, 99, rfl⟩
abbrev cc9_stg0_1 : Ref sig .tc := ⟨.vmem, 100, rfl⟩
abbrev cc9_stg1_0 : Ref sig .tc := ⟨.vmem, 101, rfl⟩
abbrev cc9_stg1_1 : Ref sig .tc := ⟨.vmem, 102, rfl⟩
abbrev cc9_stg2_0 : Ref sig .tc := ⟨.vmem, 103, rfl⟩
abbrev cc9_stg2_1 : Ref sig .tc := ⟨.vmem, 104, rfl⟩
abbrev cc9_stg3_0 : Ref sig .tc := ⟨.vmem, 105, rfl⟩
abbrev cc9_stg4_0 : Ref sig .tc := ⟨.vmem, 106, rfl⟩
abbrev cc9_stg5_0 : Ref sig .tc := ⟨.vmem, 107, rfl⟩
abbrev cc9_stg6_0 : Ref sig .tc := ⟨.vmem, 108, rfl⟩
abbrev cc9_stg6_1 : Ref sig .tc := ⟨.vmem, 109, rfl⟩
abbrev cc10_stg0_0 : Ref sig .tc := ⟨.vmem, 110, rfl⟩
abbrev cc10_stg0_1 : Ref sig .tc := ⟨.vmem, 111, rfl⟩
abbrev cc10_stg1_0 : Ref sig .tc := ⟨.vmem, 112, rfl⟩
abbrev cc10_stg1_1 : Ref sig .tc := ⟨.vmem, 113, rfl⟩
abbrev cc10_stg2_0 : Ref sig .tc := ⟨.vmem, 114, rfl⟩
abbrev cc10_stg2_1 : Ref sig .tc := ⟨.vmem, 115, rfl⟩
abbrev cc10_stg3_0 : Ref sig .tc := ⟨.vmem, 116, rfl⟩
abbrev cc10_stg4_0 : Ref sig .tc := ⟨.vmem, 117, rfl⟩
abbrev cc10_stg5_0 : Ref sig .tc := ⟨.vmem, 118, rfl⟩
abbrev cc10_stg6_0 : Ref sig .tc := ⟨.vmem, 119, rfl⟩
abbrev cc10_stg6_1 : Ref sig .tc := ⟨.vmem, 120, rfl⟩
abbrev cc11_stg0_0 : Ref sig .tc := ⟨.vmem, 121, rfl⟩
abbrev cc11_stg0_1 : Ref sig .tc := ⟨.vmem, 122, rfl⟩
abbrev cc11_stg1_0 : Ref sig .tc := ⟨.vmem, 123, rfl⟩
abbrev cc11_stg1_1 : Ref sig .tc := ⟨.vmem, 124, rfl⟩
abbrev cc11_stg2_0 : Ref sig .tc := ⟨.vmem, 125, rfl⟩
abbrev cc11_stg2_1 : Ref sig .tc := ⟨.vmem, 126, rfl⟩
abbrev cc11_stg3_0 : Ref sig .tc := ⟨.vmem, 127, rfl⟩
abbrev cc11_stg4_0 : Ref sig .tc := ⟨.vmem, 128, rfl⟩
abbrev cc11_stg5_0 : Ref sig .tc := ⟨.vmem, 129, rfl⟩
abbrev cc11_stg6_0 : Ref sig .tc := ⟨.vmem, 130, rfl⟩
abbrev cc11_stg6_1 : Ref sig .tc := ⟨.vmem, 131, rfl⟩
abbrev cc12_stg0_0 : Ref sig .tc := ⟨.vmem, 132, rfl⟩
abbrev cc12_stg0_1 : Ref sig .tc := ⟨.vmem, 133, rfl⟩
abbrev cc12_stg1_0 : Ref sig .tc := ⟨.vmem, 134, rfl⟩
abbrev cc12_stg1_1 : Ref sig .tc := ⟨.vmem, 135, rfl⟩
abbrev cc12_stg2_0 : Ref sig .tc := ⟨.vmem, 136, rfl⟩
abbrev cc12_stg2_1 : Ref sig .tc := ⟨.vmem, 137, rfl⟩
abbrev cc12_stg3_0 : Ref sig .tc := ⟨.vmem, 138, rfl⟩
abbrev cc12_stg4_0 : Ref sig .tc := ⟨.vmem, 139, rfl⟩
abbrev cc12_stg5_0 : Ref sig .tc := ⟨.vmem, 140, rfl⟩
abbrev cc12_stg6_0 : Ref sig .tc := ⟨.vmem, 141, rfl⟩
abbrev cc12_stg6_1 : Ref sig .tc := ⟨.vmem, 142, rfl⟩
abbrev cc13_stg0_0 : Ref sig .tc := ⟨.vmem, 143, rfl⟩
abbrev cc13_stg0_1 : Ref sig .tc := ⟨.vmem, 144, rfl⟩
abbrev cc13_stg1_0 : Ref sig .tc := ⟨.vmem, 145, rfl⟩
abbrev cc13_stg1_1 : Ref sig .tc := ⟨.vmem, 146, rfl⟩
abbrev cc13_stg2_0 : Ref sig .tc := ⟨.vmem, 147, rfl⟩
abbrev cc13_stg2_1 : Ref sig .tc := ⟨.vmem, 148, rfl⟩
abbrev cc13_stg3_0 : Ref sig .tc := ⟨.vmem, 149, rfl⟩
abbrev cc13_stg4_0 : Ref sig .tc := ⟨.vmem, 150, rfl⟩
abbrev cc13_stg5_0 : Ref sig .tc := ⟨.vmem, 151, rfl⟩
abbrev cc13_stg6_0 : Ref sig .tc := ⟨.vmem, 152, rfl⟩
abbrev cc13_stg6_1 : Ref sig .tc := ⟨.vmem, 153, rfl⟩
abbrev cc14_stg0_0 : Ref sig .tc := ⟨.vmem, 154, rfl⟩
abbrev cc14_stg0_1 : Ref sig .tc := ⟨.vmem, 155, rfl⟩
abbrev cc14_stg1_0 : Ref sig .tc := ⟨.vmem, 156, rfl⟩
abbrev cc14_stg1_1 : Ref sig .tc := ⟨.vmem, 157, rfl⟩
abbrev cc14_stg2_0 : Ref sig .tc := ⟨.vmem, 158, rfl⟩
abbrev cc14_stg2_1 : Ref sig .tc := ⟨.vmem, 159, rfl⟩
abbrev cc14_stg3_0 : Ref sig .tc := ⟨.vmem, 160, rfl⟩
abbrev cc14_stg4_0 : Ref sig .tc := ⟨.vmem, 161, rfl⟩
abbrev cc14_stg5_0 : Ref sig .tc := ⟨.vmem, 162, rfl⟩
abbrev cc14_stg6_0 : Ref sig .tc := ⟨.vmem, 163, rfl⟩
abbrev cc14_stg6_1 : Ref sig .tc := ⟨.vmem, 164, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem6_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem2_1 : DmaSem sig := 71
abbrev cc6_sem3_0 : DmaSem sig := 72
abbrev cc6_sem4_0 : DmaSem sig := 73
abbrev cc6_sem5_0 : DmaSem sig := 74
abbrev cc6_sem6_0 : DmaSem sig := 75
abbrev cc6_sem6_1 : DmaSem sig := 76
abbrev cc7_sem0_0 : DmaSem sig := 77
abbrev cc7_sem0_1 : DmaSem sig := 78
abbrev cc7_sem1_0 : DmaSem sig := 79
abbrev cc7_sem1_1 : DmaSem sig := 80
abbrev cc7_sem2_0 : DmaSem sig := 81
abbrev cc7_sem2_1 : DmaSem sig := 82
abbrev cc7_sem3_0 : DmaSem sig := 83
abbrev cc7_sem4_0 : DmaSem sig := 84
abbrev cc7_sem5_0 : DmaSem sig := 85
abbrev cc7_sem6_0 : DmaSem sig := 86
abbrev cc7_sem6_1 : DmaSem sig := 87
abbrev cc8_sem0_0 : DmaSem sig := 88
abbrev cc8_sem0_1 : DmaSem sig := 89
abbrev cc8_sem1_0 : DmaSem sig := 90
abbrev cc8_sem1_1 : DmaSem sig := 91
abbrev cc8_sem2_0 : DmaSem sig := 92
abbrev cc8_sem2_1 : DmaSem sig := 93
abbrev cc8_sem3_0 : DmaSem sig := 94
abbrev cc8_sem4_0 : DmaSem sig := 95
abbrev cc8_sem5_0 : DmaSem sig := 96
abbrev cc8_sem6_0 : DmaSem sig := 97
abbrev cc8_sem6_1 : DmaSem sig := 98
abbrev cc9_sem0_0 : DmaSem sig := 99
abbrev cc9_sem0_1 : DmaSem sig := 100
abbrev cc9_sem1_0 : DmaSem sig := 101
abbrev cc9_sem1_1 : DmaSem sig := 102
abbrev cc9_sem2_0 : DmaSem sig := 103
abbrev cc9_sem2_1 : DmaSem sig := 104
abbrev cc9_sem3_0 : DmaSem sig := 105
abbrev cc9_sem4_0 : DmaSem sig := 106
abbrev cc9_sem5_0 : DmaSem sig := 107
abbrev cc9_sem6_0 : DmaSem sig := 108
abbrev cc9_sem6_1 : DmaSem sig := 109
abbrev cc10_sem0_0 : DmaSem sig := 110
abbrev cc10_sem0_1 : DmaSem sig := 111
abbrev cc10_sem1_0 : DmaSem sig := 112
abbrev cc10_sem1_1 : DmaSem sig := 113
abbrev cc10_sem2_0 : DmaSem sig := 114
abbrev cc10_sem2_1 : DmaSem sig := 115
abbrev cc10_sem3_0 : DmaSem sig := 116
abbrev cc10_sem4_0 : DmaSem sig := 117
abbrev cc10_sem5_0 : DmaSem sig := 118
abbrev cc10_sem6_0 : DmaSem sig := 119
abbrev cc10_sem6_1 : DmaSem sig := 120
abbrev cc11_sem0_0 : DmaSem sig := 121
abbrev cc11_sem0_1 : DmaSem sig := 122
abbrev cc11_sem1_0 : DmaSem sig := 123
abbrev cc11_sem1_1 : DmaSem sig := 124
abbrev cc11_sem2_0 : DmaSem sig := 125
abbrev cc11_sem2_1 : DmaSem sig := 126
abbrev cc11_sem3_0 : DmaSem sig := 127
abbrev cc11_sem4_0 : DmaSem sig := 128
abbrev cc11_sem5_0 : DmaSem sig := 129
abbrev cc11_sem6_0 : DmaSem sig := 130
abbrev cc11_sem6_1 : DmaSem sig := 131
abbrev cc12_sem0_0 : DmaSem sig := 132
abbrev cc12_sem0_1 : DmaSem sig := 133
abbrev cc12_sem1_0 : DmaSem sig := 134
abbrev cc12_sem1_1 : DmaSem sig := 135
abbrev cc12_sem2_0 : DmaSem sig := 136
abbrev cc12_sem2_1 : DmaSem sig := 137
abbrev cc12_sem3_0 : DmaSem sig := 138
abbrev cc12_sem4_0 : DmaSem sig := 139
abbrev cc12_sem5_0 : DmaSem sig := 140
abbrev cc12_sem6_0 : DmaSem sig := 141
abbrev cc12_sem6_1 : DmaSem sig := 142
abbrev cc13_sem0_0 : DmaSem sig := 143
abbrev cc13_sem0_1 : DmaSem sig := 144
abbrev cc13_sem1_0 : DmaSem sig := 145
abbrev cc13_sem1_1 : DmaSem sig := 146
abbrev cc13_sem2_0 : DmaSem sig := 147
abbrev cc13_sem2_1 : DmaSem sig := 148
abbrev cc13_sem3_0 : DmaSem sig := 149
abbrev cc13_sem4_0 : DmaSem sig := 150
abbrev cc13_sem5_0 : DmaSem sig := 151
abbrev cc13_sem6_0 : DmaSem sig := 152
abbrev cc13_sem6_1 : DmaSem sig := 153
abbrev cc14_sem0_0 : DmaSem sig := 154
abbrev cc14_sem0_1 : DmaSem sig := 155
abbrev cc14_sem1_0 : DmaSem sig := 156
abbrev cc14_sem1_1 : DmaSem sig := 157
abbrev cc14_sem2_0 : DmaSem sig := 158
abbrev cc14_sem2_1 : DmaSem sig := 159
abbrev cc14_sem3_0 : DmaSem sig := 160
abbrev cc14_sem4_0 : DmaSem sig := 161
abbrev cc14_sem5_0 : DmaSem sig := 162
abbrev cc14_sem6_0 : DmaSem sig := 163
abbrev cc14_sem6_1 : DmaSem sig := 164

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x51200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x51200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x51200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x51200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S3x51200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x51200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x51200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3x51200 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S3x51200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3x51200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x51200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3x51200 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S3x51200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3x51200 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x51200 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3x3 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S3x51200 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S3x51200 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3x51200 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x51200 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S3x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S3x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S3x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S3x51200 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S3x51200 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S3x51200 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x51200 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S3x3 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S3x3 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S3x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S3x51200 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S3x51200 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S3x51200 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x51200 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S3x3 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S3x3 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S3x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S3x51200 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S3x51200 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S3x51200 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x51200 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S3x3 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S3x3 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S3x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S3x51200 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 2 → Memref sig .tc .vmem S3x51200 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S3x51200 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x51200 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S3x3 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S3x3 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S3x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S3x51200 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage9_0 : Fin 2 → Memref sig .tc .vmem S3x51200 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S3x51200 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1x51200 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S3x3 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S3x3 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S3x1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S3x51200 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage10_0 : Fin 2 → Memref sig .tc .vmem S3x51200 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S3x51200 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1x51200 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S3x3 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S3x3 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S3x1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S3x51200 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_1 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage11_0 : Fin 2 → Memref sig .tc .vmem S3x51200 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S3x51200 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S1x51200 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S3x3 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S3x3 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S3x1 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S3x51200 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_1 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage12_0 : Fin 2 → Memref sig .tc .vmem S3x51200 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S3x51200 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S1x51200 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S3x3 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S3x3 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S3x1 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S3x51200 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_1 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage13_0 : Fin 2 → Memref sig .tc .vmem S3x51200 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S3x51200 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S1x51200 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S3x3 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S3x3 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S3x1 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S3x51200 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![4], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

def cc14_transform_1 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage14_0 : Fin 2 → Memref sig .tc .vmem S3x51200 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S3x51200 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S1x51200 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 1 → Memref sig .tc .vmem S3x3 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S3x3 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S3x1 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S3x51200 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S_S12800000 : S_.BroadcastsInDim S12800000 (![] : Fin 0 → Fin S12800000.rank)
  bcast_S_S200000 : S_.BroadcastsInDim S200000 (![] : Fin 0 → Fin S200000.rank)
  bcast_S12800000_S12800000x1_0 : S12800000.BroadcastsInDim S12800000x1 (![0] : Fin 1 → Fin S12800000x1.rank)
  shapeCasts_S200000_S1x200000 : S200000.ShapeCasts S1x200000
  pads_S1x200000_S1x204800_000_048000 : S1x200000.Pads (![0, 0] : Fin 2 → Nat) ![0, 4800] ![0, 0] S1x204800
  h_S_ : 0 < S_.numel
  transposes_S6x3_S3x6_1_0 : S6x3.Transposes [1, 0] S3x6
  slices_S3x6_S3x3_0_0 : S3x6.Slices ![0, 0] S3x3
  slices_S3x6_S3x3_0_3 : S3x6.Slices ![0, 3] S3x3
  shapeCasts_S3_S3x1 : S3.ShapeCasts S3x1
  bcast_S_S200000x3 : S_.BroadcastsInDim S200000x3 (![] : Fin 0 → Fin S200000x3.rank)
  transposes_S200000x3_S3x200000_1_0 : S200000x3.Transposes [1, 0] S3x200000
  pads_S3x200000_S3x204800_000_048000 : S3x200000.Pads (![0, 0] : Fin 2 → Nat) ![0, 4800] ![0, 0] S3x204800
  inb_S3x51200_S3x51200_0_0 : ∀ a, (![0, 0] : Fin 2 → Nat) a + S3x51200.size a ≤ S3x51200.size a
  h_S3x51200 : 0 < S3x51200.numel
  shapeCasts_S3x51200_S3x51200 : S3x51200.ShapeCasts S3x51200
  inb_S1x51200_S1x51200_0_0 : ∀ a, (![0, 0] : Fin 2 → Nat) a + S1x51200.size a ≤ S1x51200.size a
  h_S1x51200 : 0 < S1x51200.numel
  shapeCasts_S1x51200_S1x51200 : S1x51200.ShapeCasts S1x51200
  broadcasts_S1x51200_S3x51200 : S1x51200.Broadcasts S3x51200
  bitsLt_bf16_f32 : FTy.bits .bf16 < FTy.bits .f32
  inb_S3x3_S3x3_0_0 : ∀ a, (![0, 0] : Fin 2 → Nat) a + S3x3.size a ≤ S3x3.size a
  h_S3x3 : 0 < S3x3.numel
  shapeCasts_S3x3_S3x3 : S3x3.ShapeCasts S3x3
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x51200 : S3x1.Broadcasts S3x51200
  slices_S3x204800_S3x200000_0_0 : S3x204800.Slices ![0, 0] S3x200000
  transposes_S3x200000_S200000x3_1_0 : S3x200000.Transposes [1, 0] S200000x3
  scatter_S200000_S12800000x1_S12800000_n_0_0_1_wf : ScatterDims.WF S200000 S12800000x1 S12800000 [] [0] [0] 1
  gather_S200000x3_S12800000x1_S12800000x3_1_0_n_n_0_1_13_wf : GatherDims.WF S200000x3 S12800000x1 S12800000x3 [1] [0] [] [0] [] 1 ![1, 3]
  scatter_S200000x3_S12800000x1_S12800000x3_1_0_0_1_wf : ScatterDims.WF S200000x3 S12800000x1 S12800000x3 [1] [0] [0] 1
  dot_S3x3_S3x51200_S3x51200_1_0_0_1_n_n_wf : DotDims.WF S3x3 S3x51200 S3x51200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x51200.size a ≤ S3x204800.size a
  hwx0_0 : ∀ i : grid0.Coords, EltTy.bits .f32 = 32 ∨ (Rect.block (s := S3x204800) S3x51200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x51200.size a ≤ S3x204800.size a
  hwx0_1 : ∀ i : grid0.Coords, EltTy.bits .f32 = 32 ∨ (Rect.block (s := S3x204800) S3x51200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x51200.size a ≤ S1x204800.size a
  hwx0_2 : ∀ i : grid0.Coords, EltTy.bits .f32 = 32 ∨ (Rect.block (s := S1x204800) S1x51200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x3.size a ≤ S3x3.size a
  hwx0_4 : ∀ i : grid0.Coords, EltTy.bits .f32 = 32 ∨ (Rect.block (s := S3x3) S3x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1.size a ≤ S3x1.size a
  hwx0_5 : ∀ i : grid0.Coords, EltTy.bits .f32 = 32 ∨ (Rect.block (s := S3x1) S3x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x51200.size a ≤ S3x204800.size a
  hwx0_6 : ∀ i : grid0.Coords, EltTy.bits .f32 = 32 ∨ (Rect.block (s := S3x204800) S3x51200.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x51200.size a ≤ S3x204800.size a
  hwx1_0 : ∀ i : grid1.Coords, EltTy.bits .f32 = 32 ∨ (Rect.block (s := S3x204800) S3x51200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x51200.size a ≤ S3x204800.size a
  hwx1_1 : ∀ i : grid1.Coords, EltTy.bits .f32 = 32 ∨ (Rect.block (s := S3x204800) S3x51200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x51200.size a ≤ S1x204800.size a
  hwx1_2 : ∀ i : grid1.Coords, EltTy.bits .f32 = 32 ∨ (Rect.block (s := S1x204800) S1x51200.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x3.size a ≤ S3x3.size a
  hwx1_3 : ∀ i : grid1.Coords, EltTy.bits .f32 = 32 ∨ (Rect.block (s := S3x3) S3x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x3.size a ≤ S3x3.size a
  hwx1_4 : ∀ i : grid1.Coords, EltTy.bits .f32 = 32 ∨ (Rect.block (s := S3x3) S3x3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x1.size a ≤ S3x1.size a
  hwx1_5 : ∀ i : grid1.Coords, EltTy.bits .f32 = 32 ∨ (Rect.block (s := S3x1) S3x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3x51200.size a ≤ S3x204800.size a
  hwx1_6 : ∀ i : grid1.Coords, EltTy.bits .f32 = 32 ∨ (Rect.block (s := S3x204800) S3x51200.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3x51200.size a ≤ S3x204800.size a
  hwx2_0 : ∀ i : grid2.Coords, EltTy.bits .f32 = 32 ∨ (Rect.block (s := S3x204800) S3x51200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3x51200.size a ≤ S3x204800.size a
  hwx2_1 : ∀ i : grid2.Coords, EltTy.bits .f32 = 32 ∨ (Rect.block (s := S3x204800) S3x51200.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x51200.size a ≤ S1x204800.size a
  hwx2_2 : ∀ i : grid2.Coords, EltTy.bits .f32 = 32 ∨ (Rect.block (s := S1x204800) S1x51200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x3.size a ≤ S3x3.size a
  hwx2_3 : ∀ i : grid2.Coords, EltTy.bits .f32 = 32 ∨ (Rect.block (s := S3x3) S3x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x3.size a ≤ S3x3.size a
  hwx2_4 : ∀ i : grid2.Coords, EltTy.bits .f32 = 32 ∨ (Rect.block (s := S3x3) S3x3.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x1.size a ≤ S3x1.size a
  hwx2_5 : ∀ i : grid2.Coords, EltTy.bits .f32 = 32 ∨ (Rect.block (s := S3x1) S3x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3x51200.size a ≤ S3x204800.size a
  hwx2_6 : ∀ i : grid2.Coords, EltTy.bits .f32 = 32 ∨ (Rect.block (s := S3x204800) S3x51200.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3x51200.size a ≤ S3x204800.size a
  hwx3_0 : ∀ i : grid3.Coords, EltTy.bits .f32 = 32 ∨ (Rect.block (s := S3x204800) S3x51200.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3x51200.size a ≤ S3x204800.size a
  hwx3_1 : ∀ i : grid3.Coords, EltTy.bits .f32 = 32 ∨ (Rect.block (s := S3x204800) S3x51200.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x51200.size a ≤ S1x204800.size a
  hwx3_2 : ∀ i : grid3.Coords, EltTy.bits .f32 = 32 ∨ (Rect.block (s := S1x204800) S1x51200.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x3.size a ≤ S3x3.size a
  hwx3_3 : ∀ i : grid3.Coords, EltTy.bits .f32 = 32 ∨ (Rect.block (s := S3x3) S3x3.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3x3.size a ≤ S3x3.size a
  hwx3_4 : ∀ i : grid3.Coords, EltTy.bits .f32 = 32 ∨ (Rect.block (s := S3x3) S3x3.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3x1.size a ≤ S3x1.size a
  hwx3_5 : ∀ i : grid3.Coords, EltTy.bits .f32 = 32 ∨ (Rect.block (s := S3x1) S3x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S3x51200.size a ≤ S3x204800.size a
  hwx3_6 : ∀ i : grid3.Coords, EltTy.bits .f32 = 32 ∨ (Rect.block (s := S3x204800) S3x51200.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3x51200.size a ≤ S3x204800.size a
  hwx4_0 : ∀ i : grid4.Coords, EltTy.bits .f32 = 32 ∨ (Rect.block (s := S3x204800) S3x51200.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3x51200.size a ≤ S3x204800.size a
  hwx4_1 : ∀ i : grid4.Coords, EltTy.bits .f32 = 32 ∨ (Rect.block (s := S3x204800) S3x51200.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x51200.size a ≤ S1x204800.size a
  hwx4_2 : ∀ i : grid4.Coords, EltTy.bits .f32 = 32 ∨ (Rect.block (s := S1x204800) S1x51200.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x3.size a ≤ S3x3.size a
  hwx4_3 : ∀ i : grid4.Coords, EltTy.bits .f32 = 32 ∨ (Rect.block (s := S3x3) S3x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S3x3.size a ≤ S3x3.size a
  hwx4_4 : ∀ i : grid4.Coords, EltTy.bits .f32 = 32 ∨ (Rect.block (s := S3x3) S3x3.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S3x1.size a ≤ S3x1.size a
  hwx4_5 : ∀ i : grid4.Coords, EltTy.bits .f32 = 32 ∨ (Rect.block (s := S3x1) S3x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S3x51200.size a ≤ S3x204800.size a
  hwx4_6 : ∀ i : grid4.Coords, EltTy.bits .f32 = 32 ∨ (Rect.block (s := S3x204800) S3x51200.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3x51200.size a ≤ S3x204800.size a
  hwx5_0 : ∀ i : grid5.Coords, EltTy.bits .f32 = 32 ∨ (Rect.block (s := S3x204800) S3x51200.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S3x51200.size a ≤ S3x204800.size a
  hwx5_1 : ∀ i : grid5.Coords, EltTy.bits .f32 = 32 ∨ (Rect.block (s := S3x204800) S3x51200.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x51200.size a ≤ S1x204800.size a
  hwx5_2 : ∀ i : grid5.Coords, EltTy.bits .f32 = 32 ∨ (Rect.block (s := S1x204800) S1x51200.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S3x3.size a ≤ S3x3.size a
  hwx5_3 : ∀ i : grid5.Coords, EltTy.bits .f32 = 32 ∨ (Rect.block (s := S3x3) S3x3.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S3x3.size a ≤ S3x3.size a
  hwx5_4 : ∀ i : grid5.Coords, EltTy.bits .f32 = 32 ∨ (Rect.block (s := S3x3) S3x3.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S3x1.size a ≤ S3x1.size a
  hwx5_5 : ∀ i : grid5.Coords, EltTy.bits .f32 = 32 ∨ (Rect.block (s := S3x1) S3x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S3x51200.size a ≤ S3x204800.size a
  hwx5_6 : ∀ i : grid5.Coords, EltTy.bits .f32 = 32 ∨ (Rect.block (s := S3x204800) S3x51200.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S3x51200.size a ≤ S3x204800.size a
  hwx6_0 : ∀ i : grid6.Coords, EltTy.bits .f32 = 32 ∨ (Rect.block (s := S3x204800) S3x51200.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S3x51200.size a ≤ S3x204800.size a
  hwx6_1 : ∀ i : grid6.Coords, EltTy.bits .f32 = 32 ∨ (Rect.block (s := S3x204800) S3x51200.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x51200.size a ≤ S1x204800.size a
  hwx6_2 : ∀ i : grid6.Coords, EltTy.bits .f32 = 32 ∨ (Rect.block (s := S1x204800) S1x51200.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S3x3.size a ≤ S3x3.size a
  hwx6_3 : ∀ i : grid6.Coords, EltTy.bits .f32 = 32 ∨ (Rect.block (s := S3x3) S3x3.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S3x3.size a ≤ S3x3.size a
  hwx6_4 : ∀ i : grid6.Coords, EltTy.bits .f32 = 32 ∨ (Rect.block (s := S3x3) S3x3.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S3x1.size a ≤ S3x1.size a
  hwx6_5 : ∀ i : grid6.Coords, EltTy.bits .f32 = 32 ∨ (Rect.block (s := S3x1) S3x1.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S3x51200.size a ≤ S3x204800.size a
  hwx6_6 : ∀ i : grid6.Coords, EltTy.bits .f32 = 32 ∨ (Rect.block (s := S3x204800) S3x51200.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S3x51200.size a ≤ S3x204800.size a
  hwx7_0 : ∀ i : grid7.Coords, EltTy.bits .f32 = 32 ∨ (Rect.block (s := S3x204800) S3x51200.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S3x51200.size a ≤ S3x204800.size a
  hwx7_1 : ∀ i : grid7.Coords, EltTy.bits .f32 = 32 ∨ (Rect.block (s := S3x204800) S3x51200.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x51200.size a ≤ S1x204800.size a
  hwx7_2 : ∀ i : grid7.Coords, EltTy.bits .f32 = 32 ∨ (Rect.block (s := S1x204800) S1x51200.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S3x3.size a ≤ S3x3.size a
  hwx7_3 : ∀ i : grid7.Coords, EltTy.bits .f32 = 32 ∨ (Rect.block (s := S3x3) S3x3.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S3x3.size a ≤ S3x3.size a
  hwx7_4 : ∀ i : grid7.Coords, EltTy.bits .f32 = 32 ∨ (Rect.block (s := S3x3) S3x3.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S3x1.size a ≤ S3x1.size a
  hwx7_5 : ∀ i : grid7.Coords, EltTy.bits .f32 = 32 ∨ (Rect.block (s := S3x1) S3x1.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S3x51200.size a ≤ S3x204800.size a
  hwx7_6 : ∀ i : grid7.Coords, EltTy.bits .f32 = 32 ∨ (Rect.block (s := S3x204800) S3x51200.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S3x51200.size a ≤ S3x204800.size a
  hwx8_0 : ∀ i : grid8.Coords, EltTy.bits .f32 = 32 ∨ (Rect.block (s := S3x204800) S3x51200.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S3x51200.size a ≤ S3x204800.size a
  hwx8_1 : ∀ i : grid8.Coords, EltTy.bits .f32 = 32 ∨ (Rect.block (s := S3x204800) S3x51200.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x51200.size a ≤ S1x204800.size a
  hwx8_2 : ∀ i : grid8.Coords, EltTy.bits .f32 = 32 ∨ (Rect.block (s := S1x204800) S1x51200.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S3x3.size a ≤ S3x3.size a
  hwx8_3 : ∀ i : grid8.Coords, EltTy.bits .f32 = 32 ∨ (Rect.block (s := S3x3) S3x3.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S3x3.size a ≤ S3x3.size a
  hwx8_4 : ∀ i : grid8.Coords, EltTy.bits .f32 = 32 ∨ (Rect.block (s := S3x3) S3x3.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S3x1.size a ≤ S3x1.size a
  hwx8_5 : ∀ i : grid8.Coords, EltTy.bits .f32 = 32 ∨ (Rect.block (s := S3x1) S3x1.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S3x51200.size a ≤ S3x204800.size a
  hwx8_6 : ∀ i : grid8.Coords, EltTy.bits .f32 = 32 ∨ (Rect.block (s := S3x204800) S3x51200.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S3x51200.size a ≤ S3x204800.size a
  hwx9_0 : ∀ i : grid9.Coords, EltTy.bits .f32 = 32 ∨ (Rect.block (s := S3x204800) S3x51200.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S3x51200.size a ≤ S3x204800.size a
  hwx9_1 : ∀ i : grid9.Coords, EltTy.bits .f32 = 32 ∨ (Rect.block (s := S3x204800) S3x51200.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1x51200.size a ≤ S1x204800.size a
  hwx9_2 : ∀ i : grid9.Coords, EltTy.bits .f32 = 32 ∨ (Rect.block (s := S1x204800) S1x51200.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S3x3.size a ≤ S3x3.size a
  hwx9_3 : ∀ i : grid9.Coords, EltTy.bits .f32 = 32 ∨ (Rect.block (s := S3x3) S3x3.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S3x3.size a ≤ S3x3.size a
  hwx9_4 : ∀ i : grid9.Coords, EltTy.bits .f32 = 32 ∨ (Rect.block (s := S3x3) S3x3.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S3x1.size a ≤ S3x1.size a
  hwx9_5 : ∀ i : grid9.Coords, EltTy.bits .f32 = 32 ∨ (Rect.block (s := S3x1) S3x1.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S3x51200.size a ≤ S3x204800.size a
  hwx9_6 : ∀ i : grid9.Coords, EltTy.bits .f32 = 32 ∨ (Rect.block (s := S3x204800) S3x51200.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S3x51200.size a ≤ S3x204800.size a
  hwx10_0 : ∀ i : grid10.Coords, EltTy.bits .f32 = 32 ∨ (Rect.block (s := S3x204800) S3x51200.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S3x51200.size a ≤ S3x204800.size a
  hwx10_1 : ∀ i : grid10.Coords, EltTy.bits .f32 = 32 ∨ (Rect.block (s := S3x204800) S3x51200.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x51200.size a ≤ S1x204800.size a
  hwx10_2 : ∀ i : grid10.Coords, EltTy.bits .f32 = 32 ∨ (Rect.block (s := S1x204800) S1x51200.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S3x3.size a ≤ S3x3.size a
  hwx10_3 : ∀ i : grid10.Coords, EltTy.bits .f32 = 32 ∨ (Rect.block (s := S3x3) S3x3.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S3x3.size a ≤ S3x3.size a
  hwx10_4 : ∀ i : grid10.Coords, EltTy.bits .f32 = 32 ∨ (Rect.block (s := S3x3) S3x3.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S3x1.size a ≤ S3x1.size a
  hwx10_5 : ∀ i : grid10.Coords, EltTy.bits .f32 = 32 ∨ (Rect.block (s := S3x1) S3x1.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S3x51200.size a ≤ S3x204800.size a
  hwx10_6 : ∀ i : grid10.Coords, EltTy.bits .f32 = 32 ∨ (Rect.block (s := S3x204800) S3x51200.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S3x51200.size a ≤ S3x204800.size a
  hwx11_0 : ∀ i : grid11.Coords, EltTy.bits .f32 = 32 ∨ (Rect.block (s := S3x204800) S3x51200.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S3x51200.size a ≤ S3x204800.size a
  hwx11_1 : ∀ i : grid11.Coords, EltTy.bits .f32 = 32 ∨ (Rect.block (s := S3x204800) S3x51200.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1x51200.size a ≤ S1x204800.size a
  hwx11_2 : ∀ i : grid11.Coords, EltTy.bits .f32 = 32 ∨ (Rect.block (s := S1x204800) S1x51200.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S3x3.size a ≤ S3x3.size a
  hwx11_3 : ∀ i : grid11.Coords, EltTy.bits .f32 = 32 ∨ (Rect.block (s := S3x3) S3x3.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S3x3.size a ≤ S3x3.size a
  hwx11_4 : ∀ i : grid11.Coords, EltTy.bits .f32 = 32 ∨ (Rect.block (s := S3x3) S3x3.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S3x1.size a ≤ S3x1.size a
  hwx11_5 : ∀ i : grid11.Coords, EltTy.bits .f32 = 32 ∨ (Rect.block (s := S3x1) S3x1.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S3x51200.size a ≤ S3x204800.size a
  hwx11_6 : ∀ i : grid11.Coords, EltTy.bits .f32 = 32 ∨ (Rect.block (s := S3x204800) S3x51200.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S3x51200.size a ≤ S3x204800.size a
  hwx12_0 : ∀ i : grid12.Coords, EltTy.bits .f32 = 32 ∨ (Rect.block (s := S3x204800) S3x51200.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S3x51200.size a ≤ S3x204800.size a
  hwx12_1 : ∀ i : grid12.Coords, EltTy.bits .f32 = 32 ∨ (Rect.block (s := S3x204800) S3x51200.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x51200.size a ≤ S1x204800.size a
  hwx12_2 : ∀ i : grid12.Coords, EltTy.bits .f32 = 32 ∨ (Rect.block (s := S1x204800) S1x51200.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S3x3.size a ≤ S3x3.size a
  hwx12_3 : ∀ i : grid12.Coords, EltTy.bits .f32 = 32 ∨ (Rect.block (s := S3x3) S3x3.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S3x3.size a ≤ S3x3.size a
  hwx12_4 : ∀ i : grid12.Coords, EltTy.bits .f32 = 32 ∨ (Rect.block (s := S3x3) S3x3.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S3x1.size a ≤ S3x1.size a
  hwx12_5 : ∀ i : grid12.Coords, EltTy.bits .f32 = 32 ∨ (Rect.block (s := S3x1) S3x1.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S3x51200.size a ≤ S3x204800.size a
  hwx12_6 : ∀ i : grid12.Coords, EltTy.bits .f32 = 32 ∨ (Rect.block (s := S3x204800) S3x51200.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S3x51200.size a ≤ S3x204800.size a
  hwx13_0 : ∀ i : grid13.Coords, EltTy.bits .f32 = 32 ∨ (Rect.block (s := S3x204800) S3x51200.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S3x51200.size a ≤ S3x204800.size a
  hwx13_1 : ∀ i : grid13.Coords, EltTy.bits .f32 = 32 ∨ (Rect.block (s := S3x204800) S3x51200.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1x51200.size a ≤ S1x204800.size a
  hwx13_2 : ∀ i : grid13.Coords, EltTy.bits .f32 = 32 ∨ (Rect.block (s := S1x204800) S1x51200.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S3x3.size a ≤ S3x3.size a
  hwx13_3 : ∀ i : grid13.Coords, EltTy.bits .f32 = 32 ∨ (Rect.block (s := S3x3) S3x3.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S3x3.size a ≤ S3x3.size a
  hwx13_4 : ∀ i : grid13.Coords, EltTy.bits .f32 = 32 ∨ (Rect.block (s := S3x3) S3x3.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S3x1.size a ≤ S3x1.size a
  hwx13_5 : ∀ i : grid13.Coords, EltTy.bits .f32 = 32 ∨ (Rect.block (s := S3x1) S3x1.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S3x51200.size a ≤ S3x204800.size a
  hwx13_6 : ∀ i : grid13.Coords, EltTy.bits .f32 = 32 ∨ (Rect.block (s := S3x204800) S3x51200.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S3x51200.size a ≤ S3x204800.size a
  hwx14_0 : ∀ i : grid14.Coords, EltTy.bits .f32 = 32 ∨ (Rect.block (s := S3x204800) S3x51200.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S3x51200.size a ≤ S3x204800.size a
  hwx14_1 : ∀ i : grid14.Coords, EltTy.bits .f32 = 32 ∨ (Rect.block (s := S3x204800) S3x51200.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1x51200.size a ≤ S1x204800.size a
  hwx14_2 : ∀ i : grid14.Coords, EltTy.bits .f32 = 32 ∨ (Rect.block (s := S1x204800) S1x51200.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S3x3.size a ≤ S3x3.size a
  hwx14_3 : ∀ i : grid14.Coords, EltTy.bits .f32 = 32 ∨ (Rect.block (s := S3x3) S3x3.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S3x3.size a ≤ S3x3.size a
  hwx14_4 : ∀ i : grid14.Coords, EltTy.bits .f32 = 32 ∨ (Rect.block (s := S3x3) S3x3.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S3x1.size a ≤ S3x1.size a
  hwx14_5 : ∀ i : grid14.Coords, EltTy.bits .f32 = 32 ∨ (Rect.block (s := S3x1) S3x1.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S3x51200.size a ≤ S3x204800.size a
  hwx14_6 : ∀ i : grid14.Coords, EltTy.bits .f32 = 32 ∨ (Rect.block (s := S3x204800) S3x51200.size (cc14_transform_6 i) (hinb14_6 i)).WholeWords (EltTy.packing .f32)

variable [Facts₀]

def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf
def gather_S200000x3_S12800000x1_S12800000x3_1_0_n_n_0_1_13 : GatherDims S200000x3 S12800000x1 S12800000x3 where
  offsetDims := [1]
  collapsedSliceDims := [0]
  operandBatchingDims := []
  startIndicesBatchingDims := []
  startIndexMap := [0]
  indexVectorDim := 1
  sliceSizes := ![1, 3]
  wf := gather_S200000x3_S12800000x1_S12800000x3_1_0_n_n_0_1_13_wf
def scatter_S200000x3_S12800000x1_S12800000x3_1_0_0_1 : ScatterDims S200000x3 S12800000x1 S12800000x3 where
  updateWindowDims := [1]
  insertedWindowDims := [0]
  scatterDimsToOperandDims := [0]
  indexVectorDim := 1
  wf := scatter_S200000x3_S12800000x1_S12800000x3_1_0_0_1_wf
def dot_S3x3_S3x51200_S3x51200_1_0_0_1_n_n : DotDims S3x3 S3x51200 S3x51200 where
  lhsContracting := [1]
  rhsContracting := [0]
  lhsNonContracting := [0]
  rhsNonContracting := [1]
  lhsBatch := []
  rhsBatch := []
  wf := dot_S3x3_S3x51200_S3x51200_1_0_0_1_n_n_wf

abbrev win0_0 : Pipeline.Window sig grid0 :=
  Pipeline.Window.ofSpec (Memref.whole main_v30) S3x51200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S3x51200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x51200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S3x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S3x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S3x51200.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v47) S3x51200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S3x51200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x51200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S3x3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S3x3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S3x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S3x51200.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v64) S3x51200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S3x51200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x51200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S3x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S3x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S3x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S3x51200.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v81) S3x51200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S3x51200.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1x51200.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S3x3.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S3x3.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S3x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v83) S3x51200.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v98) S3x51200.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v99) S3x51200.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S1x51200.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v15) S3x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v16) S3x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v17) S3x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S3x51200.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v115) S3x51200.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v116) S3x51200.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S1x51200.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v15) S3x3.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v16) S3x3.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v17) S3x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v117) S3x51200.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v132) S3x51200.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v133) S3x51200.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v13) S1x51200.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v15) S3x3.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v16) S3x3.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v17) S3x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v134) S3x51200.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v149) S3x51200.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v150) S3x51200.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v13) S1x51200.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v15) S3x3.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v16) S3x3.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v17) S3x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v151) S3x51200.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v166) S3x51200.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v167) S3x51200.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v13) S1x51200.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v15) S3x3.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v16) S3x3.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v17) S3x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v168) S3x51200.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v183) S3x51200.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v184) S3x51200.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v13) S1x51200.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v15) S3x3.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v16) S3x3.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v17) S3x1.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v185) S3x51200.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v200) S3x51200.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v201) S3x51200.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v13) S1x51200.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v15) S3x3.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v16) S3x3.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v17) S3x1.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v202) S3x51200.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v217) S3x51200.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v218) S3x51200.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v13) S1x51200.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v15) S3x3.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v16) S3x3.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v17) S3x1.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v219) S3x51200.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v234) S3x51200.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v235) S3x51200.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v13) S1x51200.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v15) S3x3.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v16) S3x3.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v17) S3x1.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v236) S3x51200.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v251) S3x51200.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v252) S3x51200.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v13) S1x51200.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v15) S3x3.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v16) S3x3.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v17) S3x1.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v253) S3x51200.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v268) S3x51200.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v269) S3x51200.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v13) S1x51200.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v15) S3x3.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v16) S3x3.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v17) S3x1.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v270) S3x51200.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

class Facts : Prop extends Facts₀ where

variable [Facts]
-- ==== ReferenceIdeal.lean ====
abbrev S200000x3 : Shape := ⟨2, ![200000, 3]⟩
abbrev S2x12800000 : Shape := ⟨2, ![2, 12800000]⟩
abbrev S6x3 : Shape := ⟨2, ![6, 3]⟩
abbrev S3 : Shape := ⟨1, ![3]⟩
abbrev S1x12800000 : Shape := ⟨2, ![1, 12800000]⟩
abbrev S12800000 : Shape := ⟨1, ![12800000]⟩
abbrev S_ : Shape := ⟨0, ![]⟩
abbrev S12800000x1 : Shape := ⟨2, ![12800000, 1]⟩
abbrev S12800000x3 : Shape := ⟨2, ![12800000, 3]⟩
abbrev S200000 : Shape := ⟨1, ![200000]⟩
abbrev S200000x1 : Shape := ⟨2, ![200000, 1]⟩
abbrev S200000x6 : Shape := ⟨2, ![200000, 6]⟩
abbrev S1x3 : Shape := ⟨2, ![1, 3]⟩

abbrev nBuf : Space → Nat
  | .hbm => 503
  | .vmem => 0
  | .smem => 0
  | _ => 0

abbrev hbmTy0_0 (i : Nat) : BufTy := match i % 128 with
  | 0 => ⟨S200000x3, .f32⟩
  | 1 => ⟨S2x12800000, .i32⟩
  | 2 => ⟨S6x3, .f32⟩
  | 3 => ⟨S3, .f32⟩
  | 4 => ⟨S1x12800000, .i32⟩
  | 5 => ⟨S12800000, .i32⟩
  | 6 => ⟨S1x12800000, .i32⟩
  | 7 => ⟨S12800000, .i32⟩
  | 8 => ⟨S_, .i32⟩
  | 9 => ⟨S12800000, .i32⟩
  | 10 => ⟨S12800000, .i1⟩
  | 11 => ⟨S_, .i32⟩
  | 12 => ⟨S12800000, .i32⟩
  | 13 => ⟨S12800000, .i32⟩
  | 14 => ⟨S12800000, .i32⟩
  | 15 => ⟨S12800000x1, .i32⟩
  | 16 => ⟨S12800000x3, .f32⟩
  | 17 => ⟨S_, .f32⟩
  | 18 => ⟨S200000x3, .f32⟩
  | 19 => ⟨S12800000x1, .i32⟩
  | 20 => ⟨S200000x3, .f32⟩
  | 21 => ⟨S_, .f32⟩
  | 22 => ⟨S12800000, .f32⟩
  | 23 => ⟨S_, .f32⟩
  | 24 => ⟨S200000, .f32⟩
  | 25 => ⟨S12800000x1, .i32⟩
  | 26 => ⟨S200000, .f32⟩
  | 27 => ⟨S_, .f32⟩
  | 28 => ⟨S200000, .f32⟩
  | 29 => ⟨S200000, .f32⟩
  | 30 => ⟨S200000x1, .f32⟩
  | 31 => ⟨S200000x3, .f32⟩
  | 32 => ⟨S200000x3, .f32⟩
  | 33 => ⟨S200000x6, .f32⟩
  | 34 => ⟨S200000x3, .f32⟩
  | 35 => ⟨S1x3, .f32⟩
  | 36 => ⟨S200000x3, .f32⟩
  | 37 => ⟨S200000x3, .f32⟩
  | 38 => ⟨S_, .f32⟩
  | 39 => ⟨S200000x3, .f32⟩
  | 40 => ⟨S200000x3, .f32⟩
  | 41 => ⟨S_, .i32⟩
  | 42 => ⟨S12800000, .i32⟩
  | 43 => ⟨S12800000, .i1⟩
  | 44 => ⟨S_, .i32⟩
  | 45 => ⟨S12800000, .i32⟩
  | 46 => ⟨S12800000, .i32⟩
  | 47 => ⟨S12800000, .i32⟩
  | 48 => ⟨S12800000x1, .i32⟩
  | 49 => ⟨S12800000x3, .f32⟩
  | 50 => ⟨S_, .f32⟩
  | 51 => ⟨S200000x3, .f32⟩
  | 52 => ⟨S12800000x1, .i32⟩
  | 53 => ⟨S200000x3, .f32⟩
  | 54 => ⟨S_, .f32⟩
  | 55 => ⟨S12800000, .f32⟩
  | 56 => ⟨S_, .f32⟩
  | 57 => ⟨S200000, .f32⟩
  | 58 => ⟨S12800000x1, .i32⟩
  | 59 => ⟨S200000, .f32⟩
  | 60 => ⟨S_, .f32⟩
  | 61 => ⟨S200000, .f32⟩
  | 62 => ⟨S200000, .f32⟩
  | 63 => ⟨S200000x1, .f32⟩
  | 64 => ⟨S200000x3, .f32⟩
  | 65 => ⟨S200000x3, .f32⟩
  | 66 => ⟨S200000x6, .f32⟩
  | 67 => ⟨S200000x3, .f32⟩
  | 68 => ⟨S1x3, .f32⟩
  | 69 => ⟨S200000x3, .f32⟩
  | 70 => ⟨S200000x3, .f32⟩
  | 71 => ⟨S_, .f32⟩
  | 72 => ⟨S200000x3, .f32⟩
  | 73 => ⟨S200000x3, .f32⟩
  | 74 => ⟨S_, .i32⟩
  | 75 => ⟨S12800000, .i32⟩
  | 76 => ⟨S12800000, .i1⟩
  | 77 => ⟨S_, .i32⟩
  | 78 => ⟨S12800000, .i32⟩
  | 79 => ⟨S12800000, .i32⟩
  | 80 => ⟨S12800000, .i32⟩
  | 81 => ⟨S12800000x1, .i32⟩
  | 82 => ⟨S12800000x3, .f32⟩
  | 83 => ⟨S_, .f32⟩
  | 84 => ⟨S200000x3, .f32⟩
  | 85 => ⟨S12800000x1, .i32⟩
  | 86 => ⟨S200000x3, .f32⟩
  | 87 => ⟨S_, .f32⟩
  | 88 => ⟨S12800000, .f32⟩
  | 89 => ⟨S_, .f32⟩
  | 90 => ⟨S200000, .f32⟩
  | 91 => ⟨S12800000x1, .i32⟩
  | 92 => ⟨S200000, .f32⟩
  | 93 => ⟨S_, .f32⟩
  | 94 => ⟨S200000, .f32⟩
  | 95 => ⟨S200000, .f32⟩
  | 96 => ⟨S200000x1, .f32⟩
  | 97 => ⟨S200000x3, .f32⟩
  | 98 => ⟨S200000x3, .f32⟩
  | 99 => ⟨S200000x6, .f32⟩
  | 100 => ⟨S200000x3, .f32⟩
  | 101 => ⟨S1x3, .f32⟩
  | 102 => ⟨S200000x3, .f32⟩
  | 103 => ⟨S200000x3, .f32⟩
  | 104 => ⟨S_, .f32⟩
  | 105 => ⟨S200000x3, .f32⟩
  | 106 => ⟨S200000x3, .f32⟩
  | 107 => ⟨S_, .i32⟩
  | 108 => ⟨S12800000, .i32⟩
  | 109 => ⟨S12800000, .i1⟩
  | 110 => ⟨S_, .i32⟩
  | 111 => ⟨S12800000, .i32⟩
  | 112 => ⟨S12800000, .i32⟩
  | 113 => ⟨S12800000, .i32⟩
  | 114 => ⟨S12800000x1, .i32⟩
  | 115 => ⟨S12800000x3, .f32⟩
  | 116 => ⟨S_, .f32⟩
  | 117 => ⟨S200000x3, .f32⟩
  | 118 => ⟨S12800000x1, .i32⟩
  | 119 => ⟨S200000x3, .f32⟩
  | 120 => ⟨S_, .f32⟩
  | 121 => ⟨S12800000, .f32⟩
  | 122 => ⟨S_, .f32⟩
  | 123 => ⟨S200000, .f32⟩
  | 124 => ⟨S12800000x1, .i32⟩
  | 125 => ⟨S200000, .f32⟩
  | 126 => ⟨S_, .f32⟩
  | 127 => ⟨S200000, .f32⟩
  | _ => ⟨S200000x3, .f32⟩

abbrev hbmTy0_1 (i : Nat) : BufTy := match i % 128 with
  | 0 => ⟨S200000, .f32⟩
  | 1 => ⟨S200000x1, .f32⟩
  | 2 => ⟨S200000x3, .f32⟩
  | 3 => ⟨S200000x3, .f32⟩
  | 4 => ⟨S200000x6, .f32⟩
  | 5 => ⟨S200000x3, .f32⟩
  | 6 => ⟨S1x3, .f32⟩
  | 7 => ⟨S200000x3, .f32⟩
  | 8 => ⟨S200000x3, .f32⟩
  | 9 => ⟨S_, .f32⟩
  | 10 => ⟨S200000x3, .f32⟩
  | 11 => ⟨S200000x3, .f32⟩
  | 12 => ⟨S_, .i32⟩
  | 13 => ⟨S12800000, .i32⟩
  | 14 => ⟨S12800000, .i1⟩
  | 15 => ⟨S_, .i32⟩
  | 16 => ⟨S12800000, .i32⟩
  | 17 => ⟨S12800000, .i32⟩
  | 18 => ⟨S12800000, .i32⟩
  | 19 => ⟨S12800000x1, .i32⟩
  | 20 => ⟨S12800000x3, .f32⟩
  | 21 => ⟨S_, .f32⟩
  | 22 => ⟨S200000x3, .f32⟩
  | 23 => ⟨S12800000x1, .i32⟩
  | 24 => ⟨S200000x3, .f32⟩
  | 25 => ⟨S_, .f32⟩
  | 26 => ⟨S12800000, .f32⟩
  | 27 => ⟨S_, .f32⟩
  | 28 => ⟨S200000, .f32⟩
  | 29 => ⟨S12800000x1, .i32⟩
  | 30 => ⟨S200000, .f32⟩
  | 31 => ⟨S_, .f32⟩
  | 32 => ⟨S200000, .f32⟩
  | 33 => ⟨S200000, .f32⟩
  | 34 => ⟨S200000x1, .f32⟩
  | 35 => ⟨S200000x3, .f32⟩
  | 36 => ⟨S200000x3, .f32⟩
  | 37 => ⟨S200000x6, .f32⟩
  | 38 => ⟨S200000x3, .f32⟩
  | 39 => ⟨S1x3, .f32⟩
  | 40 => ⟨S200000x3, .f32⟩
  | 41 => ⟨S200000x3, .f32⟩
  | 42 => ⟨S_, .f32⟩
  | 43 => ⟨S200000x3, .f32⟩
  | 44 => ⟨S200000x3, .f32⟩
  | 45 => ⟨S_, .i32⟩
  | 46 => ⟨S12800000, .i32⟩
  | 47 => ⟨S12800000, .i1⟩
  | 48 => ⟨S_, .i32⟩
  | 49 => ⟨S12800000, .i32⟩
  | 50 => ⟨S12800000, .i32⟩
  | 51 => ⟨S12800000, .i32⟩
  | 52 => ⟨S12800000x1, .i32⟩
  | 53 => ⟨S12800000x3, .f32⟩
  | 54 => ⟨S_, .f32⟩
  | 55 => ⟨S200000x3, .f32⟩
  | 56 => ⟨S12800000x1, .i32⟩
  | 57 => ⟨S200000x3, .f32⟩
  | 58 => ⟨S_, .f32⟩
  | 59 => ⟨S12800000, .f32⟩
  | 60 => ⟨S_, .f32⟩
  | 61 => ⟨S200000, .f32⟩
  | 62 => ⟨S12800000x1, .i32⟩
  | 63 => ⟨S200000, .f32⟩
  | 64 => ⟨S_, .f32⟩
  | 65 => ⟨S200000, .f32⟩
  | 66 => ⟨S200000, .f32⟩
  | 67 => ⟨S200000x1, .f32⟩
  | 68 => ⟨S200000x3, .f32⟩
  | 69 => ⟨S200000x3, .f32⟩
  | 70 => ⟨S200000x6, .f32⟩
  | 71 => ⟨S200000x3, .f32⟩
  | 72 => ⟨S1x3, .f32⟩
  | 73 => ⟨S200000x3, .f32⟩
  | 74 => ⟨S200000x3, .f32⟩
  | 75 => ⟨S_, .f32⟩
  | 76 => ⟨S200000x3, .f32⟩
  | 77 => ⟨S200000x3, .f32⟩
  | 78 => ⟨S_, .i32⟩
  | 79 => ⟨S12800000, .i32⟩
  | 80 => ⟨S12800000, .i1⟩
  | 81 => ⟨S_, .i32⟩
  | 82 => ⟨S12800000, .i32⟩
  | 83 => ⟨S12800000, .i32⟩
  | 84 => ⟨S12800000, .i32⟩
  | 85 => ⟨S12800000x1, .i32⟩
  | 86 => ⟨S12800000x3, .f32⟩
  | 87 => ⟨S_, .f32⟩
  | 88 => ⟨S200000x3, .f32⟩
  | 89 => ⟨S12800000x1, .i32⟩
  | 90 => ⟨S200000x3, .f32⟩
  | 91 => ⟨S_, .f32⟩
  | 92 => ⟨S12800000, .f32⟩
  | 93 => ⟨S_, .f32⟩
  | 94 => ⟨S200000, .f32⟩
  | 95 => ⟨S12800000x1, .i32⟩
  | 96 => ⟨S200000, .f32⟩
  | 97 => ⟨S_, .f32⟩
  | 98 => ⟨S200000, .f32⟩
  | 99 => ⟨S200000, .f32⟩
  | 100 => ⟨S200000x1, .f32⟩
  | 101 => ⟨S200000x3, .f32⟩
  | 102 => ⟨S200000x3, .f32⟩
  | 103 => ⟨S200000x6, .f32⟩
  | 104 => ⟨S200000x3, .f32⟩
  | 105 => ⟨S1x3, .f32⟩
  | 106 => ⟨S200000x3, .f32⟩
  | 107 => ⟨S200000x3, .f32⟩
  | 108 => ⟨S_, .f32⟩
  | 109 => ⟨S200000x3, .f32⟩
  | 110 => ⟨S200000x3, .f32⟩
  | 111 => ⟨S_, .i32⟩
  | 112 => ⟨S12800000, .i32⟩
  | 113 => ⟨S12800000, .i1⟩
  | 114 => ⟨S_, .i32⟩
  | 115 => ⟨S12800000, .i32⟩
  | 116 => ⟨S12800000, .i32⟩
  | 117 => ⟨S12800000, .i32⟩
  | 118 => ⟨S12800000x1, .i32⟩
  | 119 => ⟨S12800000x3, .f32⟩
  | 120 => ⟨S_, .f32⟩
  | 121 => ⟨S200000x3, .f32⟩
  | 122 => ⟨S12800000x1, .i32⟩
  | 123 => ⟨S200000x3, .f32⟩
  | 124 => ⟨S_, .f32⟩
  | 125 => ⟨S12800000, .f32⟩
  | 126 => ⟨S_, .f32⟩
  | 127 => ⟨S200000, .f32⟩
  | _ => ⟨S200000x3, .f32⟩

abbrev hbmTy0_2 (i : Nat) : BufTy := match i % 128 with
  | 0 => ⟨S12800000x1, .i32⟩
  | 1 => ⟨S200000, .f32⟩
  | 2 => ⟨S_, .f32⟩
  | 3 => ⟨S200000, .f32⟩
  | 4 => ⟨S200000, .f32⟩
  | 5 => ⟨S200000x1, .f32⟩
  | 6 => ⟨S200000x3, .f32⟩
  | 7 => ⟨S200000x3, .f32⟩
  | 8 => ⟨S200000x6, .f32⟩
  | 9 => ⟨S200000x3, .f32⟩
  | 10 => ⟨S1x3, .f32⟩
  | 11 => ⟨S200000x3, .f32⟩
  | 12 => ⟨S200000x3, .f32⟩
  | 13 => ⟨S_, .f32⟩
  | 14 => ⟨S200000x3, .f32⟩
  | 15 => ⟨S200000x3, .f32⟩
  | 16 => ⟨S_, .i32⟩
  | 17 => ⟨S12800000, .i32⟩
  | 18 => ⟨S12800000, .i1⟩
  | 19 => ⟨S_, .i32⟩
  | 20 => ⟨S12800000, .i32⟩
  | 21 => ⟨S12800000, .i32⟩
  | 22 => ⟨S12800000, .i32⟩
  | 23 => ⟨S12800000x1, .i32⟩
  | 24 => ⟨S12800000x3, .f32⟩
  | 25 => ⟨S_, .f32⟩
  | 26 => ⟨S200000x3, .f32⟩
  | 27 => ⟨S12800000x1, .i32⟩
  | 28 => ⟨S200000x3, .f32⟩
  | 29 => ⟨S_, .f32⟩
  | 30 => ⟨S12800000, .f32⟩
  | 31 => ⟨S_, .f32⟩
  | 32 => ⟨S200000, .f32⟩
  | 33 => ⟨S12800000x1, .i32⟩
  | 34 => ⟨S200000, .f32⟩
  | 35 => ⟨S_, .f32⟩
  | 36 => ⟨S200000, .f32⟩
  | 37 => ⟨S200000, .f32⟩
  | 38 => ⟨S200000x1, .f32⟩
  | 39 => ⟨S200000x3, .f32⟩
  | 40 => ⟨S200000x3, .f32⟩
  | 41 => ⟨S200000x6, .f32⟩
  | 42 => ⟨S200000x3, .f32⟩
  | 43 => ⟨S1x3, .f32⟩
  | 44 => ⟨S200000x3, .f32⟩
  | 45 => ⟨S200000x3, .f32⟩
  | 46 => ⟨S_, .f32⟩
  | 47 => ⟨S200000x3, .f32⟩
  | 48 => ⟨S200000x3, .f32⟩
  | 49 => ⟨S_, .i32⟩
  | 50 => ⟨S12800000, .i32⟩
  | 51 => ⟨S12800000, .i1⟩
  | 52 => ⟨S_, .i32⟩
  | 53 => ⟨S12800000, .i32⟩
  | 54 => ⟨S12800000, .i32⟩
  | 55 => ⟨S12800000, .i32⟩
  | 56 => ⟨S12800000x1, .i32⟩
  | 57 => ⟨S12800000x3, .f32⟩
  | 58 => ⟨S_, .f32⟩
  | 59 => ⟨S200000x3, .f32⟩
  | 60 => ⟨S12800000x1, .i32⟩
  | 61 => ⟨S200000x3, .f32⟩
  | 62 => ⟨S_, .f32⟩
  | 63 => ⟨S12800000, .f32⟩
  | 64 => ⟨S_, .f32⟩
  | 65 => ⟨S200000, .f32⟩
  | 66 => ⟨S12800000x1, .i32⟩
  | 67 => ⟨S200000, .f32⟩
  | 68 => ⟨S_, .f32⟩
  | 69 => ⟨S200000, .f32⟩
  | 70 => ⟨S200000, .f32⟩
  | 71 => ⟨S200000x1, .f32⟩
  | 72 => ⟨S200000x3, .f32⟩
  | 73 => ⟨S200000x3, .f32⟩
  | 74 => ⟨S200000x6, .f32⟩
  | 75 => ⟨S200000x3, .f32⟩
  | 76 => ⟨S1x3, .f32⟩
  | 77 => ⟨S200000x3, .f32⟩
  | 78 => ⟨S200000x3, .f32⟩
  | 79 => ⟨S_, .f32⟩
  | 80 => ⟨S200000x3, .f32⟩
  | 81 => ⟨S200000x3, .f32⟩
  | 82 => ⟨S_, .i32⟩
  | 83 => ⟨S12800000, .i32⟩
  | 84 => ⟨S12800000, .i1⟩
  | 85 => ⟨S_, .i32⟩
  | 86 => ⟨S12800000, .i32⟩
  | 87 => ⟨S12800000, .i32⟩
  | 88 => ⟨S12800000, .i32⟩
  | 89 => ⟨S12800000x1, .i32⟩
  | 90 => ⟨S12800000x3, .f32⟩
  | 91 => ⟨S_, .f32⟩
  | 92 => ⟨S200000x3, .f32⟩
  | 93 => ⟨S12800000x1, .i32⟩
  | 94 => ⟨S200000x3, .f32⟩
  | 95 => ⟨S_, .f32⟩
  | 96 => ⟨S12800000, .f32⟩
  | 97 => ⟨S_, .f32⟩
  | 98 => ⟨S200000, .f32⟩
  | 99 => ⟨S12800000x1, .i32⟩
  | 100 => ⟨S200000, .f32⟩
  | 101 => ⟨S_, .f32⟩
  | 102 => ⟨S200000, .f32⟩
  | 103 => ⟨S200000, .f32⟩
  | 104 => ⟨S200000x1, .f32⟩
  | 105 => ⟨S200000x3, .f32⟩
  | 106 => ⟨S200000x3, .f32⟩
  | 107 => ⟨S200000x6, .f32⟩
  | 108 => ⟨S200000x3, .f32⟩
  | 109 => ⟨S1x3, .f32⟩
  | 110 => ⟨S200000x3, .f32⟩
  | 111 => ⟨S200000x3, .f32⟩
  | 112 => ⟨S_, .f32⟩
  | 113 => ⟨S200000x3, .f32⟩
  | 114 => ⟨S200000x3, .f32⟩
  | 115 => ⟨S_, .i32⟩
  | 116 => ⟨S12800000, .i32⟩
  | 117 => ⟨S12800000, .i1⟩
  | 118 => ⟨S_, .i32⟩
  | 119 => ⟨S12800000, .i32⟩
  | 120 => ⟨S12800000, .i32⟩
  | 121 => ⟨S12800000, .i32⟩
  | 122 => ⟨S12800000x1, .i32⟩
  | 123 => ⟨S12800000x3, .f32⟩
  | 124 => ⟨S_, .f32⟩
  | 125 => ⟨S200000x3, .f32⟩
  | 126 => ⟨S12800000x1, .i32⟩
  | 127 => ⟨S200000x3, .f32⟩
  | _ => ⟨S200000x3, .f32⟩

abbrev hbmTy0_3 (i : Nat) : BufTy := match i % 128 with
  | 0 => ⟨S_, .f32⟩
  | 1 => ⟨S12800000, .f32⟩
  | 2 => ⟨S_, .f32⟩
  | 3 => ⟨S200000, .f32⟩
  | 4 => ⟨S12800000x1, .i32⟩
  | 5 => ⟨S200000, .f32⟩
  | 6 => ⟨S_, .f32⟩
  | 7 => ⟨S200000, .f32⟩
  | 8 => ⟨S200000, .f32⟩
  | 9 => ⟨S200000x1, .f32⟩
  | 10 => ⟨S200000x3, .f32⟩
  | 11 => ⟨S200000x3, .f32⟩
  | 12 => ⟨S200000x6, .f32⟩
  | 13 => ⟨S200000x3, .f32⟩
  | 14 => ⟨S1x3, .f32⟩
  | 15 => ⟨S200000x3, .f32⟩
  | 16 => ⟨S200000x3, .f32⟩
  | 17 => ⟨S_, .f32⟩
  | 18 => ⟨S200000x3, .f32⟩
  | 19 => ⟨S200000x3, .f32⟩
  | 20 => ⟨S_, .i32⟩
  | 21 => ⟨S12800000, .i32⟩
  | 22 => ⟨S12800000, .i1⟩
  | 23 => ⟨S_, .i32⟩
  | 24 => ⟨S12800000, .i32⟩
  | 25 => ⟨S12800000, .i32⟩
  | 26 => ⟨S12800000, .i32⟩
  | 27 => ⟨S12800000x1, .i32⟩
  | 28 => ⟨S12800000x3, .f32⟩
  | 29 => ⟨S_, .f32⟩
  | 30 => ⟨S200000x3, .f32⟩
  | 31 => ⟨S12800000x1, .i32⟩
  | 32 => ⟨S200000x3, .f32⟩
  | 33 => ⟨S_, .f32⟩
  | 34 => ⟨S12800000, .f32⟩
  | 35 => ⟨S_, .f32⟩
  | 36 => ⟨S200000, .f32⟩
  | 37 => ⟨S12800000x1, .i32⟩
  | 38 => ⟨S200000, .f32⟩
  | 39 => ⟨S_, .f32⟩
  | 40 => ⟨S200000, .f32⟩
  | 41 => ⟨S200000, .f32⟩
  | 42 => ⟨S200000x1, .f32⟩
  | 43 => ⟨S200000x3, .f32⟩
  | 44 => ⟨S200000x3, .f32⟩
  | 45 => ⟨S200000x6, .f32⟩
  | 46 => ⟨S200000x3, .f32⟩
  | 47 => ⟨S1x3, .f32⟩
  | 48 => ⟨S200000x3, .f32⟩
  | 49 => ⟨S200000x3, .f32⟩
  | 50 => ⟨S_, .f32⟩
  | 51 => ⟨S200000x3, .f32⟩
  | 52 => ⟨S200000x3, .f32⟩
  | 53 => ⟨S_, .i32⟩
  | 54 => ⟨S12800000, .i32⟩
  | 55 => ⟨S12800000, .i1⟩
  | 56 => ⟨S_, .i32⟩
  | 57 => ⟨S12800000, .i32⟩
  | 58 => ⟨S12800000, .i32⟩
  | 59 => ⟨S12800000, .i32⟩
  | 60 => ⟨S12800000x1, .i32⟩
  | 61 => ⟨S12800000x3, .f32⟩
  | 62 => ⟨S_, .f32⟩
  | 63 => ⟨S200000x3, .f32⟩
  | 64 => ⟨S12800000x1, .i32⟩
  | 65 => ⟨S200000x3, .f32⟩
  | 66 => ⟨S_, .f32⟩
  | 67 => ⟨S12800000, .f32⟩
  | 68 => ⟨S_, .f32⟩
  | 69 => ⟨S200000, .f32⟩
  | 70 => ⟨S12800000x1, .i32⟩
  | 71 => ⟨S200000, .f32⟩
  | 72 => ⟨S_, .f32⟩
  | 73 => ⟨S200000, .f32⟩
  | 74 => ⟨S200000, .f32⟩
  | 75 => ⟨S200000x1, .f32⟩
  | 76 => ⟨S200000x3, .f32⟩
  | 77 => ⟨S200000x3, .f32⟩
  | 78 => ⟨S200000x6, .f32⟩
  | 79 => ⟨S200000x3, .f32⟩
  | 80 => ⟨S1x3, .f32⟩
  | 81 => ⟨S200000x3, .f32⟩
  | 82 => ⟨S200000x3, .f32⟩
  | 83 => ⟨S_, .f32⟩
  | 84 => ⟨S200000x3, .f32⟩
  | 85 => ⟨S200000x3, .f32⟩
  | 86 => ⟨S_, .i32⟩
  | 87 => ⟨S12800000, .i32⟩
  | 88 => ⟨S12800000, .i1⟩
  | 89 => ⟨S_, .i32⟩
  | 90 => ⟨S12800000, .i32⟩
  | 91 => ⟨S12800000, .i32⟩
  | 92 => ⟨S12800000, .i32⟩
  | 93 => ⟨S12800000x1, .i32⟩
  | 94 => ⟨S12800000x3, .f32⟩
  | 95 => ⟨S_, .f32⟩
  | 96 => ⟨S200000x3, .f32⟩
  | 97 => ⟨S12800000x1, .i32⟩
  | 98 => ⟨S200000x3, .f32⟩
  | 99 => ⟨S_, .f32⟩
  | 100 => ⟨S12800000, .f32⟩
  | 101 => ⟨S_, .f32⟩
  | 102 => ⟨S200000, .f32⟩
  | 103 => ⟨S12800000x1, .i32⟩
  | 104 => ⟨S200000, .f32⟩
  | 105 => ⟨S_, .f32⟩
  | 106 => ⟨S200000, .f32⟩
  | 107 => ⟨S200000, .f32⟩
  | 108 => ⟨S200000x1, .f32⟩
  | 109 => ⟨S200000x3, .f32⟩
  | 110 => ⟨S200000x3, .f32⟩
  | 111 => ⟨S200000x6, .f32⟩
  | 112 => ⟨S200000x3, .f32⟩
  | 113 => ⟨S1x3, .f32⟩
  | 114 => ⟨S200000x3, .f32⟩
  | 115 => ⟨S200000x3, .f32⟩
  | 116 => ⟨S_, .f32⟩
  | 117 => ⟨S200000x3, .f32⟩
  | 118 => ⟨S200000x3, .f32⟩
  | _ => ⟨S200000x3, .f32⟩

abbrev hbmTy (i : Nat) : BufTy := match i / 128 with
  | 0 => hbmTy0_0 i
  | 1 => hbmTy0_1 i
  | 2 => hbmTy0_2 i
  | 3 => hbmTy0_3 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call1_cst : Ref sig .tc := ⟨.hbm, 71, rfl⟩
abbrev main_call1_v0 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call2_cst : Ref sig .tc := ⟨.hbm, 104, rfl⟩
abbrev main_call2_v0 : Ref sig .tc := ⟨.hbm, 105, rfl⟩
abbrev main_v78 : Ref sig .tc := ⟨.hbm, 106, rfl⟩
abbrev main_c_16 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_cst_20 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_21 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_call3_cst : Ref sig .tc := ⟨.hbm, 137, rfl⟩
abbrev main_call3_v0 : Ref sig .tc := ⟨.hbm, 138, rfl⟩
abbrev main_v103 : Ref sig .tc := ⟨.hbm, 139, rfl⟩
abbrev main_c_22 : Ref sig .tc := ⟨.hbm, 140, rfl⟩
abbrev main_v104 : Ref sig .tc := ⟨.hbm, 141, rfl⟩
abbrev main_v105 : Ref sig .tc := ⟨.hbm, 142, rfl⟩
abbrev main_c_23 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_25 : Ref sig .tc := ⟨.hbm, 153, rfl⟩
abbrev main_v114 : Ref sig .tc := ⟨.hbm, 154, rfl⟩
abbrev main_cst_26 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_27 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_call4_cst : Ref sig .tc := ⟨.hbm, 170, rfl⟩
abbrev main_call4_v0 : Ref sig .tc := ⟨.hbm, 171, rfl⟩
abbrev main_v128 : Ref sig .tc := ⟨.hbm, 172, rfl⟩
abbrev main_c_28 : Ref sig .tc := ⟨.hbm, 173, rfl⟩
abbrev main_v129 : Ref sig .tc := ⟨.hbm, 174, rfl⟩
abbrev main_v130 : Ref sig .tc := ⟨.hbm, 175, rfl⟩
abbrev main_c_29 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_30 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_31 : Ref sig .tc := ⟨.hbm, 186, rfl⟩
abbrev main_v139 : Ref sig .tc := ⟨.hbm, 187, rfl⟩
abbrev main_cst_32 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_33 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_call5_cst : Ref sig .tc := ⟨.hbm, 203, rfl⟩
abbrev main_call5_v0 : Ref sig .tc := ⟨.hbm, 204, rfl⟩
abbrev main_v153 : Ref sig .tc := ⟨.hbm, 205, rfl⟩
abbrev main_c_34 : Ref sig .tc := ⟨.hbm, 206, rfl⟩
abbrev main_v154 : Ref sig .tc := ⟨.hbm, 207, rfl⟩
abbrev main_v155 : Ref sig .tc := ⟨.hbm, 208, rfl⟩
abbrev main_c_35 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_36 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_37 : Ref sig .tc := ⟨.hbm, 219, rfl⟩
abbrev main_v164 : Ref sig .tc := ⟨.hbm, 220, rfl⟩
abbrev main_cst_38 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_39 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_call6_cst : Ref sig .tc := ⟨.hbm, 236, rfl⟩
abbrev main_call6_v0 : Ref sig .tc := ⟨.hbm, 237, rfl⟩
abbrev main_v178 : Ref sig .tc := ⟨.hbm, 238, rfl⟩
abbrev main_c_40 : Ref sig .tc := ⟨.hbm, 239, rfl⟩
abbrev main_v179 : Ref sig .tc := ⟨.hbm, 240, rfl⟩
abbrev main_v180 : Ref sig .tc := ⟨.hbm, 241, rfl⟩
abbrev main_c_41 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_cst_42 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst_43 : Ref sig .tc := ⟨.hbm, 252, rfl⟩
abbrev main_v189 : Ref sig .tc := ⟨.hbm, 253, rfl⟩
abbrev main_cst_44 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_cst_45 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_call7_cst : Ref sig .tc := ⟨.hbm, 269, rfl⟩
abbrev main_call7_v0 : Ref sig .tc := ⟨.hbm, 270, rfl⟩
abbrev main_v203 : Ref sig .tc := ⟨.hbm, 271, rfl⟩
abbrev main_c_46 : Ref sig .tc := ⟨.hbm, 272, rfl⟩
abbrev main_v204 : Ref sig .tc := ⟨.hbm, 273, rfl⟩
abbrev main_v205 : Ref sig .tc := ⟨.hbm, 274, rfl⟩
abbrev main_c_47 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_cst_48 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_cst_49 : Ref sig .tc := ⟨.hbm, 285, rfl⟩
abbrev main_v214 : Ref sig .tc := ⟨.hbm, 286, rfl⟩
abbrev main_cst_50 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_cst_51 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_call8_cst : Ref sig .tc := ⟨.hbm, 302, rfl⟩
abbrev main_call8_v0 : Ref sig .tc := ⟨.hbm, 303, rfl⟩
abbrev main_v228 : Ref sig .tc := ⟨.hbm, 304, rfl⟩
abbrev main_c_52 : Ref sig .tc := ⟨.hbm, 305, rfl⟩
abbrev main_v229 : Ref sig .tc := ⟨.hbm, 306, rfl⟩
abbrev main_v230 : Ref sig .tc := ⟨.hbm, 307, rfl⟩
abbrev main_c_53 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_cst_54 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_cst_55 : Ref sig .tc := ⟨.hbm, 318, rfl⟩
abbrev main_v239 : Ref sig .tc := ⟨.hbm, 319, rfl⟩
abbrev main_cst_56 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_cst_57 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_call9_cst : Ref sig .tc := ⟨.hbm, 335, rfl⟩
abbrev main_call9_v0 : Ref sig .tc := ⟨.hbm, 336, rfl⟩
abbrev main_v253 : Ref sig .tc := ⟨.hbm, 337, rfl⟩
abbrev main_c_58 : Ref sig .tc := ⟨.hbm, 338, rfl⟩
abbrev main_v254 : Ref sig .tc := ⟨.hbm, 339, rfl⟩
abbrev main_v255 : Ref sig .tc := ⟨.hbm, 340, rfl⟩
abbrev main_c_59 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_cst_60 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_cst_61 : Ref sig .tc := ⟨.hbm, 351, rfl⟩
abbrev main_v264 : Ref sig .tc := ⟨.hbm, 352, rfl⟩
abbrev main_cst_62 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_cst_63 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_call10_cst : Ref sig .tc := ⟨.hbm, 368, rfl⟩
abbrev main_call10_v0 : Ref sig .tc := ⟨.hbm, 369, rfl⟩
abbrev main_v278 : Ref sig .tc := ⟨.hbm, 370, rfl⟩
abbrev main_c_64 : Ref sig .tc := ⟨.hbm, 371, rfl⟩
abbrev main_v279 : Ref sig .tc := ⟨.hbm, 372, rfl⟩
abbrev main_v280 : Ref sig .tc := ⟨.hbm, 373, rfl⟩
abbrev main_c_65 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_cst_66 : Ref sig .tc := ⟨.hbm, 380, rfl⟩
abbrev main_v286 : Ref sig .tc := ⟨.hbm, 381, rfl⟩
abbrev main_v287 : Ref sig .tc := ⟨.hbm, 382, rfl⟩
abbrev main_v288 : Ref sig .tc := ⟨.hbm, 383, rfl⟩
abbrev main_cst_67 : Ref sig .tc := ⟨.hbm, 384, rfl⟩
abbrev main_v289 : Ref sig .tc := ⟨.hbm, 385, rfl⟩
abbrev main_cst_68 : Ref sig .tc := ⟨.hbm, 386, rfl⟩
abbrev main_v290 : Ref sig .tc := ⟨.hbm, 387, rfl⟩
abbrev main_v291 : Ref sig .tc := ⟨.hbm, 388, rfl⟩
abbrev main_v292 : Ref sig .tc := ⟨.hbm, 389, rfl⟩
abbrev main_cst_69 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_v296 : Ref sig .tc := ⟨.hbm, 394, rfl⟩
abbrev main_v297 : Ref sig .tc := ⟨.hbm, 395, rfl⟩
abbrev main_v298 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_call11_cst : Ref sig .tc := ⟨.hbm, 401, rfl⟩
abbrev main_call11_v0 : Ref sig .tc := ⟨.hbm, 402, rfl⟩
abbrev main_v303 : Ref sig .tc := ⟨.hbm, 403, rfl⟩
abbrev main_c_70 : Ref sig .tc := ⟨.hbm, 404, rfl⟩
abbrev main_v304 : Ref sig .tc := ⟨.hbm, 405, rfl⟩
abbrev main_v305 : Ref sig .tc := ⟨.hbm, 406, rfl⟩
abbrev main_c_71 : Ref sig .tc := ⟨.hbm, 407, rfl⟩
abbrev main_v306 : Ref sig .tc := ⟨.hbm, 408, rfl⟩
abbrev main_v307 : Ref sig .tc := ⟨.hbm, 409, rfl⟩
abbrev main_v308 : Ref sig .tc := ⟨.hbm, 410, rfl⟩
abbrev main_v309 : Ref sig .tc := ⟨.hbm, 411, rfl⟩
abbrev main_v310 : Ref sig .tc := ⟨.hbm, 412, rfl⟩
abbrev main_cst_72 : Ref sig .tc := ⟨.hbm, 413, rfl⟩
abbrev main_v311 : Ref sig .tc := ⟨.hbm, 414, rfl⟩
abbrev main_v312 : Ref sig .tc := ⟨.hbm, 415, rfl⟩
abbrev main_v313 : Ref sig .tc := ⟨.hbm, 416, rfl⟩
abbrev main_cst_73 : Ref sig .tc := ⟨.hbm, 417, rfl⟩
abbrev main_v314 : Ref sig .tc := ⟨.hbm, 418, rfl⟩
abbrev main_cst_74 : Ref sig .tc := ⟨.hbm, 419, rfl⟩
abbrev main_v315 : Ref sig .tc := ⟨.hbm, 420, rfl⟩
abbrev main_v316 : Ref sig .tc := ⟨.hbm, 421, rfl⟩
abbrev main_v317 : Ref sig .tc := ⟨.hbm, 422, rfl⟩
abbrev main_cst_75 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_v321 : Ref sig .tc := ⟨.hbm, 427, rfl⟩
abbrev main_v322 : Ref sig .tc := ⟨.hbm, 428, rfl⟩
abbrev main_v323 : Ref sig .tc := ⟨.hbm, 429, rfl⟩
abbrev main_v324 : Ref sig .tc := ⟨.hbm, 430, rfl⟩
abbrev main_v325 : Ref sig .tc := ⟨.hbm, 431, rfl⟩
abbrev main_v326 : Ref sig .tc := ⟨.hbm, 432, rfl⟩
abbrev main_v327 : Ref sig .tc := ⟨.hbm, 433, rfl⟩
abbrev main_call12_cst : Ref sig .tc := ⟨.hbm, 434, rfl⟩
abbrev main_call12_v0 : Ref sig .tc := ⟨.hbm, 435, rfl⟩
abbrev main_v328 : Ref sig .tc := ⟨.hbm, 436, rfl⟩
abbrev main_c_76 : Ref sig .tc := ⟨.hbm, 437, rfl⟩
abbrev main_v329 : Ref sig .tc := ⟨.hbm, 438, rfl⟩
abbrev main_v330 : Ref sig .tc := ⟨.hbm, 439, rfl⟩
abbrev main_c_77 : Ref sig .tc := ⟨.hbm, 440, rfl⟩
abbrev main_v331 : Ref sig .tc := ⟨.hbm, 441, rfl⟩
abbrev main_v332 : Ref sig .tc := ⟨.hbm, 442, rfl⟩
abbrev main_v333 : Ref sig .tc := ⟨.hbm, 443, rfl⟩
abbrev main_v334 : Ref sig .tc := ⟨.hbm, 444, rfl⟩
abbrev main_v335 : Ref sig .tc := ⟨.hbm, 445, rfl⟩
abbrev main_cst_78 : Ref sig .tc := ⟨.hbm, 446, rfl⟩
abbrev main_v336 : Ref sig .tc := ⟨.hbm, 447, rfl⟩
abbrev main_v337 : Ref sig .tc := ⟨.hbm, 448, rfl⟩
abbrev main_v338 : Ref sig .tc := ⟨.hbm, 449, rfl⟩
abbrev main_cst_79 : Ref sig .tc := ⟨.hbm, 450, rfl⟩
abbrev main_v339 : Ref sig .tc := ⟨.hbm, 451, rfl⟩
abbrev main_cst_80 : Ref sig .tc := ⟨.hbm, 452, rfl⟩
abbrev main_v340 : Ref sig .tc := ⟨.hbm, 453, rfl⟩
abbrev main_v341 : Ref sig .tc := ⟨.hbm, 454, rfl⟩
abbrev main_v342 : Ref sig .tc := ⟨.hbm, 455, rfl⟩
abbrev main_cst_81 : Ref sig .tc := ⟨.hbm, 456, rfl⟩
abbrev main_v343 : Ref sig .tc := ⟨.hbm, 457, rfl⟩
abbrev main_v344 : Ref sig .tc := ⟨.hbm, 458, rfl⟩
abbrev main_v345 : Ref sig .tc := ⟨.hbm, 459, rfl⟩
abbrev main_v346 : Ref sig .tc := ⟨.hbm, 460, rfl⟩
abbrev main_v347 : Ref sig .tc := ⟨.hbm, 461, rfl⟩
abbrev main_v348 : Ref sig .tc := ⟨.hbm, 462, rfl⟩
abbrev main_v349 : Ref sig .tc := ⟨.hbm, 463, rfl⟩
abbrev main_v350 : Ref sig .tc := ⟨.hbm, 464, rfl⟩
abbrev main_v351 : Ref sig .tc := ⟨.hbm, 465, rfl⟩
abbrev main_v352 : Ref sig .tc := ⟨.hbm, 466, rfl⟩
abbrev main_call13_cst : Ref sig .tc := ⟨.hbm, 467, rfl⟩
abbrev main_call13_v0 : Ref sig .tc := ⟨.hbm, 468, rfl⟩
abbrev main_v353 : Ref sig .tc := ⟨.hbm, 469, rfl⟩
abbrev main_c_82 : Ref sig .tc := ⟨.hbm, 470, rfl⟩
abbrev main_v354 : Ref sig .tc := ⟨.hbm, 471, rfl⟩
abbrev main_v355 : Ref sig .tc := ⟨.hbm, 472, rfl⟩
abbrev main_c_83 : Ref sig .tc := ⟨.hbm, 473, rfl⟩
abbrev main_v356 : Ref sig .tc := ⟨.hbm, 474, rfl⟩
abbrev main_v357 : Ref sig .tc := ⟨.hbm, 475, rfl⟩
abbrev main_v358 : Ref sig .tc := ⟨.hbm, 476, rfl⟩
abbrev main_v359 : Ref sig .tc := ⟨.hbm, 477, rfl⟩
abbrev main_v360 : Ref sig .tc := ⟨.hbm, 478, rfl⟩
abbrev main_cst_84 : Ref sig .tc := ⟨.hbm, 479, rfl⟩
abbrev main_v361 : Ref sig .tc := ⟨.hbm, 480, rfl⟩
abbrev main_v362 : Ref sig .tc := ⟨.hbm, 481, rfl⟩
abbrev main_v363 : Ref sig .tc := ⟨.hbm, 482, rfl⟩
abbrev main_cst_85 : Ref sig .tc := ⟨.hbm, 483, rfl⟩
abbrev main_v364 : Ref sig .tc := ⟨.hbm, 484, rfl⟩
abbrev main_cst_86 : Ref sig .tc := ⟨.hbm, 485, rfl⟩
abbrev main_v365 : Ref sig .tc := ⟨.hbm, 486, rfl⟩
abbrev main_v366 : Ref sig .tc := ⟨.hbm, 487, rfl⟩
abbrev main_v367 : Ref sig .tc := ⟨.hbm, 488, rfl⟩
abbrev main_cst_87 : Ref sig .tc := ⟨.hbm, 489, rfl⟩
abbrev main_v368 : Ref sig .tc := ⟨.hbm, 490, rfl⟩
abbrev main_v369 : Ref sig .tc := ⟨.hbm, 491, rfl⟩
abbrev main_v370 : Ref sig .tc := ⟨.hbm, 492, rfl⟩
abbrev main_v371 : Ref sig .tc := ⟨.hbm, 493, rfl⟩
abbrev main_v372 : Ref sig .tc := ⟨.hbm, 494, rfl⟩
abbrev main_v373 : Ref sig .tc := ⟨.hbm, 495, rfl⟩
abbrev main_v374 : Ref sig .tc := ⟨.hbm, 496, rfl⟩
abbrev main_v375 : Ref sig .tc := ⟨.hbm, 497, rfl⟩
abbrev main_v376 : Ref sig .tc := ⟨.hbm, 498, rfl⟩
abbrev main_v377 : Ref sig .tc := ⟨.hbm, 499, rfl⟩
abbrev main_call14_cst : Ref sig .tc := ⟨.hbm, 500, rfl⟩
abbrev main_call14_v0 : Ref sig .tc := ⟨.hbm, 501, rfl⟩
abbrev main_v378 : Ref sig .tc := ⟨.hbm, 502, rfl⟩

abbrev nD : Nat := 1
abbrev τ : Topo := Topo.v7x

variable {F : FTy → Type} [FloatOps F]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S_S200000x3 : S_.BroadcastsInDim S200000x3 (![] : Fin 0 → Fin S200000x3.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x3_0_1 : S200000x1.BroadcastsInDim S200000x3 (![0, 1] : Fin 2 → Fin S200000x3.rank)
  concatenates_S200000x3_S200000x3_S200000x6_d1 : Shape.Concatenates [S200000x3, S200000x3] S200000x6 1
  bcast_S3_S1x3_1 : S3.BroadcastsInDim S1x3 (![1] : Fin 1 → Fin S1x3.rank)
  bcast_S1x3_S200000x3_0_1 : S1x3.BroadcastsInDim S200000x3 (![0, 1] : Fin 2 → Fin S200000x3.rank)
  gather_S200000x3_S12800000x1_S12800000x3_1_0_n_n_0_1_13_wf : GatherDims.WF S200000x3 S12800000x1 S12800000x3 [1] [0] [] [0] [] 1 ![1, 3]
  scatter_S200000x3_S12800000x1_S12800000x3_1_0_0_1_wf : ScatterDims.WF S200000x3 S12800000x1 S12800000x3 [1] [0] [0] 1
  scatter_S200000_S12800000x1_S12800000_n_0_0_1_wf : ScatterDims.WF S200000 S12800000x1 S12800000 [] [0] [0] 1
  dot_S200000x6_S6x3_S200000x3_1_0_0_1_n_n_wf : DotDims.WF S200000x6 S6x3 S200000x3 [1] [0] [0] [1] [] []

variable [Facts₀]

def gather_S200000x3_S12800000x1_S12800000x3_1_0_n_n_0_1_13 : GatherDims S200000x3 S12800000x1 S12800000x3 where
  offsetDims := [1]
  collapsedSliceDims := [0]
  operandBatchingDims := []
  startIndicesBatchingDims := []
  startIndexMap := [0]
  indexVectorDim := 1
  sliceSizes := ![1, 3]
  wf := gather_S200000x3_S12800000x1_S12800000x3_1_0_n_n_0_1_13_wf
def scatter_S200000x3_S12800000x1_S12800000x3_1_0_0_1 : ScatterDims S200000x3 S12800000x1 S12800000x3 where
  updateWindowDims := [1]
  insertedWindowDims := [0]
  scatterDimsToOperandDims := [0]
  indexVectorDim := 1
  wf := scatter_S200000x3_S12800000x1_S12800000x3_1_0_0_1_wf
def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf
def dot_S200000x6_S6x3_S200000x3_1_0_0_1_n_n : DotDims S200000x6 S6x3 S200000x3 where
  lhsContracting := [1]
  rhsContracting := [0]
  lhsNonContracting := [0]
  rhsNonContracting := [1]
  lhsBatch := []
  rhsBatch := []
  wf := dot_S200000x6_S6x3_S200000x3_1_0_0_1_n_n_wf

class Facts : Prop extends Facts₀ where

variable [Facts]
-- ==== Proof.KRun.lean ====
/-
  The kernel program's run with its result NAMED. Every weakly fair execution of the program — fifteen launches of
  the layer kernel among stretches of host operations — terminates without a fault, leaves the four argument arrays as
  launched, and leaves in the result buffer what the fold of the segments' effects over the launch memory leaves there
  (`Gen.W78`: a stretch of host operations applies its operations in order; a launch replaces each of its arrays by
  what its grid points' write-backs leave). The frame certificate states the same run and keeps only the arguments;
  here the result buffer is kept as well. At any float instance.
-/
import proofs.«147323_j54408645706323_1_alg».proof.Proof.Gen.KernelIdeal.Frame

set_option maxRecDepth 16384

noncomputable section

namespace Cert.KernelIdeal.Named

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the segments' fold of the launch memory, the arguments as launched. -/
theorem run : θ_run defs (onTc (τ := τ) (main (F := F))) ⟨m, fun _ => 0, ρ⟩ (fun r => ∀ c : Dev nD,
      r.2.mem ((c.tc : Thread nD τ).loc main_v272) = W78 m ρ c (Proc.devRef .tc main_v272)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W78 m ρ c b)
    (hfin := fun c s' => by
      iintro ⟨⟨Hh, -⟩, HSI⟩
      unfold StableHlo.held
      imodintro
      iapply (pointsTo_read_all (Pipeline.ucRefs τ sig) (fun b => (((c : Thread nD τ)).1, b)) (W78 m ρ c) s')
      isplitl [Hh] <;> iassumption)
    (hQ := fun s h c =>
      ⟨h c _ (mem_uc main_v272 (by decide)),
       (h c _ (mem_uc main_arg0 (by decide))).trans (W78_main_arg0 m ρ c),
       (h c _ (mem_uc main_arg1 (by decide))).trans (W78_main_arg1 m ρ c),
       (h c _ (mem_uc main_arg2 (by decide))).trans (W78_main_arg2 m ρ c),
       (h c _ (mem_uc main_arg3 (by decide))).trans (W78_main_arg3 m ρ c)⟩)

end Cert.KernelIdeal.Named

end
-- ==== Proof.KLayer.lean ====
/-
  One layer of the kernel program as a function of whole arrays, at the extended reals.

  A layer takes the node features `x` ([N,3]), gathers the rows `x[src]` along the edges, adds them up at the edges'
  targets (`agg`, [N,3]), lays `x` and `agg` feature-major ([3,N], padded with 4800 more columns), and computes, column
  by column `n` and for each output feature `j`,
      max ( Σ_k wx(j,k)·x(k,n)  +  Σ_k wm(j,k)·(agg(k,n)·inv(0,n))  +  bc(j,0) , 0 ),
  the function `cols` below; the first 200000 columns, laid node-major again, are the next features.
  The edge lists `v1` (sources) and `v3` (targets) are 32-bit integer vectors; a negative source wraps by N.
  Before the first layer the program computes, once: `inv = 1 / max(deg, 1)` (one row, padded), `wx`, `wm` (the two
  3x3 halves of the transposed weight matrix) and `bc` (the bias as a column).
-/
import proofs.«147323_j54408645706323_1_alg».proof.KernelIdeal
import proofs.«147323_j54408645706323_1_alg».proof.Proof.Gen.KernelIdeal
import Idealize.ShloMosaic.PureOps.Ideal
import Idealize.ShloMosaic.Lib.ValueIdx

noncomputable section

namespace Cert.Sage.K

open Idealize.ShloMosaic Idealize.ShloMosaic.ValueIdx Cert.KernelIdeal Cert.KernelIdeal.Facts₀
open scoped BigOperators

/-- A 32-bit integer vector with one entry per edge. -/
abbrev EdgeVec : Type := (⟨S12800000, .i32⟩ : BufTy).Contents (Elt Ideal)

/-- The edges' sources: row 0 of the [2, E] edge list. -/
def src (e : (⟨S2x12800000, .i32⟩ : BufTy).Contents (Elt Ideal)) : EdgeVec :=
  shapeCast S12800000 (extractStridedSlice S1x12800000 ![0, 0] e slices_S2x12800000_S1x12800000_0_0)
    shapeCasts_S1x12800000_S12800000

/-- The edges' targets: row 1 of the [2, E] edge list. -/
def dst (e : (⟨S2x12800000, .i32⟩ : BufTy).Contents (Elt Ideal)) : EdgeVec :=
  shapeCast S12800000 (extractStridedSlice S1x12800000 ![1, 0] e slices_S2x12800000_S1x12800000_1_0)
    shapeCasts_S1x12800000_S12800000

/-- The sources as a column of start indices, a negative one wrapped by the number of nodes. -/
def srcIdx (v1 : EdgeVec) : (⟨S12800000x1, .i32⟩ : BufTy).Contents (Elt Ideal) :=
  broadcastInDim S12800000x1 ![0] bcast_S12800000_S12800000x1_0
    (select (cmpi .slt v1 (broadcastInDim S12800000 ![] bcast_S_S12800000 (constantI S_ 32 0#32)))
      (addi v1 (broadcastInDim S12800000 ![] bcast_S_S12800000 (constantI S_ 32 200000#32))) v1)

/-- The sum, at every node, of the features of the sources of the edges that point at it. -/
def agg (x : FVec Ideal S200000x3 .f32) (v1 v3 : EdgeVec) : FVec Ideal S200000x3 .f32 :=
  Host.scatterAdd (F := Ideal) scatter_S200000x3_S12800000x1_S12800000x3_1_0_0_1
    (broadcastInDim S200000x3 ![] bcast_S_S200000x3 (constant (F := Ideal) S_ .f32 0x00000000#32))
    (broadcastInDim S12800000x1 ![0] bcast_S12800000_S12800000x1_0 v3)
    (Host.gather gather_S200000x3_S12800000x1_S12800000x3_1_0_n_n_0_1_13 x (srcIdx v1))

/-- The number of edges that point at each node. -/
def deg (v3 : EdgeVec) : FVec Ideal S200000 .f32 :=
  Host.scatterAdd (F := Ideal) scatter_S200000_S12800000x1_S12800000_n_0_0_1
    (broadcastInDim S200000 ![] bcast_S_S200000 (constant (F := Ideal) S_ .f32 0x00000000#32))
    (broadcastInDim S12800000x1 ![0] bcast_S12800000_S12800000x1_0 v3)
    (broadcastInDim S12800000 ![] bcast_S_S12800000 (constant (F := Ideal) S_ .f32 0x3F800000#32))

/-- `1 / max(deg, 1)` as one row, padded to 204800 columns. -/
def inv (v3 : EdgeVec) : FVec Ideal S1x204800 .f32 :=
  pad S1x204800 ![0, 0] ![0, 4800] ![0, 0]
    (shapeCast S1x200000
      (Host.divf (F := Ideal) (broadcastInDim S200000 ![] bcast_S_S200000 (constant (F := Ideal) S_ .f32 0x3F800000#32))
        (maximumf (deg v3) (broadcastInDim S200000 ![] bcast_S_S200000 (constant (F := Ideal) S_ .f32 0x3F800000#32))))
      shapeCasts_S200000_S1x200000)
    (id (constant (F := Ideal) S_ .f32 0x3F800000#32)) pads_S1x200000_S1x204800_000_048000 h_S_

/-- The half of the transposed weights that multiplies the node's own features. -/
def wx (W : FVec Ideal S6x3 .f32) : FVec Ideal S3x3 .f32 :=
  extractStridedSlice S3x3 ![0, 0] (transpose S3x6 [1, 0] W transposes_S6x3_S3x6_1_0) slices_S3x6_S3x3_0_0

/-- The half of the transposed weights that multiplies the aggregated mean. -/
def wm (W : FVec Ideal S6x3 .f32) : FVec Ideal S3x3 .f32 :=
  extractStridedSlice S3x3 ![0, 3] (transpose S3x6 [1, 0] W transposes_S6x3_S3x6_1_0) slices_S3x6_S3x3_0_3

/-- The bias as a column. -/
def bc (b : FVec Ideal S3 .f32) : FVec Ideal S3x1 .f32 := shapeCast S3x1 b shapeCasts_S3_S3x1

/-- Node-major features laid feature-major and padded with 4800 more columns. -/
def padT (y : FVec Ideal S200000x3 .f32) : FVec Ideal S3x204800 .f32 :=
  pad S3x204800 ![0, 0] ![0, 4800] ![0, 0] (transpose S3x200000 [1, 0] y transposes_S200000x3_S3x200000_1_0)
    (sitofp (F := Ideal) .f32 (constantI S_ 32 0#32)) pads_S3x200000_S3x204800_000_048000 h_S_

/-- The first 200000 columns of a feature-major array, laid node-major. -/
def unpadT (o : FVec Ideal S3x204800 .f32) : FVec Ideal S200000x3 .f32 :=
  transpose S200000x3 [1, 0] (extractStridedSlice S3x200000 ![0, 0] o slices_S3x204800_S3x200000_0_0)
    transposes_S3x200000_S200000x3_1_0

/-- What one launch of the kernel leaves in its output array, column by column. -/
def cols (xp ap : FVec Ideal S3x204800 .f32) (iv : FVec Ideal S1x204800 .f32) (ax am : FVec Ideal S3x3 .f32)
    (cb : FVec Ideal S3x1 .f32) : FVec Ideal S3x204800 .f32 :=
  fun i => max (((∑ k : Fin 3, ax (ix2 (i 0) k) * xp (ix2 k (i 1)))
      + (∑ k : Fin 3, am (ix2 (i 0) k) * (ap (ix2 k (i 1)) * iv (ix2 (0 : Fin 1) (i 1))))) + cb (ix2 (i 0) (0 : Fin 1))) 0

/-- One layer of the kernel program. -/
def layer (v1 v3 : EdgeVec) (W : FVec Ideal S6x3 .f32) (b : FVec Ideal S3 .f32) (x : FVec Ideal S200000x3 .f32) :
    FVec Ideal S200000x3 .f32 :=
  unpadT (cols (padT x) (padT (agg x v1 v3)) (inv v3) (wx W) (wm W) (bc b))

end Cert.Sage.K

end
-- ==== Proof.KIter.lean ====
/-
  The kernel program's layers iterated. `X p` is the node features after `p` layers and `O p` what launch `p` leaves in
  its (feature-major, padded) output array: `cols` of the padded features `X p`, of their padded neighbour sums, and of
  the four operands computed once. Cutting the padding off `O p` and laying it node-major gives `X (p + 1)`.
-/
import proofs.«147323_j54408645706323_1_alg».proof.Proof.KLayer

noncomputable section

namespace Cert.Sage.K

open Idealize.ShloMosaic Cert.KernelIdeal

/-- The features after `p` layers. -/
def X (v1 v3 : EdgeVec) (W : FVec Ideal S6x3 .f32) (b : FVec Ideal S3 .f32) (x0 : FVec Ideal S200000x3 .f32) (p : ℕ) :
    FVec Ideal S200000x3 .f32 := (layer v1 v3 W b)^[p] x0

/-- What launch `p` leaves in its output array. -/
def O (v1 v3 : EdgeVec) (W : FVec Ideal S6x3 .f32) (b : FVec Ideal S3 .f32) (x0 : FVec Ideal S200000x3 .f32) (p : ℕ) :
    FVec Ideal S3x204800 .f32 :=
  cols (padT (X v1 v3 W b x0 p)) (padT (agg (X v1 v3 W b x0 p) v1 v3)) (inv v3) (wx W) (wm W) (bc b)

theorem X_zero (v1 v3 : EdgeVec) (W : FVec Ideal S6x3 .f32) (b : FVec Ideal S3 .f32) (x0 : FVec Ideal S200000x3 .f32) :
    X v1 v3 W b x0 0 = x0 := rfl

/-- The next features are the launch's output, the padding cut off, node-major. -/
theorem unpadT_O (v1 v3 : EdgeVec) (W : FVec Ideal S6x3 .f32) (b : FVec Ideal S3 .f32) (x0 : FVec Ideal S200000x3 .f32)
    (p : ℕ) : unpadT (O v1 v3 W b x0 p) = X v1 v3 W b x0 (p + 1) := by
  unfold X O
  rw [Function.iterate_succ_apply']
  rfl

end Cert.Sage.K

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.KPayload.lean ====
/-
  The kernel body's arithmetic at one entry of its output block.

  The body loads the block of the features `x0` ([3, 51200]: features by nodes), of the summed neighbour features
  `x1`, of the reciprocal degrees `x2` (one row), the two 3x3 weight halves `x3`, `x4` and the bias column `x5`, and
  stores  max( x3·x0 + x4·(x1 ∘ x2) + x5 , 0 ): two matrix products into a zero accumulator, the reciprocal degrees
  laid down the three rows, the bias laid along the columns. On the extended reals a change of float format is the
  identity and a matrix product into the zero accumulator is the plain sum over the contracted axis, so at row `j`
  and column `q` the stored value is
      max( Σ_k x3(j,k)·x0(k,q) + Σ_k x4(j,k)·(x1(k,q)·x2(0,q)) + x5(j,0) , 0 ).
  All fifteen launches run the same body: their payloads are one function.
-/
import proofs.«147323_j54408645706323_1_alg».proof.Proof.Gen.KernelIdeal.Skeleton
import proofs.«147323_j54408645706323_1_alg».proof.Proof.LibDotIdx
import proofs.«147323_j54408645706323_1_alg».proof.Proof.LibKeepdims
import proofs.«147323_j54408645706323_1_alg».proof.Proof.LibRows
import proofs.«147323_j54408645706323_1_alg».proof.Proof.KLayer
import Idealize.ShloMosaic.Lib.ValueIdx
import Idealize.ShloMosaic.Lib.Pipeline.Value
import Idealize.ShloMosaic.PureOps.Ideal.Laws

noncomputable section

namespace Cert.Sage.KPay

open Idealize.ShloMosaic Idealize.ShloMosaic.ValueIdx Cert.KernelIdeal Cert.KernelIdeal.Facts₀
open scoped BigOperators

/-- The zero word denotes the real zero. -/
theorem zero_word : Ideal.ofBits .f32 0x00000000#32 = (0 : EReal) := Ideal.ofBits_zero_f32

/-- The zero offset of a rank-2 block. -/
theorem hz : (![0, 0] : Fin 2 → Nat) = fun _ => 0 := funext fun a => by fin_cases a <;> rfl

/-- Column `q` of grid point `t`'s block, as a column of the whole array: `t·51200 + q`. -/
def col (t : ℕ) (ht : t < 4) (q : Fin 51200) : Fin 204800 := ⟨t * 51200 + q.val, by have := q.isLt; omega⟩

/-- One row laid down the three rows reads, at `(r, q)`, the row's entry `(0, q)`. -/
theorem row_down (y : Vec Ideal S1x51200 .f32) (r : Fin 3) (q : Fin 51200) :
    broadcastTo S3x51200 y broadcasts_S1x51200_S3x51200 (ix2 r q) = y (ix2 (0 : Fin 1) q) := by
  have h := Cert.LibRows.broadcastTo_oneRow_apply (m := 3) (n := 51200) y shapeCasts_S1x51200_S1x51200
    broadcasts_S1x51200_S3x51200 r q
  rwa [shapeCast_self] at h

/-- One column laid along the columns reads, at `(r, q)`, the column's entry `(r, 0)`. -/
theorem col_along (y : Vec Ideal S3x1 .f32) (r : Fin 3) (q : Fin 51200) :
    broadcastTo S3x51200 y broadcasts_S3x1_S3x51200 (ix2 r q) = y (ix2 r (0 : Fin 1)) :=
  Cert.SupCon.Ker.broadcastTo_a1_ab_apply (a := 3) (b := 51200) y broadcasts_S3x1_S3x51200 r q

/-- The first launch's payload at row `j` and column `q` of the block. -/
theorem pay_apply (x0 x1 : Vec Ideal S3x51200 .f32) (x2 : Vec Ideal S1x51200 .f32) (x3 x4 : Vec Ideal S3x3 .f32)
    (x5 : Vec Ideal S3x1 .f32) (j : Fin 3) (q : Fin 51200) :
    Gen.k0_pay1 (F := Ideal) x0 x1 x2 x3 x4 x5 (ix2 j q)
      = max (((∑ k : Fin 3, x3 (ix2 j k) * x0 (ix2 k q))
          + (∑ k : Fin 3, x4 (ix2 j k) * (x1 (ix2 k q) * x2 (ix2 (0 : Fin 1) q)))) + x5 (ix2 j (0 : Fin 1))) 0 := by
  unfold Gen.k0_pay1
  simp only [shapeCast_self]
  rw [maximumf_apply, addf_apply, addf_apply, broadcast_apply, col_along]
  have hA : matmul dot_S3x3_S3x51200_S3x51200_1_0_0_1_n_n none (truncf .bf16 x3 bitsLt_bf16_f32)
      (truncf .bf16 x0 bitsLt_bf16_f32) (constant (F := Ideal) S3x51200 .f32 0x00000000#32) (ix2 j q)
        = ∑ k : Fin 3, x3 (ix2 j k) * x0 (ix2 k q) :=
    DotIdx.matmul_plain_zero_apply (m := 3) (k := 3) (n := 51200) dot_S3x3_S3x51200_S3x51200_1_0_0_1_n_n_wf none
      (truncf .bf16 x3 bitsLt_bf16_f32) (truncf .bf16 x0 bitsLt_bf16_f32) j q
  have hB : matmul dot_S3x3_S3x51200_S3x51200_1_0_0_1_n_n none (truncf .bf16 x4 bitsLt_bf16_f32)
      (truncf .bf16 (mulf x1 (broadcastTo S3x51200 x2 broadcasts_S1x51200_S3x51200)) bitsLt_bf16_f32)
      (constant (F := Ideal) S3x51200 .f32 0x00000000#32) (ix2 j q)
        = ∑ k : Fin 3, x4 (ix2 j k) * (x1 (ix2 k q) * x2 (ix2 (0 : Fin 1) q)) := by
    refine (DotIdx.matmul_plain_zero_apply (m := 3) (k := 3) (n := 51200) dot_S3x3_S3x51200_S3x51200_1_0_0_1_n_n_wf none
      (truncf .bf16 x4 bitsLt_bf16_f32)
      (truncf .bf16 (mulf x1 (broadcastTo S3x51200 x2 broadcasts_S1x51200_S3x51200)) bitsLt_bf16_f32) j q).trans ?_
    refine Finset.sum_congr rfl fun k _ => ?_
    rw [truncf_apply, truncf_apply, mulf_apply, row_down]
  rw [hA, hB]
  exact congrArg (max _) zero_word

/-- A block of the launch's output, entry by entry: if the six loaded blocks are the columns `t·51200 …` of the wide
    operand arrays `A0`, `A1`, `I` and the whole of the small ones `X`, `M`, `C`, the payload at `(j, q)` is the layer's
    column function of those arrays at `(j, t·51200 + q)`. -/
theorem block_eq (x0 x1 : Vec Ideal S3x51200 .f32) (x2 : Vec Ideal S1x51200 .f32) (x3 x4 : Vec Ideal S3x3 .f32)
    (x5 : Vec Ideal S3x1 .f32) (A0 A1 : FVec Ideal S3x204800 .f32) (I : FVec Ideal S1x204800 .f32)
    (X M : FVec Ideal S3x3 .f32) (C : FVec Ideal S3x1 .f32) (t : ℕ) (ht : t < 4)
    (h0 : ∀ (k : Fin 3) (q : Fin 51200), x0 (ix2 k q) = A0 (ix2 k (col t ht q)))
    (h1 : ∀ (k : Fin 3) (q : Fin 51200), x1 (ix2 k q) = A1 (ix2 k (col t ht q)))
    (h2 : ∀ q : Fin 51200, x2 (ix2 (0 : Fin 1) q) = I (ix2 (0 : Fin 1) (col t ht q)))
    (h3 : ∀ j k : Fin 3, x3 (ix2 j k) = X (ix2 j k)) (h4 : ∀ j k : Fin 3, x4 (ix2 j k) = M (ix2 j k))
    (h5 : ∀ j : Fin 3, x5 (ix2 j (0 : Fin 1)) = C (ix2 j (0 : Fin 1))) (j : Fin 3) (q : Fin 51200) :
    Gen.k0_pay1 (F := Ideal) x0 x1 x2 x3 x4 x5 (ix2 j q) = Cert.Sage.K.cols A0 A1 I X M C (ix2 j (col t ht q)) := by
  rw [pay_apply]
  simp only [h0, h1, h2, h3, h4, h5]
  rfl

/-- The same at an arbitrary index `y` of the block. -/
theorem block_eq_idx (x0 x1 : Vec Ideal S3x51200 .f32) (x2 : Vec Ideal S1x51200 .f32) (x3 x4 : Vec Ideal S3x3 .f32)
    (x5 : Vec Ideal S3x1 .f32) (A0 A1 : FVec Ideal S3x204800 .f32) (I : FVec Ideal S1x204800 .f32)
    (X M : FVec Ideal S3x3 .f32) (C : FVec Ideal S3x1 .f32) (t : ℕ) (ht : t < 4)
    (h0 : ∀ (k : Fin 3) (q : Fin 51200), x0 (ix2 k q) = A0 (ix2 k (col t ht q)))
    (h1 : ∀ (k : Fin 3) (q : Fin 51200), x1 (ix2 k q) = A1 (ix2 k (col t ht q)))
    (h2 : ∀ q : Fin 51200, x2 (ix2 (0 : Fin 1) q) = I (ix2 (0 : Fin 1) (col t ht q)))
    (h3 : ∀ j k : Fin 3, x3 (ix2 j k) = X (ix2 j k)) (h4 : ∀ j k : Fin 3, x4 (ix2 j k) = M (ix2 j k))
    (h5 : ∀ j : Fin 3, x5 (ix2 j (0 : Fin 1)) = C (ix2 j (0 : Fin 1))) (y : S3x51200.Idx) :
    Gen.k0_pay1 (F := Ideal) x0 x1 x2 x3 x4 x5 y
      = Cert.Sage.K.cols A0 A1 I X M C (ix2 (y 0) (col t ht (y 1))) := by
  obtain ⟨j, q, rfl⟩ : ∃ (j : Fin 3) (q : Fin 51200), y = ix2 j q := ⟨y 0, y 1, eq_ix2 y⟩
  exact block_eq x0 x1 x2 x3 x4 x5 A0 A1 I X M C t ht h0 h1 h2 h3 h4 h5 j q

end Cert.Sage.KPay

end
-- ==== Proof.KReg0.lean ====
/-
  Launch 0 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg0

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val ∧ t.val < 4 :=
  (by decide +kernel : ∀ t : Fin grid0.N, _)

/-- What point `t` writes back is block `t` of `cols` of the operand arrays as the launch finds them. -/
theorem flushed_eq (c : Dev nD) (t : Fin cfg0.N) :
    (dat0 V c).flushed 6 t = ((cfg0.win 6).blk t).view.read (Elt Ideal)
      (Cert.Sage.K.cols (V c main_v30) (V c main_v31) (V c main_v13) (V c main_v15) (V c main_v16) (V c main_v17)) := by
  show (cfg0.win 6).cut (grid0.coords t) ((dat0 V c).after 6 t) = _
  rw [after0_6]
  unfold out0_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk0 V c 0 t (ix2 k q) = V c main_v30 (ix2 k (col t.val ht q)) := fun k q => by
    show V c main_v30 (((cfg0.win 0).blk t).view.emb (ix2 k q)) = _
    refine congrArg (V c main_v30) ?_
    funext a; apply Fin.ext
    match a with
    | ⟨0, _⟩ => show win0_0.index t (0 : Fin 2) * 3 + 1 * k.val = k.val; omega
    | ⟨1, _⟩ => show win0_0.index t (1 : Fin 2) * 51200 + 1 * q.val = t.val * 51200 + q.val; omega
  have r1 : ∀ (k : Fin 3) (q : Fin 51200), iblk0 V c 1 t (ix2 k q) = V c main_v31 (ix2 k (col t.val ht q)) := fun k q => by
    show V c main_v31 (((cfg0.win 1).blk t).view.emb (ix2 k q)) = _
    refine congrArg (V c main_v31) ?_
    funext a; apply Fin.ext
    match a with
    | ⟨0, _⟩ => show win0_1.index t (0 : Fin 2) * 3 + 1 * k.val = k.val; omega
    | ⟨1, _⟩ => show win0_1.index t (1 : Fin 2) * 51200 + 1 * q.val = t.val * 51200 + q.val; omega
  have r2 : ∀ q : Fin 51200, iblk0 V c 2 t (ix2 (0 : Fin 1) q) = V c main_v13 (ix2 (0 : Fin 1) (col t.val ht q)) := fun q => by
    show V c main_v13 (((cfg0.win 2).blk t).view.emb (ix2 (0 : Fin 1) q)) = _
    refine congrArg (V c main_v13) ?_
    funext a; apply Fin.ext
    match a with
    | ⟨0, _⟩ => show win0_2.index t (0 : Fin 2) * 1 + 1 * 0 = 0; omega
    | ⟨1, _⟩ => show win0_2.index t (1 : Fin 2) * 51200 + 1 * q.val = t.val * 51200 + q.val; omega
  have r3 : ∀ j k : Fin 3, iblk0 V c 3 t (ix2 j k) = V c main_v15 (ix2 j k) := fun j k => by
    show V c main_v15 (((cfg0.win 3).blk t).view.emb (ix2 j k)) = _
    refine congrArg (V c main_v15) ?_
    funext a; apply Fin.ext
    match a with
    | ⟨0, _⟩ => show win0_3.index t (0 : Fin 2) * 3 + 1 * j.val = j.val; omega
    | ⟨1, _⟩ => show win0_3.index t (1 : Fin 2) * 3 + 1 * k.val = k.val; omega
  have r4 : ∀ j k : Fin 3, iblk0 V c 4 t (ix2 j k) = V c main_v16 (ix2 j k) := fun j k => by
    show V c main_v16 (((cfg0.win 4).blk t).view.emb (ix2 j k)) = _
    refine congrArg (V c main_v16) ?_
    funext a; apply Fin.ext
    match a with
    | ⟨0, _⟩ => show win0_4.index t (0 : Fin 2) * 3 + 1 * j.val = j.val; omega
    | ⟨1, _⟩ => show win0_4.index t (1 : Fin 2) * 3 + 1 * k.val = k.val; omega
  have r5 : ∀ j : Fin 3, iblk0 V c 5 t (ix2 j (0 : Fin 1)) = V c main_v17 (ix2 j (0 : Fin 1)) := fun j => by
    show V c main_v17 (((cfg0.win 5).blk t).view.emb (ix2 j (0 : Fin 1))) = _
    refine congrArg (V c main_v17) ?_
    funext a; apply Fin.ext
    match a with
    | ⟨0, _⟩ => show win0_5.index t (0 : Fin 2) * 3 + 1 * j.val = j.val; omega
    | ⟨1, _⟩ => show win0_5.index t (1 : Fin 2) * 1 + 1 * 0 = 0; omega
  funext y
  show k0_pay1 (iblk0 V c 0 t) (iblk0 V c 1 t) (iblk0 V c 2 t) (iblk0 V c 3 t) (iblk0 V c 4 t) (iblk0 V c 5 t) y
    = Cert.Sage.K.cols (V c main_v30) (V c main_v31) (V c main_v13) (V c main_v15) (V c main_v16) (V c main_v17)
        (((cfg0.win 6).blk t).view.emb y)
  have hemb : ((cfg0.win 6).blk t).view.emb y = ix2 (y 0) (col t.val ht (y 1)) := by
    funext a; apply Fin.ext
    match a with
    | ⟨0, _⟩ => show win0_6.index t (0 : Fin 2) * 3 + 1 * (y 0).val = (y 0).val; omega
    | ⟨1, _⟩ => show win0_6.index t (1 : Fin 2) * 51200 + 1 * (y 1).val = t.val * 51200 + (y 1).val; omega
  rw [hemb]
  exact block_eq_idx (iblk0 V c 0 t) (iblk0 V c 1 t) (iblk0 V c 2 t) (iblk0 V c 3 t) (iblk0 V c 4 t)
    (iblk0 V c 5 t) (V c main_v30) (V c main_v31) (V c main_v13) (V c main_v15) (V c main_v16) (V c main_v17)
    t.val ht r0 r1 r2 r3 r4 r5 y

/-- An entry of the output array lies in point `t`'s block iff each of its coordinates lies in the block's range. -/
theorem mem_blk (t : Fin cfg0.N) (i : S3x204800.Idx) :
    i ∈ ((cfg0.win 6).blk t).view.set ↔ ∀ a : Fin 2, win0_6.index t a * S3x51200.size a ≤ (i a).val
      ∧ (i a).val < win0_6.index t a * S3x51200.size a + S3x51200.size a := by
  show i ∈ ((View.whole main_v32).slice (win0_6.rect t)).set ↔ _
  rw [View.set_slice_whole, Rect.mem_set_unit]
  exact Iff.rfl

/-- Every entry of the output array is in the block of the point that owns its column. -/
theorem cover (i : S3x204800.Idx) :
    ∃ t : Fin cfg0.N, (cfg0.win 6).flush t = true ∧ i ∈ ((cfg0.win 6).blk t).view.set := by
  have hi0 : (i 0).val < 3 := (i 0).isLt
  have hi1 : (i 1).val < 204800 := (i 1).isLt
  have hN : grid0.N = 4 := N_0
  have hlt : (i 1).val / 51200 < grid0.N := by rw [hN]; omega
  obtain ⟨e00, e01, e10, e11, e20, e21, e30, e31, e40, e41, e50, e51, e60, e61, ht⟩ :=
    idx_facts (⟨(i 1).val / 51200, hlt⟩ : Fin cfg0.N)
  refine ⟨⟨(i 1).val / 51200, hlt⟩, flush0_6 _, ?_⟩
  rw [mem_blk]
  intro a
  match a with
  | ⟨0, _⟩ =>
    show win0_6.index ⟨(i 1).val / 51200, hlt⟩ (0 : Fin 2) * 3 ≤ (i 0).val
      ∧ (i 0).val < win0_6.index ⟨(i 1).val / 51200, hlt⟩ (0 : Fin 2) * 3 + 3
    omega
  | ⟨1, _⟩ =>
    show win0_6.index ⟨(i 1).val / 51200, hlt⟩ (1 : Fin 2) * 51200 ≤ (i 1).val
      ∧ (i 1).val < win0_6.index ⟨(i 1).val / 51200, hlt⟩ (1 : Fin 2) * 51200 + 51200
    have e : (⟨(i 1).val / 51200, hlt⟩ : Fin cfg0.N).val = (i 1).val / 51200 := rfl
    omega

/-- The output array after the launch: `cols` of the operand arrays as the launch found them. -/
theorem final (c : Dev nD) :
    (dat0 V c).arrAt 6 cfg0.N
      = Cert.Sage.K.cols (V c main_v30) (V c main_v31) (V c main_v13) (V c main_v15) (V c main_v16) (V c main_v17) :=
  (dat0 V c).arrAt_eq_of_cover 6 _ (fun t _ => flushed_eq V c t) (fun i => cover i)

end Cert.Sage.KReg0

end
-- ==== Proof.KHostKit.lean ====
/-
  Two small tools for reading what a stretch of host operations leaves in one buffer: a stretch that does not write a
  buffer keeps it (`stretch_keeps`), and running two stretches in a row is running their concatenation.
-/
import Idealize.ShloMosaic.Lib.StableHlo.Run

namespace Cert.Sage

open Idealize.ShloMosaic Idealize.ShloMosaic.StableHlo

/-- Closes `after ops W (devRef r) = W (devRef r)` for the literal list `ops` (named, so that it is unfolded) when none
    of its operations writes `r`: each operation writes one reference, and that reference is not `r`. -/
macro "stretch_keeps " ops:ident : tactic => `(tactic| (
  refine Idealize.ShloMosaic.StableHlo.after_of_forall_not_mem _ _ (List.forall_iff_forall_mem.mp ?_)
  simp only [$ops:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Sage
-- ==== Proof.KHost0.lean ====
/-
  The host operations before the first launch, read as functions of whole arrays, from ANY buffer contents `V`: the
  edge lists cut out of the [2, E] edge array; the reciprocal degrees, the two weight halves and the bias column,
  computed once; and the first launch's two wide operands — the input features and the sums of the neighbours'
  features, feature-major and padded. Each of the six stretches is read on its own, from arbitrary contents, and the
  readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost0

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the six stretches of host operations, from `V`. -/
abbrev step : Valuation τ sig (Elt Ideal) :=
  StableHlo.after (hostOps0_5 (F := Ideal)) (StableHlo.after (hostOps0_4 (F := Ideal))
    (StableHlo.after (hostOps0_3 (F := Ideal)) (StableHlo.after (hostOps0_2 (F := Ideal))
      (StableHlo.after (hostOps0_1 (F := Ideal)) (StableHlo.after (hostOps0 (F := Ideal)) V)))))

/-! ## Each stretch on its own -/

/-- The first stretch cuts the sources … -/
theorem s0_v1 : StableHlo.after (hostOps0 (F := Ideal)) V (Proc.devRef .tc main_v1) = Cert.Sage.K.src (V (Proc.devRef .tc main_arg1)) := by
  after_results
  all_goals rfl
/-- … and the targets out of the edge array, … -/
theorem s0_v3 : StableHlo.after (hostOps0 (F := Ideal)) V (Proc.devRef .tc main_v3) = Cert.Sage.K.dst (V (Proc.devRef .tc main_arg1)) := by
  after_results
  all_goals rfl
set_option maxHeartbeats 1000000 in
/-- … computes the reciprocal of max(deg, 1) as one row, … -/
theorem s0_v12 : StableHlo.after (hostOps0 (F := Ideal)) V (Proc.devRef .tc main_v12)
    = shapeCast S1x200000
        (Host.divf (F := Ideal) (broadcastInDim S200000 ![] Facts₀.bcast_S_S200000 (constant (F := Ideal) S_ .f32 0x3F800000#32))
          (maximumf (Cert.Sage.K.deg (Cert.Sage.K.dst (V (Proc.devRef .tc main_arg1))))
            (broadcastInDim S200000 ![] Facts₀.bcast_S_S200000 (constant (F := Ideal) S_ .f32 0x3F800000#32))))
        Facts₀.shapeCasts_S200000_S1x200000 := by
  after_results
  all_goals rfl
/-- … and the padding value of that row. -/
theorem s0_cst3 : StableHlo.after (hostOps0 (F := Ideal)) V (Proc.devRef .tc main_cst_3) = constant (F := Ideal) S_ .f32 0x3F800000#32 := by
  after_results
/-- The second stretch pads the row. -/
theorem s1_v13 : StableHlo.after (hostOps0_1 (F := Ideal)) W (Proc.devRef .tc main_v13)
    = pad S1x204800 ![0, 0] ![0, 4800] ![0, 0] (W (Proc.devRef .tc main_v12)) (id (W (Proc.devRef .tc main_cst_3)))
        Facts₀.pads_S1x200000_S1x204800_000_048000 Facts₀.h_S_ := by
  after_results
  all_goals rfl
/-- The third stretch cuts the two halves of the transposed weights, … -/
theorem s2_v15 : StableHlo.after (hostOps0_2 (F := Ideal)) W (Proc.devRef .tc main_v15) = Cert.Sage.K.wx (W (Proc.devRef .tc main_arg2)) := by
  after_results
  all_goals rfl
theorem s2_v16 : StableHlo.after (hostOps0_2 (F := Ideal)) W (Proc.devRef .tc main_v16) = Cert.Sage.K.wm (W (Proc.devRef .tc main_arg2)) := by
  after_results
  all_goals rfl
/-- … lays the bias as a column, … -/
theorem s2_v17 : StableHlo.after (hostOps0_2 (F := Ideal)) W (Proc.devRef .tc main_v17) = Cert.Sage.K.bc (W (Proc.devRef .tc main_arg3)) := by
  after_results
  all_goals rfl
/-- … lays the input features feature-major, … -/
theorem s2_v28 : StableHlo.after (hostOps0_2 (F := Ideal)) W (Proc.devRef .tc main_v28)
    = transpose S3x200000 [1, 0] (W (Proc.devRef .tc main_arg0)) Facts₀.transposes_S200000x3_S3x200000_1_0 := by
  after_results
  all_goals rfl
set_option maxHeartbeats 1000000 in
/-- … and the sums of the neighbours' features, feature-major, … -/
theorem s2_v29 : StableHlo.after (hostOps0_2 (F := Ideal)) W (Proc.devRef .tc main_v29)
    = transpose S3x200000 [1, 0] (Cert.Sage.K.agg (W (Proc.devRef .tc main_arg0)) (W (Proc.devRef .tc main_v1)) (W (Proc.devRef .tc main_v3)))
        Facts₀.transposes_S200000x3_S3x200000_1_0 := by
  after_results
  all_goals rfl
/-- … and ends with the integer zero that becomes a padding value. -/
theorem s2_c6 : StableHlo.after (hostOps0_2 (F := Ideal)) W (Proc.devRef .tc main_c_6) = constantI S_ 32 0#32 := by
  after_results
/-- The fourth stretch pads the features. -/
theorem s3_v30 : StableHlo.after (hostOps0_3 (F := Ideal)) W (Proc.devRef .tc main_v30)
    = pad S3x204800 ![0, 0] ![0, 4800] ![0, 0] (W (Proc.devRef .tc main_v28)) (sitofp (F := Ideal) .f32 (W (Proc.devRef .tc main_c_6)))
        Facts₀.pads_S3x200000_S3x204800_000_048000 Facts₀.h_S_ := by
  after_results
  all_goals rfl
/-- The fifth stretch is the second padding value. -/
theorem s4_c7 : StableHlo.after (hostOps0_4 (F := Ideal)) W (Proc.devRef .tc main_c_7) = constantI S_ 32 0#32 := by
  after_results
/-- The sixth stretch pads the sums. -/
theorem s5_v31 : StableHlo.after (hostOps0_5 (F := Ideal)) W (Proc.devRef .tc main_v31)
    = pad S3x204800 ![0, 0] ![0, 4800] ![0, 0] (W (Proc.devRef .tc main_v29)) (sitofp (F := Ideal) .f32 (W (Proc.devRef .tc main_c_7)))
        Facts₀.pads_S3x200000_S3x204800_000_048000 Facts₀.h_S_ := by
  after_results
  all_goals rfl

/-! ## What the stretches do not write -/

theorem k1_v1 : StableHlo.after (hostOps0_1 (F := Ideal)) W (Proc.devRef .tc main_v1) = W (Proc.devRef .tc main_v1) := by stretch_keeps hostOps0_1
theorem k2_v1 : StableHlo.after (hostOps0_2 (F := Ideal)) W (Proc.devRef .tc main_v1) = W (Proc.devRef .tc main_v1) := by stretch_keeps hostOps0_2
theorem k3_v1 : StableHlo.after (hostOps0_3 (F := Ideal)) W (Proc.devRef .tc main_v1) = W (Proc.devRef .tc main_v1) := by stretch_keeps hostOps0_3
theorem k4_v1 : StableHlo.after (hostOps0_4 (F := Ideal)) W (Proc.devRef .tc main_v1) = W (Proc.devRef .tc main_v1) := by stretch_keeps hostOps0_4
theorem k5_v1 : StableHlo.after (hostOps0_5 (F := Ideal)) W (Proc.devRef .tc main_v1) = W (Proc.devRef .tc main_v1) := by stretch_keeps hostOps0_5
theorem k1_v3 : StableHlo.after (hostOps0_1 (F := Ideal)) W (Proc.devRef .tc main_v3) = W (Proc.devRef .tc main_v3) := by stretch_keeps hostOps0_1
theorem k2_v3 : StableHlo.after (hostOps0_2 (F := Ideal)) W (Proc.devRef .tc main_v3) = W (Proc.devRef .tc main_v3) := by stretch_keeps hostOps0_2
theorem k3_v3 : StableHlo.after (hostOps0_3 (F := Ideal)) W (Proc.devRef .tc main_v3) = W (Proc.devRef .tc main_v3) := by stretch_keeps hostOps0_3
theorem k4_v3 : StableHlo.after (hostOps0_4 (F := Ideal)) W (Proc.devRef .tc main_v3) = W (Proc.devRef .tc main_v3) := by stretch_keeps hostOps0_4
theorem k5_v3 : StableHlo.after (hostOps0_5 (F := Ideal)) W (Proc.devRef .tc main_v3) = W (Proc.devRef .tc main_v3) := by stretch_keeps hostOps0_5
theorem k2_v13 : StableHlo.after (hostOps0_2 (F := Ideal)) W (Proc.devRef .tc main_v13) = W (Proc.devRef .tc main_v13) := by stretch_keeps hostOps0_2
theorem k3_v13 : StableHlo.after (hostOps0_3 (F := Ideal)) W (Proc.devRef .tc main_v13) = W (Proc.devRef .tc main_v13) := by stretch_keeps hostOps0_3
theorem k4_v13 : StableHlo.after (hostOps0_4 (F := Ideal)) W (Proc.devRef .tc main_v13) = W (Proc.devRef .tc main_v13) := by stretch_keeps hostOps0_4
theorem k5_v13 : StableHlo.after (hostOps0_5 (F := Ideal)) W (Proc.devRef .tc main_v13) = W (Proc.devRef .tc main_v13) := by stretch_keeps hostOps0_5
theorem k3_v15 : StableHlo.after (hostOps0_3 (F := Ideal)) W (Proc.devRef .tc main_v15) = W (Proc.devRef .tc main_v15) := by stretch_keeps hostOps0_3
theorem k4_v15 : StableHlo.after (hostOps0_4 (F := Ideal)) W (Proc.devRef .tc main_v15) = W (Proc.devRef .tc main_v15) := by stretch_keeps hostOps0_4
theorem k5_v15 : StableHlo.after (hostOps0_5 (F := Ideal)) W (Proc.devRef .tc main_v15) = W (Proc.devRef .tc main_v15) := by stretch_keeps hostOps0_5
theorem k3_v16 : StableHlo.after (hostOps0_3 (F := Ideal)) W (Proc.devRef .tc main_v16) = W (Proc.devRef .tc main_v16) := by stretch_keeps hostOps0_3
theorem k4_v16 : StableHlo.after (hostOps0_4 (F := Ideal)) W (Proc.devRef .tc main_v16) = W (Proc.devRef .tc main_v16) := by stretch_keeps hostOps0_4
theorem k5_v16 : StableHlo.after (hostOps0_5 (F := Ideal)) W (Proc.devRef .tc main_v16) = W (Proc.devRef .tc main_v16) := by stretch_keeps hostOps0_5
theorem k3_v17 : StableHlo.after (hostOps0_3 (F := Ideal)) W (Proc.devRef .tc main_v17) = W (Proc.devRef .tc main_v17) := by stretch_keeps hostOps0_3
theorem k4_v17 : StableHlo.after (hostOps0_4 (F := Ideal)) W (Proc.devRef .tc main_v17) = W (Proc.devRef .tc main_v17) := by stretch_keeps hostOps0_4
theorem k5_v17 : StableHlo.after (hostOps0_5 (F := Ideal)) W (Proc.devRef .tc main_v17) = W (Proc.devRef .tc main_v17) := by stretch_keeps hostOps0_5
theorem k0_arg0 : StableHlo.after (hostOps0 (F := Ideal)) W (Proc.devRef .tc main_arg0) = W (Proc.devRef .tc main_arg0) := by stretch_keeps hostOps0
theorem k1_arg0 : StableHlo.after (hostOps0_1 (F := Ideal)) W (Proc.devRef .tc main_arg0) = W (Proc.devRef .tc main_arg0) := by stretch_keeps hostOps0_1
theorem k0_arg2 : StableHlo.after (hostOps0 (F := Ideal)) W (Proc.devRef .tc main_arg2) = W (Proc.devRef .tc main_arg2) := by stretch_keeps hostOps0
theorem k1_arg2 : StableHlo.after (hostOps0_1 (F := Ideal)) W (Proc.devRef .tc main_arg2) = W (Proc.devRef .tc main_arg2) := by stretch_keeps hostOps0_1
theorem k0_arg3 : StableHlo.after (hostOps0 (F := Ideal)) W (Proc.devRef .tc main_arg3) = W (Proc.devRef .tc main_arg3) := by stretch_keeps hostOps0
theorem k1_arg3 : StableHlo.after (hostOps0_1 (F := Ideal)) W (Proc.devRef .tc main_arg3) = W (Proc.devRef .tc main_arg3) := by stretch_keeps hostOps0_1
theorem k4_v30 : StableHlo.after (hostOps0_4 (F := Ideal)) W (Proc.devRef .tc main_v30) = W (Proc.devRef .tc main_v30) := by stretch_keeps hostOps0_4
theorem k5_v30 : StableHlo.after (hostOps0_5 (F := Ideal)) W (Proc.devRef .tc main_v30) = W (Proc.devRef .tc main_v30) := by stretch_keeps hostOps0_5
theorem k3_v29 : StableHlo.after (hostOps0_3 (F := Ideal)) W (Proc.devRef .tc main_v29) = W (Proc.devRef .tc main_v29) := by stretch_keeps hostOps0_3
theorem k4_v29 : StableHlo.after (hostOps0_4 (F := Ideal)) W (Proc.devRef .tc main_v29) = W (Proc.devRef .tc main_v29) := by stretch_keeps hostOps0_4

/-! ## The six stretches chained -/

theorem entry_v1 : step V (Proc.devRef .tc main_v1) = Cert.Sage.K.src (V (Proc.devRef .tc main_arg1)) :=
  (k5_v1 _).trans ((k4_v1 _).trans ((k3_v1 _).trans ((k2_v1 _).trans ((k1_v1 _).trans (s0_v1 V)))))
theorem entry_v3 : step V (Proc.devRef .tc main_v3) = Cert.Sage.K.dst (V (Proc.devRef .tc main_arg1)) :=
  (k5_v3 _).trans ((k4_v3 _).trans ((k3_v3 _).trans ((k2_v3 _).trans ((k1_v3 _).trans (s0_v3 V)))))
theorem entry_v13 : step V (Proc.devRef .tc main_v13) = Cert.Sage.K.inv (Cert.Sage.K.dst (V (Proc.devRef .tc main_arg1))) := by
  refine (k5_v13 _).trans ((k4_v13 _).trans ((k3_v13 _).trans ((k2_v13 _).trans ((s1_v13 _).trans ?_))))
  rw [s0_v12, s0_cst3]
  rfl
theorem entry_v15 : step V (Proc.devRef .tc main_v15) = Cert.Sage.K.wx (V (Proc.devRef .tc main_arg2)) := by
  refine (k5_v15 _).trans ((k4_v15 _).trans ((k3_v15 _).trans ((s2_v15 _).trans ?_)))
  rw [k1_arg2, k0_arg2]
theorem entry_v16 : step V (Proc.devRef .tc main_v16) = Cert.Sage.K.wm (V (Proc.devRef .tc main_arg2)) := by
  refine (k5_v16 _).trans ((k4_v16 _).trans ((k3_v16 _).trans ((s2_v16 _).trans ?_)))
  rw [k1_arg2, k0_arg2]
theorem entry_v17 : step V (Proc.devRef .tc main_v17) = Cert.Sage.K.bc (V (Proc.devRef .tc main_arg3)) := by
  refine (k5_v17 _).trans ((k4_v17 _).trans ((k3_v17 _).trans ((s2_v17 _).trans ?_)))
  rw [k1_arg3, k0_arg3]
/-- The first launch's first operand: the input features, feature-major and padded. -/
theorem entry_x : step V (Proc.devRef .tc main_v30) = Cert.Sage.K.padT (V (Proc.devRef .tc main_arg0)) := by
  refine (k5_v30 _).trans ((k4_v30 _).trans ((s3_v30 _).trans ?_))
  rw [s2_v28, s2_c6, k1_arg0, k0_arg0]
  rfl
/-- The first launch's second operand: the sums of the neighbours' features, feature-major and padded. -/
theorem entry_a : step V (Proc.devRef .tc main_v31)
    = Cert.Sage.K.padT (Cert.Sage.K.agg (V (Proc.devRef .tc main_arg0))
        (Cert.Sage.K.src (V (Proc.devRef .tc main_arg1))) (Cert.Sage.K.dst (V (Proc.devRef .tc main_arg1)))) := by
  refine (s5_v31 _).trans ?_
  rw [s4_c7, k4_v29, k3_v29, s2_v29, k1_arg0, k0_arg0, k1_v1, s0_v1, k1_v3, s0_v3]
  rfl

end Cert.Sage.KHost0

end
-- ==== Proof.KStep0.lean ====
/-
  Layer 0 of the kernel program's run: from the launch memory, the host operations before the first launch compute the
  edge lists, the reciprocal degrees, the two weight halves, the bias column and the first launch's two wide operands,
  and the first launch leaves `O 0` — `cols` of those six operands — in its output array, the edge lists and the four
  once-computed operands staying in their buffers.
-/
import proofs.«147323_j54408645706323_1_alg».proof.Proof.Gen.KernelIdeal.Frame
import proofs.«147323_j54408645706323_1_alg».proof.Proof.KIter
import proofs.«147323_j54408645706323_1_alg».proof.Proof.KReg0
import proofs.«147323_j54408645706323_1_alg».proof.Proof.KHost0

set_option maxRecDepth 16384

noncomputable section

namespace Cert.Sage.KStep0

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)

theorem step :
    W7 m ρ c (Proc.devRef .tc main_v32)
      = O (src (m ((c : Thread nD τ).loc main_arg1))) (dst (m ((c : Thread nD τ).loc main_arg1)))
          (m ((c : Thread nD τ).loc main_arg2)) (m ((c : Thread nD τ).loc main_arg3)) (m ((c : Thread nD τ).loc main_arg0)) 0
    ∧ W7 m ρ c (Proc.devRef .tc main_v1) = src (m ((c : Thread nD τ).loc main_arg1))
    ∧ W7 m ρ c (Proc.devRef .tc main_v3) = dst (m ((c : Thread nD τ).loc main_arg1))
    ∧ W7 m ρ c (Proc.devRef .tc main_v13) = inv (dst (m ((c : Thread nD τ).loc main_arg1)))
    ∧ W7 m ρ c (Proc.devRef .tc main_v15) = wx (m ((c : Thread nD τ).loc main_arg2))
    ∧ W7 m ρ c (Proc.devRef .tc main_v16) = wm (m ((c : Thread nD τ).loc main_arg2))
    ∧ W7 m ρ c (Proc.devRef .tc main_v17) = bc (m ((c : Thread nD τ).loc main_arg3)) := by
  have ex : W6 m ρ c (Proc.devRef .tc main_v30) = padT (m ((c : Thread nD τ).loc main_arg0)) :=
    Cert.Sage.KHost0.entry_x (W0 m ρ c)
  have ea : W6 m ρ c (Proc.devRef .tc main_v31)
      = padT (agg (m ((c : Thread nD τ).loc main_arg0)) (src (m ((c : Thread nD τ).loc main_arg1)))
          (dst (m ((c : Thread nD τ).loc main_arg1)))) := Cert.Sage.KHost0.entry_a (W0 m ρ c)
  have e1 : W6 m ρ c (Proc.devRef .tc main_v1) = src (m ((c : Thread nD τ).loc main_arg1)) :=
    Cert.Sage.KHost0.entry_v1 (W0 m ρ c)
  have e3 : W6 m ρ c (Proc.devRef .tc main_v3) = dst (m ((c : Thread nD τ).loc main_arg1)) :=
    Cert.Sage.KHost0.entry_v3 (W0 m ρ c)
  have e13 : W6 m ρ c (Proc.devRef .tc main_v13) = inv (dst (m ((c : Thread nD τ).loc main_arg1))) :=
    Cert.Sage.KHost0.entry_v13 (W0 m ρ c)
  have e15 : W6 m ρ c (Proc.devRef .tc main_v15) = wx (m ((c : Thread nD τ).loc main_arg2)) :=
    Cert.Sage.KHost0.entry_v15 (W0 m ρ c)
  have e16 : W6 m ρ c (Proc.devRef .tc main_v16) = wm (m ((c : Thread nD τ).loc main_arg2)) :=
    Cert.Sage.KHost0.entry_v16 (W0 m ρ c)
  have e17 : W6 m ρ c (Proc.devRef .tc main_v17) = bc (m ((c : Thread nD τ).loc main_arg3)) :=
    Cert.Sage.KHost0.entry_v17 (W0 m ρ c)
  have hin : ∀ w : Fin cfg0.W, (cfg0.win w).isOut = false →
      W7 m ρ c (Proc.devRef .tc (Pipeline.arrRef spec0 w)) = V6 m ρ c (Pipeline.arrRef spec0 w) := fun w hw =>
    (W7_arr m ρ c w).trans (((dat0 (V6 m ρ) c).arrAt_in w hw cfg0.N).trans (A_eq0 (V6 m ρ) c w))
  refine ⟨?_, ?_, ?_, ?_, ?_, ?_, ?_⟩
  · refine (W7_arr m ρ c 6).trans ?_
    rw [Cert.Sage.KReg0.final (V6 m ρ) c]
    show cols (W6 m ρ c (Proc.devRef .tc main_v30)) (W6 m ρ c (Proc.devRef .tc main_v31))
      (W6 m ρ c (Proc.devRef .tc main_v13)) (W6 m ρ c (Proc.devRef .tc main_v15))
      (W6 m ρ c (Proc.devRef .tc main_v16)) (W6 m ρ c (Proc.devRef .tc main_v17)) = _
    rw [ex, ea, e13, e15, e16, e17]
    rfl
  · exact (W7_of_ne m ρ c main_v1 (by decide)).trans e1
  · exact (W7_of_ne m ρ c main_v3 (by decide)).trans e3
  · exact (hin 2 rfl).trans e13
  · exact (hin 3 rfl).trans e15
  · exact (hin 4 rfl).trans e16
  · exact (hin 5 rfl).trans e17

end Cert.Sage.KStep0

end
-- ==== Proof.KReg1.lean ====
/-
  Launch 1 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg1

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = t.val ∧ t.val < 4 :=
  (by decide +kernel : ∀ t : Fin grid1.N, _)

/-- What point `t` writes back is block `t` of `cols` of the operand arrays as the launch finds them. -/
theorem flushed_eq (c : Dev nD) (t : Fin cfg1.N) :
    (dat1 V c).flushed 6 t = ((cfg1.win 6).blk t).view.read (Elt Ideal)
      (Cert.Sage.K.cols (V c main_v47) (V c main_v48) (V c main_v13) (V c main_v15) (V c main_v16) (V c main_v17)) := by
  show (cfg1.win 6).cut (grid1.coords t) ((dat1 V c).after 6 t) = _
  rw [after1_6]
  unfold out1_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk1 V c 0 t (ix2 k q) = V c main_v47 (ix2 k (col t.val ht q)) := fun k q => by
    show V c main_v47 (((cfg1.win 0).blk t).view.emb (ix2 k q)) = _
    refine congrArg (V c main_v47) ?_
    funext a; apply Fin.ext
    match a with
    | ⟨0, _⟩ => show win1_0.index t (0 : Fin 2) * 3 + 1 * k.val = k.val; omega
    | ⟨1, _⟩ => show win1_0.index t (1 : Fin 2) * 51200 + 1 * q.val = t.val * 51200 + q.val; omega
  have r1 : ∀ (k : Fin 3) (q : Fin 51200), iblk1 V c 1 t (ix2 k q) = V c main_v48 (ix2 k (col t.val ht q)) := fun k q => by
    show V c main_v48 (((cfg1.win 1).blk t).view.emb (ix2 k q)) = _
    refine congrArg (V c main_v48) ?_
    funext a; apply Fin.ext
    match a with
    | ⟨0, _⟩ => show win1_1.index t (0 : Fin 2) * 3 + 1 * k.val = k.val; omega
    | ⟨1, _⟩ => show win1_1.index t (1 : Fin 2) * 51200 + 1 * q.val = t.val * 51200 + q.val; omega
  have r2 : ∀ q : Fin 51200, iblk1 V c 2 t (ix2 (0 : Fin 1) q) = V c main_v13 (ix2 (0 : Fin 1) (col t.val ht q)) := fun q => by
    show V c main_v13 (((cfg1.win 2).blk t).view.emb (ix2 (0 : Fin 1) q)) = _
    refine congrArg (V c main_v13) ?_
    funext a; apply Fin.ext
    match a with
    | ⟨0, _⟩ => show win1_2.index t (0 : Fin 2) * 1 + 1 * 0 = 0; omega
    | ⟨1, _⟩ => show win1_2.index t (1 : Fin 2) * 51200 + 1 * q.val = t.val * 51200 + q.val; omega
  have r3 : ∀ j k : Fin 3, iblk1 V c 3 t (ix2 j k) = V c main_v15 (ix2 j k) := fun j k => by
    show V c main_v15 (((cfg1.win 3).blk t).view.emb (ix2 j k)) = _
    refine congrArg (V c main_v15) ?_
    funext a; apply Fin.ext
    match a with
    | ⟨0, _⟩ => show win1_3.index t (0 : Fin 2) * 3 + 1 * j.val = j.val; omega
    | ⟨1, _⟩ => show win1_3.index t (1 : Fin 2) * 3 + 1 * k.val = k.val; omega
  have r4 : ∀ j k : Fin 3, iblk1 V c 4 t (ix2 j k) = V c main_v16 (ix2 j k) := fun j k => by
    show V c main_v16 (((cfg1.win 4).blk t).view.emb (ix2 j k)) = _
    refine congrArg (V c main_v16) ?_
    funext a; apply Fin.ext
    match a with
    | ⟨0, _⟩ => show win1_4.index t (0 : Fin 2) * 3 + 1 * j.val = j.val; omega
    | ⟨1, _⟩ => show win1_4.index t (1 : Fin 2) * 3 + 1 * k.val = k.val; omega
  have r5 : ∀ j : Fin 3, iblk1 V c 5 t (ix2 j (0 : Fin 1)) = V c main_v17 (ix2 j (0 : Fin 1)) := fun j => by
    show V c main_v17 (((cfg1.win 5).blk t).view.emb (ix2 j (0 : Fin 1))) = _
    refine congrArg (V c main_v17) ?_
    funext a; apply Fin.ext
    match a with
    | ⟨0, _⟩ => show win1_5.index t (0 : Fin 2) * 3 + 1 * j.val = j.val; omega
    | ⟨1, _⟩ => show win1_5.index t (1 : Fin 2) * 1 + 1 * 0 = 0; omega
  funext y
  show k1_pay1 (iblk1 V c 0 t) (iblk1 V c 1 t) (iblk1 V c 2 t) (iblk1 V c 3 t) (iblk1 V c 4 t) (iblk1 V c 5 t) y
    = Cert.Sage.K.cols (V c main_v47) (V c main_v48) (V c main_v13) (V c main_v15) (V c main_v16) (V c main_v17)
        (((cfg1.win 6).blk t).view.emb y)
  have hemb : ((cfg1.win 6).blk t).view.emb y = ix2 (y 0) (col t.val ht (y 1)) := by
    funext a; apply Fin.ext
    match a with
    | ⟨0, _⟩ => show win1_6.index t (0 : Fin 2) * 3 + 1 * (y 0).val = (y 0).val; omega
    | ⟨1, _⟩ => show win1_6.index t (1 : Fin 2) * 51200 + 1 * (y 1).val = t.val * 51200 + (y 1).val; omega
  rw [hemb]
  exact block_eq_idx (iblk1 V c 0 t) (iblk1 V c 1 t) (iblk1 V c 2 t) (iblk1 V c 3 t) (iblk1 V c 4 t)
    (iblk1 V c 5 t) (V c main_v47) (V c main_v48) (V c main_v13) (V c main_v15) (V c main_v16) (V c main_v17)
    t.val ht r0 r1 r2 r3 r4 r5 y

/-- An entry of the output array lies in point `t`'s block iff each of its coordinates lies in the block's range. -/
theorem mem_blk (t : Fin cfg1.N) (i : S3x204800.Idx) :
    i ∈ ((cfg1.win 6).blk t).view.set ↔ ∀ a : Fin 2, win1_6.index t a * S3x51200.size a ≤ (i a).val
      ∧ (i a).val < win1_6.index t a * S3x51200.size a + S3x51200.size a := by
  show i ∈ ((View.whole main_v49).slice (win1_6.rect t)).set ↔ _
  rw [View.set_slice_whole, Rect.mem_set_unit]
  exact Iff.rfl

/-- Every entry of the output array is in the block of the point that owns its column. -/
theorem cover (i : S3x204800.Idx) :
    ∃ t : Fin cfg1.N, (cfg1.win 6).flush t = true ∧ i ∈ ((cfg1.win 6).blk t).view.set := by
  have hi0 : (i 0).val < 3 := (i 0).isLt
  have hi1 : (i 1).val < 204800 := (i 1).isLt
  have hN : grid1.N = 4 := N_1
  have hlt : (i 1).val / 51200 < grid1.N := by rw [hN]; omega
  obtain ⟨e00, e01, e10, e11, e20, e21, e30, e31, e40, e41, e50, e51, e60, e61, ht⟩ :=
    idx_facts (⟨(i 1).val / 51200, hlt⟩ : Fin cfg1.N)
  refine ⟨⟨(i 1).val / 51200, hlt⟩, flush1_6 _, ?_⟩
  rw [mem_blk]
  intro a
  match a with
  | ⟨0, _⟩ =>
    show win1_6.index ⟨(i 1).val / 51200, hlt⟩ (0 : Fin 2) * 3 ≤ (i 0).val
      ∧ (i 0).val < win1_6.index ⟨(i 1).val / 51200, hlt⟩ (0 : Fin 2) * 3 + 3
    omega
  | ⟨1, _⟩ =>
    show win1_6.index ⟨(i 1).val / 51200, hlt⟩ (1 : Fin 2) * 51200 ≤ (i 1).val
      ∧ (i 1).val < win1_6.index ⟨(i 1).val / 51200, hlt⟩ (1 : Fin 2) * 51200 + 51200
    have e : (⟨(i 1).val / 51200, hlt⟩ : Fin cfg1.N).val = (i 1).val / 51200 := rfl
    omega

/-- The output array after the launch: `cols` of the operand arrays as the launch found them. -/
theorem final (c : Dev nD) :
    (dat1 V c).arrAt 6 cfg1.N
      = Cert.Sage.K.cols (V c main_v47) (V c main_v48) (V c main_v13) (V c main_v15) (V c main_v16) (V c main_v17) :=
  (dat1 V c).arrAt_eq_of_cover 6 _ (fun t _ => flushed_eq V c t) (fun i => cover i)

end Cert.Sage.KReg1

end
-- ==== Proof.KHost1.lean ====
/-
  The host operations between launch 0 and launch 1, read as functions of whole arrays, from ANY buffer contents
  `V`: they cut the padding columns off the previous launch's output and lay it node-major (the layer's features
  `X`), gather the features of every edge's source, add them up at the edges' targets, and lay `X` and that sum
  feature-major again, padded: the two wide operands of launch 1. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost1

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps1_3 (F := Ideal)) (StableHlo.after (hostOps1_2 (F := Ideal))
    (StableHlo.after (hostOps1_1 (F := Ideal)) (StableHlo.after (hostOps1 (F := Ideal)) V)))

/-! ## Each stretch on its own -/

/-- The first stretch leaves the layer's features, feature-major, … -/
theorem s0_x : StableHlo.after (hostOps1 (F := Ideal)) V (Proc.devRef .tc main_v45)
    = transpose S3x200000 [1, 0] (Cert.Sage.K.unpadT (V (Proc.devRef .tc main_v32))) Facts₀.transposes_S200000x3_S3x200000_1_0 := by
  after_results
  all_goals rfl
set_option maxHeartbeats 1000000 in
/-- … the sums of the neighbours' features, feature-major, … -/
theorem s0_a : StableHlo.after (hostOps1 (F := Ideal)) V (Proc.devRef .tc main_v46)
    = transpose S3x200000 [1, 0] (Cert.Sage.K.agg (Cert.Sage.K.unpadT (V (Proc.devRef .tc main_v32)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps1 (F := Ideal)) V (Proc.devRef .tc main_c_11) = constantI S_ 32 0#32 := by
  after_results
/-- The second stretch pads the features. -/
theorem s1_x : StableHlo.after (hostOps1_1 (F := Ideal)) W (Proc.devRef .tc main_v47)
    = pad S3x204800 ![0, 0] ![0, 4800] ![0, 0] (W (Proc.devRef .tc main_v45)) (sitofp (F := Ideal) .f32 (W (Proc.devRef .tc main_c_11)))
        Facts₀.pads_S3x200000_S3x204800_000_048000 Facts₀.h_S_ := by
  after_results
  all_goals rfl
/-- The third stretch is the second padding value. -/
theorem s2_c : StableHlo.after (hostOps1_2 (F := Ideal)) W (Proc.devRef .tc main_c_12) = constantI S_ 32 0#32 := by
  after_results
/-- The fourth stretch pads the sums. -/
theorem s3_a : StableHlo.after (hostOps1_3 (F := Ideal)) W (Proc.devRef .tc main_v48)
    = pad S3x204800 ![0, 0] ![0, 4800] ![0, 0] (W (Proc.devRef .tc main_v46)) (sitofp (F := Ideal) .f32 (W (Proc.devRef .tc main_c_12)))
        Facts₀.pads_S3x200000_S3x204800_000_048000 Facts₀.h_S_ := by
  after_results
  all_goals rfl

/-! ## What the stretches do not write -/

theorem k3_x : StableHlo.after (hostOps1_3 (F := Ideal)) W (Proc.devRef .tc main_v47) = W (Proc.devRef .tc main_v47) := by stretch_keeps hostOps1_3
theorem k2_x : StableHlo.after (hostOps1_2 (F := Ideal)) W (Proc.devRef .tc main_v47) = W (Proc.devRef .tc main_v47) := by stretch_keeps hostOps1_2
theorem k2_a : StableHlo.after (hostOps1_2 (F := Ideal)) W (Proc.devRef .tc main_v46) = W (Proc.devRef .tc main_v46) := by stretch_keeps hostOps1_2
theorem k1_a : StableHlo.after (hostOps1_1 (F := Ideal)) W (Proc.devRef .tc main_v46) = W (Proc.devRef .tc main_v46) := by stretch_keeps hostOps1_1
theorem k0_v1 : StableHlo.after (hostOps1 (F := Ideal)) W (Proc.devRef .tc main_v1) = W (Proc.devRef .tc main_v1) := by stretch_keeps hostOps1
theorem k1_v1 : StableHlo.after (hostOps1_1 (F := Ideal)) W (Proc.devRef .tc main_v1) = W (Proc.devRef .tc main_v1) := by stretch_keeps hostOps1_1
theorem k2_v1 : StableHlo.after (hostOps1_2 (F := Ideal)) W (Proc.devRef .tc main_v1) = W (Proc.devRef .tc main_v1) := by stretch_keeps hostOps1_2
theorem k3_v1 : StableHlo.after (hostOps1_3 (F := Ideal)) W (Proc.devRef .tc main_v1) = W (Proc.devRef .tc main_v1) := by stretch_keeps hostOps1_3
theorem k0_v3 : StableHlo.after (hostOps1 (F := Ideal)) W (Proc.devRef .tc main_v3) = W (Proc.devRef .tc main_v3) := by stretch_keeps hostOps1
theorem k1_v3 : StableHlo.after (hostOps1_1 (F := Ideal)) W (Proc.devRef .tc main_v3) = W (Proc.devRef .tc main_v3) := by stretch_keeps hostOps1_1
theorem k2_v3 : StableHlo.after (hostOps1_2 (F := Ideal)) W (Proc.devRef .tc main_v3) = W (Proc.devRef .tc main_v3) := by stretch_keeps hostOps1_2
theorem k3_v3 : StableHlo.after (hostOps1_3 (F := Ideal)) W (Proc.devRef .tc main_v3) = W (Proc.devRef .tc main_v3) := by stretch_keeps hostOps1_3
theorem k0_v13 : StableHlo.after (hostOps1 (F := Ideal)) W (Proc.devRef .tc main_v13) = W (Proc.devRef .tc main_v13) := by stretch_keeps hostOps1
theorem k1_v13 : StableHlo.after (hostOps1_1 (F := Ideal)) W (Proc.devRef .tc main_v13) = W (Proc.devRef .tc main_v13) := by stretch_keeps hostOps1_1
theorem k2_v13 : StableHlo.after (hostOps1_2 (F := Ideal)) W (Proc.devRef .tc main_v13) = W (Proc.devRef .tc main_v13) := by stretch_keeps hostOps1_2
theorem k3_v13 : StableHlo.after (hostOps1_3 (F := Ideal)) W (Proc.devRef .tc main_v13) = W (Proc.devRef .tc main_v13) := by stretch_keeps hostOps1_3
theorem k0_v15 : StableHlo.after (hostOps1 (F := Ideal)) W (Proc.devRef .tc main_v15) = W (Proc.devRef .tc main_v15) := by stretch_keeps hostOps1
theorem k1_v15 : StableHlo.after (hostOps1_1 (F := Ideal)) W (Proc.devRef .tc main_v15) = W (Proc.devRef .tc main_v15) := by stretch_keeps hostOps1_1
theorem k2_v15 : StableHlo.after (hostOps1_2 (F := Ideal)) W (Proc.devRef .tc main_v15) = W (Proc.devRef .tc main_v15) := by stretch_keeps hostOps1_2
theorem k3_v15 : StableHlo.after (hostOps1_3 (F := Ideal)) W (Proc.devRef .tc main_v15) = W (Proc.devRef .tc main_v15) := by stretch_keeps hostOps1_3
theorem k0_v16 : StableHlo.after (hostOps1 (F := Ideal)) W (Proc.devRef .tc main_v16) = W (Proc.devRef .tc main_v16) := by stretch_keeps hostOps1
theorem k1_v16 : StableHlo.after (hostOps1_1 (F := Ideal)) W (Proc.devRef .tc main_v16) = W (Proc.devRef .tc main_v16) := by stretch_keeps hostOps1_1
theorem k2_v16 : StableHlo.after (hostOps1_2 (F := Ideal)) W (Proc.devRef .tc main_v16) = W (Proc.devRef .tc main_v16) := by stretch_keeps hostOps1_2
theorem k3_v16 : StableHlo.after (hostOps1_3 (F := Ideal)) W (Proc.devRef .tc main_v16) = W (Proc.devRef .tc main_v16) := by stretch_keeps hostOps1_3
theorem k0_v17 : StableHlo.after (hostOps1 (F := Ideal)) W (Proc.devRef .tc main_v17) = W (Proc.devRef .tc main_v17) := by stretch_keeps hostOps1
theorem k1_v17 : StableHlo.after (hostOps1_1 (F := Ideal)) W (Proc.devRef .tc main_v17) = W (Proc.devRef .tc main_v17) := by stretch_keeps hostOps1_1
theorem k2_v17 : StableHlo.after (hostOps1_2 (F := Ideal)) W (Proc.devRef .tc main_v17) = W (Proc.devRef .tc main_v17) := by stretch_keeps hostOps1_2
theorem k3_v17 : StableHlo.after (hostOps1_3 (F := Ideal)) W (Proc.devRef .tc main_v17) = W (Proc.devRef .tc main_v17) := by stretch_keeps hostOps1_3

/-! ## The four stretches chained -/

/-- Launch 1's first operand: the layer's features, feature-major and padded. -/
theorem entry_x : step V (Proc.devRef .tc main_v47) = Cert.Sage.K.padT (Cert.Sage.K.unpadT (V (Proc.devRef .tc main_v32))) := by
  refine (k3_x _).trans ((k2_x _).trans ((s1_x _).trans ?_))
  rw [s0_x, s0_c]
  rfl

/-- Launch 1's second operand: the sums of the neighbours' features, feature-major and padded. -/
theorem entry_a : step V (Proc.devRef .tc main_v48)
    = Cert.Sage.K.padT (Cert.Sage.K.agg (Cert.Sage.K.unpadT (V (Proc.devRef .tc main_v32)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost1

end
-- ==== Proof.KStep1.lean ====
/-
  Layer 1 of the kernel program's run: if launch 0 left `O (p-1)` in its output array, with the edge lists and the
  four once-computed operands in their buffers, then launch 1 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg1
import proofs.«147323_j54408645706323_1_alg».proof.Proof.KHost1

set_option maxRecDepth 16384

noncomputable section

namespace Cert.Sage.KStep1

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W7 m ρ c (Proc.devRef .tc main_v32) = O v1 v3 Wt bb x0 0)
    (h1 : W7 m ρ c (Proc.devRef .tc main_v1) = v1) (h3 : W7 m ρ c (Proc.devRef .tc main_v3) = v3)
    (h13 : W7 m ρ c (Proc.devRef .tc main_v13) = inv v3) (h15 : W7 m ρ c (Proc.devRef .tc main_v15) = wx Wt)
    (h16 : W7 m ρ c (Proc.devRef .tc main_v16) = wm Wt) (h17 : W7 m ρ c (Proc.devRef .tc main_v17) = bc bb) :
    W12 m ρ c (Proc.devRef .tc main_v49) = O v1 v3 Wt bb x0 1
    ∧ W12 m ρ c (Proc.devRef .tc main_v1) = v1 ∧ W12 m ρ c (Proc.devRef .tc main_v3) = v3
    ∧ W12 m ρ c (Proc.devRef .tc main_v13) = inv v3 ∧ W12 m ρ c (Proc.devRef .tc main_v15) = wx Wt
    ∧ W12 m ρ c (Proc.devRef .tc main_v16) = wm Wt ∧ W12 m ρ c (Proc.devRef .tc main_v17) = bc bb := by
  -- the launch's operands at its entry
  have ex : W11 m ρ c (Proc.devRef .tc main_v47) = padT (X v1 v3 Wt bb x0 1) := by
    refine (Cert.Sage.KHost1.entry_x (W7 m ρ c)).trans ?_
    rw [ho, unpadT_O]
  have ea : W11 m ρ c (Proc.devRef .tc main_v48) = padT (agg (X v1 v3 Wt bb x0 1) v1 v3) := by
    refine (Cert.Sage.KHost1.entry_a (W7 m ρ c)).trans ?_
    rw [ho, unpadT_O, h1, h3]
  have e1 : W11 m ρ c (Proc.devRef .tc main_v1) = v1 := (Cert.Sage.KHost1.kept_v1 (W7 m ρ c)).trans h1
  have e3 : W11 m ρ c (Proc.devRef .tc main_v3) = v3 := (Cert.Sage.KHost1.kept_v3 (W7 m ρ c)).trans h3
  have e13 : W11 m ρ c (Proc.devRef .tc main_v13) = inv v3 := (Cert.Sage.KHost1.kept_v13 (W7 m ρ c)).trans h13
  have e15 : W11 m ρ c (Proc.devRef .tc main_v15) = wx Wt := (Cert.Sage.KHost1.kept_v15 (W7 m ρ c)).trans h15
  have e16 : W11 m ρ c (Proc.devRef .tc main_v16) = wm Wt := (Cert.Sage.KHost1.kept_v16 (W7 m ρ c)).trans h16
  have e17 : W11 m ρ c (Proc.devRef .tc main_v17) = bc bb := (Cert.Sage.KHost1.kept_v17 (W7 m ρ c)).trans h17
  -- an operand array of the launch is left as entered
  have hin : ∀ w : Fin cfg1.W, (cfg1.win w).isOut = false →
      W12 m ρ c (Proc.devRef .tc (Pipeline.arrRef spec1 w)) = V11 m ρ c (Pipeline.arrRef spec1 w) := fun w hw =>
    (W12_arr m ρ c w).trans (((dat1 (V11 m ρ) c).arrAt_in w hw cfg1.N).trans (A_eq1 (V11 m ρ) c w))
  refine ⟨?_, ?_, ?_, ?_, ?_, ?_, ?_⟩
  · refine (W12_arr m ρ c 6).trans ?_
    rw [Cert.Sage.KReg1.final (V11 m ρ) c]
    show cols (W11 m ρ c (Proc.devRef .tc main_v47)) (W11 m ρ c (Proc.devRef .tc main_v48))
      (W11 m ρ c (Proc.devRef .tc main_v13)) (W11 m ρ c (Proc.devRef .tc main_v15))
      (W11 m ρ c (Proc.devRef .tc main_v16)) (W11 m ρ c (Proc.devRef .tc main_v17)) = _
    rw [ex, ea, e13, e15, e16, e17]
    rfl
  · exact (W12_of_ne m ρ c main_v1 (by decide)).trans e1
  · exact (W12_of_ne m ρ c main_v3 (by decide)).trans e3
  · exact (hin 2 rfl).trans e13
  · exact (hin 3 rfl).trans e15
  · exact (hin 4 rfl).trans e16
  · exact (hin 5 rfl).trans e17

end Cert.Sage.KStep1

end
-- ==== Proof.KReg2.lean ====
/-
  Launch 2 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg2

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg2.N,
    win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = t.val
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = t.val ∧ t.val < 4 :=
  (by decide +kernel : ∀ t : Fin grid2.N, _)

/-- What point `t` writes back is block `t` of `cols` of the operand arrays as the launch finds them. -/
theorem flushed_eq (c : Dev nD) (t : Fin cfg2.N) :
    (dat2 V c).flushed 6 t = ((cfg2.win 6).blk t).view.read (Elt Ideal)
      (Cert.Sage.K.cols (V c main_v64) (V c main_v65) (V c main_v13) (V c main_v15) (V c main_v16) (V c main_v17)) := by
  show (cfg2.win 6).cut (grid2.coords t) ((dat2 V c).after 6 t) = _
  rw [after2_6]
  unfold out2_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk2 V c 0 t (ix2 k q) = V c main_v64 (ix2 k (col t.val ht q)) := fun k q => by
    show V c main_v64 (((cfg2.win 0).blk t).view.emb (ix2 k q)) = _
    refine congrArg (V c main_v64) ?_
    funext a; apply Fin.ext
    match a with
    | ⟨0, _⟩ => show win2_0.index t (0 : Fin 2) * 3 + 1 * k.val = k.val; omega
    | ⟨1, _⟩ => show win2_0.index t (1 : Fin 2) * 51200 + 1 * q.val = t.val * 51200 + q.val; omega
  have r1 : ∀ (k : Fin 3) (q : Fin 51200), iblk2 V c 1 t (ix2 k q) = V c main_v65 (ix2 k (col t.val ht q)) := fun k q => by
    show V c main_v65 (((cfg2.win 1).blk t).view.emb (ix2 k q)) = _
    refine congrArg (V c main_v65) ?_
    funext a; apply Fin.ext
    match a with
    | ⟨0, _⟩ => show win2_1.index t (0 : Fin 2) * 3 + 1 * k.val = k.val; omega
    | ⟨1, _⟩ => show win2_1.index t (1 : Fin 2) * 51200 + 1 * q.val = t.val * 51200 + q.val; omega
  have r2 : ∀ q : Fin 51200, iblk2 V c 2 t (ix2 (0 : Fin 1) q) = V c main_v13 (ix2 (0 : Fin 1) (col t.val ht q)) := fun q => by
    show V c main_v13 (((cfg2.win 2).blk t).view.emb (ix2 (0 : Fin 1) q)) = _
    refine congrArg (V c main_v13) ?_
    funext a; apply Fin.ext
    match a with
    | ⟨0, _⟩ => show win2_2.index t (0 : Fin 2) * 1 + 1 * 0 = 0; omega
    | ⟨1, _⟩ => show win2_2.index t (1 : Fin 2) * 51200 + 1 * q.val = t.val * 51200 + q.val; omega
  have r3 : ∀ j k : Fin 3, iblk2 V c 3 t (ix2 j k) = V c main_v15 (ix2 j k) := fun j k => by
    show V c main_v15 (((cfg2.win 3).blk t).view.emb (ix2 j k)) = _
    refine congrArg (V c main_v15) ?_
    funext a; apply Fin.ext
    match a with
    | ⟨0, _⟩ => show win2_3.index t (0 : Fin 2) * 3 + 1 * j.val = j.val; omega
    | ⟨1, _⟩ => show win2_3.index t (1 : Fin 2) * 3 + 1 * k.val = k.val; omega
  have r4 : ∀ j k : Fin 3, iblk2 V c 4 t (ix2 j k) = V c main_v16 (ix2 j k) := fun j k => by
    show V c main_v16 (((cfg2.win 4).blk t).view.emb (ix2 j k)) = _
    refine congrArg (V c main_v16) ?_
    funext a; apply Fin.ext
    match a with
    | ⟨0, _⟩ => show win2_4.index t (0 : Fin 2) * 3 + 1 * j.val = j.val; omega
    | ⟨1, _⟩ => show win2_4.index t (1 : Fin 2) * 3 + 1 * k.val = k.val; omega
  have r5 : ∀ j : Fin 3, iblk2 V c 5 t (ix2 j (0 : Fin 1)) = V c main_v17 (ix2 j (0 : Fin 1)) := fun j => by
    show V c main_v17 (((cfg2.win 5).blk t).view.emb (ix2 j (0 : Fin 1))) = _
    refine congrArg (V c main_v17) ?_
    funext a; apply Fin.ext
    match a with
    | ⟨0, _⟩ => show win2_5.index t (0 : Fin 2) * 3 + 1 * j.val = j.val; omega
    | ⟨1, _⟩ => show win2_5.index t (1 : Fin 2) * 1 + 1 * 0 = 0; omega
  funext y
  show k2_pay1 (iblk2 V c 0 t) (iblk2 V c 1 t) (iblk2 V c 2 t) (iblk2 V c 3 t) (iblk2 V c 4 t) (iblk2 V c 5 t) y
    = Cert.Sage.K.cols (V c main_v64) (V c main_v65) (V c main_v13) (V c main_v15) (V c main_v16) (V c main_v17)
        (((cfg2.win 6).blk t).view.emb y)
  have hemb : ((cfg2.win 6).blk t).view.emb y = ix2 (y 0) (col t.val ht (y 1)) := by
    funext a; apply Fin.ext
    match a with
    | ⟨0, _⟩ => show win2_6.index t (0 : Fin 2) * 3 + 1 * (y 0).val = (y 0).val; omega
    | ⟨1, _⟩ => show win2_6.index t (1 : Fin 2) * 51200 + 1 * (y 1).val = t.val * 51200 + (y 1).val; omega
  rw [hemb]
  exact block_eq_idx (iblk2 V c 0 t) (iblk2 V c 1 t) (iblk2 V c 2 t) (iblk2 V c 3 t) (iblk2 V c 4 t)
    (iblk2 V c 5 t) (V c main_v64) (V c main_v65) (V c main_v13) (V c main_v15) (V c main_v16) (V c main_v17)
    t.val ht r0 r1 r2 r3 r4 r5 y

/-- An entry of the output array lies in point `t`'s block iff each of its coordinates lies in the block's range. -/
theorem mem_blk (t : Fin cfg2.N) (i : S3x204800.Idx) :
    i ∈ ((cfg2.win 6).blk t).view.set ↔ ∀ a : Fin 2, win2_6.index t a * S3x51200.size a ≤ (i a).val
      ∧ (i a).val < win2_6.index t a * S3x51200.size a + S3x51200.size a := by
  show i ∈ ((View.whole main_v66).slice (win2_6.rect t)).set ↔ _
  rw [View.set_slice_whole, Rect.mem_set_unit]
  exact Iff.rfl

/-- Every entry of the output array is in the block of the point that owns its column. -/
theorem cover (i : S3x204800.Idx) :
    ∃ t : Fin cfg2.N, (cfg2.win 6).flush t = true ∧ i ∈ ((cfg2.win 6).blk t).view.set := by
  have hi0 : (i 0).val < 3 := (i 0).isLt
  have hi1 : (i 1).val < 204800 := (i 1).isLt
  have hN : grid2.N = 4 := N_2
  have hlt : (i 1).val / 51200 < grid2.N := by rw [hN]; omega
  obtain ⟨e00, e01, e10, e11, e20, e21, e30, e31, e40, e41, e50, e51, e60, e61, ht⟩ :=
    idx_facts (⟨(i 1).val / 51200, hlt⟩ : Fin cfg2.N)
  refine ⟨⟨(i 1).val / 51200, hlt⟩, flush2_6 _, ?_⟩
  rw [mem_blk]
  intro a
  match a with
  | ⟨0, _⟩ =>
    show win2_6.index ⟨(i 1).val / 51200, hlt⟩ (0 : Fin 2) * 3 ≤ (i 0).val
      ∧ (i 0).val < win2_6.index ⟨(i 1).val / 51200, hlt⟩ (0 : Fin 2) * 3 + 3
    omega
  | ⟨1, _⟩ =>
    show win2_6.index ⟨(i 1).val / 51200, hlt⟩ (1 : Fin 2) * 51200 ≤ (i 1).val
      ∧ (i 1).val < win2_6.index ⟨(i 1).val / 51200, hlt⟩ (1 : Fin 2) * 51200 + 51200
    have e : (⟨(i 1).val / 51200, hlt⟩ : Fin cfg2.N).val = (i 1).val / 51200 := rfl
    omega

/-- The output array after the launch: `cols` of the operand arrays as the launch found them. -/
theorem final (c : Dev nD) :
    (dat2 V c).arrAt 6 cfg2.N
      = Cert.Sage.K.cols (V c main_v64) (V c main_v65) (V c main_v13) (V c main_v15) (V c main_v16) (V c main_v17) :=
  (dat2 V c).arrAt_eq_of_cover 6 _ (fun t _ => flushed_eq V c t) (fun i => cover i)

end Cert.Sage.KReg2

end
-- ==== Proof.KHost2.lean ====
/-
  The host operations between launch 1 and launch 2, read as functions of whole arrays, from ANY buffer contents
  `V`: they cut the padding columns off the previous launch's output and lay it node-major (the layer's features
  `X`), gather the features of every edge's source, add them up at the edges' targets, and lay `X` and that sum
  feature-major again, padded: the two wide operands of launch 2. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost2

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps2_3 (F := Ideal)) (StableHlo.after (hostOps2_2 (F := Ideal))
    (StableHlo.after (hostOps2_1 (F := Ideal)) (StableHlo.after (hostOps2 (F := Ideal)) V)))

/-! ## Each stretch on its own -/

/-- The first stretch leaves the layer's features, feature-major, … -/
theorem s0_x : StableHlo.after (hostOps2 (F := Ideal)) V (Proc.devRef .tc main_v62)
    = transpose S3x200000 [1, 0] (Cert.Sage.K.unpadT (V (Proc.devRef .tc main_v49))) Facts₀.transposes_S200000x3_S3x200000_1_0 := by
  after_results
  all_goals rfl
set_option maxHeartbeats 1000000 in
/-- … the sums of the neighbours' features, feature-major, … -/
theorem s0_a : StableHlo.after (hostOps2 (F := Ideal)) V (Proc.devRef .tc main_v63)
    = transpose S3x200000 [1, 0] (Cert.Sage.K.agg (Cert.Sage.K.unpadT (V (Proc.devRef .tc main_v49)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps2 (F := Ideal)) V (Proc.devRef .tc main_c_16) = constantI S_ 32 0#32 := by
  after_results
/-- The second stretch pads the features. -/
theorem s1_x : StableHlo.after (hostOps2_1 (F := Ideal)) W (Proc.devRef .tc main_v64)
    = pad S3x204800 ![0, 0] ![0, 4800] ![0, 0] (W (Proc.devRef .tc main_v62)) (sitofp (F := Ideal) .f32 (W (Proc.devRef .tc main_c_16)))
        Facts₀.pads_S3x200000_S3x204800_000_048000 Facts₀.h_S_ := by
  after_results
  all_goals rfl
/-- The third stretch is the second padding value. -/
theorem s2_c : StableHlo.after (hostOps2_2 (F := Ideal)) W (Proc.devRef .tc main_c_17) = constantI S_ 32 0#32 := by
  after_results
/-- The fourth stretch pads the sums. -/
theorem s3_a : StableHlo.after (hostOps2_3 (F := Ideal)) W (Proc.devRef .tc main_v65)
    = pad S3x204800 ![0, 0] ![0, 4800] ![0, 0] (W (Proc.devRef .tc main_v63)) (sitofp (F := Ideal) .f32 (W (Proc.devRef .tc main_c_17)))
        Facts₀.pads_S3x200000_S3x204800_000_048000 Facts₀.h_S_ := by
  after_results
  all_goals rfl

/-! ## What the stretches do not write -/

theorem k3_x : StableHlo.after (hostOps2_3 (F := Ideal)) W (Proc.devRef .tc main_v64) = W (Proc.devRef .tc main_v64) := by stretch_keeps hostOps2_3
theorem k2_x : StableHlo.after (hostOps2_2 (F := Ideal)) W (Proc.devRef .tc main_v64) = W (Proc.devRef .tc main_v64) := by stretch_keeps hostOps2_2
theorem k2_a : StableHlo.after (hostOps2_2 (F := Ideal)) W (Proc.devRef .tc main_v63) = W (Proc.devRef .tc main_v63) := by stretch_keeps hostOps2_2
theorem k1_a : StableHlo.after (hostOps2_1 (F := Ideal)) W (Proc.devRef .tc main_v63) = W (Proc.devRef .tc main_v63) := by stretch_keeps hostOps2_1
theorem k0_v1 : StableHlo.after (hostOps2 (F := Ideal)) W (Proc.devRef .tc main_v1) = W (Proc.devRef .tc main_v1) := by stretch_keeps hostOps2
theorem k1_v1 : StableHlo.after (hostOps2_1 (F := Ideal)) W (Proc.devRef .tc main_v1) = W (Proc.devRef .tc main_v1) := by stretch_keeps hostOps2_1
theorem k2_v1 : StableHlo.after (hostOps2_2 (F := Ideal)) W (Proc.devRef .tc main_v1) = W (Proc.devRef .tc main_v1) := by stretch_keeps hostOps2_2
theorem k3_v1 : StableHlo.after (hostOps2_3 (F := Ideal)) W (Proc.devRef .tc main_v1) = W (Proc.devRef .tc main_v1) := by stretch_keeps hostOps2_3
theorem k0_v3 : StableHlo.after (hostOps2 (F := Ideal)) W (Proc.devRef .tc main_v3) = W (Proc.devRef .tc main_v3) := by stretch_keeps hostOps2
theorem k1_v3 : StableHlo.after (hostOps2_1 (F := Ideal)) W (Proc.devRef .tc main_v3) = W (Proc.devRef .tc main_v3) := by stretch_keeps hostOps2_1
theorem k2_v3 : StableHlo.after (hostOps2_2 (F := Ideal)) W (Proc.devRef .tc main_v3) = W (Proc.devRef .tc main_v3) := by stretch_keeps hostOps2_2
theorem k3_v3 : StableHlo.after (hostOps2_3 (F := Ideal)) W (Proc.devRef .tc main_v3) = W (Proc.devRef .tc main_v3) := by stretch_keeps hostOps2_3
theorem k0_v13 : StableHlo.after (hostOps2 (F := Ideal)) W (Proc.devRef .tc main_v13) = W (Proc.devRef .tc main_v13) := by stretch_keeps hostOps2
theorem k1_v13 : StableHlo.after (hostOps2_1 (F := Ideal)) W (Proc.devRef .tc main_v13) = W (Proc.devRef .tc main_v13) := by stretch_keeps hostOps2_1
theorem k2_v13 : StableHlo.after (hostOps2_2 (F := Ideal)) W (Proc.devRef .tc main_v13) = W (Proc.devRef .tc main_v13) := by stretch_keeps hostOps2_2
theorem k3_v13 : StableHlo.after (hostOps2_3 (F := Ideal)) W (Proc.devRef .tc main_v13) = W (Proc.devRef .tc main_v13) := by stretch_keeps hostOps2_3
theorem k0_v15 : StableHlo.after (hostOps2 (F := Ideal)) W (Proc.devRef .tc main_v15) = W (Proc.devRef .tc main_v15) := by stretch_keeps hostOps2
theorem k1_v15 : StableHlo.after (hostOps2_1 (F := Ideal)) W (Proc.devRef .tc main_v15) = W (Proc.devRef .tc main_v15) := by stretch_keeps hostOps2_1
theorem k2_v15 : StableHlo.after (hostOps2_2 (F := Ideal)) W (Proc.devRef .tc main_v15) = W (Proc.devRef .tc main_v15) := by stretch_keeps hostOps2_2
theorem k3_v15 : StableHlo.after (hostOps2_3 (F := Ideal)) W (Proc.devRef .tc main_v15) = W (Proc.devRef .tc main_v15) := by stretch_keeps hostOps2_3
theorem k0_v16 : StableHlo.after (hostOps2 (F := Ideal)) W (Proc.devRef .tc main_v16) = W (Proc.devRef .tc main_v16) := by stretch_keeps hostOps2
theorem k1_v16 : StableHlo.after (hostOps2_1 (F := Ideal)) W (Proc.devRef .tc main_v16) = W (Proc.devRef .tc main_v16) := by stretch_keeps hostOps2_1
theorem k2_v16 : StableHlo.after (hostOps2_2 (F := Ideal)) W (Proc.devRef .tc main_v16) = W (Proc.devRef .tc main_v16) := by stretch_keeps hostOps2_2
theorem k3_v16 : StableHlo.after (hostOps2_3 (F := Ideal)) W (Proc.devRef .tc main_v16) = W (Proc.devRef .tc main_v16) := by stretch_keeps hostOps2_3
theorem k0_v17 : StableHlo.after (hostOps2 (F := Ideal)) W (Proc.devRef .tc main_v17) = W (Proc.devRef .tc main_v17) := by stretch_keeps hostOps2
theorem k1_v17 : StableHlo.after (hostOps2_1 (F := Ideal)) W (Proc.devRef .tc main_v17) = W (Proc.devRef .tc main_v17) := by stretch_keeps hostOps2_1
theorem k2_v17 : StableHlo.after (hostOps2_2 (F := Ideal)) W (Proc.devRef .tc main_v17) = W (Proc.devRef .tc main_v17) := by stretch_keeps hostOps2_2
theorem k3_v17 : StableHlo.after (hostOps2_3 (F := Ideal)) W (Proc.devRef .tc main_v17) = W (Proc.devRef .tc main_v17) := by stretch_keeps hostOps2_3

/-! ## The four stretches chained -/

/-- Launch 2's first operand: the layer's features, feature-major and padded. -/
theorem entry_x : step V (Proc.devRef .tc main_v64) = Cert.Sage.K.padT (Cert.Sage.K.unpadT (V (Proc.devRef .tc main_v49))) := by
  refine (k3_x _).trans ((k2_x _).trans ((s1_x _).trans ?_))
  rw [s0_x, s0_c]
  rfl

/-- Launch 2's second operand: the sums of the neighbours' features, feature-major and padded. -/
theorem entry_a : step V (Proc.devRef .tc main_v65)
    = Cert.Sage.K.padT (Cert.Sage.K.agg (Cert.Sage.K.unpadT (V (Proc.devRef .tc main_v49)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost2

end
-- ==== Proof.KStep2.lean ====
/-
  Layer 2 of the kernel program's run: if launch 1 left `O (p-1)` in its output array, with the edge lists and the
  four once-computed operands in their buffers, then launch 2 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg2
import proofs.«147323_j54408645706323_1_alg».proof.Proof.KHost2

set_option maxRecDepth 16384

noncomputable section

namespace Cert.Sage.KStep2

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W12 m ρ c (Proc.devRef .tc main_v49) = O v1 v3 Wt bb x0 1)
    (h1 : W12 m ρ c (Proc.devRef .tc main_v1) = v1) (h3 : W12 m ρ c (Proc.devRef .tc main_v3) = v3)
    (h13 : W12 m ρ c (Proc.devRef .tc main_v13) = inv v3) (h15 : W12 m ρ c (Proc.devRef .tc main_v15) = wx Wt)
    (h16 : W12 m ρ c (Proc.devRef .tc main_v16) = wm Wt) (h17 : W12 m ρ c (Proc.devRef .tc main_v17) = bc bb) :
    W17 m ρ c (Proc.devRef .tc main_v66) = O v1 v3 Wt bb x0 2
    ∧ W17 m ρ c (Proc.devRef .tc main_v1) = v1 ∧ W17 m ρ c (Proc.devRef .tc main_v3) = v3
    ∧ W17 m ρ c (Proc.devRef .tc main_v13) = inv v3 ∧ W17 m ρ c (Proc.devRef .tc main_v15) = wx Wt
    ∧ W17 m ρ c (Proc.devRef .tc main_v16) = wm Wt ∧ W17 m ρ c (Proc.devRef .tc main_v17) = bc bb := by
  -- the launch's operands at its entry
  have ex : W16 m ρ c (Proc.devRef .tc main_v64) = padT (X v1 v3 Wt bb x0 2) := by
    refine (Cert.Sage.KHost2.entry_x (W12 m ρ c)).trans ?_
    rw [ho, unpadT_O]
  have ea : W16 m ρ c (Proc.devRef .tc main_v65) = padT (agg (X v1 v3 Wt bb x0 2) v1 v3) := by
    refine (Cert.Sage.KHost2.entry_a (W12 m ρ c)).trans ?_
    rw [ho, unpadT_O, h1, h3]
  have e1 : W16 m ρ c (Proc.devRef .tc main_v1) = v1 := (Cert.Sage.KHost2.kept_v1 (W12 m ρ c)).trans h1
  have e3 : W16 m ρ c (Proc.devRef .tc main_v3) = v3 := (Cert.Sage.KHost2.kept_v3 (W12 m ρ c)).trans h3
  have e13 : W16 m ρ c (Proc.devRef .tc main_v13) = inv v3 := (Cert.Sage.KHost2.kept_v13 (W12 m ρ c)).trans h13
  have e15 : W16 m ρ c (Proc.devRef .tc main_v15) = wx Wt := (Cert.Sage.KHost2.kept_v15 (W12 m ρ c)).trans h15
  have e16 : W16 m ρ c (Proc.devRef .tc main_v16) = wm Wt := (Cert.Sage.KHost2.kept_v16 (W12 m ρ c)).trans h16
  have e17 : W16 m ρ c (Proc.devRef .tc main_v17) = bc bb := (Cert.Sage.KHost2.kept_v17 (W12 m ρ c)).trans h17
  -- an operand array of the launch is left as entered
  have hin : ∀ w : Fin cfg2.W, (cfg2.win w).isOut = false →
      W17 m ρ c (Proc.devRef .tc (Pipeline.arrRef spec2 w)) = V16 m ρ c (Pipeline.arrRef spec2 w) := fun w hw =>
    (W17_arr m ρ c w).trans (((dat2 (V16 m ρ) c).arrAt_in w hw cfg2.N).trans (A_eq2 (V16 m ρ) c w))
  refine ⟨?_, ?_, ?_, ?_, ?_, ?_, ?_⟩
  · refine (W17_arr m ρ c 6).trans ?_
    rw [Cert.Sage.KReg2.final (V16 m ρ) c]
    show cols (W16 m ρ c (Proc.devRef .tc main_v64)) (W16 m ρ c (Proc.devRef .tc main_v65))
      (W16 m ρ c (Proc.devRef .tc main_v13)) (W16 m ρ c (Proc.devRef .tc main_v15))
      (W16 m ρ c (Proc.devRef .tc main_v16)) (W16 m ρ c (Proc.devRef .tc main_v17)) = _
    rw [ex, ea, e13, e15, e16, e17]
    rfl
  · exact (W17_of_ne m ρ c main_v1 (by decide)).trans e1
  · exact (W17_of_ne m ρ c main_v3 (by decide)).trans e3
  · exact (hin 2 rfl).trans e13
  · exact (hin 3 rfl).trans e15
  · exact (hin 4 rfl).trans e16
  · exact (hin 5 rfl).trans e17

end Cert.Sage.KStep2

end
-- ==== Proof.KReg3.lean ====
/-
  Launch 3 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg3

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg3.N,
    win3_0.index t (0 : Fin 2) = 0 ∧ win3_0.index t (1 : Fin 2) = t.val
    ∧ win3_1.index t (0 : Fin 2) = 0 ∧ win3_1.index t (1 : Fin 2) = t.val
    ∧ win3_2.index t (0 : Fin 2) = 0 ∧ win3_2.index t (1 : Fin 2) = t.val
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = t.val ∧ t.val < 4 :=
  (by decide +kernel : ∀ t : Fin grid3.N, _)

/-- What point `t` writes back is block `t` of `cols` of the operand arrays as the launch finds them. -/
theorem flushed_eq (c : Dev nD) (t : Fin cfg3.N) :
    (dat3 V c).flushed 6 t = ((cfg3.win 6).blk t).view.read (Elt Ideal)
      (Cert.Sage.K.cols (V c main_v81) (V c main_v82) (V c main_v13) (V c main_v15) (V c main_v16) (V c main_v17)) := by
  show (cfg3.win 6).cut (grid3.coords t) ((dat3 V c).after 6 t) = _
  rw [after3_6]
  unfold out3_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk3 V c 0 t (ix2 k q) = V c main_v81 (ix2 k (col t.val ht q)) := fun k q => by
    show V c main_v81 (((cfg3.win 0).blk t).view.emb (ix2 k q)) = _
    refine congrArg (V c main_v81) ?_
    funext a; apply Fin.ext
    match a with
    | ⟨0, _⟩ => show win3_0.index t (0 : Fin 2) * 3 + 1 * k.val = k.val; omega
    | ⟨1, _⟩ => show win3_0.index t (1 : Fin 2) * 51200 + 1 * q.val = t.val * 51200 + q.val; omega
  have r1 : ∀ (k : Fin 3) (q : Fin 51200), iblk3 V c 1 t (ix2 k q) = V c main_v82 (ix2 k (col t.val ht q)) := fun k q => by
    show V c main_v82 (((cfg3.win 1).blk t).view.emb (ix2 k q)) = _
    refine congrArg (V c main_v82) ?_
    funext a; apply Fin.ext
    match a with
    | ⟨0, _⟩ => show win3_1.index t (0 : Fin 2) * 3 + 1 * k.val = k.val; omega
    | ⟨1, _⟩ => show win3_1.index t (1 : Fin 2) * 51200 + 1 * q.val = t.val * 51200 + q.val; omega
  have r2 : ∀ q : Fin 51200, iblk3 V c 2 t (ix2 (0 : Fin 1) q) = V c main_v13 (ix2 (0 : Fin 1) (col t.val ht q)) := fun q => by
    show V c main_v13 (((cfg3.win 2).blk t).view.emb (ix2 (0 : Fin 1) q)) = _
    refine congrArg (V c main_v13) ?_
    funext a; apply Fin.ext
    match a with
    | ⟨0, _⟩ => show win3_2.index t (0 : Fin 2) * 1 + 1 * 0 = 0; omega
    | ⟨1, _⟩ => show win3_2.index t (1 : Fin 2) * 51200 + 1 * q.val = t.val * 51200 + q.val; omega
  have r3 : ∀ j k : Fin 3, iblk3 V c 3 t (ix2 j k) = V c main_v15 (ix2 j k) := fun j k => by
    show V c main_v15 (((cfg3.win 3).blk t).view.emb (ix2 j k)) = _
    refine congrArg (V c main_v15) ?_
    funext a; apply Fin.ext
    match a with
    | ⟨0, _⟩ => show win3_3.index t (0 : Fin 2) * 3 + 1 * j.val = j.val; omega
    | ⟨1, _⟩ => show win3_3.index t (1 : Fin 2) * 3 + 1 * k.val = k.val; omega
  have r4 : ∀ j k : Fin 3, iblk3 V c 4 t (ix2 j k) = V c main_v16 (ix2 j k) := fun j k => by
    show V c main_v16 (((cfg3.win 4).blk t).view.emb (ix2 j k)) = _
    refine congrArg (V c main_v16) ?_
    funext a; apply Fin.ext
    match a with
    | ⟨0, _⟩ => show win3_4.index t (0 : Fin 2) * 3 + 1 * j.val = j.val; omega
    | ⟨1, _⟩ => show win3_4.index t (1 : Fin 2) * 3 + 1 * k.val = k.val; omega
  have r5 : ∀ j : Fin 3, iblk3 V c 5 t (ix2 j (0 : Fin 1)) = V c main_v17 (ix2 j (0 : Fin 1)) := fun j => by
    show V c main_v17 (((cfg3.win 5).blk t).view.emb (ix2 j (0 : Fin 1))) = _
    refine congrArg (V c main_v17) ?_
    funext a; apply Fin.ext
    match a with
    | ⟨0, _⟩ => show win3_5.index t (0 : Fin 2) * 3 + 1 * j.val = j.val; omega
    | ⟨1, _⟩ => show win3_5.index t (1 : Fin 2) * 1 + 1 * 0 = 0; omega
  funext y
  show k3_pay1 (iblk3 V c 0 t) (iblk3 V c 1 t) (iblk3 V c 2 t) (iblk3 V c 3 t) (iblk3 V c 4 t) (iblk3 V c 5 t) y
    = Cert.Sage.K.cols (V c main_v81) (V c main_v82) (V c main_v13) (V c main_v15) (V c main_v16) (V c main_v17)
        (((cfg3.win 6).blk t).view.emb y)
  have hemb : ((cfg3.win 6).blk t).view.emb y = ix2 (y 0) (col t.val ht (y 1)) := by
    funext a; apply Fin.ext
    match a with
    | ⟨0, _⟩ => show win3_6.index t (0 : Fin 2) * 3 + 1 * (y 0).val = (y 0).val; omega
    | ⟨1, _⟩ => show win3_6.index t (1 : Fin 2) * 51200 + 1 * (y 1).val = t.val * 51200 + (y 1).val; omega
  rw [hemb]
  exact block_eq_idx (iblk3 V c 0 t) (iblk3 V c 1 t) (iblk3 V c 2 t) (iblk3 V c 3 t) (iblk3 V c 4 t)
    (iblk3 V c 5 t) (V c main_v81) (V c main_v82) (V c main_v13) (V c main_v15) (V c main_v16) (V c main_v17)
    t.val ht r0 r1 r2 r3 r4 r5 y

/-- An entry of the output array lies in point `t`'s block iff each of its coordinates lies in the block's range. -/
theorem mem_blk (t : Fin cfg3.N) (i : S3x204800.Idx) :
    i ∈ ((cfg3.win 6).blk t).view.set ↔ ∀ a : Fin 2, win3_6.index t a * S3x51200.size a ≤ (i a).val
      ∧ (i a).val < win3_6.index t a * S3x51200.size a + S3x51200.size a := by
  show i ∈ ((View.whole main_v83).slice (win3_6.rect t)).set ↔ _
  rw [View.set_slice_whole, Rect.mem_set_unit]
  exact Iff.rfl

/-- Every entry of the output array is in the block of the point that owns its column. -/
theorem cover (i : S3x204800.Idx) :
    ∃ t : Fin cfg3.N, (cfg3.win 6).flush t = true ∧ i ∈ ((cfg3.win 6).blk t).view.set := by
  have hi0 : (i 0).val < 3 := (i 0).isLt
  have hi1 : (i 1).val < 204800 := (i 1).isLt
  have hN : grid3.N = 4 := N_3
  have hlt : (i 1).val / 51200 < grid3.N := by rw [hN]; omega
  obtain ⟨e00, e01, e10, e11, e20, e21, e30, e31, e40, e41, e50, e51, e60, e61, ht⟩ :=
    idx_facts (⟨(i 1).val / 51200, hlt⟩ : Fin cfg3.N)
  refine ⟨⟨(i 1).val / 51200, hlt⟩, flush3_6 _, ?_⟩
  rw [mem_blk]
  intro a
  match a with
  | ⟨0, _⟩ =>
    show win3_6.index ⟨(i 1).val / 51200, hlt⟩ (0 : Fin 2) * 3 ≤ (i 0).val
      ∧ (i 0).val < win3_6.index ⟨(i 1).val / 51200, hlt⟩ (0 : Fin 2) * 3 + 3
    omega
  | ⟨1, _⟩ =>
    show win3_6.index ⟨(i 1).val / 51200, hlt⟩ (1 : Fin 2) * 51200 ≤ (i 1).val
      ∧ (i 1).val < win3_6.index ⟨(i 1).val / 51200, hlt⟩ (1 : Fin 2) * 51200 + 51200
    have e : (⟨(i 1).val / 51200, hlt⟩ : Fin cfg3.N).val = (i 1).val / 51200 := rfl
    omega

/-- The output array after the launch: `cols` of the operand arrays as the launch found them. -/
theorem final (c : Dev nD) :
    (dat3 V c).arrAt 6 cfg3.N
      = Cert.Sage.K.cols (V c main_v81) (V c main_v82) (V c main_v13) (V c main_v15) (V c main_v16) (V c main_v17) :=
  (dat3 V c).arrAt_eq_of_cover 6 _ (fun t _ => flushed_eq V c t) (fun i => cover i)

end Cert.Sage.KReg3

end
-- ==== Proof.KHost3.lean ====
/-
  The host operations between launch 2 and launch 3, read as functions of whole arrays, from ANY buffer contents
  `V`: they cut the padding columns off the previous launch's output and lay it node-major (the layer's features
  `X`), gather the features of every edge's source, add them up at the edges' targets, and lay `X` and that sum
  feature-major again, padded: the two wide operands of launch 3. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost3

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps3_3 (F := Ideal)) (StableHlo.after (hostOps3_2 (F := Ideal))
    (StableHlo.after (hostOps3_1 (F := Ideal)) (StableHlo.after (hostOps3 (F := Ideal)) V)))

/-! ## Each stretch on its own -/

/-- The first stretch leaves the layer's features, feature-major, … -/
theorem s0_x : StableHlo.after (hostOps3 (F := Ideal)) V (Proc.devRef .tc main_v79)
    = transpose S3x200000 [1, 0] (Cert.Sage.K.unpadT (V (Proc.devRef .tc main_v66))) Facts₀.transposes_S200000x3_S3x200000_1_0 := by
  after_results
  all_goals rfl
set_option maxHeartbeats 1000000 in
/-- … the sums of the neighbours' features, feature-major, … -/
theorem s0_a : StableHlo.after (hostOps3 (F := Ideal)) V (Proc.devRef .tc main_v80)
    = transpose S3x200000 [1, 0] (Cert.Sage.K.agg (Cert.Sage.K.unpadT (V (Proc.devRef .tc main_v66)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps3 (F := Ideal)) V (Proc.devRef .tc main_c_21) = constantI S_ 32 0#32 := by
  after_results
/-- The second stretch pads the features. -/
theorem s1_x : StableHlo.after (hostOps3_1 (F := Ideal)) W (Proc.devRef .tc main_v81)
    = pad S3x204800 ![0, 0] ![0, 4800] ![0, 0] (W (Proc.devRef .tc main_v79)) (sitofp (F := Ideal) .f32 (W (Proc.devRef .tc main_c_21)))
        Facts₀.pads_S3x200000_S3x204800_000_048000 Facts₀.h_S_ := by
  after_results
  all_goals rfl
/-- The third stretch is the second padding value. -/
theorem s2_c : StableHlo.after (hostOps3_2 (F := Ideal)) W (Proc.devRef .tc main_c_22) = constantI S_ 32 0#32 := by
  after_results
/-- The fourth stretch pads the sums. -/
theorem s3_a : StableHlo.after (hostOps3_3 (F := Ideal)) W (Proc.devRef .tc main_v82)
    = pad S3x204800 ![0, 0] ![0, 4800] ![0, 0] (W (Proc.devRef .tc main_v80)) (sitofp (F := Ideal) .f32 (W (Proc.devRef .tc main_c_22)))
        Facts₀.pads_S3x200000_S3x204800_000_048000 Facts₀.h_S_ := by
  after_results
  all_goals rfl

/-! ## What the stretches do not write -/

theorem k3_x : StableHlo.after (hostOps3_3 (F := Ideal)) W (Proc.devRef .tc main_v81) = W (Proc.devRef .tc main_v81) := by stretch_keeps hostOps3_3
theorem k2_x : StableHlo.after (hostOps3_2 (F := Ideal)) W (Proc.devRef .tc main_v81) = W (Proc.devRef .tc main_v81) := by stretch_keeps hostOps3_2
theorem k2_a : StableHlo.after (hostOps3_2 (F := Ideal)) W (Proc.devRef .tc main_v80) = W (Proc.devRef .tc main_v80) := by stretch_keeps hostOps3_2
theorem k1_a : StableHlo.after (hostOps3_1 (F := Ideal)) W (Proc.devRef .tc main_v80) = W (Proc.devRef .tc main_v80) := by stretch_keeps hostOps3_1
theorem k0_v1 : StableHlo.after (hostOps3 (F := Ideal)) W (Proc.devRef .tc main_v1) = W (Proc.devRef .tc main_v1) := by stretch_keeps hostOps3
theorem k1_v1 : StableHlo.after (hostOps3_1 (F := Ideal)) W (Proc.devRef .tc main_v1) = W (Proc.devRef .tc main_v1) := by stretch_keeps hostOps3_1
theorem k2_v1 : StableHlo.after (hostOps3_2 (F := Ideal)) W (Proc.devRef .tc main_v1) = W (Proc.devRef .tc main_v1) := by stretch_keeps hostOps3_2
theorem k3_v1 : StableHlo.after (hostOps3_3 (F := Ideal)) W (Proc.devRef .tc main_v1) = W (Proc.devRef .tc main_v1) := by stretch_keeps hostOps3_3
theorem k0_v3 : StableHlo.after (hostOps3 (F := Ideal)) W (Proc.devRef .tc main_v3) = W (Proc.devRef .tc main_v3) := by stretch_keeps hostOps3
theorem k1_v3 : StableHlo.after (hostOps3_1 (F := Ideal)) W (Proc.devRef .tc main_v3) = W (Proc.devRef .tc main_v3) := by stretch_keeps hostOps3_1
theorem k2_v3 : StableHlo.after (hostOps3_2 (F := Ideal)) W (Proc.devRef .tc main_v3) = W (Proc.devRef .tc main_v3) := by stretch_keeps hostOps3_2
theorem k3_v3 : StableHlo.after (hostOps3_3 (F := Ideal)) W (Proc.devRef .tc main_v3) = W (Proc.devRef .tc main_v3) := by stretch_keeps hostOps3_3
theorem k0_v13 : StableHlo.after (hostOps3 (F := Ideal)) W (Proc.devRef .tc main_v13) = W (Proc.devRef .tc main_v13) := by stretch_keeps hostOps3
theorem k1_v13 : StableHlo.after (hostOps3_1 (F := Ideal)) W (Proc.devRef .tc main_v13) = W (Proc.devRef .tc main_v13) := by stretch_keeps hostOps3_1
theorem k2_v13 : StableHlo.after (hostOps3_2 (F := Ideal)) W (Proc.devRef .tc main_v13) = W (Proc.devRef .tc main_v13) := by stretch_keeps hostOps3_2
theorem k3_v13 : StableHlo.after (hostOps3_3 (F := Ideal)) W (Proc.devRef .tc main_v13) = W (Proc.devRef .tc main_v13) := by stretch_keeps hostOps3_3
theorem k0_v15 : StableHlo.after (hostOps3 (F := Ideal)) W (Proc.devRef .tc main_v15) = W (Proc.devRef .tc main_v15) := by stretch_keeps hostOps3
theorem k1_v15 : StableHlo.after (hostOps3_1 (F := Ideal)) W (Proc.devRef .tc main_v15) = W (Proc.devRef .tc main_v15) := by stretch_keeps hostOps3_1
theorem k2_v15 : StableHlo.after (hostOps3_2 (F := Ideal)) W (Proc.devRef .tc main_v15) = W (Proc.devRef .tc main_v15) := by stretch_keeps hostOps3_2
theorem k3_v15 : StableHlo.after (hostOps3_3 (F := Ideal)) W (Proc.devRef .tc main_v15) = W (Proc.devRef .tc main_v15) := by stretch_keeps hostOps3_3
theorem k0_v16 : StableHlo.after (hostOps3 (F := Ideal)) W (Proc.devRef .tc main_v16) = W (Proc.devRef .tc main_v16) := by stretch_keeps hostOps3
theorem k1_v16 : StableHlo.after (hostOps3_1 (F := Ideal)) W (Proc.devRef .tc main_v16) = W (Proc.devRef .tc main_v16) := by stretch_keeps hostOps3_1
theorem k2_v16 : StableHlo.after (hostOps3_2 (F := Ideal)) W (Proc.devRef .tc main_v16) = W (Proc.devRef .tc main_v16) := by stretch_keeps hostOps3_2
theorem k3_v16 : StableHlo.after (hostOps3_3 (F := Ideal)) W (Proc.devRef .tc main_v16) = W (Proc.devRef .tc main_v16) := by stretch_keeps hostOps3_3
theorem k0_v17 : StableHlo.after (hostOps3 (F := Ideal)) W (Proc.devRef .tc main_v17) = W (Proc.devRef .tc main_v17) := by stretch_keeps hostOps3
theorem k1_v17 : StableHlo.after (hostOps3_1 (F := Ideal)) W (Proc.devRef .tc main_v17) = W (Proc.devRef .tc main_v17) := by stretch_keeps hostOps3_1
theorem k2_v17 : StableHlo.after (hostOps3_2 (F := Ideal)) W (Proc.devRef .tc main_v17) = W (Proc.devRef .tc main_v17) := by stretch_keeps hostOps3_2
theorem k3_v17 : StableHlo.after (hostOps3_3 (F := Ideal)) W (Proc.devRef .tc main_v17) = W (Proc.devRef .tc main_v17) := by stretch_keeps hostOps3_3

/-! ## The four stretches chained -/

/-- Launch 3's first operand: the layer's features, feature-major and padded. -/
theorem entry_x : step V (Proc.devRef .tc main_v81) = Cert.Sage.K.padT (Cert.Sage.K.unpadT (V (Proc.devRef .tc main_v66))) := by
  refine (k3_x _).trans ((k2_x _).trans ((s1_x _).trans ?_))
  rw [s0_x, s0_c]
  rfl

/-- Launch 3's second operand: the sums of the neighbours' features, feature-major and padded. -/
theorem entry_a : step V (Proc.devRef .tc main_v82)
    = Cert.Sage.K.padT (Cert.Sage.K.agg (Cert.Sage.K.unpadT (V (Proc.devRef .tc main_v66)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost3

end
-- ==== Proof.KStep3.lean ====
/-
  Layer 3 of the kernel program's run: if launch 2 left `O (p-1)` in its output array, with the edge lists and the
  four once-computed operands in their buffers, then launch 3 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg3
import proofs.«147323_j54408645706323_1_alg».proof.Proof.KHost3

set_option maxRecDepth 16384

noncomputable section

namespace Cert.Sage.KStep3

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W17 m ρ c (Proc.devRef .tc main_v66) = O v1 v3 Wt bb x0 2)
    (h1 : W17 m ρ c (Proc.devRef .tc main_v1) = v1) (h3 : W17 m ρ c (Proc.devRef .tc main_v3) = v3)
    (h13 : W17 m ρ c (Proc.devRef .tc main_v13) = inv v3) (h15 : W17 m ρ c (Proc.devRef .tc main_v15) = wx Wt)
    (h16 : W17 m ρ c (Proc.devRef .tc main_v16) = wm Wt) (h17 : W17 m ρ c (Proc.devRef .tc main_v17) = bc bb) :
    W22 m ρ c (Proc.devRef .tc main_v83) = O v1 v3 Wt bb x0 3
    ∧ W22 m ρ c (Proc.devRef .tc main_v1) = v1 ∧ W22 m ρ c (Proc.devRef .tc main_v3) = v3
    ∧ W22 m ρ c (Proc.devRef .tc main_v13) = inv v3 ∧ W22 m ρ c (Proc.devRef .tc main_v15) = wx Wt
    ∧ W22 m ρ c (Proc.devRef .tc main_v16) = wm Wt ∧ W22 m ρ c (Proc.devRef .tc main_v17) = bc bb := by
  -- the launch's operands at its entry
  have ex : W21 m ρ c (Proc.devRef .tc main_v81) = padT (X v1 v3 Wt bb x0 3) := by
    refine (Cert.Sage.KHost3.entry_x (W17 m ρ c)).trans ?_
    rw [ho, unpadT_O]
  have ea : W21 m ρ c (Proc.devRef .tc main_v82) = padT (agg (X v1 v3 Wt bb x0 3) v1 v3) := by
    refine (Cert.Sage.KHost3.entry_a (W17 m ρ c)).trans ?_
    rw [ho, unpadT_O, h1, h3]
  have e1 : W21 m ρ c (Proc.devRef .tc main_v1) = v1 := (Cert.Sage.KHost3.kept_v1 (W17 m ρ c)).trans h1
  have e3 : W21 m ρ c (Proc.devRef .tc main_v3) = v3 := (Cert.Sage.KHost3.kept_v3 (W17 m ρ c)).trans h3
  have e13 : W21 m ρ c (Proc.devRef .tc main_v13) = inv v3 := (Cert.Sage.KHost3.kept_v13 (W17 m ρ c)).trans h13
  have e15 : W21 m ρ c (Proc.devRef .tc main_v15) = wx Wt := (Cert.Sage.KHost3.kept_v15 (W17 m ρ c)).trans h15
  have e16 : W21 m ρ c (Proc.devRef .tc main_v16) = wm Wt := (Cert.Sage.KHost3.kept_v16 (W17 m ρ c)).trans h16
  have e17 : W21 m ρ c (Proc.devRef .tc main_v17) = bc bb := (Cert.Sage.KHost3.kept_v17 (W17 m ρ c)).trans h17
  -- an operand array of the launch is left as entered
  have hin : ∀ w : Fin cfg3.W, (cfg3.win w).isOut = false →
      W22 m ρ c (Proc.devRef .tc (Pipeline.arrRef spec3 w)) = V21 m ρ c (Pipeline.arrRef spec3 w) := fun w hw =>
    (W22_arr m ρ c w).trans (((dat3 (V21 m ρ) c).arrAt_in w hw cfg3.N).trans (A_eq3 (V21 m ρ) c w))
  refine ⟨?_, ?_, ?_, ?_, ?_, ?_, ?_⟩
  · refine (W22_arr m ρ c 6).trans ?_
    rw [Cert.Sage.KReg3.final (V21 m ρ) c]
    show cols (W21 m ρ c (Proc.devRef .tc main_v81)) (W21 m ρ c (Proc.devRef .tc main_v82))
      (W21 m ρ c (Proc.devRef .tc main_v13)) (W21 m ρ c (Proc.devRef .tc main_v15))
      (W21 m ρ c (Proc.devRef .tc main_v16)) (W21 m ρ c (Proc.devRef .tc main_v17)) = _
    rw [ex, ea, e13, e15, e16, e17]
    rfl
  · exact (W22_of_ne m ρ c main_v1 (by decide)).trans e1
  · exact (W22_of_ne m ρ c main_v3 (by decide)).trans e3
  · exact (hin 2 rfl).trans e13
  · exact (hin 3 rfl).trans e15
  · exact (hin 4 rfl).trans e16
  · exact (hin 5 rfl).trans e17

end Cert.Sage.KStep3

end
-- ==== Proof.KReg4.lean ====
/-
  Launch 4 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg4

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg4.N,
    win4_0.index t (0 : Fin 2) = 0 ∧ win4_0.index t (1 : Fin 2) = t.val
    ∧ win4_1.index t (0 : Fin 2) = 0 ∧ win4_1.index t (1 : Fin 2) = t.val
    ∧ win4_2.index t (0 : Fin 2) = 0 ∧ win4_2.index t (1 : Fin 2) = t.val
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = t.val ∧ t.val < 4 :=
  (by decide +kernel : ∀ t : Fin grid4.N, _)

/-- What point `t` writes back is block `t` of `cols` of the operand arrays as the launch finds them. -/
theorem flushed_eq (c : Dev nD) (t : Fin cfg4.N) :
    (dat4 V c).flushed 6 t = ((cfg4.win 6).blk t).view.read (Elt Ideal)
      (Cert.Sage.K.cols (V c main_v98) (V c main_v99) (V c main_v13) (V c main_v15) (V c main_v16) (V c main_v17)) := by
  show (cfg4.win 6).cut (grid4.coords t) ((dat4 V c).after 6 t) = _
  rw [after4_6]
  unfold out4_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk4 V c 0 t (ix2 k q) = V c main_v98 (ix2 k (col t.val ht q)) := fun k q => by
    show V c main_v98 (((cfg4.win 0).blk t).view.emb (ix2 k q)) = _
    refine congrArg (V c main_v98) ?_
    funext a; apply Fin.ext
    match a with
    | ⟨0, _⟩ => show win4_0.index t (0 : Fin 2) * 3 + 1 * k.val = k.val; omega
    | ⟨1, _⟩ => show win4_0.index t (1 : Fin 2) * 51200 + 1 * q.val = t.val * 51200 + q.val; omega
  have r1 : ∀ (k : Fin 3) (q : Fin 51200), iblk4 V c 1 t (ix2 k q) = V c main_v99 (ix2 k (col t.val ht q)) := fun k q => by
    show V c main_v99 (((cfg4.win 1).blk t).view.emb (ix2 k q)) = _
    refine congrArg (V c main_v99) ?_
    funext a; apply Fin.ext
    match a with
    | ⟨0, _⟩ => show win4_1.index t (0 : Fin 2) * 3 + 1 * k.val = k.val; omega
    | ⟨1, _⟩ => show win4_1.index t (1 : Fin 2) * 51200 + 1 * q.val = t.val * 51200 + q.val; omega
  have r2 : ∀ q : Fin 51200, iblk4 V c 2 t (ix2 (0 : Fin 1) q) = V c main_v13 (ix2 (0 : Fin 1) (col t.val ht q)) := fun q => by
    show V c main_v13 (((cfg4.win 2).blk t).view.emb (ix2 (0 : Fin 1) q)) = _
    refine congrArg (V c main_v13) ?_
    funext a; apply Fin.ext
    match a with
    | ⟨0, _⟩ => show win4_2.index t (0 : Fin 2) * 1 + 1 * 0 = 0; omega
    | ⟨1, _⟩ => show win4_2.index t (1 : Fin 2) * 51200 + 1 * q.val = t.val * 51200 + q.val; omega
  have r3 : ∀ j k : Fin 3, iblk4 V c 3 t (ix2 j k) = V c main_v15 (ix2 j k) := fun j k => by
    show V c main_v15 (((cfg4.win 3).blk t).view.emb (ix2 j k)) = _
    refine congrArg (V c main_v15) ?_
    funext a; apply Fin.ext
    match a with
    | ⟨0, _⟩ => show win4_3.index t (0 : Fin 2) * 3 + 1 * j.val = j.val; omega
    | ⟨1, _⟩ => show win4_3.index t (1 : Fin 2) * 3 + 1 * k.val = k.val; omega
  have r4 : ∀ j k : Fin 3, iblk4 V c 4 t (ix2 j k) = V c main_v16 (ix2 j k) := fun j k => by
    show V c main_v16 (((cfg4.win 4).blk t).view.emb (ix2 j k)) = _
    refine congrArg (V c main_v16) ?_
    funext a; apply Fin.ext
    match a with
    | ⟨0, _⟩ => show win4_4.index t (0 : Fin 2) * 3 + 1 * j.val = j.val; omega
    | ⟨1, _⟩ => show win4_4.index t (1 : Fin 2) * 3 + 1 * k.val = k.val; omega
  have r5 : ∀ j : Fin 3, iblk4 V c 5 t (ix2 j (0 : Fin 1)) = V c main_v17 (ix2 j (0 : Fin 1)) := fun j => by
    show V c main_v17 (((cfg4.win 5).blk t).view.emb (ix2 j (0 : Fin 1))) = _
    refine congrArg (V c main_v17) ?_
    funext a; apply Fin.ext
    match a with
    | ⟨0, _⟩ => show win4_5.index t (0 : Fin 2) * 3 + 1 * j.val = j.val; omega
    | ⟨1, _⟩ => show win4_5.index t (1 : Fin 2) * 1 + 1 * 0 = 0; omega
  funext y
  show k4_pay1 (iblk4 V c 0 t) (iblk4 V c 1 t) (iblk4 V c 2 t) (iblk4 V c 3 t) (iblk4 V c 4 t) (iblk4 V c 5 t) y
    = Cert.Sage.K.cols (V c main_v98) (V c main_v99) (V c main_v13) (V c main_v15) (V c main_v16) (V c main_v17)
        (((cfg4.win 6).blk t).view.emb y)
  have hemb : ((cfg4.win 6).blk t).view.emb y = ix2 (y 0) (col t.val ht (y 1)) := by
    funext a; apply Fin.ext
    match a with
    | ⟨0, _⟩ => show win4_6.index t (0 : Fin 2) * 3 + 1 * (y 0).val = (y 0).val; omega
    | ⟨1, _⟩ => show win4_6.index t (1 : Fin 2) * 51200 + 1 * (y 1).val = t.val * 51200 + (y 1).val; omega
  rw [hemb]
  exact block_eq_idx (iblk4 V c 0 t) (iblk4 V c 1 t) (iblk4 V c 2 t) (iblk4 V c 3 t) (iblk4 V c 4 t)
    (iblk4 V c 5 t) (V c main_v98) (V c main_v99) (V c main_v13) (V c main_v15) (V c main_v16) (V c main_v17)
    t.val ht r0 r1 r2 r3 r4 r5 y

/-- An entry of the output array lies in point `t`'s block iff each of its coordinates lies in the block's range. -/
theorem mem_blk (t : Fin cfg4.N) (i : S3x204800.Idx) :
    i ∈ ((cfg4.win 6).blk t).view.set ↔ ∀ a : Fin 2, win4_6.index t a * S3x51200.size a ≤ (i a).val
      ∧ (i a).val < win4_6.index t a * S3x51200.size a + S3x51200.size a := by
  show i ∈ ((View.whole main_v100).slice (win4_6.rect t)).set ↔ _
  rw [View.set_slice_whole, Rect.mem_set_unit]
  exact Iff.rfl

/-- Every entry of the output array is in the block of the point that owns its column. -/
theorem cover (i : S3x204800.Idx) :
    ∃ t : Fin cfg4.N, (cfg4.win 6).flush t = true ∧ i ∈ ((cfg4.win 6).blk t).view.set := by
  have hi0 : (i 0).val < 3 := (i 0).isLt
  have hi1 : (i 1).val < 204800 := (i 1).isLt
  have hN : grid4.N = 4 := N_4
  have hlt : (i 1).val / 51200 < grid4.N := by rw [hN]; omega
  obtain ⟨e00, e01, e10, e11, e20, e21, e30, e31, e40, e41, e50, e51, e60, e61, ht⟩ :=
    idx_facts (⟨(i 1).val / 51200, hlt⟩ : Fin cfg4.N)
  refine ⟨⟨(i 1).val / 51200, hlt⟩, flush4_6 _, ?_⟩
  rw [mem_blk]
  intro a
  match a with
  | ⟨0, _⟩ =>
    show win4_6.index ⟨(i 1).val / 51200, hlt⟩ (0 : Fin 2) * 3 ≤ (i 0).val
      ∧ (i 0).val < win4_6.index ⟨(i 1).val / 51200, hlt⟩ (0 : Fin 2) * 3 + 3
    omega
  | ⟨1, _⟩ =>
    show win4_6.index ⟨(i 1).val / 51200, hlt⟩ (1 : Fin 2) * 51200 ≤ (i 1).val
      ∧ (i 1).val < win4_6.index ⟨(i 1).val / 51200, hlt⟩ (1 : Fin 2) * 51200 + 51200
    have e : (⟨(i 1).val / 51200, hlt⟩ : Fin cfg4.N).val = (i 1).val / 51200 := rfl
    omega

/-- The output array after the launch: `cols` of the operand arrays as the launch found them. -/
theorem final (c : Dev nD) :
    (dat4 V c).arrAt 6 cfg4.N
      = Cert.Sage.K.cols (V c main_v98) (V c main_v99) (V c main_v13) (V c main_v15) (V c main_v16) (V c main_v17) :=
  (dat4 V c).arrAt_eq_of_cover 6 _ (fun t _ => flushed_eq V c t) (fun i => cover i)

end Cert.Sage.KReg4

end
-- ==== Proof.KHost4.lean ====
/-
  The host operations between launch 3 and launch 4, read as functions of whole arrays, from ANY buffer contents
  `V`: they cut the padding columns off the previous launch's output and lay it node-major (the layer's features
  `X`), gather the features of every edge's source, add them up at the edges' targets, and lay `X` and that sum
  feature-major again, padded: the two wide operands of launch 4. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost4

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps4_3 (F := Ideal)) (StableHlo.after (hostOps4_2 (F := Ideal))
    (StableHlo.after (hostOps4_1 (F := Ideal)) (StableHlo.after (hostOps4 (F := Ideal)) V)))

/-! ## Each stretch on its own -/

/-- The first stretch leaves the layer's features, feature-major, … -/
theorem s0_x : StableHlo.after (hostOps4 (F := Ideal)) V (Proc.devRef .tc main_v96)
    = transpose S3x200000 [1, 0] (Cert.Sage.K.unpadT (V (Proc.devRef .tc main_v83))) Facts₀.transposes_S200000x3_S3x200000_1_0 := by
  after_results
  all_goals rfl
set_option maxHeartbeats 1000000 in
/-- … the sums of the neighbours' features, feature-major, … -/
theorem s0_a : StableHlo.after (hostOps4 (F := Ideal)) V (Proc.devRef .tc main_v97)
    = transpose S3x200000 [1, 0] (Cert.Sage.K.agg (Cert.Sage.K.unpadT (V (Proc.devRef .tc main_v83)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps4 (F := Ideal)) V (Proc.devRef .tc main_c_26) = constantI S_ 32 0#32 := by
  after_results
/-- The second stretch pads the features. -/
theorem s1_x : StableHlo.after (hostOps4_1 (F := Ideal)) W (Proc.devRef .tc main_v98)
    = pad S3x204800 ![0, 0] ![0, 4800] ![0, 0] (W (Proc.devRef .tc main_v96)) (sitofp (F := Ideal) .f32 (W (Proc.devRef .tc main_c_26)))
        Facts₀.pads_S3x200000_S3x204800_000_048000 Facts₀.h_S_ := by
  after_results
  all_goals rfl
/-- The third stretch is the second padding value. -/
theorem s2_c : StableHlo.after (hostOps4_2 (F := Ideal)) W (Proc.devRef .tc main_c_27) = constantI S_ 32 0#32 := by
  after_results
/-- The fourth stretch pads the sums. -/
theorem s3_a : StableHlo.after (hostOps4_3 (F := Ideal)) W (Proc.devRef .tc main_v99)
    = pad S3x204800 ![0, 0] ![0, 4800] ![0, 0] (W (Proc.devRef .tc main_v97)) (sitofp (F := Ideal) .f32 (W (Proc.devRef .tc main_c_27)))
        Facts₀.pads_S3x200000_S3x204800_000_048000 Facts₀.h_S_ := by
  after_results
  all_goals rfl

/-! ## What the stretches do not write -/

theorem k3_x : StableHlo.after (hostOps4_3 (F := Ideal)) W (Proc.devRef .tc main_v98) = W (Proc.devRef .tc main_v98) := by stretch_keeps hostOps4_3
theorem k2_x : StableHlo.after (hostOps4_2 (F := Ideal)) W (Proc.devRef .tc main_v98) = W (Proc.devRef .tc main_v98) := by stretch_keeps hostOps4_2
theorem k2_a : StableHlo.after (hostOps4_2 (F := Ideal)) W (Proc.devRef .tc main_v97) = W (Proc.devRef .tc main_v97) := by stretch_keeps hostOps4_2
theorem k1_a : StableHlo.after (hostOps4_1 (F := Ideal)) W (Proc.devRef .tc main_v97) = W (Proc.devRef .tc main_v97) := by stretch_keeps hostOps4_1
theorem k0_v1 : StableHlo.after (hostOps4 (F := Ideal)) W (Proc.devRef .tc main_v1) = W (Proc.devRef .tc main_v1) := by stretch_keeps hostOps4
theorem k1_v1 : StableHlo.after (hostOps4_1 (F := Ideal)) W (Proc.devRef .tc main_v1) = W (Proc.devRef .tc main_v1) := by stretch_keeps hostOps4_1
theorem k2_v1 : StableHlo.after (hostOps4_2 (F := Ideal)) W (Proc.devRef .tc main_v1) = W (Proc.devRef .tc main_v1) := by stretch_keeps hostOps4_2
theorem k3_v1 : StableHlo.after (hostOps4_3 (F := Ideal)) W (Proc.devRef .tc main_v1) = W (Proc.devRef .tc main_v1) := by stretch_keeps hostOps4_3
theorem k0_v3 : StableHlo.after (hostOps4 (F := Ideal)) W (Proc.devRef .tc main_v3) = W (Proc.devRef .tc main_v3) := by stretch_keeps hostOps4
theorem k1_v3 : StableHlo.after (hostOps4_1 (F := Ideal)) W (Proc.devRef .tc main_v3) = W (Proc.devRef .tc main_v3) := by stretch_keeps hostOps4_1
theorem k2_v3 : StableHlo.after (hostOps4_2 (F := Ideal)) W (Proc.devRef .tc main_v3) = W (Proc.devRef .tc main_v3) := by stretch_keeps hostOps4_2
theorem k3_v3 : StableHlo.after (hostOps4_3 (F := Ideal)) W (Proc.devRef .tc main_v3) = W (Proc.devRef .tc main_v3) := by stretch_keeps hostOps4_3
theorem k0_v13 : StableHlo.after (hostOps4 (F := Ideal)) W (Proc.devRef .tc main_v13) = W (Proc.devRef .tc main_v13) := by stretch_keeps hostOps4
theorem k1_v13 : StableHlo.after (hostOps4_1 (F := Ideal)) W (Proc.devRef .tc main_v13) = W (Proc.devRef .tc main_v13) := by stretch_keeps hostOps4_1
theorem k2_v13 : StableHlo.after (hostOps4_2 (F := Ideal)) W (Proc.devRef .tc main_v13) = W (Proc.devRef .tc main_v13) := by stretch_keeps hostOps4_2
theorem k3_v13 : StableHlo.after (hostOps4_3 (F := Ideal)) W (Proc.devRef .tc main_v13) = W (Proc.devRef .tc main_v13) := by stretch_keeps hostOps4_3
theorem k0_v15 : StableHlo.after (hostOps4 (F := Ideal)) W (Proc.devRef .tc main_v15) = W (Proc.devRef .tc main_v15) := by stretch_keeps hostOps4
theorem k1_v15 : StableHlo.after (hostOps4_1 (F := Ideal)) W (Proc.devRef .tc main_v15) = W (Proc.devRef .tc main_v15) := by stretch_keeps hostOps4_1
theorem k2_v15 : StableHlo.after (hostOps4_2 (F := Ideal)) W (Proc.devRef .tc main_v15) = W (Proc.devRef .tc main_v15) := by stretch_keeps hostOps4_2
theorem k3_v15 : StableHlo.after (hostOps4_3 (F := Ideal)) W (Proc.devRef .tc main_v15) = W (Proc.devRef .tc main_v15) := by stretch_keeps hostOps4_3
theorem k0_v16 : StableHlo.after (hostOps4 (F := Ideal)) W (Proc.devRef .tc main_v16) = W (Proc.devRef .tc main_v16) := by stretch_keeps hostOps4
theorem k1_v16 : StableHlo.after (hostOps4_1 (F := Ideal)) W (Proc.devRef .tc main_v16) = W (Proc.devRef .tc main_v16) := by stretch_keeps hostOps4_1
theorem k2_v16 : StableHlo.after (hostOps4_2 (F := Ideal)) W (Proc.devRef .tc main_v16) = W (Proc.devRef .tc main_v16) := by stretch_keeps hostOps4_2
theorem k3_v16 : StableHlo.after (hostOps4_3 (F := Ideal)) W (Proc.devRef .tc main_v16) = W (Proc.devRef .tc main_v16) := by stretch_keeps hostOps4_3
theorem k0_v17 : StableHlo.after (hostOps4 (F := Ideal)) W (Proc.devRef .tc main_v17) = W (Proc.devRef .tc main_v17) := by stretch_keeps hostOps4
theorem k1_v17 : StableHlo.after (hostOps4_1 (F := Ideal)) W (Proc.devRef .tc main_v17) = W (Proc.devRef .tc main_v17) := by stretch_keeps hostOps4_1
theorem k2_v17 : StableHlo.after (hostOps4_2 (F := Ideal)) W (Proc.devRef .tc main_v17) = W (Proc.devRef .tc main_v17) := by stretch_keeps hostOps4_2
theorem k3_v17 : StableHlo.after (hostOps4_3 (F := Ideal)) W (Proc.devRef .tc main_v17) = W (Proc.devRef .tc main_v17) := by stretch_keeps hostOps4_3

/-! ## The four stretches chained -/

/-- Launch 4's first operand: the layer's features, feature-major and padded. -/
theorem entry_x : step V (Proc.devRef .tc main_v98) = Cert.Sage.K.padT (Cert.Sage.K.unpadT (V (Proc.devRef .tc main_v83))) := by
  refine (k3_x _).trans ((k2_x _).trans ((s1_x _).trans ?_))
  rw [s0_x, s0_c]
  rfl

/-- Launch 4's second operand: the sums of the neighbours' features, feature-major and padded. -/
theorem entry_a : step V (Proc.devRef .tc main_v99)
    = Cert.Sage.K.padT (Cert.Sage.K.agg (Cert.Sage.K.unpadT (V (Proc.devRef .tc main_v83)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost4

end
-- ==== Proof.KStep4.lean ====
/-
  Layer 4 of the kernel program's run: if launch 3 left `O (p-1)` in its output array, with the edge lists and the
  four once-computed operands in their buffers, then launch 4 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg4
import proofs.«147323_j54408645706323_1_alg».proof.Proof.KHost4

set_option maxRecDepth 16384

noncomputable section

namespace Cert.Sage.KStep4

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W22 m ρ c (Proc.devRef .tc main_v83) = O v1 v3 Wt bb x0 3)
    (h1 : W22 m ρ c (Proc.devRef .tc main_v1) = v1) (h3 : W22 m ρ c (Proc.devRef .tc main_v3) = v3)
    (h13 : W22 m ρ c (Proc.devRef .tc main_v13) = inv v3) (h15 : W22 m ρ c (Proc.devRef .tc main_v15) = wx Wt)
    (h16 : W22 m ρ c (Proc.devRef .tc main_v16) = wm Wt) (h17 : W22 m ρ c (Proc.devRef .tc main_v17) = bc bb) :
    W27 m ρ c (Proc.devRef .tc main_v100) = O v1 v3 Wt bb x0 4
    ∧ W27 m ρ c (Proc.devRef .tc main_v1) = v1 ∧ W27 m ρ c (Proc.devRef .tc main_v3) = v3
    ∧ W27 m ρ c (Proc.devRef .tc main_v13) = inv v3 ∧ W27 m ρ c (Proc.devRef .tc main_v15) = wx Wt
    ∧ W27 m ρ c (Proc.devRef .tc main_v16) = wm Wt ∧ W27 m ρ c (Proc.devRef .tc main_v17) = bc bb := by
  -- the launch's operands at its entry
  have ex : W26 m ρ c (Proc.devRef .tc main_v98) = padT (X v1 v3 Wt bb x0 4) := by
    refine (Cert.Sage.KHost4.entry_x (W22 m ρ c)).trans ?_
    rw [ho, unpadT_O]
  have ea : W26 m ρ c (Proc.devRef .tc main_v99) = padT (agg (X v1 v3 Wt bb x0 4) v1 v3) := by
    refine (Cert.Sage.KHost4.entry_a (W22 m ρ c)).trans ?_
    rw [ho, unpadT_O, h1, h3]
  have e1 : W26 m ρ c (Proc.devRef .tc main_v1) = v1 := (Cert.Sage.KHost4.kept_v1 (W22 m ρ c)).trans h1
  have e3 : W26 m ρ c (Proc.devRef .tc main_v3) = v3 := (Cert.Sage.KHost4.kept_v3 (W22 m ρ c)).trans h3
  have e13 : W26 m ρ c (Proc.devRef .tc main_v13) = inv v3 := (Cert.Sage.KHost4.kept_v13 (W22 m ρ c)).trans h13
  have e15 : W26 m ρ c (Proc.devRef .tc main_v15) = wx Wt := (Cert.Sage.KHost4.kept_v15 (W22 m ρ c)).trans h15
  have e16 : W26 m ρ c (Proc.devRef .tc main_v16) = wm Wt := (Cert.Sage.KHost4.kept_v16 (W22 m ρ c)).trans h16
  have e17 : W26 m ρ c (Proc.devRef .tc main_v17) = bc bb := (Cert.Sage.KHost4.kept_v17 (W22 m ρ c)).trans h17
  -- an operand array of the launch is left as entered
  have hin : ∀ w : Fin cfg4.W, (cfg4.win w).isOut = false →
      W27 m ρ c (Proc.devRef .tc (Pipeline.arrRef spec4 w)) = V26 m ρ c (Pipeline.arrRef spec4 w) := fun w hw =>
    (W27_arr m ρ c w).trans (((dat4 (V26 m ρ) c).arrAt_in w hw cfg4.N).trans (A_eq4 (V26 m ρ) c w))
  refine ⟨?_, ?_, ?_, ?_, ?_, ?_, ?_⟩
  · refine (W27_arr m ρ c 6).trans ?_
    rw [Cert.Sage.KReg4.final (V26 m ρ) c]
    show cols (W26 m ρ c (Proc.devRef .tc main_v98)) (W26 m ρ c (Proc.devRef .tc main_v99))
      (W26 m ρ c (Proc.devRef .tc main_v13)) (W26 m ρ c (Proc.devRef .tc main_v15))
      (W26 m ρ c (Proc.devRef .tc main_v16)) (W26 m ρ c (Proc.devRef .tc main_v17)) = _
    rw [ex, ea, e13, e15, e16, e17]
    rfl
  · exact (W27_of_ne m ρ c main_v1 (by decide)).trans e1
  · exact (W27_of_ne m ρ c main_v3 (by decide)).trans e3
  · exact (hin 2 rfl).trans e13
  · exact (hin 3 rfl).trans e15
  · exact (hin 4 rfl).trans e16
  · exact (hin 5 rfl).trans e17

end Cert.Sage.KStep4

end
-- ==== Proof.KReg5.lean ====
/-
  Launch 5 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg5

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg5.N,
    win5_0.index t (0 : Fin 2) = 0 ∧ win5_0.index t (1 : Fin 2) = t.val
    ∧ win5_1.index t (0 : Fin 2) = 0 ∧ win5_1.index t (1 : Fin 2) = t.val
    ∧ win5_2.index t (0 : Fin 2) = 0 ∧ win5_2.index t (1 : Fin 2) = t.val
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = t.val ∧ t.val < 4 :=
  (by decide +kernel : ∀ t : Fin grid5.N, _)

/-- What point `t` writes back is block `t` of `cols` of the operand arrays as the launch finds them. -/
theorem flushed_eq (c : Dev nD) (t : Fin cfg5.N) :
    (dat5 V c).flushed 6 t = ((cfg5.win 6).blk t).view.read (Elt Ideal)
      (Cert.Sage.K.cols (V c main_v115) (V c main_v116) (V c main_v13) (V c main_v15) (V c main_v16) (V c main_v17)) := by
  show (cfg5.win 6).cut (grid5.coords t) ((dat5 V c).after 6 t) = _
  rw [after5_6]
  unfold out5_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk5 V c 0 t (ix2 k q) = V c main_v115 (ix2 k (col t.val ht q)) := fun k q => by
    show V c main_v115 (((cfg5.win 0).blk t).view.emb (ix2 k q)) = _
    refine congrArg (V c main_v115) ?_
    funext a; apply Fin.ext
    match a with
    | ⟨0, _⟩ => show win5_0.index t (0 : Fin 2) * 3 + 1 * k.val = k.val; omega
    | ⟨1, _⟩ => show win5_0.index t (1 : Fin 2) * 51200 + 1 * q.val = t.val * 51200 + q.val; omega
  have r1 : ∀ (k : Fin 3) (q : Fin 51200), iblk5 V c 1 t (ix2 k q) = V c main_v116 (ix2 k (col t.val ht q)) := fun k q => by
    show V c main_v116 (((cfg5.win 1).blk t).view.emb (ix2 k q)) = _
    refine congrArg (V c main_v116) ?_
    funext a; apply Fin.ext
    match a with
    | ⟨0, _⟩ => show win5_1.index t (0 : Fin 2) * 3 + 1 * k.val = k.val; omega
    | ⟨1, _⟩ => show win5_1.index t (1 : Fin 2) * 51200 + 1 * q.val = t.val * 51200 + q.val; omega
  have r2 : ∀ q : Fin 51200, iblk5 V c 2 t (ix2 (0 : Fin 1) q) = V c main_v13 (ix2 (0 : Fin 1) (col t.val ht q)) := fun q => by
    show V c main_v13 (((cfg5.win 2).blk t).view.emb (ix2 (0 : Fin 1) q)) = _
    refine congrArg (V c main_v13) ?_
    funext a; apply Fin.ext
    match a with
    | ⟨0, _⟩ => show win5_2.index t (0 : Fin 2) * 1 + 1 * 0 = 0; omega
    | ⟨1, _⟩ => show win5_2.index t (1 : Fin 2) * 51200 + 1 * q.val = t.val * 51200 + q.val; omega
  have r3 : ∀ j k : Fin 3, iblk5 V c 3 t (ix2 j k) = V c main_v15 (ix2 j k) := fun j k => by
    show V c main_v15 (((cfg5.win 3).blk t).view.emb (ix2 j k)) = _
    refine congrArg (V c main_v15) ?_
    funext a; apply Fin.ext
    match a with
    | ⟨0, _⟩ => show win5_3.index t (0 : Fin 2) * 3 + 1 * j.val = j.val; omega
    | ⟨1, _⟩ => show win5_3.index t (1 : Fin 2) * 3 + 1 * k.val = k.val; omega
  have r4 : ∀ j k : Fin 3, iblk5 V c 4 t (ix2 j k) = V c main_v16 (ix2 j k) := fun j k => by
    show V c main_v16 (((cfg5.win 4).blk t).view.emb (ix2 j k)) = _
    refine congrArg (V c main_v16) ?_
    funext a; apply Fin.ext
    match a with
    | ⟨0, _⟩ => show win5_4.index t (0 : Fin 2) * 3 + 1 * j.val = j.val; omega
    | ⟨1, _⟩ => show win5_4.index t (1 : Fin 2) * 3 + 1 * k.val = k.val; omega
  have r5 : ∀ j : Fin 3, iblk5 V c 5 t (ix2 j (0 : Fin 1)) = V c main_v17 (ix2 j (0 : Fin 1)) := fun j => by
    show V c main_v17 (((cfg5.win 5).blk t).view.emb (ix2 j (0 : Fin 1))) = _
    refine congrArg (V c main_v17) ?_
    funext a; apply Fin.ext
    match a with
    | ⟨0, _⟩ => show win5_5.index t (0 : Fin 2) * 3 + 1 * j.val = j.val; omega
    | ⟨1, _⟩ => show win5_5.index t (1 : Fin 2) * 1 + 1 * 0 = 0; omega
  funext y
  show k5_pay1 (iblk5 V c 0 t) (iblk5 V c 1 t) (iblk5 V c 2 t) (iblk5 V c 3 t) (iblk5 V c 4 t) (iblk5 V c 5 t) y
    = Cert.Sage.K.cols (V c main_v115) (V c main_v116) (V c main_v13) (V c main_v15) (V c main_v16) (V c main_v17)
        (((cfg5.win 6).blk t).view.emb y)
  have hemb : ((cfg5.win 6).blk t).view.emb y = ix2 (y 0) (col t.val ht (y 1)) := by
    funext a; apply Fin.ext
    match a with
    | ⟨0, _⟩ => show win5_6.index t (0 : Fin 2) * 3 + 1 * (y 0).val = (y 0).val; omega
    | ⟨1, _⟩ => show win5_6.index t (1 : Fin 2) * 51200 + 1 * (y 1).val = t.val * 51200 + (y 1).val; omega
  rw [hemb]
  exact block_eq_idx (iblk5 V c 0 t) (iblk5 V c 1 t) (iblk5 V c 2 t) (iblk5 V c 3 t) (iblk5 V c 4 t)
    (iblk5 V c 5 t) (V c main_v115) (V c main_v116) (V c main_v13) (V c main_v15) (V c main_v16) (V c main_v17)
    t.val ht r0 r1 r2 r3 r4 r5 y

/-- An entry of the output array lies in point `t`'s block iff each of its coordinates lies in the block's range. -/
theorem mem_blk (t : Fin cfg5.N) (i : S3x204800.Idx) :
    i ∈ ((cfg5.win 6).blk t).view.set ↔ ∀ a : Fin 2, win5_6.index t a * S3x51200.size a ≤ (i a).val
      ∧ (i a).val < win5_6.index t a * S3x51200.size a + S3x51200.size a := by
  show i ∈ ((View.whole main_v117).slice (win5_6.rect t)).set ↔ _
  rw [View.set_slice_whole, Rect.mem_set_unit]
  exact Iff.rfl

/-- Every entry of the output array is in the block of the point that owns its column. -/
theorem cover (i : S3x204800.Idx) :
    ∃ t : Fin cfg5.N, (cfg5.win 6).flush t = true ∧ i ∈ ((cfg5.win 6).blk t).view.set := by
  have hi0 : (i 0).val < 3 := (i 0).isLt
  have hi1 : (i 1).val < 204800 := (i 1).isLt
  have hN : grid5.N = 4 := N_5
  have hlt : (i 1).val / 51200 < grid5.N := by rw [hN]; omega
  obtain ⟨e00, e01, e10, e11, e20, e21, e30, e31, e40, e41, e50, e51, e60, e61, ht⟩ :=
    idx_facts (⟨(i 1).val / 51200, hlt⟩ : Fin cfg5.N)
  refine ⟨⟨(i 1).val / 51200, hlt⟩, flush5_6 _, ?_⟩
  rw [mem_blk]
  intro a
  match a with
  | ⟨0, _⟩ =>
    show win5_6.index ⟨(i 1).val / 51200, hlt⟩ (0 : Fin 2) * 3 ≤ (i 0).val
      ∧ (i 0).val < win5_6.index ⟨(i 1).val / 51200, hlt⟩ (0 : Fin 2) * 3 + 3
    omega
  | ⟨1, _⟩ =>
    show win5_6.index ⟨(i 1).val / 51200, hlt⟩ (1 : Fin 2) * 51200 ≤ (i 1).val
      ∧ (i 1).val < win5_6.index ⟨(i 1).val / 51200, hlt⟩ (1 : Fin 2) * 51200 + 51200
    have e : (⟨(i 1).val / 51200, hlt⟩ : Fin cfg5.N).val = (i 1).val / 51200 := rfl
    omega

/-- The output array after the launch: `cols` of the operand arrays as the launch found them. -/
theorem final (c : Dev nD) :
    (dat5 V c).arrAt 6 cfg5.N
      = Cert.Sage.K.cols (V c main_v115) (V c main_v116) (V c main_v13) (V c main_v15) (V c main_v16) (V c main_v17) :=
  (dat5 V c).arrAt_eq_of_cover 6 _ (fun t _ => flushed_eq V c t) (fun i => cover i)

end Cert.Sage.KReg5

end
-- ==== Proof.KHost5.lean ====
/-
  The host operations between launch 4 and launch 5, read as functions of whole arrays, from ANY buffer contents
  `V`: they cut the padding columns off the previous launch's output and lay it node-major (the layer's features
  `X`), gather the features of every edge's source, add them up at the edges' targets, and lay `X` and that sum
  feature-major again, padded: the two wide operands of launch 5. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost5

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps5_3 (F := Ideal)) (StableHlo.after (hostOps5_2 (F := Ideal))
    (StableHlo.after (hostOps5_1 (F := Ideal)) (StableHlo.after (hostOps5 (F := Ideal)) V)))

/-! ## Each stretch on its own -/

/-- The first stretch leaves the layer's features, feature-major, … -/
theorem s0_x : StableHlo.after (hostOps5 (F := Ideal)) V (Proc.devRef .tc main_v113)
    = transpose S3x200000 [1, 0] (Cert.Sage.K.unpadT (V (Proc.devRef .tc main_v100))) Facts₀.transposes_S200000x3_S3x200000_1_0 := by
  after_results
  all_goals rfl
set_option maxHeartbeats 1000000 in
/-- … the sums of the neighbours' features, feature-major, … -/
theorem s0_a : StableHlo.after (hostOps5 (F := Ideal)) V (Proc.devRef .tc main_v114)
    = transpose S3x200000 [1, 0] (Cert.Sage.K.agg (Cert.Sage.K.unpadT (V (Proc.devRef .tc main_v100)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps5 (F := Ideal)) V (Proc.devRef .tc main_c_31) = constantI S_ 32 0#32 := by
  after_results
/-- The second stretch pads the features. -/
theorem s1_x : StableHlo.after (hostOps5_1 (F := Ideal)) W (Proc.devRef .tc main_v115)
    = pad S3x204800 ![0, 0] ![0, 4800] ![0, 0] (W (Proc.devRef .tc main_v113)) (sitofp (F := Ideal) .f32 (W (Proc.devRef .tc main_c_31)))
        Facts₀.pads_S3x200000_S3x204800_000_048000 Facts₀.h_S_ := by
  after_results
  all_goals rfl
/-- The third stretch is the second padding value. -/
theorem s2_c : StableHlo.after (hostOps5_2 (F := Ideal)) W (Proc.devRef .tc main_c_32) = constantI S_ 32 0#32 := by
  after_results
/-- The fourth stretch pads the sums. -/
theorem s3_a : StableHlo.after (hostOps5_3 (F := Ideal)) W (Proc.devRef .tc main_v116)
    = pad S3x204800 ![0, 0] ![0, 4800] ![0, 0] (W (Proc.devRef .tc main_v114)) (sitofp (F := Ideal) .f32 (W (Proc.devRef .tc main_c_32)))
        Facts₀.pads_S3x200000_S3x204800_000_048000 Facts₀.h_S_ := by
  after_results
  all_goals rfl

/-! ## What the stretches do not write -/

theorem k3_x : StableHlo.after (hostOps5_3 (F := Ideal)) W (Proc.devRef .tc main_v115) = W (Proc.devRef .tc main_v115) := by stretch_keeps hostOps5_3
theorem k2_x : StableHlo.after (hostOps5_2 (F := Ideal)) W (Proc.devRef .tc main_v115) = W (Proc.devRef .tc main_v115) := by stretch_keeps hostOps5_2
theorem k2_a : StableHlo.after (hostOps5_2 (F := Ideal)) W (Proc.devRef .tc main_v114) = W (Proc.devRef .tc main_v114) := by stretch_keeps hostOps5_2
theorem k1_a : StableHlo.after (hostOps5_1 (F := Ideal)) W (Proc.devRef .tc main_v114) = W (Proc.devRef .tc main_v114) := by stretch_keeps hostOps5_1
theorem k0_v1 : StableHlo.after (hostOps5 (F := Ideal)) W (Proc.devRef .tc main_v1) = W (Proc.devRef .tc main_v1) := by stretch_keeps hostOps5
theorem k1_v1 : StableHlo.after (hostOps5_1 (F := Ideal)) W (Proc.devRef .tc main_v1) = W (Proc.devRef .tc main_v1) := by stretch_keeps hostOps5_1
theorem k2_v1 : StableHlo.after (hostOps5_2 (F := Ideal)) W (Proc.devRef .tc main_v1) = W (Proc.devRef .tc main_v1) := by stretch_keeps hostOps5_2
theorem k3_v1 : StableHlo.after (hostOps5_3 (F := Ideal)) W (Proc.devRef .tc main_v1) = W (Proc.devRef .tc main_v1) := by stretch_keeps hostOps5_3
theorem k0_v3 : StableHlo.after (hostOps5 (F := Ideal)) W (Proc.devRef .tc main_v3) = W (Proc.devRef .tc main_v3) := by stretch_keeps hostOps5
theorem k1_v3 : StableHlo.after (hostOps5_1 (F := Ideal)) W (Proc.devRef .tc main_v3) = W (Proc.devRef .tc main_v3) := by stretch_keeps hostOps5_1
theorem k2_v3 : StableHlo.after (hostOps5_2 (F := Ideal)) W (Proc.devRef .tc main_v3) = W (Proc.devRef .tc main_v3) := by stretch_keeps hostOps5_2
theorem k3_v3 : StableHlo.after (hostOps5_3 (F := Ideal)) W (Proc.devRef .tc main_v3) = W (Proc.devRef .tc main_v3) := by stretch_keeps hostOps5_3
theorem k0_v13 : StableHlo.after (hostOps5 (F := Ideal)) W (Proc.devRef .tc main_v13) = W (Proc.devRef .tc main_v13) := by stretch_keeps hostOps5
theorem k1_v13 : StableHlo.after (hostOps5_1 (F := Ideal)) W (Proc.devRef .tc main_v13) = W (Proc.devRef .tc main_v13) := by stretch_keeps hostOps5_1
theorem k2_v13 : StableHlo.after (hostOps5_2 (F := Ideal)) W (Proc.devRef .tc main_v13) = W (Proc.devRef .tc main_v13) := by stretch_keeps hostOps5_2
theorem k3_v13 : StableHlo.after (hostOps5_3 (F := Ideal)) W (Proc.devRef .tc main_v13) = W (Proc.devRef .tc main_v13) := by stretch_keeps hostOps5_3
theorem k0_v15 : StableHlo.after (hostOps5 (F := Ideal)) W (Proc.devRef .tc main_v15) = W (Proc.devRef .tc main_v15) := by stretch_keeps hostOps5
theorem k1_v15 : StableHlo.after (hostOps5_1 (F := Ideal)) W (Proc.devRef .tc main_v15) = W (Proc.devRef .tc main_v15) := by stretch_keeps hostOps5_1
theorem k2_v15 : StableHlo.after (hostOps5_2 (F := Ideal)) W (Proc.devRef .tc main_v15) = W (Proc.devRef .tc main_v15) := by stretch_keeps hostOps5_2
theorem k3_v15 : StableHlo.after (hostOps5_3 (F := Ideal)) W (Proc.devRef .tc main_v15) = W (Proc.devRef .tc main_v15) := by stretch_keeps hostOps5_3
theorem k0_v16 : StableHlo.after (hostOps5 (F := Ideal)) W (Proc.devRef .tc main_v16) = W (Proc.devRef .tc main_v16) := by stretch_keeps hostOps5
theorem k1_v16 : StableHlo.after (hostOps5_1 (F := Ideal)) W (Proc.devRef .tc main_v16) = W (Proc.devRef .tc main_v16) := by stretch_keeps hostOps5_1
theorem k2_v16 : StableHlo.after (hostOps5_2 (F := Ideal)) W (Proc.devRef .tc main_v16) = W (Proc.devRef .tc main_v16) := by stretch_keeps hostOps5_2
theorem k3_v16 : StableHlo.after (hostOps5_3 (F := Ideal)) W (Proc.devRef .tc main_v16) = W (Proc.devRef .tc main_v16) := by stretch_keeps hostOps5_3
theorem k0_v17 : StableHlo.after (hostOps5 (F := Ideal)) W (Proc.devRef .tc main_v17) = W (Proc.devRef .tc main_v17) := by stretch_keeps hostOps5
theorem k1_v17 : StableHlo.after (hostOps5_1 (F := Ideal)) W (Proc.devRef .tc main_v17) = W (Proc.devRef .tc main_v17) := by stretch_keeps hostOps5_1
theorem k2_v17 : StableHlo.after (hostOps5_2 (F := Ideal)) W (Proc.devRef .tc main_v17) = W (Proc.devRef .tc main_v17) := by stretch_keeps hostOps5_2
theorem k3_v17 : StableHlo.after (hostOps5_3 (F := Ideal)) W (Proc.devRef .tc main_v17) = W (Proc.devRef .tc main_v17) := by stretch_keeps hostOps5_3

/-! ## The four stretches chained -/

/-- Launch 5's first operand: the layer's features, feature-major and padded. -/
theorem entry_x : step V (Proc.devRef .tc main_v115) = Cert.Sage.K.padT (Cert.Sage.K.unpadT (V (Proc.devRef .tc main_v100))) := by
  refine (k3_x _).trans ((k2_x _).trans ((s1_x _).trans ?_))
  rw [s0_x, s0_c]
  rfl

/-- Launch 5's second operand: the sums of the neighbours' features, feature-major and padded. -/
theorem entry_a : step V (Proc.devRef .tc main_v116)
    = Cert.Sage.K.padT (Cert.Sage.K.agg (Cert.Sage.K.unpadT (V (Proc.devRef .tc main_v100)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost5

end
-- ==== Proof.KStep5.lean ====
/-
  Layer 5 of the kernel program's run: if launch 4 left `O (p-1)` in its output array, with the edge lists and the
  four once-computed operands in their buffers, then launch 5 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg5
import proofs.«147323_j54408645706323_1_alg».proof.Proof.KHost5

set_option maxRecDepth 16384

noncomputable section

namespace Cert.Sage.KStep5

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W27 m ρ c (Proc.devRef .tc main_v100) = O v1 v3 Wt bb x0 4)
    (h1 : W27 m ρ c (Proc.devRef .tc main_v1) = v1) (h3 : W27 m ρ c (Proc.devRef .tc main_v3) = v3)
    (h13 : W27 m ρ c (Proc.devRef .tc main_v13) = inv v3) (h15 : W27 m ρ c (Proc.devRef .tc main_v15) = wx Wt)
    (h16 : W27 m ρ c (Proc.devRef .tc main_v16) = wm Wt) (h17 : W27 m ρ c (Proc.devRef .tc main_v17) = bc bb) :
    W32 m ρ c (Proc.devRef .tc main_v117) = O v1 v3 Wt bb x0 5
    ∧ W32 m ρ c (Proc.devRef .tc main_v1) = v1 ∧ W32 m ρ c (Proc.devRef .tc main_v3) = v3
    ∧ W32 m ρ c (Proc.devRef .tc main_v13) = inv v3 ∧ W32 m ρ c (Proc.devRef .tc main_v15) = wx Wt
    ∧ W32 m ρ c (Proc.devRef .tc main_v16) = wm Wt ∧ W32 m ρ c (Proc.devRef .tc main_v17) = bc bb := by
  -- the launch's operands at its entry
  have ex : W31 m ρ c (Proc.devRef .tc main_v115) = padT (X v1 v3 Wt bb x0 5) := by
    refine (Cert.Sage.KHost5.entry_x (W27 m ρ c)).trans ?_
    rw [ho, unpadT_O]
  have ea : W31 m ρ c (Proc.devRef .tc main_v116) = padT (agg (X v1 v3 Wt bb x0 5) v1 v3) := by
    refine (Cert.Sage.KHost5.entry_a (W27 m ρ c)).trans ?_
    rw [ho, unpadT_O, h1, h3]
  have e1 : W31 m ρ c (Proc.devRef .tc main_v1) = v1 := (Cert.Sage.KHost5.kept_v1 (W27 m ρ c)).trans h1
  have e3 : W31 m ρ c (Proc.devRef .tc main_v3) = v3 := (Cert.Sage.KHost5.kept_v3 (W27 m ρ c)).trans h3
  have e13 : W31 m ρ c (Proc.devRef .tc main_v13) = inv v3 := (Cert.Sage.KHost5.kept_v13 (W27 m ρ c)).trans h13
  have e15 : W31 m ρ c (Proc.devRef .tc main_v15) = wx Wt := (Cert.Sage.KHost5.kept_v15 (W27 m ρ c)).trans h15
  have e16 : W31 m ρ c (Proc.devRef .tc main_v16) = wm Wt := (Cert.Sage.KHost5.kept_v16 (W27 m ρ c)).trans h16
  have e17 : W31 m ρ c (Proc.devRef .tc main_v17) = bc bb := (Cert.Sage.KHost5.kept_v17 (W27 m ρ c)).trans h17
  -- an operand array of the launch is left as entered
  have hin : ∀ w : Fin cfg5.W, (cfg5.win w).isOut = false →
      W32 m ρ c (Proc.devRef .tc (Pipeline.arrRef spec5 w)) = V31 m ρ c (Pipeline.arrRef spec5 w) := fun w hw =>
    (W32_arr m ρ c w).trans (((dat5 (V31 m ρ) c).arrAt_in w hw cfg5.N).trans (A_eq5 (V31 m ρ) c w))
  refine ⟨?_, ?_, ?_, ?_, ?_, ?_, ?_⟩
  · refine (W32_arr m ρ c 6).trans ?_
    rw [Cert.Sage.KReg5.final (V31 m ρ) c]
    show cols (W31 m ρ c (Proc.devRef .tc main_v115)) (W31 m ρ c (Proc.devRef .tc main_v116))
      (W31 m ρ c (Proc.devRef .tc main_v13)) (W31 m ρ c (Proc.devRef .tc main_v15))
      (W31 m ρ c (Proc.devRef .tc main_v16)) (W31 m ρ c (Proc.devRef .tc main_v17)) = _
    rw [ex, ea, e13, e15, e16, e17]
    rfl
  · exact (W32_of_ne m ρ c main_v1 (by decide)).trans e1
  · exact (W32_of_ne m ρ c main_v3 (by decide)).trans e3
  · exact (hin 2 rfl).trans e13
  · exact (hin 3 rfl).trans e15
  · exact (hin 4 rfl).trans e16
  · exact (hin 5 rfl).trans e17

end Cert.Sage.KStep5

end
-- ==== Proof.KReg6.lean ====
/-
  Launch 6 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg6

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg6.N,
    win6_0.index t (0 : Fin 2) = 0 ∧ win6_0.index t (1 : Fin 2) = t.val
    ∧ win6_1.index t (0 : Fin 2) = 0 ∧ win6_1.index t (1 : Fin 2) = t.val
    ∧ win6_2.index t (0 : Fin 2) = 0 ∧ win6_2.index t (1 : Fin 2) = t.val
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = t.val ∧ t.val < 4 :=
  (by decide +kernel : ∀ t : Fin grid6.N, _)

/-- What point `t` writes back is block `t` of `cols` of the operand arrays as the launch finds them. -/
theorem flushed_eq (c : Dev nD) (t : Fin cfg6.N) :
    (dat6 V c).flushed 6 t = ((cfg6.win 6).blk t).view.read (Elt Ideal)
      (Cert.Sage.K.cols (V c main_v132) (V c main_v133) (V c main_v13) (V c main_v15) (V c main_v16) (V c main_v17)) := by
  show (cfg6.win 6).cut (grid6.coords t) ((dat6 V c).after 6 t) = _
  rw [after6_6]
  unfold out6_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk6 V c 0 t (ix2 k q) = V c main_v132 (ix2 k (col t.val ht q)) := fun k q => by
    show V c main_v132 (((cfg6.win 0).blk t).view.emb (ix2 k q)) = _
    refine congrArg (V c main_v132) ?_
    funext a; apply Fin.ext
    match a with
    | ⟨0, _⟩ => show win6_0.index t (0 : Fin 2) * 3 + 1 * k.val = k.val; omega
    | ⟨1, _⟩ => show win6_0.index t (1 : Fin 2) * 51200 + 1 * q.val = t.val * 51200 + q.val; omega
  have r1 : ∀ (k : Fin 3) (q : Fin 51200), iblk6 V c 1 t (ix2 k q) = V c main_v133 (ix2 k (col t.val ht q)) := fun k q => by
    show V c main_v133 (((cfg6.win 1).blk t).view.emb (ix2 k q)) = _
    refine congrArg (V c main_v133) ?_
    funext a; apply Fin.ext
    match a with
    | ⟨0, _⟩ => show win6_1.index t (0 : Fin 2) * 3 + 1 * k.val = k.val; omega
    | ⟨1, _⟩ => show win6_1.index t (1 : Fin 2) * 51200 + 1 * q.val = t.val * 51200 + q.val; omega
  have r2 : ∀ q : Fin 51200, iblk6 V c 2 t (ix2 (0 : Fin 1) q) = V c main_v13 (ix2 (0 : Fin 1) (col t.val ht q)) := fun q => by
    show V c main_v13 (((cfg6.win 2).blk t).view.emb (ix2 (0 : Fin 1) q)) = _
    refine congrArg (V c main_v13) ?_
    funext a; apply Fin.ext
    match a with
    | ⟨0, _⟩ => show win6_2.index t (0 : Fin 2) * 1 + 1 * 0 = 0; omega
    | ⟨1, _⟩ => show win6_2.index t (1 : Fin 2) * 51200 + 1 * q.val = t.val * 51200 + q.val; omega
  have r3 : ∀ j k : Fin 3, iblk6 V c 3 t (ix2 j k) = V c main_v15 (ix2 j k) := fun j k => by
    show V c main_v15 (((cfg6.win 3).blk t).view.emb (ix2 j k)) = _
    refine congrArg (V c main_v15) ?_
    funext a; apply Fin.ext
    match a with
    | ⟨0, _⟩ => show win6_3.index t (0 : Fin 2) * 3 + 1 * j.val = j.val; omega
    | ⟨1, _⟩ => show win6_3.index t (1 : Fin 2) * 3 + 1 * k.val = k.val; omega
  have r4 : ∀ j k : Fin 3, iblk6 V c 4 t (ix2 j k) = V c main_v16 (ix2 j k) := fun j k => by
    show V c main_v16 (((cfg6.win 4).blk t).view.emb (ix2 j k)) = _
    refine congrArg (V c main_v16) ?_
    funext a; apply Fin.ext
    match a with
    | ⟨0, _⟩ => show win6_4.index t (0 : Fin 2) * 3 + 1 * j.val = j.val; omega
    | ⟨1, _⟩ => show win6_4.index t (1 : Fin 2) * 3 + 1 * k.val = k.val; omega
  have r5 : ∀ j : Fin 3, iblk6 V c 5 t (ix2 j (0 : Fin 1)) = V c main_v17 (ix2 j (0 : Fin 1)) := fun j => by
    show V c main_v17 (((cfg6.win 5).blk t).view.emb (ix2 j (0 : Fin 1))) = _
    refine congrArg (V c main_v17) ?_
    funext a; apply Fin.ext
    match a with
    | ⟨0, _⟩ => show win6_5.index t (0 : Fin 2) * 3 + 1 * j.val = j.val; omega
    | ⟨1, _⟩ => show win6_5.index t (1 : Fin 2) * 1 + 1 * 0 = 0; omega
  funext y
  show k6_pay1 (iblk6 V c 0 t) (iblk6 V c 1 t) (iblk6 V c 2 t) (iblk6 V c 3 t) (iblk6 V c 4 t) (iblk6 V c 5 t) y
    = Cert.Sage.K.cols (V c main_v132) (V c main_v133) (V c main_v13) (V c main_v15) (V c main_v16) (V c main_v17)
        (((cfg6.win 6).blk t).view.emb y)
  have hemb : ((cfg6.win 6).blk t).view.emb y = ix2 (y 0) (col t.val ht (y 1)) := by
    funext a; apply Fin.ext
    match a with
    | ⟨0, _⟩ => show win6_6.index t (0 : Fin 2) * 3 + 1 * (y 0).val = (y 0).val; omega
    | ⟨1, _⟩ => show win6_6.index t (1 : Fin 2) * 51200 + 1 * (y 1).val = t.val * 51200 + (y 1).val; omega
  rw [hemb]
  exact block_eq_idx (iblk6 V c 0 t) (iblk6 V c 1 t) (iblk6 V c 2 t) (iblk6 V c 3 t) (iblk6 V c 4 t)
    (iblk6 V c 5 t) (V c main_v132) (V c main_v133) (V c main_v13) (V c main_v15) (V c main_v16) (V c main_v17)
    t.val ht r0 r1 r2 r3 r4 r5 y

/-- An entry of the output array lies in point `t`'s block iff each of its coordinates lies in the block's range. -/
theorem mem_blk (t : Fin cfg6.N) (i : S3x204800.Idx) :
    i ∈ ((cfg6.win 6).blk t).view.set ↔ ∀ a : Fin 2, win6_6.index t a * S3x51200.size a ≤ (i a).val
      ∧ (i a).val < win6_6.index t a * S3x51200.size a + S3x51200.size a := by
  show i ∈ ((View.whole main_v134).slice (win6_6.rect t)).set ↔ _
  rw [View.set_slice_whole, Rect.mem_set_unit]
  exact Iff.rfl

/-- Every entry of the output array is in the block of the point that owns its column. -/
theorem cover (i : S3x204800.Idx) :
    ∃ t : Fin cfg6.N, (cfg6.win 6).flush t = true ∧ i ∈ ((cfg6.win 6).blk t).view.set := by
  have hi0 : (i 0).val < 3 := (i 0).isLt
  have hi1 : (i 1).val < 204800 := (i 1).isLt
  have hN : grid6.N = 4 := N_6
  have hlt : (i 1).val / 51200 < grid6.N := by rw [hN]; omega
  obtain ⟨e00, e01, e10, e11, e20, e21, e30, e31, e40, e41, e50, e51, e60, e61, ht⟩ :=
    idx_facts (⟨(i 1).val / 51200, hlt⟩ : Fin cfg6.N)
  refine ⟨⟨(i 1).val / 51200, hlt⟩, flush6_6 _, ?_⟩
  rw [mem_blk]
  intro a
  match a with
  | ⟨0, _⟩ =>
    show win6_6.index ⟨(i 1).val / 51200, hlt⟩ (0 : Fin 2) * 3 ≤ (i 0).val
      ∧ (i 0).val < win6_6.index ⟨(i 1).val / 51200, hlt⟩ (0 : Fin 2) * 3 + 3
    omega
  | ⟨1, _⟩ =>
    show win6_6.index ⟨(i 1).val / 51200, hlt⟩ (1 : Fin 2) * 51200 ≤ (i 1).val
      ∧ (i 1).val < win6_6.index ⟨(i 1).val / 51200, hlt⟩ (1 : Fin 2) * 51200 + 51200
    have e : (⟨(i 1).val / 51200, hlt⟩ : Fin cfg6.N).val = (i 1).val / 51200 := rfl
    omega

/-- The output array after the launch: `cols` of the operand arrays as the launch found them. -/
theorem final (c : Dev nD) :
    (dat6 V c).arrAt 6 cfg6.N
      = Cert.Sage.K.cols (V c main_v132) (V c main_v133) (V c main_v13) (V c main_v15) (V c main_v16) (V c main_v17) :=
  (dat6 V c).arrAt_eq_of_cover 6 _ (fun t _ => flushed_eq V c t) (fun i => cover i)

end Cert.Sage.KReg6

end
-- ==== Proof.KHost6.lean ====
/-
  The host operations between launch 5 and launch 6, read as functions of whole arrays, from ANY buffer contents
  `V`: they cut the padding columns off the previous launch's output and lay it node-major (the layer's features
  `X`), gather the features of every edge's source, add them up at the edges' targets, and lay `X` and that sum
  feature-major again, padded: the two wide operands of launch 6. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost6

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps6_3 (F := Ideal)) (StableHlo.after (hostOps6_2 (F := Ideal))
    (StableHlo.after (hostOps6_1 (F := Ideal)) (StableHlo.after (hostOps6 (F := Ideal)) V)))

/-! ## Each stretch on its own -/

/-- The first stretch leaves the layer's features, feature-major, … -/
theorem s0_x : StableHlo.after (hostOps6 (F := Ideal)) V (Proc.devRef .tc main_v130)
    = transpose S3x200000 [1, 0] (Cert.Sage.K.unpadT (V (Proc.devRef .tc main_v117))) Facts₀.transposes_S200000x3_S3x200000_1_0 := by
  after_results
  all_goals rfl
set_option maxHeartbeats 1000000 in
/-- … the sums of the neighbours' features, feature-major, … -/
theorem s0_a : StableHlo.after (hostOps6 (F := Ideal)) V (Proc.devRef .tc main_v131)
    = transpose S3x200000 [1, 0] (Cert.Sage.K.agg (Cert.Sage.K.unpadT (V (Proc.devRef .tc main_v117)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps6 (F := Ideal)) V (Proc.devRef .tc main_c_36) = constantI S_ 32 0#32 := by
  after_results
/-- The second stretch pads the features. -/
theorem s1_x : StableHlo.after (hostOps6_1 (F := Ideal)) W (Proc.devRef .tc main_v132)
    = pad S3x204800 ![0, 0] ![0, 4800] ![0, 0] (W (Proc.devRef .tc main_v130)) (sitofp (F := Ideal) .f32 (W (Proc.devRef .tc main_c_36)))
        Facts₀.pads_S3x200000_S3x204800_000_048000 Facts₀.h_S_ := by
  after_results
  all_goals rfl
/-- The third stretch is the second padding value. -/
theorem s2_c : StableHlo.after (hostOps6_2 (F := Ideal)) W (Proc.devRef .tc main_c_37) = constantI S_ 32 0#32 := by
  after_results
/-- The fourth stretch pads the sums. -/
theorem s3_a : StableHlo.after (hostOps6_3 (F := Ideal)) W (Proc.devRef .tc main_v133)
    = pad S3x204800 ![0, 0] ![0, 4800] ![0, 0] (W (Proc.devRef .tc main_v131)) (sitofp (F := Ideal) .f32 (W (Proc.devRef .tc main_c_37)))
        Facts₀.pads_S3x200000_S3x204800_000_048000 Facts₀.h_S_ := by
  after_results
  all_goals rfl

/-! ## What the stretches do not write -/

theorem k3_x : StableHlo.after (hostOps6_3 (F := Ideal)) W (Proc.devRef .tc main_v132) = W (Proc.devRef .tc main_v132) := by stretch_keeps hostOps6_3
theorem k2_x : StableHlo.after (hostOps6_2 (F := Ideal)) W (Proc.devRef .tc main_v132) = W (Proc.devRef .tc main_v132) := by stretch_keeps hostOps6_2
theorem k2_a : StableHlo.after (hostOps6_2 (F := Ideal)) W (Proc.devRef .tc main_v131) = W (Proc.devRef .tc main_v131) := by stretch_keeps hostOps6_2
theorem k1_a : StableHlo.after (hostOps6_1 (F := Ideal)) W (Proc.devRef .tc main_v131) = W (Proc.devRef .tc main_v131) := by stretch_keeps hostOps6_1
theorem k0_v1 : StableHlo.after (hostOps6 (F := Ideal)) W (Proc.devRef .tc main_v1) = W (Proc.devRef .tc main_v1) := by stretch_keeps hostOps6
theorem k1_v1 : StableHlo.after (hostOps6_1 (F := Ideal)) W (Proc.devRef .tc main_v1) = W (Proc.devRef .tc main_v1) := by stretch_keeps hostOps6_1
theorem k2_v1 : StableHlo.after (hostOps6_2 (F := Ideal)) W (Proc.devRef .tc main_v1) = W (Proc.devRef .tc main_v1) := by stretch_keeps hostOps6_2
theorem k3_v1 : StableHlo.after (hostOps6_3 (F := Ideal)) W (Proc.devRef .tc main_v1) = W (Proc.devRef .tc main_v1) := by stretch_keeps hostOps6_3
theorem k0_v3 : StableHlo.after (hostOps6 (F := Ideal)) W (Proc.devRef .tc main_v3) = W (Proc.devRef .tc main_v3) := by stretch_keeps hostOps6
theorem k1_v3 : StableHlo.after (hostOps6_1 (F := Ideal)) W (Proc.devRef .tc main_v3) = W (Proc.devRef .tc main_v3) := by stretch_keeps hostOps6_1
theorem k2_v3 : StableHlo.after (hostOps6_2 (F := Ideal)) W (Proc.devRef .tc main_v3) = W (Proc.devRef .tc main_v3) := by stretch_keeps hostOps6_2
theorem k3_v3 : StableHlo.after (hostOps6_3 (F := Ideal)) W (Proc.devRef .tc main_v3) = W (Proc.devRef .tc main_v3) := by stretch_keeps hostOps6_3
theorem k0_v13 : StableHlo.after (hostOps6 (F := Ideal)) W (Proc.devRef .tc main_v13) = W (Proc.devRef .tc main_v13) := by stretch_keeps hostOps6
theorem k1_v13 : StableHlo.after (hostOps6_1 (F := Ideal)) W (Proc.devRef .tc main_v13) = W (Proc.devRef .tc main_v13) := by stretch_keeps hostOps6_1
theorem k2_v13 : StableHlo.after (hostOps6_2 (F := Ideal)) W (Proc.devRef .tc main_v13) = W (Proc.devRef .tc main_v13) := by stretch_keeps hostOps6_2
theorem k3_v13 : StableHlo.after (hostOps6_3 (F := Ideal)) W (Proc.devRef .tc main_v13) = W (Proc.devRef .tc main_v13) := by stretch_keeps hostOps6_3
theorem k0_v15 : StableHlo.after (hostOps6 (F := Ideal)) W (Proc.devRef .tc main_v15) = W (Proc.devRef .tc main_v15) := by stretch_keeps hostOps6
theorem k1_v15 : StableHlo.after (hostOps6_1 (F := Ideal)) W (Proc.devRef .tc main_v15) = W (Proc.devRef .tc main_v15) := by stretch_keeps hostOps6_1
theorem k2_v15 : StableHlo.after (hostOps6_2 (F := Ideal)) W (Proc.devRef .tc main_v15) = W (Proc.devRef .tc main_v15) := by stretch_keeps hostOps6_2
theorem k3_v15 : StableHlo.after (hostOps6_3 (F := Ideal)) W (Proc.devRef .tc main_v15) = W (Proc.devRef .tc main_v15) := by stretch_keeps hostOps6_3
theorem k0_v16 : StableHlo.after (hostOps6 (F := Ideal)) W (Proc.devRef .tc main_v16) = W (Proc.devRef .tc main_v16) := by stretch_keeps hostOps6
theorem k1_v16 : StableHlo.after (hostOps6_1 (F := Ideal)) W (Proc.devRef .tc main_v16) = W (Proc.devRef .tc main_v16) := by stretch_keeps hostOps6_1
theorem k2_v16 : StableHlo.after (hostOps6_2 (F := Ideal)) W (Proc.devRef .tc main_v16) = W (Proc.devRef .tc main_v16) := by stretch_keeps hostOps6_2
theorem k3_v16 : StableHlo.after (hostOps6_3 (F := Ideal)) W (Proc.devRef .tc main_v16) = W (Proc.devRef .tc main_v16) := by stretch_keeps hostOps6_3
theorem k0_v17 : StableHlo.after (hostOps6 (F := Ideal)) W (Proc.devRef .tc main_v17) = W (Proc.devRef .tc main_v17) := by stretch_keeps hostOps6
theorem k1_v17 : StableHlo.after (hostOps6_1 (F := Ideal)) W (Proc.devRef .tc main_v17) = W (Proc.devRef .tc main_v17) := by stretch_keeps hostOps6_1
theorem k2_v17 : StableHlo.after (hostOps6_2 (F := Ideal)) W (Proc.devRef .tc main_v17) = W (Proc.devRef .tc main_v17) := by stretch_keeps hostOps6_2
theorem k3_v17 : StableHlo.after (hostOps6_3 (F := Ideal)) W (Proc.devRef .tc main_v17) = W (Proc.devRef .tc main_v17) := by stretch_keeps hostOps6_3

/-! ## The four stretches chained -/

/-- Launch 6's first operand: the layer's features, feature-major and padded. -/
theorem entry_x : step V (Proc.devRef .tc main_v132) = Cert.Sage.K.padT (Cert.Sage.K.unpadT (V (Proc.devRef .tc main_v117))) := by
  refine (k3_x _).trans ((k2_x _).trans ((s1_x _).trans ?_))
  rw [s0_x, s0_c]
  rfl

/-- Launch 6's second operand: the sums of the neighbours' features, feature-major and padded. -/
theorem entry_a : step V (Proc.devRef .tc main_v133)
    = Cert.Sage.K.padT (Cert.Sage.K.agg (Cert.Sage.K.unpadT (V (Proc.devRef .tc main_v117)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost6

end
-- ==== Proof.KStep6.lean ====
/-
  Layer 6 of the kernel program's run: if launch 5 left `O (p-1)` in its output array, with the edge lists and the
  four once-computed operands in their buffers, then launch 6 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg6
import proofs.«147323_j54408645706323_1_alg».proof.Proof.KHost6

set_option maxRecDepth 16384

noncomputable section

namespace Cert.Sage.KStep6

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W32 m ρ c (Proc.devRef .tc main_v117) = O v1 v3 Wt bb x0 5)
    (h1 : W32 m ρ c (Proc.devRef .tc main_v1) = v1) (h3 : W32 m ρ c (Proc.devRef .tc main_v3) = v3)
    (h13 : W32 m ρ c (Proc.devRef .tc main_v13) = inv v3) (h15 : W32 m ρ c (Proc.devRef .tc main_v15) = wx Wt)
    (h16 : W32 m ρ c (Proc.devRef .tc main_v16) = wm Wt) (h17 : W32 m ρ c (Proc.devRef .tc main_v17) = bc bb) :
    W37 m ρ c (Proc.devRef .tc main_v134) = O v1 v3 Wt bb x0 6
    ∧ W37 m ρ c (Proc.devRef .tc main_v1) = v1 ∧ W37 m ρ c (Proc.devRef .tc main_v3) = v3
    ∧ W37 m ρ c (Proc.devRef .tc main_v13) = inv v3 ∧ W37 m ρ c (Proc.devRef .tc main_v15) = wx Wt
    ∧ W37 m ρ c (Proc.devRef .tc main_v16) = wm Wt ∧ W37 m ρ c (Proc.devRef .tc main_v17) = bc bb := by
  -- the launch's operands at its entry
  have ex : W36 m ρ c (Proc.devRef .tc main_v132) = padT (X v1 v3 Wt bb x0 6) := by
    refine (Cert.Sage.KHost6.entry_x (W32 m ρ c)).trans ?_
    rw [ho, unpadT_O]
  have ea : W36 m ρ c (Proc.devRef .tc main_v133) = padT (agg (X v1 v3 Wt bb x0 6) v1 v3) := by
    refine (Cert.Sage.KHost6.entry_a (W32 m ρ c)).trans ?_
    rw [ho, unpadT_O, h1, h3]
  have e1 : W36 m ρ c (Proc.devRef .tc main_v1) = v1 := (Cert.Sage.KHost6.kept_v1 (W32 m ρ c)).trans h1
  have e3 : W36 m ρ c (Proc.devRef .tc main_v3) = v3 := (Cert.Sage.KHost6.kept_v3 (W32 m ρ c)).trans h3
  have e13 : W36 m ρ c (Proc.devRef .tc main_v13) = inv v3 := (Cert.Sage.KHost6.kept_v13 (W32 m ρ c)).trans h13
  have e15 : W36 m ρ c (Proc.devRef .tc main_v15) = wx Wt := (Cert.Sage.KHost6.kept_v15 (W32 m ρ c)).trans h15
  have e16 : W36 m ρ c (Proc.devRef .tc main_v16) = wm Wt := (Cert.Sage.KHost6.kept_v16 (W32 m ρ c)).trans h16
  have e17 : W36 m ρ c (Proc.devRef .tc main_v17) = bc bb := (Cert.Sage.KHost6.kept_v17 (W32 m ρ c)).trans h17
  -- an operand array of the launch is left as entered
  have hin : ∀ w : Fin cfg6.W, (cfg6.win w).isOut = false →
      W37 m ρ c (Proc.devRef .tc (Pipeline.arrRef spec6 w)) = V36 m ρ c (Pipeline.arrRef spec6 w) := fun w hw =>
    (W37_arr m ρ c w).trans (((dat6 (V36 m ρ) c).arrAt_in w hw cfg6.N).trans (A_eq6 (V36 m ρ) c w))
  refine ⟨?_, ?_, ?_, ?_, ?_, ?_, ?_⟩
  · refine (W37_arr m ρ c 6).trans ?_
    rw [Cert.Sage.KReg6.final (V36 m ρ) c]
    show cols (W36 m ρ c (Proc.devRef .tc main_v132)) (W36 m ρ c (Proc.devRef .tc main_v133))
      (W36 m ρ c (Proc.devRef .tc main_v13)) (W36 m ρ c (Proc.devRef .tc main_v15))
      (W36 m ρ c (Proc.devRef .tc main_v16)) (W36 m ρ c (Proc.devRef .tc main_v17)) = _
    rw [ex, ea, e13, e15, e16, e17]
    rfl
  · exact (W37_of_ne m ρ c main_v1 (by decide)).trans e1
  · exact (W37_of_ne m ρ c main_v3 (by decide)).trans e3
  · exact (hin 2 rfl).trans e13
  · exact (hin 3 rfl).trans e15
  · exact (hin 4 rfl).trans e16
  · exact (hin 5 rfl).trans e17

end Cert.Sage.KStep6

end
-- ==== Proof.KReg7.lean ====
/-
  Launch 7 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg7

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg7.N,
    win7_0.index t (0 : Fin 2) = 0 ∧ win7_0.index t (1 : Fin 2) = t.val
    ∧ win7_1.index t (0 : Fin 2) = 0 ∧ win7_1.index t (1 : Fin 2) = t.val
    ∧ win7_2.index t (0 : Fin 2) = 0 ∧ win7_2.index t (1 : Fin 2) = t.val
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = t.val ∧ t.val < 4 :=
  (by decide +kernel : ∀ t : Fin grid7.N, _)

/-- What point `t` writes back is block `t` of `cols` of the operand arrays as the launch finds them. -/
theorem flushed_eq (c : Dev nD) (t : Fin cfg7.N) :
    (dat7 V c).flushed 6 t = ((cfg7.win 6).blk t).view.read (Elt Ideal)
      (Cert.Sage.K.cols (V c main_v149) (V c main_v150) (V c main_v13) (V c main_v15) (V c main_v16) (V c main_v17)) := by
  show (cfg7.win 6).cut (grid7.coords t) ((dat7 V c).after 6 t) = _
  rw [after7_6]
  unfold out7_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk7 V c 0 t (ix2 k q) = V c main_v149 (ix2 k (col t.val ht q)) := fun k q => by
    show V c main_v149 (((cfg7.win 0).blk t).view.emb (ix2 k q)) = _
    refine congrArg (V c main_v149) ?_
    funext a; apply Fin.ext
    match a with
    | ⟨0, _⟩ => show win7_0.index t (0 : Fin 2) * 3 + 1 * k.val = k.val; omega
    | ⟨1, _⟩ => show win7_0.index t (1 : Fin 2) * 51200 + 1 * q.val = t.val * 51200 + q.val; omega
  have r1 : ∀ (k : Fin 3) (q : Fin 51200), iblk7 V c 1 t (ix2 k q) = V c main_v150 (ix2 k (col t.val ht q)) := fun k q => by
    show V c main_v150 (((cfg7.win 1).blk t).view.emb (ix2 k q)) = _
    refine congrArg (V c main_v150) ?_
    funext a; apply Fin.ext
    match a with
    | ⟨0, _⟩ => show win7_1.index t (0 : Fin 2) * 3 + 1 * k.val = k.val; omega
    | ⟨1, _⟩ => show win7_1.index t (1 : Fin 2) * 51200 + 1 * q.val = t.val * 51200 + q.val; omega
  have r2 : ∀ q : Fin 51200, iblk7 V c 2 t (ix2 (0 : Fin 1) q) = V c main_v13 (ix2 (0 : Fin 1) (col t.val ht q)) := fun q => by
    show V c main_v13 (((cfg7.win 2).blk t).view.emb (ix2 (0 : Fin 1) q)) = _
    refine congrArg (V c main_v13) ?_
    funext a; apply Fin.ext
    match a with
    | ⟨0, _⟩ => show win7_2.index t (0 : Fin 2) * 1 + 1 * 0 = 0; omega
    | ⟨1, _⟩ => show win7_2.index t (1 : Fin 2) * 51200 + 1 * q.val = t.val * 51200 + q.val; omega
  have r3 : ∀ j k : Fin 3, iblk7 V c 3 t (ix2 j k) = V c main_v15 (ix2 j k) := fun j k => by
    show V c main_v15 (((cfg7.win 3).blk t).view.emb (ix2 j k)) = _
    refine congrArg (V c main_v15) ?_
    funext a; apply Fin.ext
    match a with
    | ⟨0, _⟩ => show win7_3.index t (0 : Fin 2) * 3 + 1 * j.val = j.val; omega
    | ⟨1, _⟩ => show win7_3.index t (1 : Fin 2) * 3 + 1 * k.val = k.val; omega
  have r4 : ∀ j k : Fin 3, iblk7 V c 4 t (ix2 j k) = V c main_v16 (ix2 j k) := fun j k => by
    show V c main_v16 (((cfg7.win 4).blk t).view.emb (ix2 j k)) = _
    refine congrArg (V c main_v16) ?_
    funext a; apply Fin.ext
    match a with
    | ⟨0, _⟩ => show win7_4.index t (0 : Fin 2) * 3 + 1 * j.val = j.val; omega
    | ⟨1, _⟩ => show win7_4.index t (1 : Fin 2) * 3 + 1 * k.val = k.val; omega
  have r5 : ∀ j : Fin 3, iblk7 V c 5 t (ix2 j (0 : Fin 1)) = V c main_v17 (ix2 j (0 : Fin 1)) := fun j => by
    show V c main_v17 (((cfg7.win 5).blk t).view.emb (ix2 j (0 : Fin 1))) = _
    refine congrArg (V c main_v17) ?_
    funext a; apply Fin.ext
    match a with
    | ⟨0, _⟩ => show win7_5.index t (0 : Fin 2) * 3 + 1 * j.val = j.val; omega
    | ⟨1, _⟩ => show win7_5.index t (1 : Fin 2) * 1 + 1 * 0 = 0; omega
  funext y
  show k7_pay1 (iblk7 V c 0 t) (iblk7 V c 1 t) (iblk7 V c 2 t) (iblk7 V c 3 t) (iblk7 V c 4 t) (iblk7 V c 5 t) y
    = Cert.Sage.K.cols (V c main_v149) (V c main_v150) (V c main_v13) (V c main_v15) (V c main_v16) (V c main_v17)
        (((cfg7.win 6).blk t).view.emb y)
  have hemb : ((cfg7.win 6).blk t).view.emb y = ix2 (y 0) (col t.val ht (y 1)) := by
    funext a; apply Fin.ext
    match a with
    | ⟨0, _⟩ => show win7_6.index t (0 : Fin 2) * 3 + 1 * (y 0).val = (y 0).val; omega
    | ⟨1, _⟩ => show win7_6.index t (1 : Fin 2) * 51200 + 1 * (y 1).val = t.val * 51200 + (y 1).val; omega
  rw [hemb]
  exact block_eq_idx (iblk7 V c 0 t) (iblk7 V c 1 t) (iblk7 V c 2 t) (iblk7 V c 3 t) (iblk7 V c 4 t)
    (iblk7 V c 5 t) (V c main_v149) (V c main_v150) (V c main_v13) (V c main_v15) (V c main_v16) (V c main_v17)
    t.val ht r0 r1 r2 r3 r4 r5 y

/-- An entry of the output array lies in point `t`'s block iff each of its coordinates lies in the block's range. -/
theorem mem_blk (t : Fin cfg7.N) (i : S3x204800.Idx) :
    i ∈ ((cfg7.win 6).blk t).view.set ↔ ∀ a : Fin 2, win7_6.index t a * S3x51200.size a ≤ (i a).val
      ∧ (i a).val < win7_6.index t a * S3x51200.size a + S3x51200.size a := by
  show i ∈ ((View.whole main_v151).slice (win7_6.rect t)).set ↔ _
  rw [View.set_slice_whole, Rect.mem_set_unit]
  exact Iff.rfl

/-- Every entry of the output array is in the block of the point that owns its column. -/
theorem cover (i : S3x204800.Idx) :
    ∃ t : Fin cfg7.N, (cfg7.win 6).flush t = true ∧ i ∈ ((cfg7.win 6).blk t).view.set := by
  have hi0 : (i 0).val < 3 := (i 0).isLt
  have hi1 : (i 1).val < 204800 := (i 1).isLt
  have hN : grid7.N = 4 := N_7
  have hlt : (i 1).val / 51200 < grid7.N := by rw [hN]; omega
  obtain ⟨e00, e01, e10, e11, e20, e21, e30, e31, e40, e41, e50, e51, e60, e61, ht⟩ :=
    idx_facts (⟨(i 1).val / 51200, hlt⟩ : Fin cfg7.N)
  refine ⟨⟨(i 1).val / 51200, hlt⟩, flush7_6 _, ?_⟩
  rw [mem_blk]
  intro a
  match a with
  | ⟨0, _⟩ =>
    show win7_6.index ⟨(i 1).val / 51200, hlt⟩ (0 : Fin 2) * 3 ≤ (i 0).val
      ∧ (i 0).val < win7_6.index ⟨(i 1).val / 51200, hlt⟩ (0 : Fin 2) * 3 + 3
    omega
  | ⟨1, _⟩ =>
    show win7_6.index ⟨(i 1).val / 51200, hlt⟩ (1 : Fin 2) * 51200 ≤ (i 1).val
      ∧ (i 1).val < win7_6.index ⟨(i 1).val / 51200, hlt⟩ (1 : Fin 2) * 51200 + 51200
    have e : (⟨(i 1).val / 51200, hlt⟩ : Fin cfg7.N).val = (i 1).val / 51200 := rfl
    omega

/-- The output array after the launch: `cols` of the operand arrays as the launch found them. -/
theorem final (c : Dev nD) :
    (dat7 V c).arrAt 6 cfg7.N
      = Cert.Sage.K.cols (V c main_v149) (V c main_v150) (V c main_v13) (V c main_v15) (V c main_v16) (V c main_v17) :=
  (dat7 V c).arrAt_eq_of_cover 6 _ (fun t _ => flushed_eq V c t) (fun i => cover i)

end Cert.Sage.KReg7

end
-- ==== Proof.KHost7.lean ====
/-
  The host operations between launch 6 and launch 7, read as functions of whole arrays, from ANY buffer contents
  `V`: they cut the padding columns off the previous launch's output and lay it node-major (the layer's features
  `X`), gather the features of every edge's source, add them up at the edges' targets, and lay `X` and that sum
  feature-major again, padded: the two wide operands of launch 7. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost7

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps7_3 (F := Ideal)) (StableHlo.after (hostOps7_2 (F := Ideal))
    (StableHlo.after (hostOps7_1 (F := Ideal)) (StableHlo.after (hostOps7 (F := Ideal)) V)))

/-! ## Each stretch on its own -/

/-- The first stretch leaves the layer's features, feature-major, … -/
theorem s0_x : StableHlo.after (hostOps7 (F := Ideal)) V (Proc.devRef .tc main_v147)
    = transpose S3x200000 [1, 0] (Cert.Sage.K.unpadT (V (Proc.devRef .tc main_v134))) Facts₀.transposes_S200000x3_S3x200000_1_0 := by
  after_results
  all_goals rfl
set_option maxHeartbeats 1000000 in
/-- … the sums of the neighbours' features, feature-major, … -/
theorem s0_a : StableHlo.after (hostOps7 (F := Ideal)) V (Proc.devRef .tc main_v148)
    = transpose S3x200000 [1, 0] (Cert.Sage.K.agg (Cert.Sage.K.unpadT (V (Proc.devRef .tc main_v134)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps7 (F := Ideal)) V (Proc.devRef .tc main_c_41) = constantI S_ 32 0#32 := by
  after_results
/-- The second stretch pads the features. -/
theorem s1_x : StableHlo.after (hostOps7_1 (F := Ideal)) W (Proc.devRef .tc main_v149)
    = pad S3x204800 ![0, 0] ![0, 4800] ![0, 0] (W (Proc.devRef .tc main_v147)) (sitofp (F := Ideal) .f32 (W (Proc.devRef .tc main_c_41)))
        Facts₀.pads_S3x200000_S3x204800_000_048000 Facts₀.h_S_ := by
  after_results
  all_goals rfl
/-- The third stretch is the second padding value. -/
theorem s2_c : StableHlo.after (hostOps7_2 (F := Ideal)) W (Proc.devRef .tc main_c_42) = constantI S_ 32 0#32 := by
  after_results
/-- The fourth stretch pads the sums. -/
theorem s3_a : StableHlo.after (hostOps7_3 (F := Ideal)) W (Proc.devRef .tc main_v150)
    = pad S3x204800 ![0, 0] ![0, 4800] ![0, 0] (W (Proc.devRef .tc main_v148)) (sitofp (F := Ideal) .f32 (W (Proc.devRef .tc main_c_42)))
        Facts₀.pads_S3x200000_S3x204800_000_048000 Facts₀.h_S_ := by
  after_results
  all_goals rfl

/-! ## What the stretches do not write -/

theorem k3_x : StableHlo.after (hostOps7_3 (F := Ideal)) W (Proc.devRef .tc main_v149) = W (Proc.devRef .tc main_v149) := by stretch_keeps hostOps7_3
theorem k2_x : StableHlo.after (hostOps7_2 (F := Ideal)) W (Proc.devRef .tc main_v149) = W (Proc.devRef .tc main_v149) := by stretch_keeps hostOps7_2
theorem k2_a : StableHlo.after (hostOps7_2 (F := Ideal)) W (Proc.devRef .tc main_v148) = W (Proc.devRef .tc main_v148) := by stretch_keeps hostOps7_2
theorem k1_a : StableHlo.after (hostOps7_1 (F := Ideal)) W (Proc.devRef .tc main_v148) = W (Proc.devRef .tc main_v148) := by stretch_keeps hostOps7_1
theorem k0_v1 : StableHlo.after (hostOps7 (F := Ideal)) W (Proc.devRef .tc main_v1) = W (Proc.devRef .tc main_v1) := by stretch_keeps hostOps7
theorem k1_v1 : StableHlo.after (hostOps7_1 (F := Ideal)) W (Proc.devRef .tc main_v1) = W (Proc.devRef .tc main_v1) := by stretch_keeps hostOps7_1
theorem k2_v1 : StableHlo.after (hostOps7_2 (F := Ideal)) W (Proc.devRef .tc main_v1) = W (Proc.devRef .tc main_v1) := by stretch_keeps hostOps7_2
theorem k3_v1 : StableHlo.after (hostOps7_3 (F := Ideal)) W (Proc.devRef .tc main_v1) = W (Proc.devRef .tc main_v1) := by stretch_keeps hostOps7_3
theorem k0_v3 : StableHlo.after (hostOps7 (F := Ideal)) W (Proc.devRef .tc main_v3) = W (Proc.devRef .tc main_v3) := by stretch_keeps hostOps7
theorem k1_v3 : StableHlo.after (hostOps7_1 (F := Ideal)) W (Proc.devRef .tc main_v3) = W (Proc.devRef .tc main_v3) := by stretch_keeps hostOps7_1
theorem k2_v3 : StableHlo.after (hostOps7_2 (F := Ideal)) W (Proc.devRef .tc main_v3) = W (Proc.devRef .tc main_v3) := by stretch_keeps hostOps7_2
theorem k3_v3 : StableHlo.after (hostOps7_3 (F := Ideal)) W (Proc.devRef .tc main_v3) = W (Proc.devRef .tc main_v3) := by stretch_keeps hostOps7_3
theorem k0_v13 : StableHlo.after (hostOps7 (F := Ideal)) W (Proc.devRef .tc main_v13) = W (Proc.devRef .tc main_v13) := by stretch_keeps hostOps7
theorem k1_v13 : StableHlo.after (hostOps7_1 (F := Ideal)) W (Proc.devRef .tc main_v13) = W (Proc.devRef .tc main_v13) := by stretch_keeps hostOps7_1
theorem k2_v13 : StableHlo.after (hostOps7_2 (F := Ideal)) W (Proc.devRef .tc main_v13) = W (Proc.devRef .tc main_v13) := by stretch_keeps hostOps7_2
theorem k3_v13 : StableHlo.after (hostOps7_3 (F := Ideal)) W (Proc.devRef .tc main_v13) = W (Proc.devRef .tc main_v13) := by stretch_keeps hostOps7_3
theorem k0_v15 : StableHlo.after (hostOps7 (F := Ideal)) W (Proc.devRef .tc main_v15) = W (Proc.devRef .tc main_v15) := by stretch_keeps hostOps7
theorem k1_v15 : StableHlo.after (hostOps7_1 (F := Ideal)) W (Proc.devRef .tc main_v15) = W (Proc.devRef .tc main_v15) := by stretch_keeps hostOps7_1
theorem k2_v15 : StableHlo.after (hostOps7_2 (F := Ideal)) W (Proc.devRef .tc main_v15) = W (Proc.devRef .tc main_v15) := by stretch_keeps hostOps7_2
theorem k3_v15 : StableHlo.after (hostOps7_3 (F := Ideal)) W (Proc.devRef .tc main_v15) = W (Proc.devRef .tc main_v15) := by stretch_keeps hostOps7_3
theorem k0_v16 : StableHlo.after (hostOps7 (F := Ideal)) W (Proc.devRef .tc main_v16) = W (Proc.devRef .tc main_v16) := by stretch_keeps hostOps7
theorem k1_v16 : StableHlo.after (hostOps7_1 (F := Ideal)) W (Proc.devRef .tc main_v16) = W (Proc.devRef .tc main_v16) := by stretch_keeps hostOps7_1
theorem k2_v16 : StableHlo.after (hostOps7_2 (F := Ideal)) W (Proc.devRef .tc main_v16) = W (Proc.devRef .tc main_v16) := by stretch_keeps hostOps7_2
theorem k3_v16 : StableHlo.after (hostOps7_3 (F := Ideal)) W (Proc.devRef .tc main_v16) = W (Proc.devRef .tc main_v16) := by stretch_keeps hostOps7_3
theorem k0_v17 : StableHlo.after (hostOps7 (F := Ideal)) W (Proc.devRef .tc main_v17) = W (Proc.devRef .tc main_v17) := by stretch_keeps hostOps7
theorem k1_v17 : StableHlo.after (hostOps7_1 (F := Ideal)) W (Proc.devRef .tc main_v17) = W (Proc.devRef .tc main_v17) := by stretch_keeps hostOps7_1
theorem k2_v17 : StableHlo.after (hostOps7_2 (F := Ideal)) W (Proc.devRef .tc main_v17) = W (Proc.devRef .tc main_v17) := by stretch_keeps hostOps7_2
theorem k3_v17 : StableHlo.after (hostOps7_3 (F := Ideal)) W (Proc.devRef .tc main_v17) = W (Proc.devRef .tc main_v17) := by stretch_keeps hostOps7_3

/-! ## The four stretches chained -/

/-- Launch 7's first operand: the layer's features, feature-major and padded. -/
theorem entry_x : step V (Proc.devRef .tc main_v149) = Cert.Sage.K.padT (Cert.Sage.K.unpadT (V (Proc.devRef .tc main_v134))) := by
  refine (k3_x _).trans ((k2_x _).trans ((s1_x _).trans ?_))
  rw [s0_x, s0_c]
  rfl

/-- Launch 7's second operand: the sums of the neighbours' features, feature-major and padded. -/
theorem entry_a : step V (Proc.devRef .tc main_v150)
    = Cert.Sage.K.padT (Cert.Sage.K.agg (Cert.Sage.K.unpadT (V (Proc.devRef .tc main_v134)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost7

end
-- ==== Proof.KStep7.lean ====
/-
  Layer 7 of the kernel program's run: if launch 6 left `O (p-1)` in its output array, with the edge lists and the
  four once-computed operands in their buffers, then launch 7 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg7
import proofs.«147323_j54408645706323_1_alg».proof.Proof.KHost7

set_option maxRecDepth 16384

noncomputable section

namespace Cert.Sage.KStep7

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W37 m ρ c (Proc.devRef .tc main_v134) = O v1 v3 Wt bb x0 6)
    (h1 : W37 m ρ c (Proc.devRef .tc main_v1) = v1) (h3 : W37 m ρ c (Proc.devRef .tc main_v3) = v3)
    (h13 : W37 m ρ c (Proc.devRef .tc main_v13) = inv v3) (h15 : W37 m ρ c (Proc.devRef .tc main_v15) = wx Wt)
    (h16 : W37 m ρ c (Proc.devRef .tc main_v16) = wm Wt) (h17 : W37 m ρ c (Proc.devRef .tc main_v17) = bc bb) :
    W42 m ρ c (Proc.devRef .tc main_v151) = O v1 v3 Wt bb x0 7
    ∧ W42 m ρ c (Proc.devRef .tc main_v1) = v1 ∧ W42 m ρ c (Proc.devRef .tc main_v3) = v3
    ∧ W42 m ρ c (Proc.devRef .tc main_v13) = inv v3 ∧ W42 m ρ c (Proc.devRef .tc main_v15) = wx Wt
    ∧ W42 m ρ c (Proc.devRef .tc main_v16) = wm Wt ∧ W42 m ρ c (Proc.devRef .tc main_v17) = bc bb := by
  -- the launch's operands at its entry
  have ex : W41 m ρ c (Proc.devRef .tc main_v149) = padT (X v1 v3 Wt bb x0 7) := by
    refine (Cert.Sage.KHost7.entry_x (W37 m ρ c)).trans ?_
    rw [ho, unpadT_O]
  have ea : W41 m ρ c (Proc.devRef .tc main_v150) = padT (agg (X v1 v3 Wt bb x0 7) v1 v3) := by
    refine (Cert.Sage.KHost7.entry_a (W37 m ρ c)).trans ?_
    rw [ho, unpadT_O, h1, h3]
  have e1 : W41 m ρ c (Proc.devRef .tc main_v1) = v1 := (Cert.Sage.KHost7.kept_v1 (W37 m ρ c)).trans h1
  have e3 : W41 m ρ c (Proc.devRef .tc main_v3) = v3 := (Cert.Sage.KHost7.kept_v3 (W37 m ρ c)).trans h3
  have e13 : W41 m ρ c (Proc.devRef .tc main_v13) = inv v3 := (Cert.Sage.KHost7.kept_v13 (W37 m ρ c)).trans h13
  have e15 : W41 m ρ c (Proc.devRef .tc main_v15) = wx Wt := (Cert.Sage.KHost7.kept_v15 (W37 m ρ c)).trans h15
  have e16 : W41 m ρ c (Proc.devRef .tc main_v16) = wm Wt := (Cert.Sage.KHost7.kept_v16 (W37 m ρ c)).trans h16
  have e17 : W41 m ρ c (Proc.devRef .tc main_v17) = bc bb := (Cert.Sage.KHost7.kept_v17 (W37 m ρ c)).trans h17
  -- an operand array of the launch is left as entered
  have hin : ∀ w : Fin cfg7.W, (cfg7.win w).isOut = false →
      W42 m ρ c (Proc.devRef .tc (Pipeline.arrRef spec7 w)) = V41 m ρ c (Pipeline.arrRef spec7 w) := fun w hw =>
    (W42_arr m ρ c w).trans (((dat7 (V41 m ρ) c).arrAt_in w hw cfg7.N).trans (A_eq7 (V41 m ρ) c w))
  refine ⟨?_, ?_, ?_, ?_, ?_, ?_, ?_⟩
  · refine (W42_arr m ρ c 6).trans ?_
    rw [Cert.Sage.KReg7.final (V41 m ρ) c]
    show cols (W41 m ρ c (Proc.devRef .tc main_v149)) (W41 m ρ c (Proc.devRef .tc main_v150))
      (W41 m ρ c (Proc.devRef .tc main_v13)) (W41 m ρ c (Proc.devRef .tc main_v15))
      (W41 m ρ c (Proc.devRef .tc main_v16)) (W41 m ρ c (Proc.devRef .tc main_v17)) = _
    rw [ex, ea, e13, e15, e16, e17]
    rfl
  · exact (W42_of_ne m ρ c main_v1 (by decide)).trans e1
  · exact (W42_of_ne m ρ c main_v3 (by decide)).trans e3
  · exact (hin 2 rfl).trans e13
  · exact (hin 3 rfl).trans e15
  · exact (hin 4 rfl).trans e16
  · exact (hin 5 rfl).trans e17

end Cert.Sage.KStep7

end
-- ==== Proof.KReg8.lean ====
/-
  Launch 8 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg8

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg8.N,
    win8_0.index t (0 : Fin 2) = 0 ∧ win8_0.index t (1 : Fin 2) = t.val
    ∧ win8_1.index t (0 : Fin 2) = 0 ∧ win8_1.index t (1 : Fin 2) = t.val
    ∧ win8_2.index t (0 : Fin 2) = 0 ∧ win8_2.index t (1 : Fin 2) = t.val
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = t.val ∧ t.val < 4 :=
  (by decide +kernel : ∀ t : Fin grid8.N, _)

/-- What point `t` writes back is block `t` of `cols` of the operand arrays as the launch finds them. -/
theorem flushed_eq (c : Dev nD) (t : Fin cfg8.N) :
    (dat8 V c).flushed 6 t = ((cfg8.win 6).blk t).view.read (Elt Ideal)
      (Cert.Sage.K.cols (V c main_v166) (V c main_v167) (V c main_v13) (V c main_v15) (V c main_v16) (V c main_v17)) := by
  show (cfg8.win 6).cut (grid8.coords t) ((dat8 V c).after 6 t) = _
  rw [after8_6]
  unfold out8_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk8 V c 0 t (ix2 k q) = V c main_v166 (ix2 k (col t.val ht q)) := fun k q => by
    show V c main_v166 (((cfg8.win 0).blk t).view.emb (ix2 k q)) = _
    refine congrArg (V c main_v166) ?_
    funext a; apply Fin.ext
    match a with
    | ⟨0, _⟩ => show win8_0.index t (0 : Fin 2) * 3 + 1 * k.val = k.val; omega
    | ⟨1, _⟩ => show win8_0.index t (1 : Fin 2) * 51200 + 1 * q.val = t.val * 51200 + q.val; omega
  have r1 : ∀ (k : Fin 3) (q : Fin 51200), iblk8 V c 1 t (ix2 k q) = V c main_v167 (ix2 k (col t.val ht q)) := fun k q => by
    show V c main_v167 (((cfg8.win 1).blk t).view.emb (ix2 k q)) = _
    refine congrArg (V c main_v167) ?_
    funext a; apply Fin.ext
    match a with
    | ⟨0, _⟩ => show win8_1.index t (0 : Fin 2) * 3 + 1 * k.val = k.val; omega
    | ⟨1, _⟩ => show win8_1.index t (1 : Fin 2) * 51200 + 1 * q.val = t.val * 51200 + q.val; omega
  have r2 : ∀ q : Fin 51200, iblk8 V c 2 t (ix2 (0 : Fin 1) q) = V c main_v13 (ix2 (0 : Fin 1) (col t.val ht q)) := fun q => by
    show V c main_v13 (((cfg8.win 2).blk t).view.emb (ix2 (0 : Fin 1) q)) = _
    refine congrArg (V c main_v13) ?_
    funext a; apply Fin.ext
    match a with
    | ⟨0, _⟩ => show win8_2.index t (0 : Fin 2) * 1 + 1 * 0 = 0; omega
    | ⟨1, _⟩ => show win8_2.index t (1 : Fin 2) * 51200 + 1 * q.val = t.val * 51200 + q.val; omega
  have r3 : ∀ j k : Fin 3, iblk8 V c 3 t (ix2 j k) = V c main_v15 (ix2 j k) := fun j k => by
    show V c main_v15 (((cfg8.win 3).blk t).view.emb (ix2 j k)) = _
    refine congrArg (V c main_v15) ?_
    funext a; apply Fin.ext
    match a with
    | ⟨0, _⟩ => show win8_3.index t (0 : Fin 2) * 3 + 1 * j.val = j.val; omega
    | ⟨1, _⟩ => show win8_3.index t (1 : Fin 2) * 3 + 1 * k.val = k.val; omega
  have r4 : ∀ j k : Fin 3, iblk8 V c 4 t (ix2 j k) = V c main_v16 (ix2 j k) := fun j k => by
    show V c main_v16 (((cfg8.win 4).blk t).view.emb (ix2 j k)) = _
    refine congrArg (V c main_v16) ?_
    funext a; apply Fin.ext
    match a with
    | ⟨0, _⟩ => show win8_4.index t (0 : Fin 2) * 3 + 1 * j.val = j.val; omega
    | ⟨1, _⟩ => show win8_4.index t (1 : Fin 2) * 3 + 1 * k.val = k.val; omega
  have r5 : ∀ j : Fin 3, iblk8 V c 5 t (ix2 j (0 : Fin 1)) = V c main_v17 (ix2 j (0 : Fin 1)) := fun j => by
    show V c main_v17 (((cfg8.win 5).blk t).view.emb (ix2 j (0 : Fin 1))) = _
    refine congrArg (V c main_v17) ?_
    funext a; apply Fin.ext
    match a with
    | ⟨0, _⟩ => show win8_5.index t (0 : Fin 2) * 3 + 1 * j.val = j.val; omega
    | ⟨1, _⟩ => show win8_5.index t (1 : Fin 2) * 1 + 1 * 0 = 0; omega
  funext y
  show k8_pay1 (iblk8 V c 0 t) (iblk8 V c 1 t) (iblk8 V c 2 t) (iblk8 V c 3 t) (iblk8 V c 4 t) (iblk8 V c 5 t) y
    = Cert.Sage.K.cols (V c main_v166) (V c main_v167) (V c main_v13) (V c main_v15) (V c main_v16) (V c main_v17)
        (((cfg8.win 6).blk t).view.emb y)
  have hemb : ((cfg8.win 6).blk t).view.emb y = ix2 (y 0) (col t.val ht (y 1)) := by
    funext a; apply Fin.ext
    match a with
    | ⟨0, _⟩ => show win8_6.index t (0 : Fin 2) * 3 + 1 * (y 0).val = (y 0).val; omega
    | ⟨1, _⟩ => show win8_6.index t (1 : Fin 2) * 51200 + 1 * (y 1).val = t.val * 51200 + (y 1).val; omega
  rw [hemb]
  exact block_eq_idx (iblk8 V c 0 t) (iblk8 V c 1 t) (iblk8 V c 2 t) (iblk8 V c 3 t) (iblk8 V c 4 t)
    (iblk8 V c 5 t) (V c main_v166) (V c main_v167) (V c main_v13) (V c main_v15) (V c main_v16) (V c main_v17)
    t.val ht r0 r1 r2 r3 r4 r5 y

/-- An entry of the output array lies in point `t`'s block iff each of its coordinates lies in the block's range. -/
theorem mem_blk (t : Fin cfg8.N) (i : S3x204800.Idx) :
    i ∈ ((cfg8.win 6).blk t).view.set ↔ ∀ a : Fin 2, win8_6.index t a * S3x51200.size a ≤ (i a).val
      ∧ (i a).val < win8_6.index t a * S3x51200.size a + S3x51200.size a := by
  show i ∈ ((View.whole main_v168).slice (win8_6.rect t)).set ↔ _
  rw [View.set_slice_whole, Rect.mem_set_unit]
  exact Iff.rfl

/-- Every entry of the output array is in the block of the point that owns its column. -/
theorem cover (i : S3x204800.Idx) :
    ∃ t : Fin cfg8.N, (cfg8.win 6).flush t = true ∧ i ∈ ((cfg8.win 6).blk t).view.set := by
  have hi0 : (i 0).val < 3 := (i 0).isLt
  have hi1 : (i 1).val < 204800 := (i 1).isLt
  have hN : grid8.N = 4 := N_8
  have hlt : (i 1).val / 51200 < grid8.N := by rw [hN]; omega
  obtain ⟨e00, e01, e10, e11, e20, e21, e30, e31, e40, e41, e50, e51, e60, e61, ht⟩ :=
    idx_facts (⟨(i 1).val / 51200, hlt⟩ : Fin cfg8.N)
  refine ⟨⟨(i 1).val / 51200, hlt⟩, flush8_6 _, ?_⟩
  rw [mem_blk]
  intro a
  match a with
  | ⟨0, _⟩ =>
    show win8_6.index ⟨(i 1).val / 51200, hlt⟩ (0 : Fin 2) * 3 ≤ (i 0).val
      ∧ (i 0).val < win8_6.index ⟨(i 1).val / 51200, hlt⟩ (0 : Fin 2) * 3 + 3
    omega
  | ⟨1, _⟩ =>
    show win8_6.index ⟨(i 1).val / 51200, hlt⟩ (1 : Fin 2) * 51200 ≤ (i 1).val
      ∧ (i 1).val < win8_6.index ⟨(i 1).val / 51200, hlt⟩ (1 : Fin 2) * 51200 + 51200
    have e : (⟨(i 1).val / 51200, hlt⟩ : Fin cfg8.N).val = (i 1).val / 51200 := rfl
    omega

/-- The output array after the launch: `cols` of the operand arrays as the launch found them. -/
theorem final (c : Dev nD) :
    (dat8 V c).arrAt 6 cfg8.N
      = Cert.Sage.K.cols (V c main_v166) (V c main_v167) (V c main_v13) (V c main_v15) (V c main_v16) (V c main_v17) :=
  (dat8 V c).arrAt_eq_of_cover 6 _ (fun t _ => flushed_eq V c t) (fun i => cover i)

end Cert.Sage.KReg8

end
-- ==== Proof.KHost8.lean ====
/-
  The host operations between launch 7 and launch 8, read as functions of whole arrays, from ANY buffer contents
  `V`: they cut the padding columns off the previous launch's output and lay it node-major (the layer's features
  `X`), gather the features of every edge's source, add them up at the edges' targets, and lay `X` and that sum
  feature-major again, padded: the two wide operands of launch 8. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost8

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps8_3 (F := Ideal)) (StableHlo.after (hostOps8_2 (F := Ideal))
    (StableHlo.after (hostOps8_1 (F := Ideal)) (StableHlo.after (hostOps8 (F := Ideal)) V)))

/-! ## Each stretch on its own -/

/-- The first stretch leaves the layer's features, feature-major, … -/
theorem s0_x : StableHlo.after (hostOps8 (F := Ideal)) V (Proc.devRef .tc main_v164)
    = transpose S3x200000 [1, 0] (Cert.Sage.K.unpadT (V (Proc.devRef .tc main_v151))) Facts₀.transposes_S200000x3_S3x200000_1_0 := by
  after_results
  all_goals rfl
set_option maxHeartbeats 1000000 in
/-- … the sums of the neighbours' features, feature-major, … -/
theorem s0_a : StableHlo.after (hostOps8 (F := Ideal)) V (Proc.devRef .tc main_v165)
    = transpose S3x200000 [1, 0] (Cert.Sage.K.agg (Cert.Sage.K.unpadT (V (Proc.devRef .tc main_v151)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps8 (F := Ideal)) V (Proc.devRef .tc main_c_46) = constantI S_ 32 0#32 := by
  after_results
/-- The second stretch pads the features. -/
theorem s1_x : StableHlo.after (hostOps8_1 (F := Ideal)) W (Proc.devRef .tc main_v166)
    = pad S3x204800 ![0, 0] ![0, 4800] ![0, 0] (W (Proc.devRef .tc main_v164)) (sitofp (F := Ideal) .f32 (W (Proc.devRef .tc main_c_46)))
        Facts₀.pads_S3x200000_S3x204800_000_048000 Facts₀.h_S_ := by
  after_results
  all_goals rfl
/-- The third stretch is the second padding value. -/
theorem s2_c : StableHlo.after (hostOps8_2 (F := Ideal)) W (Proc.devRef .tc main_c_47) = constantI S_ 32 0#32 := by
  after_results
/-- The fourth stretch pads the sums. -/
theorem s3_a : StableHlo.after (hostOps8_3 (F := Ideal)) W (Proc.devRef .tc main_v167)
    = pad S3x204800 ![0, 0] ![0, 4800] ![0, 0] (W (Proc.devRef .tc main_v165)) (sitofp (F := Ideal) .f32 (W (Proc.devRef .tc main_c_47)))
        Facts₀.pads_S3x200000_S3x204800_000_048000 Facts₀.h_S_ := by
  after_results
  all_goals rfl

/-! ## What the stretches do not write -/

theorem k3_x : StableHlo.after (hostOps8_3 (F := Ideal)) W (Proc.devRef .tc main_v166) = W (Proc.devRef .tc main_v166) := by stretch_keeps hostOps8_3
theorem k2_x : StableHlo.after (hostOps8_2 (F := Ideal)) W (Proc.devRef .tc main_v166) = W (Proc.devRef .tc main_v166) := by stretch_keeps hostOps8_2
theorem k2_a : StableHlo.after (hostOps8_2 (F := Ideal)) W (Proc.devRef .tc main_v165) = W (Proc.devRef .tc main_v165) := by stretch_keeps hostOps8_2
theorem k1_a : StableHlo.after (hostOps8_1 (F := Ideal)) W (Proc.devRef .tc main_v165) = W (Proc.devRef .tc main_v165) := by stretch_keeps hostOps8_1
theorem k0_v1 : StableHlo.after (hostOps8 (F := Ideal)) W (Proc.devRef .tc main_v1) = W (Proc.devRef .tc main_v1) := by stretch_keeps hostOps8
theorem k1_v1 : StableHlo.after (hostOps8_1 (F := Ideal)) W (Proc.devRef .tc main_v1) = W (Proc.devRef .tc main_v1) := by stretch_keeps hostOps8_1
theorem k2_v1 : StableHlo.after (hostOps8_2 (F := Ideal)) W (Proc.devRef .tc main_v1) = W (Proc.devRef .tc main_v1) := by stretch_keeps hostOps8_2
theorem k3_v1 : StableHlo.after (hostOps8_3 (F := Ideal)) W (Proc.devRef .tc main_v1) = W (Proc.devRef .tc main_v1) := by stretch_keeps hostOps8_3
theorem k0_v3 : StableHlo.after (hostOps8 (F := Ideal)) W (Proc.devRef .tc main_v3) = W (Proc.devRef .tc main_v3) := by stretch_keeps hostOps8
theorem k1_v3 : StableHlo.after (hostOps8_1 (F := Ideal)) W (Proc.devRef .tc main_v3) = W (Proc.devRef .tc main_v3) := by stretch_keeps hostOps8_1
theorem k2_v3 : StableHlo.after (hostOps8_2 (F := Ideal)) W (Proc.devRef .tc main_v3) = W (Proc.devRef .tc main_v3) := by stretch_keeps hostOps8_2
theorem k3_v3 : StableHlo.after (hostOps8_3 (F := Ideal)) W (Proc.devRef .tc main_v3) = W (Proc.devRef .tc main_v3) := by stretch_keeps hostOps8_3
theorem k0_v13 : StableHlo.after (hostOps8 (F := Ideal)) W (Proc.devRef .tc main_v13) = W (Proc.devRef .tc main_v13) := by stretch_keeps hostOps8
theorem k1_v13 : StableHlo.after (hostOps8_1 (F := Ideal)) W (Proc.devRef .tc main_v13) = W (Proc.devRef .tc main_v13) := by stretch_keeps hostOps8_1
theorem k2_v13 : StableHlo.after (hostOps8_2 (F := Ideal)) W (Proc.devRef .tc main_v13) = W (Proc.devRef .tc main_v13) := by stretch_keeps hostOps8_2
theorem k3_v13 : StableHlo.after (hostOps8_3 (F := Ideal)) W (Proc.devRef .tc main_v13) = W (Proc.devRef .tc main_v13) := by stretch_keeps hostOps8_3
theorem k0_v15 : StableHlo.after (hostOps8 (F := Ideal)) W (Proc.devRef .tc main_v15) = W (Proc.devRef .tc main_v15) := by stretch_keeps hostOps8
theorem k1_v15 : StableHlo.after (hostOps8_1 (F := Ideal)) W (Proc.devRef .tc main_v15) = W (Proc.devRef .tc main_v15) := by stretch_keeps hostOps8_1
theorem k2_v15 : StableHlo.after (hostOps8_2 (F := Ideal)) W (Proc.devRef .tc main_v15) = W (Proc.devRef .tc main_v15) := by stretch_keeps hostOps8_2
theorem k3_v15 : StableHlo.after (hostOps8_3 (F := Ideal)) W (Proc.devRef .tc main_v15) = W (Proc.devRef .tc main_v15) := by stretch_keeps hostOps8_3
theorem k0_v16 : StableHlo.after (hostOps8 (F := Ideal)) W (Proc.devRef .tc main_v16) = W (Proc.devRef .tc main_v16) := by stretch_keeps hostOps8
theorem k1_v16 : StableHlo.after (hostOps8_1 (F := Ideal)) W (Proc.devRef .tc main_v16) = W (Proc.devRef .tc main_v16) := by stretch_keeps hostOps8_1
theorem k2_v16 : StableHlo.after (hostOps8_2 (F := Ideal)) W (Proc.devRef .tc main_v16) = W (Proc.devRef .tc main_v16) := by stretch_keeps hostOps8_2
theorem k3_v16 : StableHlo.after (hostOps8_3 (F := Ideal)) W (Proc.devRef .tc main_v16) = W (Proc.devRef .tc main_v16) := by stretch_keeps hostOps8_3
theorem k0_v17 : StableHlo.after (hostOps8 (F := Ideal)) W (Proc.devRef .tc main_v17) = W (Proc.devRef .tc main_v17) := by stretch_keeps hostOps8
theorem k1_v17 : StableHlo.after (hostOps8_1 (F := Ideal)) W (Proc.devRef .tc main_v17) = W (Proc.devRef .tc main_v17) := by stretch_keeps hostOps8_1
theorem k2_v17 : StableHlo.after (hostOps8_2 (F := Ideal)) W (Proc.devRef .tc main_v17) = W (Proc.devRef .tc main_v17) := by stretch_keeps hostOps8_2
theorem k3_v17 : StableHlo.after (hostOps8_3 (F := Ideal)) W (Proc.devRef .tc main_v17) = W (Proc.devRef .tc main_v17) := by stretch_keeps hostOps8_3

/-! ## The four stretches chained -/

/-- Launch 8's first operand: the layer's features, feature-major and padded. -/
theorem entry_x : step V (Proc.devRef .tc main_v166) = Cert.Sage.K.padT (Cert.Sage.K.unpadT (V (Proc.devRef .tc main_v151))) := by
  refine (k3_x _).trans ((k2_x _).trans ((s1_x _).trans ?_))
  rw [s0_x, s0_c]
  rfl

/-- Launch 8's second operand: the sums of the neighbours' features, feature-major and padded. -/
theorem entry_a : step V (Proc.devRef .tc main_v167)
    = Cert.Sage.K.padT (Cert.Sage.K.agg (Cert.Sage.K.unpadT (V (Proc.devRef .tc main_v151)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost8

end
-- ==== Proof.KStep8.lean ====
/-
  Layer 8 of the kernel program's run: if launch 7 left `O (p-1)` in its output array, with the edge lists and the
  four once-computed operands in their buffers, then launch 8 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg8
import proofs.«147323_j54408645706323_1_alg».proof.Proof.KHost8

set_option maxRecDepth 16384

noncomputable section

namespace Cert.Sage.KStep8

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W42 m ρ c (Proc.devRef .tc main_v151) = O v1 v3 Wt bb x0 7)
    (h1 : W42 m ρ c (Proc.devRef .tc main_v1) = v1) (h3 : W42 m ρ c (Proc.devRef .tc main_v3) = v3)
    (h13 : W42 m ρ c (Proc.devRef .tc main_v13) = inv v3) (h15 : W42 m ρ c (Proc.devRef .tc main_v15) = wx Wt)
    (h16 : W42 m ρ c (Proc.devRef .tc main_v16) = wm Wt) (h17 : W42 m ρ c (Proc.devRef .tc main_v17) = bc bb) :
    W47 m ρ c (Proc.devRef .tc main_v168) = O v1 v3 Wt bb x0 8
    ∧ W47 m ρ c (Proc.devRef .tc main_v1) = v1 ∧ W47 m ρ c (Proc.devRef .tc main_v3) = v3
    ∧ W47 m ρ c (Proc.devRef .tc main_v13) = inv v3 ∧ W47 m ρ c (Proc.devRef .tc main_v15) = wx Wt
    ∧ W47 m ρ c (Proc.devRef .tc main_v16) = wm Wt ∧ W47 m ρ c (Proc.devRef .tc main_v17) = bc bb := by
  -- the launch's operands at its entry
  have ex : W46 m ρ c (Proc.devRef .tc main_v166) = padT (X v1 v3 Wt bb x0 8) := by
    refine (Cert.Sage.KHost8.entry_x (W42 m ρ c)).trans ?_
    rw [ho, unpadT_O]
  have ea : W46 m ρ c (Proc.devRef .tc main_v167) = padT (agg (X v1 v3 Wt bb x0 8) v1 v3) := by
    refine (Cert.Sage.KHost8.entry_a (W42 m ρ c)).trans ?_
    rw [ho, unpadT_O, h1, h3]
  have e1 : W46 m ρ c (Proc.devRef .tc main_v1) = v1 := (Cert.Sage.KHost8.kept_v1 (W42 m ρ c)).trans h1
  have e3 : W46 m ρ c (Proc.devRef .tc main_v3) = v3 := (Cert.Sage.KHost8.kept_v3 (W42 m ρ c)).trans h3
  have e13 : W46 m ρ c (Proc.devRef .tc main_v13) = inv v3 := (Cert.Sage.KHost8.kept_v13 (W42 m ρ c)).trans h13
  have e15 : W46 m ρ c (Proc.devRef .tc main_v15) = wx Wt := (Cert.Sage.KHost8.kept_v15 (W42 m ρ c)).trans h15
  have e16 : W46 m ρ c (Proc.devRef .tc main_v16) = wm Wt := (Cert.Sage.KHost8.kept_v16 (W42 m ρ c)).trans h16
  have e17 : W46 m ρ c (Proc.devRef .tc main_v17) = bc bb := (Cert.Sage.KHost8.kept_v17 (W42 m ρ c)).trans h17
  -- an operand array of the launch is left as entered
  have hin : ∀ w : Fin cfg8.W, (cfg8.win w).isOut = false →
      W47 m ρ c (Proc.devRef .tc (Pipeline.arrRef spec8 w)) = V46 m ρ c (Pipeline.arrRef spec8 w) := fun w hw =>
    (W47_arr m ρ c w).trans (((dat8 (V46 m ρ) c).arrAt_in w hw cfg8.N).trans (A_eq8 (V46 m ρ) c w))
  refine ⟨?_, ?_, ?_, ?_, ?_, ?_, ?_⟩
  · refine (W47_arr m ρ c 6).trans ?_
    rw [Cert.Sage.KReg8.final (V46 m ρ) c]
    show cols (W46 m ρ c (Proc.devRef .tc main_v166)) (W46 m ρ c (Proc.devRef .tc main_v167))
      (W46 m ρ c (Proc.devRef .tc main_v13)) (W46 m ρ c (Proc.devRef .tc main_v15))
      (W46 m ρ c (Proc.devRef .tc main_v16)) (W46 m ρ c (Proc.devRef .tc main_v17)) = _
    rw [ex, ea, e13, e15, e16, e17]
    rfl
  · exact (W47_of_ne m ρ c main_v1 (by decide)).trans e1
  · exact (W47_of_ne m ρ c main_v3 (by decide)).trans e3
  · exact (hin 2 rfl).trans e13
  · exact (hin 3 rfl).trans e15
  · exact (hin 4 rfl).trans e16
  · exact (hin 5 rfl).trans e17

end Cert.Sage.KStep8

end
-- ==== Proof.KReg9.lean ====
/-
  Launch 9 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg9

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg9.N,
    win9_0.index t (0 : Fin 2) = 0 ∧ win9_0.index t (1 : Fin 2) = t.val
    ∧ win9_1.index t (0 : Fin 2) = 0 ∧ win9_1.index t (1 : Fin 2) = t.val
    ∧ win9_2.index t (0 : Fin 2) = 0 ∧ win9_2.index t (1 : Fin 2) = t.val
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = t.val ∧ t.val < 4 :=
  (by decide +kernel : ∀ t : Fin grid9.N, _)

/-- What point `t` writes back is block `t` of `cols` of the operand arrays as the launch finds them. -/
theorem flushed_eq (c : Dev nD) (t : Fin cfg9.N) :
    (dat9 V c).flushed 6 t = ((cfg9.win 6).blk t).view.read (Elt Ideal)
      (Cert.Sage.K.cols (V c main_v183) (V c main_v184) (V c main_v13) (V c main_v15) (V c main_v16) (V c main_v17)) := by
  show (cfg9.win 6).cut (grid9.coords t) ((dat9 V c).after 6 t) = _
  rw [after9_6]
  unfold out9_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk9 V c 0 t (ix2 k q) = V c main_v183 (ix2 k (col t.val ht q)) := fun k q => by
    show V c main_v183 (((cfg9.win 0).blk t).view.emb (ix2 k q)) = _
    refine congrArg (V c main_v183) ?_
    funext a; apply Fin.ext
    match a with
    | ⟨0, _⟩ => show win9_0.index t (0 : Fin 2) * 3 + 1 * k.val = k.val; omega
    | ⟨1, _⟩ => show win9_0.index t (1 : Fin 2) * 51200 + 1 * q.val = t.val * 51200 + q.val; omega
  have r1 : ∀ (k : Fin 3) (q : Fin 51200), iblk9 V c 1 t (ix2 k q) = V c main_v184 (ix2 k (col t.val ht q)) := fun k q => by
    show V c main_v184 (((cfg9.win 1).blk t).view.emb (ix2 k q)) = _
    refine congrArg (V c main_v184) ?_
    funext a; apply Fin.ext
    match a with
    | ⟨0, _⟩ => show win9_1.index t (0 : Fin 2) * 3 + 1 * k.val = k.val; omega
    | ⟨1, _⟩ => show win9_1.index t (1 : Fin 2) * 51200 + 1 * q.val = t.val * 51200 + q.val; omega
  have r2 : ∀ q : Fin 51200, iblk9 V c 2 t (ix2 (0 : Fin 1) q) = V c main_v13 (ix2 (0 : Fin 1) (col t.val ht q)) := fun q => by
    show V c main_v13 (((cfg9.win 2).blk t).view.emb (ix2 (0 : Fin 1) q)) = _
    refine congrArg (V c main_v13) ?_
    funext a; apply Fin.ext
    match a with
    | ⟨0, _⟩ => show win9_2.index t (0 : Fin 2) * 1 + 1 * 0 = 0; omega
    | ⟨1, _⟩ => show win9_2.index t (1 : Fin 2) * 51200 + 1 * q.val = t.val * 51200 + q.val; omega
  have r3 : ∀ j k : Fin 3, iblk9 V c 3 t (ix2 j k) = V c main_v15 (ix2 j k) := fun j k => by
    show V c main_v15 (((cfg9.win 3).blk t).view.emb (ix2 j k)) = _
    refine congrArg (V c main_v15) ?_
    funext a; apply Fin.ext
    match a with
    | ⟨0, _⟩ => show win9_3.index t (0 : Fin 2) * 3 + 1 * j.val = j.val; omega
    | ⟨1, _⟩ => show win9_3.index t (1 : Fin 2) * 3 + 1 * k.val = k.val; omega
  have r4 : ∀ j k : Fin 3, iblk9 V c 4 t (ix2 j k) = V c main_v16 (ix2 j k) := fun j k => by
    show V c main_v16 (((cfg9.win 4).blk t).view.emb (ix2 j k)) = _
    refine congrArg (V c main_v16) ?_
    funext a; apply Fin.ext
    match a with
    | ⟨0, _⟩ => show win9_4.index t (0 : Fin 2) * 3 + 1 * j.val = j.val; omega
    | ⟨1, _⟩ => show win9_4.index t (1 : Fin 2) * 3 + 1 * k.val = k.val; omega
  have r5 : ∀ j : Fin 3, iblk9 V c 5 t (ix2 j (0 : Fin 1)) = V c main_v17 (ix2 j (0 : Fin 1)) := fun j => by
    show V c main_v17 (((cfg9.win 5).blk t).view.emb (ix2 j (0 : Fin 1))) = _
    refine congrArg (V c main_v17) ?_
    funext a; apply Fin.ext
    match a with
    | ⟨0, _⟩ => show win9_5.index t (0 : Fin 2) * 3 + 1 * j.val = j.val; omega
    | ⟨1, _⟩ => show win9_5.index t (1 : Fin 2) * 1 + 1 * 0 = 0; omega
  funext y
  show k9_pay1 (iblk9 V c 0 t) (iblk9 V c 1 t) (iblk9 V c 2 t) (iblk9 V c 3 t) (iblk9 V c 4 t) (iblk9 V c 5 t) y
    = Cert.Sage.K.cols (V c main_v183) (V c main_v184) (V c main_v13) (V c main_v15) (V c main_v16) (V c main_v17)
        (((cfg9.win 6).blk t).view.emb y)
  have hemb : ((cfg9.win 6).blk t).view.emb y = ix2 (y 0) (col t.val ht (y 1)) := by
    funext a; apply Fin.ext
    match a with
    | ⟨0, _⟩ => show win9_6.index t (0 : Fin 2) * 3 + 1 * (y 0).val = (y 0).val; omega
    | ⟨1, _⟩ => show win9_6.index t (1 : Fin 2) * 51200 + 1 * (y 1).val = t.val * 51200 + (y 1).val; omega
  rw [hemb]
  exact block_eq_idx (iblk9 V c 0 t) (iblk9 V c 1 t) (iblk9 V c 2 t) (iblk9 V c 3 t) (iblk9 V c 4 t)
    (iblk9 V c 5 t) (V c main_v183) (V c main_v184) (V c main_v13) (V c main_v15) (V c main_v16) (V c main_v17)
    t.val ht r0 r1 r2 r3 r4 r5 y

/-- An entry of the output array lies in point `t`'s block iff each of its coordinates lies in the block's range. -/
theorem mem_blk (t : Fin cfg9.N) (i : S3x204800.Idx) :
    i ∈ ((cfg9.win 6).blk t).view.set ↔ ∀ a : Fin 2, win9_6.index t a * S3x51200.size a ≤ (i a).val
      ∧ (i a).val < win9_6.index t a * S3x51200.size a + S3x51200.size a := by
  show i ∈ ((View.whole main_v185).slice (win9_6.rect t)).set ↔ _
  rw [View.set_slice_whole, Rect.mem_set_unit]
  exact Iff.rfl

/-- Every entry of the output array is in the block of the point that owns its column. -/
theorem cover (i : S3x204800.Idx) :
    ∃ t : Fin cfg9.N, (cfg9.win 6).flush t = true ∧ i ∈ ((cfg9.win 6).blk t).view.set := by
  have hi0 : (i 0).val < 3 := (i 0).isLt
  have hi1 : (i 1).val < 204800 := (i 1).isLt
  have hN : grid9.N = 4 := N_9
  have hlt : (i 1).val / 51200 < grid9.N := by rw [hN]; omega
  obtain ⟨e00, e01, e10, e11, e20, e21, e30, e31, e40, e41, e50, e51, e60, e61, ht⟩ :=
    idx_facts (⟨(i 1).val / 51200, hlt⟩ : Fin cfg9.N)
  refine ⟨⟨(i 1).val / 51200, hlt⟩, flush9_6 _, ?_⟩
  rw [mem_blk]
  intro a
  match a with
  | ⟨0, _⟩ =>
    show win9_6.index ⟨(i 1).val / 51200, hlt⟩ (0 : Fin 2) * 3 ≤ (i 0).val
      ∧ (i 0).val < win9_6.index ⟨(i 1).val / 51200, hlt⟩ (0 : Fin 2) * 3 + 3
    omega
  | ⟨1, _⟩ =>
    show win9_6.index ⟨(i 1).val / 51200, hlt⟩ (1 : Fin 2) * 51200 ≤ (i 1).val
      ∧ (i 1).val < win9_6.index ⟨(i 1).val / 51200, hlt⟩ (1 : Fin 2) * 51200 + 51200
    have e : (⟨(i 1).val / 51200, hlt⟩ : Fin cfg9.N).val = (i 1).val / 51200 := rfl
    omega

/-- The output array after the launch: `cols` of the operand arrays as the launch found them. -/
theorem final (c : Dev nD) :
    (dat9 V c).arrAt 6 cfg9.N
      = Cert.Sage.K.cols (V c main_v183) (V c main_v184) (V c main_v13) (V c main_v15) (V c main_v16) (V c main_v17) :=
  (dat9 V c).arrAt_eq_of_cover 6 _ (fun t _ => flushed_eq V c t) (fun i => cover i)

end Cert.Sage.KReg9

end
-- ==== Proof.KHost9.lean ====
/-
  The host operations between launch 8 and launch 9, read as functions of whole arrays, from ANY buffer contents
  `V`: they cut the padding columns off the previous launch's output and lay it node-major (the layer's features
  `X`), gather the features of every edge's source, add them up at the edges' targets, and lay `X` and that sum
  feature-major again, padded: the two wide operands of launch 9. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost9

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps9_3 (F := Ideal)) (StableHlo.after (hostOps9_2 (F := Ideal))
    (StableHlo.after (hostOps9_1 (F := Ideal)) (StableHlo.after (hostOps9 (F := Ideal)) V)))

/-! ## Each stretch on its own -/

/-- The first stretch leaves the layer's features, feature-major, … -/
theorem s0_x : StableHlo.after (hostOps9 (F := Ideal)) V (Proc.devRef .tc main_v181)
    = transpose S3x200000 [1, 0] (Cert.Sage.K.unpadT (V (Proc.devRef .tc main_v168))) Facts₀.transposes_S200000x3_S3x200000_1_0 := by
  after_results
  all_goals rfl
set_option maxHeartbeats 1000000 in
/-- … the sums of the neighbours' features, feature-major, … -/
theorem s0_a : StableHlo.after (hostOps9 (F := Ideal)) V (Proc.devRef .tc main_v182)
    = transpose S3x200000 [1, 0] (Cert.Sage.K.agg (Cert.Sage.K.unpadT (V (Proc.devRef .tc main_v168)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps9 (F := Ideal)) V (Proc.devRef .tc main_c_51) = constantI S_ 32 0#32 := by
  after_results
/-- The second stretch pads the features. -/
theorem s1_x : StableHlo.after (hostOps9_1 (F := Ideal)) W (Proc.devRef .tc main_v183)
    = pad S3x204800 ![0, 0] ![0, 4800] ![0, 0] (W (Proc.devRef .tc main_v181)) (sitofp (F := Ideal) .f32 (W (Proc.devRef .tc main_c_51)))
        Facts₀.pads_S3x200000_S3x204800_000_048000 Facts₀.h_S_ := by
  after_results
  all_goals rfl
/-- The third stretch is the second padding value. -/
theorem s2_c : StableHlo.after (hostOps9_2 (F := Ideal)) W (Proc.devRef .tc main_c_52) = constantI S_ 32 0#32 := by
  after_results
/-- The fourth stretch pads the sums. -/
theorem s3_a : StableHlo.after (hostOps9_3 (F := Ideal)) W (Proc.devRef .tc main_v184)
    = pad S3x204800 ![0, 0] ![0, 4800] ![0, 0] (W (Proc.devRef .tc main_v182)) (sitofp (F := Ideal) .f32 (W (Proc.devRef .tc main_c_52)))
        Facts₀.pads_S3x200000_S3x204800_000_048000 Facts₀.h_S_ := by
  after_results
  all_goals rfl

/-! ## What the stretches do not write -/

theorem k3_x : StableHlo.after (hostOps9_3 (F := Ideal)) W (Proc.devRef .tc main_v183) = W (Proc.devRef .tc main_v183) := by stretch_keeps hostOps9_3
theorem k2_x : StableHlo.after (hostOps9_2 (F := Ideal)) W (Proc.devRef .tc main_v183) = W (Proc.devRef .tc main_v183) := by stretch_keeps hostOps9_2
theorem k2_a : StableHlo.after (hostOps9_2 (F := Ideal)) W (Proc.devRef .tc main_v182) = W (Proc.devRef .tc main_v182) := by stretch_keeps hostOps9_2
theorem k1_a : StableHlo.after (hostOps9_1 (F := Ideal)) W (Proc.devRef .tc main_v182) = W (Proc.devRef .tc main_v182) := by stretch_keeps hostOps9_1
theorem k0_v1 : StableHlo.after (hostOps9 (F := Ideal)) W (Proc.devRef .tc main_v1) = W (Proc.devRef .tc main_v1) := by stretch_keeps hostOps9
theorem k1_v1 : StableHlo.after (hostOps9_1 (F := Ideal)) W (Proc.devRef .tc main_v1) = W (Proc.devRef .tc main_v1) := by stretch_keeps hostOps9_1
theorem k2_v1 : StableHlo.after (hostOps9_2 (F := Ideal)) W (Proc.devRef .tc main_v1) = W (Proc.devRef .tc main_v1) := by stretch_keeps hostOps9_2
theorem k3_v1 : StableHlo.after (hostOps9_3 (F := Ideal)) W (Proc.devRef .tc main_v1) = W (Proc.devRef .tc main_v1) := by stretch_keeps hostOps9_3
theorem k0_v3 : StableHlo.after (hostOps9 (F := Ideal)) W (Proc.devRef .tc main_v3) = W (Proc.devRef .tc main_v3) := by stretch_keeps hostOps9
theorem k1_v3 : StableHlo.after (hostOps9_1 (F := Ideal)) W (Proc.devRef .tc main_v3) = W (Proc.devRef .tc main_v3) := by stretch_keeps hostOps9_1
theorem k2_v3 : StableHlo.after (hostOps9_2 (F := Ideal)) W (Proc.devRef .tc main_v3) = W (Proc.devRef .tc main_v3) := by stretch_keeps hostOps9_2
theorem k3_v3 : StableHlo.after (hostOps9_3 (F := Ideal)) W (Proc.devRef .tc main_v3) = W (Proc.devRef .tc main_v3) := by stretch_keeps hostOps9_3
theorem k0_v13 : StableHlo.after (hostOps9 (F := Ideal)) W (Proc.devRef .tc main_v13) = W (Proc.devRef .tc main_v13) := by stretch_keeps hostOps9
theorem k1_v13 : StableHlo.after (hostOps9_1 (F := Ideal)) W (Proc.devRef .tc main_v13) = W (Proc.devRef .tc main_v13) := by stretch_keeps hostOps9_1
theorem k2_v13 : StableHlo.after (hostOps9_2 (F := Ideal)) W (Proc.devRef .tc main_v13) = W (Proc.devRef .tc main_v13) := by stretch_keeps hostOps9_2
theorem k3_v13 : StableHlo.after (hostOps9_3 (F := Ideal)) W (Proc.devRef .tc main_v13) = W (Proc.devRef .tc main_v13) := by stretch_keeps hostOps9_3
theorem k0_v15 : StableHlo.after (hostOps9 (F := Ideal)) W (Proc.devRef .tc main_v15) = W (Proc.devRef .tc main_v15) := by stretch_keeps hostOps9
theorem k1_v15 : StableHlo.after (hostOps9_1 (F := Ideal)) W (Proc.devRef .tc main_v15) = W (Proc.devRef .tc main_v15) := by stretch_keeps hostOps9_1
theorem k2_v15 : StableHlo.after (hostOps9_2 (F := Ideal)) W (Proc.devRef .tc main_v15) = W (Proc.devRef .tc main_v15) := by stretch_keeps hostOps9_2
theorem k3_v15 : StableHlo.after (hostOps9_3 (F := Ideal)) W (Proc.devRef .tc main_v15) = W (Proc.devRef .tc main_v15) := by stretch_keeps hostOps9_3
theorem k0_v16 : StableHlo.after (hostOps9 (F := Ideal)) W (Proc.devRef .tc main_v16) = W (Proc.devRef .tc main_v16) := by stretch_keeps hostOps9
theorem k1_v16 : StableHlo.after (hostOps9_1 (F := Ideal)) W (Proc.devRef .tc main_v16) = W (Proc.devRef .tc main_v16) := by stretch_keeps hostOps9_1
theorem k2_v16 : StableHlo.after (hostOps9_2 (F := Ideal)) W (Proc.devRef .tc main_v16) = W (Proc.devRef .tc main_v16) := by stretch_keeps hostOps9_2
theorem k3_v16 : StableHlo.after (hostOps9_3 (F := Ideal)) W (Proc.devRef .tc main_v16) = W (Proc.devRef .tc main_v16) := by stretch_keeps hostOps9_3
theorem k0_v17 : StableHlo.after (hostOps9 (F := Ideal)) W (Proc.devRef .tc main_v17) = W (Proc.devRef .tc main_v17) := by stretch_keeps hostOps9
theorem k1_v17 : StableHlo.after (hostOps9_1 (F := Ideal)) W (Proc.devRef .tc main_v17) = W (Proc.devRef .tc main_v17) := by stretch_keeps hostOps9_1
theorem k2_v17 : StableHlo.after (hostOps9_2 (F := Ideal)) W (Proc.devRef .tc main_v17) = W (Proc.devRef .tc main_v17) := by stretch_keeps hostOps9_2
theorem k3_v17 : StableHlo.after (hostOps9_3 (F := Ideal)) W (Proc.devRef .tc main_v17) = W (Proc.devRef .tc main_v17) := by stretch_keeps hostOps9_3

/-! ## The four stretches chained -/

/-- Launch 9's first operand: the layer's features, feature-major and padded. -/
theorem entry_x : step V (Proc.devRef .tc main_v183) = Cert.Sage.K.padT (Cert.Sage.K.unpadT (V (Proc.devRef .tc main_v168))) := by
  refine (k3_x _).trans ((k2_x _).trans ((s1_x _).trans ?_))
  rw [s0_x, s0_c]
  rfl

/-- Launch 9's second operand: the sums of the neighbours' features, feature-major and padded. -/
theorem entry_a : step V (Proc.devRef .tc main_v184)
    = Cert.Sage.K.padT (Cert.Sage.K.agg (Cert.Sage.K.unpadT (V (Proc.devRef .tc main_v168)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost9

end
-- ==== Proof.KStep9.lean ====
/-
  Layer 9 of the kernel program's run: if launch 8 left `O (p-1)` in its output array, with the edge lists and the
  four once-computed operands in their buffers, then launch 9 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg9
import proofs.«147323_j54408645706323_1_alg».proof.Proof.KHost9

set_option maxRecDepth 16384

noncomputable section

namespace Cert.Sage.KStep9

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W47 m ρ c (Proc.devRef .tc main_v168) = O v1 v3 Wt bb x0 8)
    (h1 : W47 m ρ c (Proc.devRef .tc main_v1) = v1) (h3 : W47 m ρ c (Proc.devRef .tc main_v3) = v3)
    (h13 : W47 m ρ c (Proc.devRef .tc main_v13) = inv v3) (h15 : W47 m ρ c (Proc.devRef .tc main_v15) = wx Wt)
    (h16 : W47 m ρ c (Proc.devRef .tc main_v16) = wm Wt) (h17 : W47 m ρ c (Proc.devRef .tc main_v17) = bc bb) :
    W52 m ρ c (Proc.devRef .tc main_v185) = O v1 v3 Wt bb x0 9
    ∧ W52 m ρ c (Proc.devRef .tc main_v1) = v1 ∧ W52 m ρ c (Proc.devRef .tc main_v3) = v3
    ∧ W52 m ρ c (Proc.devRef .tc main_v13) = inv v3 ∧ W52 m ρ c (Proc.devRef .tc main_v15) = wx Wt
    ∧ W52 m ρ c (Proc.devRef .tc main_v16) = wm Wt ∧ W52 m ρ c (Proc.devRef .tc main_v17) = bc bb := by
  -- the launch's operands at its entry
  have ex : W51 m ρ c (Proc.devRef .tc main_v183) = padT (X v1 v3 Wt bb x0 9) := by
    refine (Cert.Sage.KHost9.entry_x (W47 m ρ c)).trans ?_
    rw [ho, unpadT_O]
  have ea : W51 m ρ c (Proc.devRef .tc main_v184) = padT (agg (X v1 v3 Wt bb x0 9) v1 v3) := by
    refine (Cert.Sage.KHost9.entry_a (W47 m ρ c)).trans ?_
    rw [ho, unpadT_O, h1, h3]
  have e1 : W51 m ρ c (Proc.devRef .tc main_v1) = v1 := (Cert.Sage.KHost9.kept_v1 (W47 m ρ c)).trans h1
  have e3 : W51 m ρ c (Proc.devRef .tc main_v3) = v3 := (Cert.Sage.KHost9.kept_v3 (W47 m ρ c)).trans h3
  have e13 : W51 m ρ c (Proc.devRef .tc main_v13) = inv v3 := (Cert.Sage.KHost9.kept_v13 (W47 m ρ c)).trans h13
  have e15 : W51 m ρ c (Proc.devRef .tc main_v15) = wx Wt := (Cert.Sage.KHost9.kept_v15 (W47 m ρ c)).trans h15
  have e16 : W51 m ρ c (Proc.devRef .tc main_v16) = wm Wt := (Cert.Sage.KHost9.kept_v16 (W47 m ρ c)).trans h16
  have e17 : W51 m ρ c (Proc.devRef .tc main_v17) = bc bb := (Cert.Sage.KHost9.kept_v17 (W47 m ρ c)).trans h17
  -- an operand array of the launch is left as entered
  have hin : ∀ w : Fin cfg9.W, (cfg9.win w).isOut = false →
      W52 m ρ c (Proc.devRef .tc (Pipeline.arrRef spec9 w)) = V51 m ρ c (Pipeline.arrRef spec9 w) := fun w hw =>
    (W52_arr m ρ c w).trans (((dat9 (V51 m ρ) c).arrAt_in w hw cfg9.N).trans (A_eq9 (V51 m ρ) c w))
  refine ⟨?_, ?_, ?_, ?_, ?_, ?_, ?_⟩
  · refine (W52_arr m ρ c 6).trans ?_
    rw [Cert.Sage.KReg9.final (V51 m ρ) c]
    show cols (W51 m ρ c (Proc.devRef .tc main_v183)) (W51 m ρ c (Proc.devRef .tc main_v184))
      (W51 m ρ c (Proc.devRef .tc main_v13)) (W51 m ρ c (Proc.devRef .tc main_v15))
      (W51 m ρ c (Proc.devRef .tc main_v16)) (W51 m ρ c (Proc.devRef .tc main_v17)) = _
    rw [ex, ea, e13, e15, e16, e17]
    rfl
  · exact (W52_of_ne m ρ c main_v1 (by decide)).trans e1
  · exact (W52_of_ne m ρ c main_v3 (by decide)).trans e3
  · exact (hin 2 rfl).trans e13
  · exact (hin 3 rfl).trans e15
  · exact (hin 4 rfl).trans e16
  · exact (hin 5 rfl).trans e17

end Cert.Sage.KStep9

end
-- ==== Proof.KReg10.lean ====
/-
  Launch 10 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg10

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg10.N,
    win10_0.index t (0 : Fin 2) = 0 ∧ win10_0.index t (1 : Fin 2) = t.val
    ∧ win10_1.index t (0 : Fin 2) = 0 ∧ win10_1.index t (1 : Fin 2) = t.val
    ∧ win10_2.index t (0 : Fin 2) = 0 ∧ win10_2.index t (1 : Fin 2) = t.val
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = t.val ∧ t.val < 4 :=
  (by decide +kernel : ∀ t : Fin grid10.N, _)

/-- What point `t` writes back is block `t` of `cols` of the operand arrays as the launch finds them. -/
theorem flushed_eq (c : Dev nD) (t : Fin cfg10.N) :
    (dat10 V c).flushed 6 t = ((cfg10.win 6).blk t).view.read (Elt Ideal)
      (Cert.Sage.K.cols (V c main_v200) (V c main_v201) (V c main_v13) (V c main_v15) (V c main_v16) (V c main_v17)) := by
  show (cfg10.win 6).cut (grid10.coords t) ((dat10 V c).after 6 t) = _
  rw [after10_6]
  unfold out10_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk10 V c 0 t (ix2 k q) = V c main_v200 (ix2 k (col t.val ht q)) := fun k q => by
    show V c main_v200 (((cfg10.win 0).blk t).view.emb (ix2 k q)) = _
    refine congrArg (V c main_v200) ?_
    funext a; apply Fin.ext
    match a with
    | ⟨0, _⟩ => show win10_0.index t (0 : Fin 2) * 3 + 1 * k.val = k.val; omega
    | ⟨1, _⟩ => show win10_0.index t (1 : Fin 2) * 51200 + 1 * q.val = t.val * 51200 + q.val; omega
  have r1 : ∀ (k : Fin 3) (q : Fin 51200), iblk10 V c 1 t (ix2 k q) = V c main_v201 (ix2 k (col t.val ht q)) := fun k q => by
    show V c main_v201 (((cfg10.win 1).blk t).view.emb (ix2 k q)) = _
    refine congrArg (V c main_v201) ?_
    funext a; apply Fin.ext
    match a with
    | ⟨0, _⟩ => show win10_1.index t (0 : Fin 2) * 3 + 1 * k.val = k.val; omega
    | ⟨1, _⟩ => show win10_1.index t (1 : Fin 2) * 51200 + 1 * q.val = t.val * 51200 + q.val; omega
  have r2 : ∀ q : Fin 51200, iblk10 V c 2 t (ix2 (0 : Fin 1) q) = V c main_v13 (ix2 (0 : Fin 1) (col t.val ht q)) := fun q => by
    show V c main_v13 (((cfg10.win 2).blk t).view.emb (ix2 (0 : Fin 1) q)) = _
    refine congrArg (V c main_v13) ?_
    funext a; apply Fin.ext
    match a with
    | ⟨0, _⟩ => show win10_2.index t (0 : Fin 2) * 1 + 1 * 0 = 0; omega
    | ⟨1, _⟩ => show win10_2.index t (1 : Fin 2) * 51200 + 1 * q.val = t.val * 51200 + q.val; omega
  have r3 : ∀ j k : Fin 3, iblk10 V c 3 t (ix2 j k) = V c main_v15 (ix2 j k) := fun j k => by
    show V c main_v15 (((cfg10.win 3).blk t).view.emb (ix2 j k)) = _
    refine congrArg (V c main_v15) ?_
    funext a; apply Fin.ext
    match a with
    | ⟨0, _⟩ => show win10_3.index t (0 : Fin 2) * 3 + 1 * j.val = j.val; omega
    | ⟨1, _⟩ => show win10_3.index t (1 : Fin 2) * 3 + 1 * k.val = k.val; omega
  have r4 : ∀ j k : Fin 3, iblk10 V c 4 t (ix2 j k) = V c main_v16 (ix2 j k) := fun j k => by
    show V c main_v16 (((cfg10.win 4).blk t).view.emb (ix2 j k)) = _
    refine congrArg (V c main_v16) ?_
    funext a; apply Fin.ext
    match a with
    | ⟨0, _⟩ => show win10_4.index t (0 : Fin 2) * 3 + 1 * j.val = j.val; omega
    | ⟨1, _⟩ => show win10_4.index t (1 : Fin 2) * 3 + 1 * k.val = k.val; omega
  have r5 : ∀ j : Fin 3, iblk10 V c 5 t (ix2 j (0 : Fin 1)) = V c main_v17 (ix2 j (0 : Fin 1)) := fun j => by
    show V c main_v17 (((cfg10.win 5).blk t).view.emb (ix2 j (0 : Fin 1))) = _
    refine congrArg (V c main_v17) ?_
    funext a; apply Fin.ext
    match a with
    | ⟨0, _⟩ => show win10_5.index t (0 : Fin 2) * 3 + 1 * j.val = j.val; omega
    | ⟨1, _⟩ => show win10_5.index t (1 : Fin 2) * 1 + 1 * 0 = 0; omega
  funext y
  show k10_pay1 (iblk10 V c 0 t) (iblk10 V c 1 t) (iblk10 V c 2 t) (iblk10 V c 3 t) (iblk10 V c 4 t) (iblk10 V c 5 t) y
    = Cert.Sage.K.cols (V c main_v200) (V c main_v201) (V c main_v13) (V c main_v15) (V c main_v16) (V c main_v17)
        (((cfg10.win 6).blk t).view.emb y)
  have hemb : ((cfg10.win 6).blk t).view.emb y = ix2 (y 0) (col t.val ht (y 1)) := by
    funext a; apply Fin.ext
    match a with
    | ⟨0, _⟩ => show win10_6.index t (0 : Fin 2) * 3 + 1 * (y 0).val = (y 0).val; omega
    | ⟨1, _⟩ => show win10_6.index t (1 : Fin 2) * 51200 + 1 * (y 1).val = t.val * 51200 + (y 1).val; omega
  rw [hemb]
  exact block_eq_idx (iblk10 V c 0 t) (iblk10 V c 1 t) (iblk10 V c 2 t) (iblk10 V c 3 t) (iblk10 V c 4 t)
    (iblk10 V c 5 t) (V c main_v200) (V c main_v201) (V c main_v13) (V c main_v15) (V c main_v16) (V c main_v17)
    t.val ht r0 r1 r2 r3 r4 r5 y

/-- An entry of the output array lies in point `t`'s block iff each of its coordinates lies in the block's range. -/
theorem mem_blk (t : Fin cfg10.N) (i : S3x204800.Idx) :
    i ∈ ((cfg10.win 6).blk t).view.set ↔ ∀ a : Fin 2, win10_6.index t a * S3x51200.size a ≤ (i a).val
      ∧ (i a).val < win10_6.index t a * S3x51200.size a + S3x51200.size a := by
  show i ∈ ((View.whole main_v202).slice (win10_6.rect t)).set ↔ _
  rw [View.set_slice_whole, Rect.mem_set_unit]
  exact Iff.rfl

/-- Every entry of the output array is in the block of the point that owns its column. -/
theorem cover (i : S3x204800.Idx) :
    ∃ t : Fin cfg10.N, (cfg10.win 6).flush t = true ∧ i ∈ ((cfg10.win 6).blk t).view.set := by
  have hi0 : (i 0).val < 3 := (i 0).isLt
  have hi1 : (i 1).val < 204800 := (i 1).isLt
  have hN : grid10.N = 4 := N_10
  have hlt : (i 1).val / 51200 < grid10.N := by rw [hN]; omega
  obtain ⟨e00, e01, e10, e11, e20, e21, e30, e31, e40, e41, e50, e51, e60, e61, ht⟩ :=
    idx_facts (⟨(i 1).val / 51200, hlt⟩ : Fin cfg10.N)
  refine ⟨⟨(i 1).val / 51200, hlt⟩, flush10_6 _, ?_⟩
  rw [mem_blk]
  intro a
  match a with
  | ⟨0, _⟩ =>
    show win10_6.index ⟨(i 1).val / 51200, hlt⟩ (0 : Fin 2) * 3 ≤ (i 0).val
      ∧ (i 0).val < win10_6.index ⟨(i 1).val / 51200, hlt⟩ (0 : Fin 2) * 3 + 3
    omega
  | ⟨1, _⟩ =>
    show win10_6.index ⟨(i 1).val / 51200, hlt⟩ (1 : Fin 2) * 51200 ≤ (i 1).val
      ∧ (i 1).val < win10_6.index ⟨(i 1).val / 51200, hlt⟩ (1 : Fin 2) * 51200 + 51200
    have e : (⟨(i 1).val / 51200, hlt⟩ : Fin cfg10.N).val = (i 1).val / 51200 := rfl
    omega

/-- The output array after the launch: `cols` of the operand arrays as the launch found them. -/
theorem final (c : Dev nD) :
    (dat10 V c).arrAt 6 cfg10.N
      = Cert.Sage.K.cols (V c main_v200) (V c main_v201) (V c main_v13) (V c main_v15) (V c main_v16) (V c main_v17) :=
  (dat10 V c).arrAt_eq_of_cover 6 _ (fun t _ => flushed_eq V c t) (fun i => cover i)

end Cert.Sage.KReg10

end
-- ==== Proof.KHost10.lean ====
/-
  The host operations between launch 9 and launch 10, read as functions of whole arrays, from ANY buffer contents
  `V`: they cut the padding columns off the previous launch's output and lay it node-major (the layer's features
  `X`), gather the features of every edge's source, add them up at the edges' targets, and lay `X` and that sum
  feature-major again, padded: the two wide operands of launch 10. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost10

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps10_3 (F := Ideal)) (StableHlo.after (hostOps10_2 (F := Ideal))
    (StableHlo.after (hostOps10_1 (F := Ideal)) (StableHlo.after (hostOps10 (F := Ideal)) V)))

/-! ## Each stretch on its own -/

/-- The first stretch leaves the layer's features, feature-major, … -/
theorem s0_x : StableHlo.after (hostOps10 (F := Ideal)) V (Proc.devRef .tc main_v198)
    = transpose S3x200000 [1, 0] (Cert.Sage.K.unpadT (V (Proc.devRef .tc main_v185))) Facts₀.transposes_S200000x3_S3x200000_1_0 := by
  after_results
  all_goals rfl
set_option maxHeartbeats 1000000 in
/-- … the sums of the neighbours' features, feature-major, … -/
theorem s0_a : StableHlo.after (hostOps10 (F := Ideal)) V (Proc.devRef .tc main_v199)
    = transpose S3x200000 [1, 0] (Cert.Sage.K.agg (Cert.Sage.K.unpadT (V (Proc.devRef .tc main_v185)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps10 (F := Ideal)) V (Proc.devRef .tc main_c_56) = constantI S_ 32 0#32 := by
  after_results
/-- The second stretch pads the features. -/
theorem s1_x : StableHlo.after (hostOps10_1 (F := Ideal)) W (Proc.devRef .tc main_v200)
    = pad S3x204800 ![0, 0] ![0, 4800] ![0, 0] (W (Proc.devRef .tc main_v198)) (sitofp (F := Ideal) .f32 (W (Proc.devRef .tc main_c_56)))
        Facts₀.pads_S3x200000_S3x204800_000_048000 Facts₀.h_S_ := by
  after_results
  all_goals rfl
/-- The third stretch is the second padding value. -/
theorem s2_c : StableHlo.after (hostOps10_2 (F := Ideal)) W (Proc.devRef .tc main_c_57) = constantI S_ 32 0#32 := by
  after_results
/-- The fourth stretch pads the sums. -/
theorem s3_a : StableHlo.after (hostOps10_3 (F := Ideal)) W (Proc.devRef .tc main_v201)
    = pad S3x204800 ![0, 0] ![0, 4800] ![0, 0] (W (Proc.devRef .tc main_v199)) (sitofp (F := Ideal) .f32 (W (Proc.devRef .tc main_c_57)))
        Facts₀.pads_S3x200000_S3x204800_000_048000 Facts₀.h_S_ := by
  after_results
  all_goals rfl

/-! ## What the stretches do not write -/

theorem k3_x : StableHlo.after (hostOps10_3 (F := Ideal)) W (Proc.devRef .tc main_v200) = W (Proc.devRef .tc main_v200) := by stretch_keeps hostOps10_3
theorem k2_x : StableHlo.after (hostOps10_2 (F := Ideal)) W (Proc.devRef .tc main_v200) = W (Proc.devRef .tc main_v200) := by stretch_keeps hostOps10_2
theorem k2_a : StableHlo.after (hostOps10_2 (F := Ideal)) W (Proc.devRef .tc main_v199) = W (Proc.devRef .tc main_v199) := by stretch_keeps hostOps10_2
theorem k1_a : StableHlo.after (hostOps10_1 (F := Ideal)) W (Proc.devRef .tc main_v199) = W (Proc.devRef .tc main_v199) := by stretch_keeps hostOps10_1
theorem k0_v1 : StableHlo.after (hostOps10 (F := Ideal)) W (Proc.devRef .tc main_v1) = W (Proc.devRef .tc main_v1) := by stretch_keeps hostOps10
theorem k1_v1 : StableHlo.after (hostOps10_1 (F := Ideal)) W (Proc.devRef .tc main_v1) = W (Proc.devRef .tc main_v1) := by stretch_keeps hostOps10_1
theorem k2_v1 : StableHlo.after (hostOps10_2 (F := Ideal)) W (Proc.devRef .tc main_v1) = W (Proc.devRef .tc main_v1) := by stretch_keeps hostOps10_2
theorem k3_v1 : StableHlo.after (hostOps10_3 (F := Ideal)) W (Proc.devRef .tc main_v1) = W (Proc.devRef .tc main_v1) := by stretch_keeps hostOps10_3
theorem k0_v3 : StableHlo.after (hostOps10 (F := Ideal)) W (Proc.devRef .tc main_v3) = W (Proc.devRef .tc main_v3) := by stretch_keeps hostOps10
theorem k1_v3 : StableHlo.after (hostOps10_1 (F := Ideal)) W (Proc.devRef .tc main_v3) = W (Proc.devRef .tc main_v3) := by stretch_keeps hostOps10_1
theorem k2_v3 : StableHlo.after (hostOps10_2 (F := Ideal)) W (Proc.devRef .tc main_v3) = W (Proc.devRef .tc main_v3) := by stretch_keeps hostOps10_2
theorem k3_v3 : StableHlo.after (hostOps10_3 (F := Ideal)) W (Proc.devRef .tc main_v3) = W (Proc.devRef .tc main_v3) := by stretch_keeps hostOps10_3
theorem k0_v13 : StableHlo.after (hostOps10 (F := Ideal)) W (Proc.devRef .tc main_v13) = W (Proc.devRef .tc main_v13) := by stretch_keeps hostOps10
theorem k1_v13 : StableHlo.after (hostOps10_1 (F := Ideal)) W (Proc.devRef .tc main_v13) = W (Proc.devRef .tc main_v13) := by stretch_keeps hostOps10_1
theorem k2_v13 : StableHlo.after (hostOps10_2 (F := Ideal)) W (Proc.devRef .tc main_v13) = W (Proc.devRef .tc main_v13) := by stretch_keeps hostOps10_2
theorem k3_v13 : StableHlo.after (hostOps10_3 (F := Ideal)) W (Proc.devRef .tc main_v13) = W (Proc.devRef .tc main_v13) := by stretch_keeps hostOps10_3
theorem k0_v15 : StableHlo.after (hostOps10 (F := Ideal)) W (Proc.devRef .tc main_v15) = W (Proc.devRef .tc main_v15) := by stretch_keeps hostOps10
theorem k1_v15 : StableHlo.after (hostOps10_1 (F := Ideal)) W (Proc.devRef .tc main_v15) = W (Proc.devRef .tc main_v15) := by stretch_keeps hostOps10_1
theorem k2_v15 : StableHlo.after (hostOps10_2 (F := Ideal)) W (Proc.devRef .tc main_v15) = W (Proc.devRef .tc main_v15) := by stretch_keeps hostOps10_2
theorem k3_v15 : StableHlo.after (hostOps10_3 (F := Ideal)) W (Proc.devRef .tc main_v15) = W (Proc.devRef .tc main_v15) := by stretch_keeps hostOps10_3
theorem k0_v16 : StableHlo.after (hostOps10 (F := Ideal)) W (Proc.devRef .tc main_v16) = W (Proc.devRef .tc main_v16) := by stretch_keeps hostOps10
theorem k1_v16 : StableHlo.after (hostOps10_1 (F := Ideal)) W (Proc.devRef .tc main_v16) = W (Proc.devRef .tc main_v16) := by stretch_keeps hostOps10_1
theorem k2_v16 : StableHlo.after (hostOps10_2 (F := Ideal)) W (Proc.devRef .tc main_v16) = W (Proc.devRef .tc main_v16) := by stretch_keeps hostOps10_2
theorem k3_v16 : StableHlo.after (hostOps10_3 (F := Ideal)) W (Proc.devRef .tc main_v16) = W (Proc.devRef .tc main_v16) := by stretch_keeps hostOps10_3
theorem k0_v17 : StableHlo.after (hostOps10 (F := Ideal)) W (Proc.devRef .tc main_v17) = W (Proc.devRef .tc main_v17) := by stretch_keeps hostOps10
theorem k1_v17 : StableHlo.after (hostOps10_1 (F := Ideal)) W (Proc.devRef .tc main_v17) = W (Proc.devRef .tc main_v17) := by stretch_keeps hostOps10_1
theorem k2_v17 : StableHlo.after (hostOps10_2 (F := Ideal)) W (Proc.devRef .tc main_v17) = W (Proc.devRef .tc main_v17) := by stretch_keeps hostOps10_2
theorem k3_v17 : StableHlo.after (hostOps10_3 (F := Ideal)) W (Proc.devRef .tc main_v17) = W (Proc.devRef .tc main_v17) := by stretch_keeps hostOps10_3

/-! ## The four stretches chained -/

/-- Launch 10's first operand: the layer's features, feature-major and padded. -/
theorem entry_x : step V (Proc.devRef .tc main_v200) = Cert.Sage.K.padT (Cert.Sage.K.unpadT (V (Proc.devRef .tc main_v185))) := by
  refine (k3_x _).trans ((k2_x _).trans ((s1_x _).trans ?_))
  rw [s0_x, s0_c]
  rfl

/-- Launch 10's second operand: the sums of the neighbours' features, feature-major and padded. -/
theorem entry_a : step V (Proc.devRef .tc main_v201)
    = Cert.Sage.K.padT (Cert.Sage.K.agg (Cert.Sage.K.unpadT (V (Proc.devRef .tc main_v185)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost10

end
-- ==== Proof.KStep10.lean ====
/-
  Layer 10 of the kernel program's run: if launch 9 left `O (p-1)` in its output array, with the edge lists and the
  four once-computed operands in their buffers, then launch 10 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg10
import proofs.«147323_j54408645706323_1_alg».proof.Proof.KHost10

set_option maxRecDepth 16384

noncomputable section

namespace Cert.Sage.KStep10

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W52 m ρ c (Proc.devRef .tc main_v185) = O v1 v3 Wt bb x0 9)
    (h1 : W52 m ρ c (Proc.devRef .tc main_v1) = v1) (h3 : W52 m ρ c (Proc.devRef .tc main_v3) = v3)
    (h13 : W52 m ρ c (Proc.devRef .tc main_v13) = inv v3) (h15 : W52 m ρ c (Proc.devRef .tc main_v15) = wx Wt)
    (h16 : W52 m ρ c (Proc.devRef .tc main_v16) = wm Wt) (h17 : W52 m ρ c (Proc.devRef .tc main_v17) = bc bb) :
    W57 m ρ c (Proc.devRef .tc main_v202) = O v1 v3 Wt bb x0 10
    ∧ W57 m ρ c (Proc.devRef .tc main_v1) = v1 ∧ W57 m ρ c (Proc.devRef .tc main_v3) = v3
    ∧ W57 m ρ c (Proc.devRef .tc main_v13) = inv v3 ∧ W57 m ρ c (Proc.devRef .tc main_v15) = wx Wt
    ∧ W57 m ρ c (Proc.devRef .tc main_v16) = wm Wt ∧ W57 m ρ c (Proc.devRef .tc main_v17) = bc bb := by
  -- the launch's operands at its entry
  have ex : W56 m ρ c (Proc.devRef .tc main_v200) = padT (X v1 v3 Wt bb x0 10) := by
    refine (Cert.Sage.KHost10.entry_x (W52 m ρ c)).trans ?_
    rw [ho, unpadT_O]
  have ea : W56 m ρ c (Proc.devRef .tc main_v201) = padT (agg (X v1 v3 Wt bb x0 10) v1 v3) := by
    refine (Cert.Sage.KHost10.entry_a (W52 m ρ c)).trans ?_
    rw [ho, unpadT_O, h1, h3]
  have e1 : W56 m ρ c (Proc.devRef .tc main_v1) = v1 := (Cert.Sage.KHost10.kept_v1 (W52 m ρ c)).trans h1
  have e3 : W56 m ρ c (Proc.devRef .tc main_v3) = v3 := (Cert.Sage.KHost10.kept_v3 (W52 m ρ c)).trans h3
  have e13 : W56 m ρ c (Proc.devRef .tc main_v13) = inv v3 := (Cert.Sage.KHost10.kept_v13 (W52 m ρ c)).trans h13
  have e15 : W56 m ρ c (Proc.devRef .tc main_v15) = wx Wt := (Cert.Sage.KHost10.kept_v15 (W52 m ρ c)).trans h15
  have e16 : W56 m ρ c (Proc.devRef .tc main_v16) = wm Wt := (Cert.Sage.KHost10.kept_v16 (W52 m ρ c)).trans h16
  have e17 : W56 m ρ c (Proc.devRef .tc main_v17) = bc bb := (Cert.Sage.KHost10.kept_v17 (W52 m ρ c)).trans h17
  -- an operand array of the launch is left as entered
  have hin : ∀ w : Fin cfg10.W, (cfg10.win w).isOut = false →
      W57 m ρ c (Proc.devRef .tc (Pipeline.arrRef spec10 w)) = V56 m ρ c (Pipeline.arrRef spec10 w) := fun w hw =>
    (W57_arr m ρ c w).trans (((dat10 (V56 m ρ) c).arrAt_in w hw cfg10.N).trans (A_eq10 (V56 m ρ) c w))
  refine ⟨?_, ?_, ?_, ?_, ?_, ?_, ?_⟩
  · refine (W57_arr m ρ c 6).trans ?_
    rw [Cert.Sage.KReg10.final (V56 m ρ) c]
    show cols (W56 m ρ c (Proc.devRef .tc main_v200)) (W56 m ρ c (Proc.devRef .tc main_v201))
      (W56 m ρ c (Proc.devRef .tc main_v13)) (W56 m ρ c (Proc.devRef .tc main_v15))
      (W56 m ρ c (Proc.devRef .tc main_v16)) (W56 m ρ c (Proc.devRef .tc main_v17)) = _
    rw [ex, ea, e13, e15, e16, e17]
    rfl
  · exact (W57_of_ne m ρ c main_v1 (by decide)).trans e1
  · exact (W57_of_ne m ρ c main_v3 (by decide)).trans e3
  · exact (hin 2 rfl).trans e13
  · exact (hin 3 rfl).trans e15
  · exact (hin 4 rfl).trans e16
  · exact (hin 5 rfl).trans e17

end Cert.Sage.KStep10

end
-- ==== Proof.KReg11.lean ====
/-
  Launch 11 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg11

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg11.N,
    win11_0.index t (0 : Fin 2) = 0 ∧ win11_0.index t (1 : Fin 2) = t.val
    ∧ win11_1.index t (0 : Fin 2) = 0 ∧ win11_1.index t (1 : Fin 2) = t.val
    ∧ win11_2.index t (0 : Fin 2) = 0 ∧ win11_2.index t (1 : Fin 2) = t.val
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = t.val ∧ t.val < 4 :=
  (by decide +kernel : ∀ t : Fin grid11.N, _)

/-- What point `t` writes back is block `t` of `cols` of the operand arrays as the launch finds them. -/
theorem flushed_eq (c : Dev nD) (t : Fin cfg11.N) :
    (dat11 V c).flushed 6 t = ((cfg11.win 6).blk t).view.read (Elt Ideal)
      (Cert.Sage.K.cols (V c main_v217) (V c main_v218) (V c main_v13) (V c main_v15) (V c main_v16) (V c main_v17)) := by
  show (cfg11.win 6).cut (grid11.coords t) ((dat11 V c).after 6 t) = _
  rw [after11_6]
  unfold out11_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk11 V c 0 t (ix2 k q) = V c main_v217 (ix2 k (col t.val ht q)) := fun k q => by
    show V c main_v217 (((cfg11.win 0).blk t).view.emb (ix2 k q)) = _
    refine congrArg (V c main_v217) ?_
    funext a; apply Fin.ext
    match a with
    | ⟨0, _⟩ => show win11_0.index t (0 : Fin 2) * 3 + 1 * k.val = k.val; omega
    | ⟨1, _⟩ => show win11_0.index t (1 : Fin 2) * 51200 + 1 * q.val = t.val * 51200 + q.val; omega
  have r1 : ∀ (k : Fin 3) (q : Fin 51200), iblk11 V c 1 t (ix2 k q) = V c main_v218 (ix2 k (col t.val ht q)) := fun k q => by
    show V c main_v218 (((cfg11.win 1).blk t).view.emb (ix2 k q)) = _
    refine congrArg (V c main_v218) ?_
    funext a; apply Fin.ext
    match a with
    | ⟨0, _⟩ => show win11_1.index t (0 : Fin 2) * 3 + 1 * k.val = k.val; omega
    | ⟨1, _⟩ => show win11_1.index t (1 : Fin 2) * 51200 + 1 * q.val = t.val * 51200 + q.val; omega
  have r2 : ∀ q : Fin 51200, iblk11 V c 2 t (ix2 (0 : Fin 1) q) = V c main_v13 (ix2 (0 : Fin 1) (col t.val ht q)) := fun q => by
    show V c main_v13 (((cfg11.win 2).blk t).view.emb (ix2 (0 : Fin 1) q)) = _
    refine congrArg (V c main_v13) ?_
    funext a; apply Fin.ext
    match a with
    | ⟨0, _⟩ => show win11_2.index t (0 : Fin 2) * 1 + 1 * 0 = 0; omega
    | ⟨1, _⟩ => show win11_2.index t (1 : Fin 2) * 51200 + 1 * q.val = t.val * 51200 + q.val; omega
  have r3 : ∀ j k : Fin 3, iblk11 V c 3 t (ix2 j k) = V c main_v15 (ix2 j k) := fun j k => by
    show V c main_v15 (((cfg11.win 3).blk t).view.emb (ix2 j k)) = _
    refine congrArg (V c main_v15) ?_
    funext a; apply Fin.ext
    match a with
    | ⟨0, _⟩ => show win11_3.index t (0 : Fin 2) * 3 + 1 * j.val = j.val; omega
    | ⟨1, _⟩ => show win11_3.index t (1 : Fin 2) * 3 + 1 * k.val = k.val; omega
  have r4 : ∀ j k : Fin 3, iblk11 V c 4 t (ix2 j k) = V c main_v16 (ix2 j k) := fun j k => by
    show V c main_v16 (((cfg11.win 4).blk t).view.emb (ix2 j k)) = _
    refine congrArg (V c main_v16) ?_
    funext a; apply Fin.ext
    match a with
    | ⟨0, _⟩ => show win11_4.index t (0 : Fin 2) * 3 + 1 * j.val = j.val; omega
    | ⟨1, _⟩ => show win11_4.index t (1 : Fin 2) * 3 + 1 * k.val = k.val; omega
  have r5 : ∀ j : Fin 3, iblk11 V c 5 t (ix2 j (0 : Fin 1)) = V c main_v17 (ix2 j (0 : Fin 1)) := fun j => by
    show V c main_v17 (((cfg11.win 5).blk t).view.emb (ix2 j (0 : Fin 1))) = _
    refine congrArg (V c main_v17) ?_
    funext a; apply Fin.ext
    match a with
    | ⟨0, _⟩ => show win11_5.index t (0 : Fin 2) * 3 + 1 * j.val = j.val; omega
    | ⟨1, _⟩ => show win11_5.index t (1 : Fin 2) * 1 + 1 * 0 = 0; omega
  funext y
  show k11_pay1 (iblk11 V c 0 t) (iblk11 V c 1 t) (iblk11 V c 2 t) (iblk11 V c 3 t) (iblk11 V c 4 t) (iblk11 V c 5 t) y
    = Cert.Sage.K.cols (V c main_v217) (V c main_v218) (V c main_v13) (V c main_v15) (V c main_v16) (V c main_v17)
        (((cfg11.win 6).blk t).view.emb y)
  have hemb : ((cfg11.win 6).blk t).view.emb y = ix2 (y 0) (col t.val ht (y 1)) := by
    funext a; apply Fin.ext
    match a with
    | ⟨0, _⟩ => show win11_6.index t (0 : Fin 2) * 3 + 1 * (y 0).val = (y 0).val; omega
    | ⟨1, _⟩ => show win11_6.index t (1 : Fin 2) * 51200 + 1 * (y 1).val = t.val * 51200 + (y 1).val; omega
  rw [hemb]
  exact block_eq_idx (iblk11 V c 0 t) (iblk11 V c 1 t) (iblk11 V c 2 t) (iblk11 V c 3 t) (iblk11 V c 4 t)
    (iblk11 V c 5 t) (V c main_v217) (V c main_v218) (V c main_v13) (V c main_v15) (V c main_v16) (V c main_v17)
    t.val ht r0 r1 r2 r3 r4 r5 y

/-- An entry of the output array lies in point `t`'s block iff each of its coordinates lies in the block's range. -/
theorem mem_blk (t : Fin cfg11.N) (i : S3x204800.Idx) :
    i ∈ ((cfg11.win 6).blk t).view.set ↔ ∀ a : Fin 2, win11_6.index t a * S3x51200.size a ≤ (i a).val
      ∧ (i a).val < win11_6.index t a * S3x51200.size a + S3x51200.size a := by
  show i ∈ ((View.whole main_v219).slice (win11_6.rect t)).set ↔ _
  rw [View.set_slice_whole, Rect.mem_set_unit]
  exact Iff.rfl

/-- Every entry of the output array is in the block of the point that owns its column. -/
theorem cover (i : S3x204800.Idx) :
    ∃ t : Fin cfg11.N, (cfg11.win 6).flush t = true ∧ i ∈ ((cfg11.win 6).blk t).view.set := by
  have hi0 : (i 0).val < 3 := (i 0).isLt
  have hi1 : (i 1).val < 204800 := (i 1).isLt
  have hN : grid11.N = 4 := N_11
  have hlt : (i 1).val / 51200 < grid11.N := by rw [hN]; omega
  obtain ⟨e00, e01, e10, e11, e20, e21, e30, e31, e40, e41, e50, e51, e60, e61, ht⟩ :=
    idx_facts (⟨(i 1).val / 51200, hlt⟩ : Fin cfg11.N)
  refine ⟨⟨(i 1).val / 51200, hlt⟩, flush11_6 _, ?_⟩
  rw [mem_blk]
  intro a
  match a with
  | ⟨0, _⟩ =>
    show win11_6.index ⟨(i 1).val / 51200, hlt⟩ (0 : Fin 2) * 3 ≤ (i 0).val
      ∧ (i 0).val < win11_6.index ⟨(i 1).val / 51200, hlt⟩ (0 : Fin 2) * 3 + 3
    omega
  | ⟨1, _⟩ =>
    show win11_6.index ⟨(i 1).val / 51200, hlt⟩ (1 : Fin 2) * 51200 ≤ (i 1).val
      ∧ (i 1).val < win11_6.index ⟨(i 1).val / 51200, hlt⟩ (1 : Fin 2) * 51200 + 51200
    have e : (⟨(i 1).val / 51200, hlt⟩ : Fin cfg11.N).val = (i 1).val / 51200 := rfl
    omega

/-- The output array after the launch: `cols` of the operand arrays as the launch found them. -/
theorem final (c : Dev nD) :
    (dat11 V c).arrAt 6 cfg11.N
      = Cert.Sage.K.cols (V c main_v217) (V c main_v218) (V c main_v13) (V c main_v15) (V c main_v16) (V c main_v17) :=
  (dat11 V c).arrAt_eq_of_cover 6 _ (fun t _ => flushed_eq V c t) (fun i => cover i)

end Cert.Sage.KReg11

end
-- ==== Proof.KHost11.lean ====
/-
  The host operations between launch 10 and launch 11, read as functions of whole arrays, from ANY buffer contents
  `V`: they cut the padding columns off the previous launch's output and lay it node-major (the layer's features
  `X`), gather the features of every edge's source, add them up at the edges' targets, and lay `X` and that sum
  feature-major again, padded: the two wide operands of launch 11. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost11

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps11_3 (F := Ideal)) (StableHlo.after (hostOps11_2 (F := Ideal))
    (StableHlo.after (hostOps11_1 (F := Ideal)) (StableHlo.after (hostOps11 (F := Ideal)) V)))

/-! ## Each stretch on its own -/

/-- The first stretch leaves the layer's features, feature-major, … -/
theorem s0_x : StableHlo.after (hostOps11 (F := Ideal)) V (Proc.devRef .tc main_v215)
    = transpose S3x200000 [1, 0] (Cert.Sage.K.unpadT (V (Proc.devRef .tc main_v202))) Facts₀.transposes_S200000x3_S3x200000_1_0 := by
  after_results
  all_goals rfl
set_option maxHeartbeats 1000000 in
/-- … the sums of the neighbours' features, feature-major, … -/
theorem s0_a : StableHlo.after (hostOps11 (F := Ideal)) V (Proc.devRef .tc main_v216)
    = transpose S3x200000 [1, 0] (Cert.Sage.K.agg (Cert.Sage.K.unpadT (V (Proc.devRef .tc main_v202)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps11 (F := Ideal)) V (Proc.devRef .tc main_c_61) = constantI S_ 32 0#32 := by
  after_results
/-- The second stretch pads the features. -/
theorem s1_x : StableHlo.after (hostOps11_1 (F := Ideal)) W (Proc.devRef .tc main_v217)
    = pad S3x204800 ![0, 0] ![0, 4800] ![0, 0] (W (Proc.devRef .tc main_v215)) (sitofp (F := Ideal) .f32 (W (Proc.devRef .tc main_c_61)))
        Facts₀.pads_S3x200000_S3x204800_000_048000 Facts₀.h_S_ := by
  after_results
  all_goals rfl
/-- The third stretch is the second padding value. -/
theorem s2_c : StableHlo.after (hostOps11_2 (F := Ideal)) W (Proc.devRef .tc main_c_62) = constantI S_ 32 0#32 := by
  after_results
/-- The fourth stretch pads the sums. -/
theorem s3_a : StableHlo.after (hostOps11_3 (F := Ideal)) W (Proc.devRef .tc main_v218)
    = pad S3x204800 ![0, 0] ![0, 4800] ![0, 0] (W (Proc.devRef .tc main_v216)) (sitofp (F := Ideal) .f32 (W (Proc.devRef .tc main_c_62)))
        Facts₀.pads_S3x200000_S3x204800_000_048000 Facts₀.h_S_ := by
  after_results
  all_goals rfl

/-! ## What the stretches do not write -/

theorem k3_x : StableHlo.after (hostOps11_3 (F := Ideal)) W (Proc.devRef .tc main_v217) = W (Proc.devRef .tc main_v217) := by stretch_keeps hostOps11_3
theorem k2_x : StableHlo.after (hostOps11_2 (F := Ideal)) W (Proc.devRef .tc main_v217) = W (Proc.devRef .tc main_v217) := by stretch_keeps hostOps11_2
theorem k2_a : StableHlo.after (hostOps11_2 (F := Ideal)) W (Proc.devRef .tc main_v216) = W (Proc.devRef .tc main_v216) := by stretch_keeps hostOps11_2
theorem k1_a : StableHlo.after (hostOps11_1 (F := Ideal)) W (Proc.devRef .tc main_v216) = W (Proc.devRef .tc main_v216) := by stretch_keeps hostOps11_1
theorem k0_v1 : StableHlo.after (hostOps11 (F := Ideal)) W (Proc.devRef .tc main_v1) = W (Proc.devRef .tc main_v1) := by stretch_keeps hostOps11
theorem k1_v1 : StableHlo.after (hostOps11_1 (F := Ideal)) W (Proc.devRef .tc main_v1) = W (Proc.devRef .tc main_v1) := by stretch_keeps hostOps11_1
theorem k2_v1 : StableHlo.after (hostOps11_2 (F := Ideal)) W (Proc.devRef .tc main_v1) = W (Proc.devRef .tc main_v1) := by stretch_keeps hostOps11_2
theorem k3_v1 : StableHlo.after (hostOps11_3 (F := Ideal)) W (Proc.devRef .tc main_v1) = W (Proc.devRef .tc main_v1) := by stretch_keeps hostOps11_3
theorem k0_v3 : StableHlo.after (hostOps11 (F := Ideal)) W (Proc.devRef .tc main_v3) = W (Proc.devRef .tc main_v3) := by stretch_keeps hostOps11
theorem k1_v3 : StableHlo.after (hostOps11_1 (F := Ideal)) W (Proc.devRef .tc main_v3) = W (Proc.devRef .tc main_v3) := by stretch_keeps hostOps11_1
theorem k2_v3 : StableHlo.after (hostOps11_2 (F := Ideal)) W (Proc.devRef .tc main_v3) = W (Proc.devRef .tc main_v3) := by stretch_keeps hostOps11_2
theorem k3_v3 : StableHlo.after (hostOps11_3 (F := Ideal)) W (Proc.devRef .tc main_v3) = W (Proc.devRef .tc main_v3) := by stretch_keeps hostOps11_3
theorem k0_v13 : StableHlo.after (hostOps11 (F := Ideal)) W (Proc.devRef .tc main_v13) = W (Proc.devRef .tc main_v13) := by stretch_keeps hostOps11
theorem k1_v13 : StableHlo.after (hostOps11_1 (F := Ideal)) W (Proc.devRef .tc main_v13) = W (Proc.devRef .tc main_v13) := by stretch_keeps hostOps11_1
theorem k2_v13 : StableHlo.after (hostOps11_2 (F := Ideal)) W (Proc.devRef .tc main_v13) = W (Proc.devRef .tc main_v13) := by stretch_keeps hostOps11_2
theorem k3_v13 : StableHlo.after (hostOps11_3 (F := Ideal)) W (Proc.devRef .tc main_v13) = W (Proc.devRef .tc main_v13) := by stretch_keeps hostOps11_3
theorem k0_v15 : StableHlo.after (hostOps11 (F := Ideal)) W (Proc.devRef .tc main_v15) = W (Proc.devRef .tc main_v15) := by stretch_keeps hostOps11
theorem k1_v15 : StableHlo.after (hostOps11_1 (F := Ideal)) W (Proc.devRef .tc main_v15) = W (Proc.devRef .tc main_v15) := by stretch_keeps hostOps11_1
theorem k2_v15 : StableHlo.after (hostOps11_2 (F := Ideal)) W (Proc.devRef .tc main_v15) = W (Proc.devRef .tc main_v15) := by stretch_keeps hostOps11_2
theorem k3_v15 : StableHlo.after (hostOps11_3 (F := Ideal)) W (Proc.devRef .tc main_v15) = W (Proc.devRef .tc main_v15) := by stretch_keeps hostOps11_3
theorem k0_v16 : StableHlo.after (hostOps11 (F := Ideal)) W (Proc.devRef .tc main_v16) = W (Proc.devRef .tc main_v16) := by stretch_keeps hostOps11
theorem k1_v16 : StableHlo.after (hostOps11_1 (F := Ideal)) W (Proc.devRef .tc main_v16) = W (Proc.devRef .tc main_v16) := by stretch_keeps hostOps11_1
theorem k2_v16 : StableHlo.after (hostOps11_2 (F := Ideal)) W (Proc.devRef .tc main_v16) = W (Proc.devRef .tc main_v16) := by stretch_keeps hostOps11_2
theorem k3_v16 : StableHlo.after (hostOps11_3 (F := Ideal)) W (Proc.devRef .tc main_v16) = W (Proc.devRef .tc main_v16) := by stretch_keeps hostOps11_3
theorem k0_v17 : StableHlo.after (hostOps11 (F := Ideal)) W (Proc.devRef .tc main_v17) = W (Proc.devRef .tc main_v17) := by stretch_keeps hostOps11
theorem k1_v17 : StableHlo.after (hostOps11_1 (F := Ideal)) W (Proc.devRef .tc main_v17) = W (Proc.devRef .tc main_v17) := by stretch_keeps hostOps11_1
theorem k2_v17 : StableHlo.after (hostOps11_2 (F := Ideal)) W (Proc.devRef .tc main_v17) = W (Proc.devRef .tc main_v17) := by stretch_keeps hostOps11_2
theorem k3_v17 : StableHlo.after (hostOps11_3 (F := Ideal)) W (Proc.devRef .tc main_v17) = W (Proc.devRef .tc main_v17) := by stretch_keeps hostOps11_3

/-! ## The four stretches chained -/

/-- Launch 11's first operand: the layer's features, feature-major and padded. -/
theorem entry_x : step V (Proc.devRef .tc main_v217) = Cert.Sage.K.padT (Cert.Sage.K.unpadT (V (Proc.devRef .tc main_v202))) := by
  refine (k3_x _).trans ((k2_x _).trans ((s1_x _).trans ?_))
  rw [s0_x, s0_c]
  rfl

/-- Launch 11's second operand: the sums of the neighbours' features, feature-major and padded. -/
theorem entry_a : step V (Proc.devRef .tc main_v218)
    = Cert.Sage.K.padT (Cert.Sage.K.agg (Cert.Sage.K.unpadT (V (Proc.devRef .tc main_v202)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost11

end
-- ==== Proof.KStep11.lean ====
/-
  Layer 11 of the kernel program's run: if launch 10 left `O (p-1)` in its output array, with the edge lists and the
  four once-computed operands in their buffers, then launch 11 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg11
import proofs.«147323_j54408645706323_1_alg».proof.Proof.KHost11

set_option maxRecDepth 16384

noncomputable section

namespace Cert.Sage.KStep11

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W57 m ρ c (Proc.devRef .tc main_v202) = O v1 v3 Wt bb x0 10)
    (h1 : W57 m ρ c (Proc.devRef .tc main_v1) = v1) (h3 : W57 m ρ c (Proc.devRef .tc main_v3) = v3)
    (h13 : W57 m ρ c (Proc.devRef .tc main_v13) = inv v3) (h15 : W57 m ρ c (Proc.devRef .tc main_v15) = wx Wt)
    (h16 : W57 m ρ c (Proc.devRef .tc main_v16) = wm Wt) (h17 : W57 m ρ c (Proc.devRef .tc main_v17) = bc bb) :
    W62 m ρ c (Proc.devRef .tc main_v219) = O v1 v3 Wt bb x0 11
    ∧ W62 m ρ c (Proc.devRef .tc main_v1) = v1 ∧ W62 m ρ c (Proc.devRef .tc main_v3) = v3
    ∧ W62 m ρ c (Proc.devRef .tc main_v13) = inv v3 ∧ W62 m ρ c (Proc.devRef .tc main_v15) = wx Wt
    ∧ W62 m ρ c (Proc.devRef .tc main_v16) = wm Wt ∧ W62 m ρ c (Proc.devRef .tc main_v17) = bc bb := by
  -- the launch's operands at its entry
  have ex : W61 m ρ c (Proc.devRef .tc main_v217) = padT (X v1 v3 Wt bb x0 11) := by
    refine (Cert.Sage.KHost11.entry_x (W57 m ρ c)).trans ?_
    rw [ho, unpadT_O]
  have ea : W61 m ρ c (Proc.devRef .tc main_v218) = padT (agg (X v1 v3 Wt bb x0 11) v1 v3) := by
    refine (Cert.Sage.KHost11.entry_a (W57 m ρ c)).trans ?_
    rw [ho, unpadT_O, h1, h3]
  have e1 : W61 m ρ c (Proc.devRef .tc main_v1) = v1 := (Cert.Sage.KHost11.kept_v1 (W57 m ρ c)).trans h1
  have e3 : W61 m ρ c (Proc.devRef .tc main_v3) = v3 := (Cert.Sage.KHost11.kept_v3 (W57 m ρ c)).trans h3
  have e13 : W61 m ρ c (Proc.devRef .tc main_v13) = inv v3 := (Cert.Sage.KHost11.kept_v13 (W57 m ρ c)).trans h13
  have e15 : W61 m ρ c (Proc.devRef .tc main_v15) = wx Wt := (Cert.Sage.KHost11.kept_v15 (W57 m ρ c)).trans h15
  have e16 : W61 m ρ c (Proc.devRef .tc main_v16) = wm Wt := (Cert.Sage.KHost11.kept_v16 (W57 m ρ c)).trans h16
  have e17 : W61 m ρ c (Proc.devRef .tc main_v17) = bc bb := (Cert.Sage.KHost11.kept_v17 (W57 m ρ c)).trans h17
  -- an operand array of the launch is left as entered
  have hin : ∀ w : Fin cfg11.W, (cfg11.win w).isOut = false →
      W62 m ρ c (Proc.devRef .tc (Pipeline.arrRef spec11 w)) = V61 m ρ c (Pipeline.arrRef spec11 w) := fun w hw =>
    (W62_arr m ρ c w).trans (((dat11 (V61 m ρ) c).arrAt_in w hw cfg11.N).trans (A_eq11 (V61 m ρ) c w))
  refine ⟨?_, ?_, ?_, ?_, ?_, ?_, ?_⟩
  · refine (W62_arr m ρ c 6).trans ?_
    rw [Cert.Sage.KReg11.final (V61 m ρ) c]
    show cols (W61 m ρ c (Proc.devRef .tc main_v217)) (W61 m ρ c (Proc.devRef .tc main_v218))
      (W61 m ρ c (Proc.devRef .tc main_v13)) (W61 m ρ c (Proc.devRef .tc main_v15))
      (W61 m ρ c (Proc.devRef .tc main_v16)) (W61 m ρ c (Proc.devRef .tc main_v17)) = _
    rw [ex, ea, e13, e15, e16, e17]
    rfl
  · exact (W62_of_ne m ρ c main_v1 (by decide)).trans e1
  · exact (W62_of_ne m ρ c main_v3 (by decide)).trans e3
  · exact (hin 2 rfl).trans e13
  · exact (hin 3 rfl).trans e15
  · exact (hin 4 rfl).trans e16
  · exact (hin 5 rfl).trans e17

end Cert.Sage.KStep11

end
-- ==== Proof.KReg12.lean ====
/-
  Launch 12 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg12

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg12.N,
    win12_0.index t (0 : Fin 2) = 0 ∧ win12_0.index t (1 : Fin 2) = t.val
    ∧ win12_1.index t (0 : Fin 2) = 0 ∧ win12_1.index t (1 : Fin 2) = t.val
    ∧ win12_2.index t (0 : Fin 2) = 0 ∧ win12_2.index t (1 : Fin 2) = t.val
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = t.val ∧ t.val < 4 :=
  (by decide +kernel : ∀ t : Fin grid12.N, _)

/-- What point `t` writes back is block `t` of `cols` of the operand arrays as the launch finds them. -/
theorem flushed_eq (c : Dev nD) (t : Fin cfg12.N) :
    (dat12 V c).flushed 6 t = ((cfg12.win 6).blk t).view.read (Elt Ideal)
      (Cert.Sage.K.cols (V c main_v234) (V c main_v235) (V c main_v13) (V c main_v15) (V c main_v16) (V c main_v17)) := by
  show (cfg12.win 6).cut (grid12.coords t) ((dat12 V c).after 6 t) = _
  rw [after12_6]
  unfold out12_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk12 V c 0 t (ix2 k q) = V c main_v234 (ix2 k (col t.val ht q)) := fun k q => by
    show V c main_v234 (((cfg12.win 0).blk t).view.emb (ix2 k q)) = _
    refine congrArg (V c main_v234) ?_
    funext a; apply Fin.ext
    match a with
    | ⟨0, _⟩ => show win12_0.index t (0 : Fin 2) * 3 + 1 * k.val = k.val; omega
    | ⟨1, _⟩ => show win12_0.index t (1 : Fin 2) * 51200 + 1 * q.val = t.val * 51200 + q.val; omega
  have r1 : ∀ (k : Fin 3) (q : Fin 51200), iblk12 V c 1 t (ix2 k q) = V c main_v235 (ix2 k (col t.val ht q)) := fun k q => by
    show V c main_v235 (((cfg12.win 1).blk t).view.emb (ix2 k q)) = _
    refine congrArg (V c main_v235) ?_
    funext a; apply Fin.ext
    match a with
    | ⟨0, _⟩ => show win12_1.index t (0 : Fin 2) * 3 + 1 * k.val = k.val; omega
    | ⟨1, _⟩ => show win12_1.index t (1 : Fin 2) * 51200 + 1 * q.val = t.val * 51200 + q.val; omega
  have r2 : ∀ q : Fin 51200, iblk12 V c 2 t (ix2 (0 : Fin 1) q) = V c main_v13 (ix2 (0 : Fin 1) (col t.val ht q)) := fun q => by
    show V c main_v13 (((cfg12.win 2).blk t).view.emb (ix2 (0 : Fin 1) q)) = _
    refine congrArg (V c main_v13) ?_
    funext a; apply Fin.ext
    match a with
    | ⟨0, _⟩ => show win12_2.index t (0 : Fin 2) * 1 + 1 * 0 = 0; omega
    | ⟨1, _⟩ => show win12_2.index t (1 : Fin 2) * 51200 + 1 * q.val = t.val * 51200 + q.val; omega
  have r3 : ∀ j k : Fin 3, iblk12 V c 3 t (ix2 j k) = V c main_v15 (ix2 j k) := fun j k => by
    show V c main_v15 (((cfg12.win 3).blk t).view.emb (ix2 j k)) = _
    refine congrArg (V c main_v15) ?_
    funext a; apply Fin.ext
    match a with
    | ⟨0, _⟩ => show win12_3.index t (0 : Fin 2) * 3 + 1 * j.val = j.val; omega
    | ⟨1, _⟩ => show win12_3.index t (1 : Fin 2) * 3 + 1 * k.val = k.val; omega
  have r4 : ∀ j k : Fin 3, iblk12 V c 4 t (ix2 j k) = V c main_v16 (ix2 j k) := fun j k => by
    show V c main_v16 (((cfg12.win 4).blk t).view.emb (ix2 j k)) = _
    refine congrArg (V c main_v16) ?_
    funext a; apply Fin.ext
    match a with
    | ⟨0, _⟩ => show win12_4.index t (0 : Fin 2) * 3 + 1 * j.val = j.val; omega
    | ⟨1, _⟩ => show win12_4.index t (1 : Fin 2) * 3 + 1 * k.val = k.val; omega
  have r5 : ∀ j : Fin 3, iblk12 V c 5 t (ix2 j (0 : Fin 1)) = V c main_v17 (ix2 j (0 : Fin 1)) := fun j => by
    show V c main_v17 (((cfg12.win 5).blk t).view.emb (ix2 j (0 : Fin 1))) = _
    refine congrArg (V c main_v17) ?_
    funext a; apply Fin.ext
    match a with
    | ⟨0, _⟩ => show win12_5.index t (0 : Fin 2) * 3 + 1 * j.val = j.val; omega
    | ⟨1, _⟩ => show win12_5.index t (1 : Fin 2) * 1 + 1 * 0 = 0; omega
  funext y
  show k12_pay1 (iblk12 V c 0 t) (iblk12 V c 1 t) (iblk12 V c 2 t) (iblk12 V c 3 t) (iblk12 V c 4 t) (iblk12 V c 5 t) y
    = Cert.Sage.K.cols (V c main_v234) (V c main_v235) (V c main_v13) (V c main_v15) (V c main_v16) (V c main_v17)
        (((cfg12.win 6).blk t).view.emb y)
  have hemb : ((cfg12.win 6).blk t).view.emb y = ix2 (y 0) (col t.val ht (y 1)) := by
    funext a; apply Fin.ext
    match a with
    | ⟨0, _⟩ => show win12_6.index t (0 : Fin 2) * 3 + 1 * (y 0).val = (y 0).val; omega
    | ⟨1, _⟩ => show win12_6.index t (1 : Fin 2) * 51200 + 1 * (y 1).val = t.val * 51200 + (y 1).val; omega
  rw [hemb]
  exact block_eq_idx (iblk12 V c 0 t) (iblk12 V c 1 t) (iblk12 V c 2 t) (iblk12 V c 3 t) (iblk12 V c 4 t)
    (iblk12 V c 5 t) (V c main_v234) (V c main_v235) (V c main_v13) (V c main_v15) (V c main_v16) (V c main_v17)
    t.val ht r0 r1 r2 r3 r4 r5 y

/-- An entry of the output array lies in point `t`'s block iff each of its coordinates lies in the block's range. -/
theorem mem_blk (t : Fin cfg12.N) (i : S3x204800.Idx) :
    i ∈ ((cfg12.win 6).blk t).view.set ↔ ∀ a : Fin 2, win12_6.index t a * S3x51200.size a ≤ (i a).val
      ∧ (i a).val < win12_6.index t a * S3x51200.size a + S3x51200.size a := by
  show i ∈ ((View.whole main_v236).slice (win12_6.rect t)).set ↔ _
  rw [View.set_slice_whole, Rect.mem_set_unit]
  exact Iff.rfl

/-- Every entry of the output array is in the block of the point that owns its column. -/
theorem cover (i : S3x204800.Idx) :
    ∃ t : Fin cfg12.N, (cfg12.win 6).flush t = true ∧ i ∈ ((cfg12.win 6).blk t).view.set := by
  have hi0 : (i 0).val < 3 := (i 0).isLt
  have hi1 : (i 1).val < 204800 := (i 1).isLt
  have hN : grid12.N = 4 := N_12
  have hlt : (i 1).val / 51200 < grid12.N := by rw [hN]; omega
  obtain ⟨e00, e01, e10, e11, e20, e21, e30, e31, e40, e41, e50, e51, e60, e61, ht⟩ :=
    idx_facts (⟨(i 1).val / 51200, hlt⟩ : Fin cfg12.N)
  refine ⟨⟨(i 1).val / 51200, hlt⟩, flush12_6 _, ?_⟩
  rw [mem_blk]
  intro a
  match a with
  | ⟨0, _⟩ =>
    show win12_6.index ⟨(i 1).val / 51200, hlt⟩ (0 : Fin 2) * 3 ≤ (i 0).val
      ∧ (i 0).val < win12_6.index ⟨(i 1).val / 51200, hlt⟩ (0 : Fin 2) * 3 + 3
    omega
  | ⟨1, _⟩ =>
    show win12_6.index ⟨(i 1).val / 51200, hlt⟩ (1 : Fin 2) * 51200 ≤ (i 1).val
      ∧ (i 1).val < win12_6.index ⟨(i 1).val / 51200, hlt⟩ (1 : Fin 2) * 51200 + 51200
    have e : (⟨(i 1).val / 51200, hlt⟩ : Fin cfg12.N).val = (i 1).val / 51200 := rfl
    omega

/-- The output array after the launch: `cols` of the operand arrays as the launch found them. -/
theorem final (c : Dev nD) :
    (dat12 V c).arrAt 6 cfg12.N
      = Cert.Sage.K.cols (V c main_v234) (V c main_v235) (V c main_v13) (V c main_v15) (V c main_v16) (V c main_v17) :=
  (dat12 V c).arrAt_eq_of_cover 6 _ (fun t _ => flushed_eq V c t) (fun i => cover i)

end Cert.Sage.KReg12

end
-- ==== Proof.KHost12.lean ====
/-
  The host operations between launch 11 and launch 12, read as functions of whole arrays, from ANY buffer contents
  `V`: they cut the padding columns off the previous launch's output and lay it node-major (the layer's features
  `X`), gather the features of every edge's source, add them up at the edges' targets, and lay `X` and that sum
  feature-major again, padded: the two wide operands of launch 12. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost12

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps12_3 (F := Ideal)) (StableHlo.after (hostOps12_2 (F := Ideal))
    (StableHlo.after (hostOps12_1 (F := Ideal)) (StableHlo.after (hostOps12 (F := Ideal)) V)))

/-! ## Each stretch on its own -/

/-- The first stretch leaves the layer's features, feature-major, … -/
theorem s0_x : StableHlo.after (hostOps12 (F := Ideal)) V (Proc.devRef .tc main_v232)
    = transpose S3x200000 [1, 0] (Cert.Sage.K.unpadT (V (Proc.devRef .tc main_v219))) Facts₀.transposes_S200000x3_S3x200000_1_0 := by
  after_results
  all_goals rfl
set_option maxHeartbeats 1000000 in
/-- … the sums of the neighbours' features, feature-major, … -/
theorem s0_a : StableHlo.after (hostOps12 (F := Ideal)) V (Proc.devRef .tc main_v233)
    = transpose S3x200000 [1, 0] (Cert.Sage.K.agg (Cert.Sage.K.unpadT (V (Proc.devRef .tc main_v219)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps12 (F := Ideal)) V (Proc.devRef .tc main_c_66) = constantI S_ 32 0#32 := by
  after_results
/-- The second stretch pads the features. -/
theorem s1_x : StableHlo.after (hostOps12_1 (F := Ideal)) W (Proc.devRef .tc main_v234)
    = pad S3x204800 ![0, 0] ![0, 4800] ![0, 0] (W (Proc.devRef .tc main_v232)) (sitofp (F := Ideal) .f32 (W (Proc.devRef .tc main_c_66)))
        Facts₀.pads_S3x200000_S3x204800_000_048000 Facts₀.h_S_ := by
  after_results
  all_goals rfl
/-- The third stretch is the second padding value. -/
theorem s2_c : StableHlo.after (hostOps12_2 (F := Ideal)) W (Proc.devRef .tc main_c_67) = constantI S_ 32 0#32 := by
  after_results
/-- The fourth stretch pads the sums. -/
theorem s3_a : StableHlo.after (hostOps12_3 (F := Ideal)) W (Proc.devRef .tc main_v235)
    = pad S3x204800 ![0, 0] ![0, 4800] ![0, 0] (W (Proc.devRef .tc main_v233)) (sitofp (F := Ideal) .f32 (W (Proc.devRef .tc main_c_67)))
        Facts₀.pads_S3x200000_S3x204800_000_048000 Facts₀.h_S_ := by
  after_results
  all_goals rfl

/-! ## What the stretches do not write -/

theorem k3_x : StableHlo.after (hostOps12_3 (F := Ideal)) W (Proc.devRef .tc main_v234) = W (Proc.devRef .tc main_v234) := by stretch_keeps hostOps12_3
theorem k2_x : StableHlo.after (hostOps12_2 (F := Ideal)) W (Proc.devRef .tc main_v234) = W (Proc.devRef .tc main_v234) := by stretch_keeps hostOps12_2
theorem k2_a : StableHlo.after (hostOps12_2 (F := Ideal)) W (Proc.devRef .tc main_v233) = W (Proc.devRef .tc main_v233) := by stretch_keeps hostOps12_2
theorem k1_a : StableHlo.after (hostOps12_1 (F := Ideal)) W (Proc.devRef .tc main_v233) = W (Proc.devRef .tc main_v233) := by stretch_keeps hostOps12_1
theorem k0_v1 : StableHlo.after (hostOps12 (F := Ideal)) W (Proc.devRef .tc main_v1) = W (Proc.devRef .tc main_v1) := by stretch_keeps hostOps12
theorem k1_v1 : StableHlo.after (hostOps12_1 (F := Ideal)) W (Proc.devRef .tc main_v1) = W (Proc.devRef .tc main_v1) := by stretch_keeps hostOps12_1
theorem k2_v1 : StableHlo.after (hostOps12_2 (F := Ideal)) W (Proc.devRef .tc main_v1) = W (Proc.devRef .tc main_v1) := by stretch_keeps hostOps12_2
theorem k3_v1 : StableHlo.after (hostOps12_3 (F := Ideal)) W (Proc.devRef .tc main_v1) = W (Proc.devRef .tc main_v1) := by stretch_keeps hostOps12_3
theorem k0_v3 : StableHlo.after (hostOps12 (F := Ideal)) W (Proc.devRef .tc main_v3) = W (Proc.devRef .tc main_v3) := by stretch_keeps hostOps12
theorem k1_v3 : StableHlo.after (hostOps12_1 (F := Ideal)) W (Proc.devRef .tc main_v3) = W (Proc.devRef .tc main_v3) := by stretch_keeps hostOps12_1
theorem k2_v3 : StableHlo.after (hostOps12_2 (F := Ideal)) W (Proc.devRef .tc main_v3) = W (Proc.devRef .tc main_v3) := by stretch_keeps hostOps12_2
theorem k3_v3 : StableHlo.after (hostOps12_3 (F := Ideal)) W (Proc.devRef .tc main_v3) = W (Proc.devRef .tc main_v3) := by stretch_keeps hostOps12_3
theorem k0_v13 : StableHlo.after (hostOps12 (F := Ideal)) W (Proc.devRef .tc main_v13) = W (Proc.devRef .tc main_v13) := by stretch_keeps hostOps12
theorem k1_v13 : StableHlo.after (hostOps12_1 (F := Ideal)) W (Proc.devRef .tc main_v13) = W (Proc.devRef .tc main_v13) := by stretch_keeps hostOps12_1
theorem k2_v13 : StableHlo.after (hostOps12_2 (F := Ideal)) W (Proc.devRef .tc main_v13) = W (Proc.devRef .tc main_v13) := by stretch_keeps hostOps12_2
theorem k3_v13 : StableHlo.after (hostOps12_3 (F := Ideal)) W (Proc.devRef .tc main_v13) = W (Proc.devRef .tc main_v13) := by stretch_keeps hostOps12_3
theorem k0_v15 : StableHlo.after (hostOps12 (F := Ideal)) W (Proc.devRef .tc main_v15) = W (Proc.devRef .tc main_v15) := by stretch_keeps hostOps12
theorem k1_v15 : StableHlo.after (hostOps12_1 (F := Ideal)) W (Proc.devRef .tc main_v15) = W (Proc.devRef .tc main_v15) := by stretch_keeps hostOps12_1
theorem k2_v15 : StableHlo.after (hostOps12_2 (F := Ideal)) W (Proc.devRef .tc main_v15) = W (Proc.devRef .tc main_v15) := by stretch_keeps hostOps12_2
theorem k3_v15 : StableHlo.after (hostOps12_3 (F := Ideal)) W (Proc.devRef .tc main_v15) = W (Proc.devRef .tc main_v15) := by stretch_keeps hostOps12_3
theorem k0_v16 : StableHlo.after (hostOps12 (F := Ideal)) W (Proc.devRef .tc main_v16) = W (Proc.devRef .tc main_v16) := by stretch_keeps hostOps12
theorem k1_v16 : StableHlo.after (hostOps12_1 (F := Ideal)) W (Proc.devRef .tc main_v16) = W (Proc.devRef .tc main_v16) := by stretch_keeps hostOps12_1
theorem k2_v16 : StableHlo.after (hostOps12_2 (F := Ideal)) W (Proc.devRef .tc main_v16) = W (Proc.devRef .tc main_v16) := by stretch_keeps hostOps12_2
theorem k3_v16 : StableHlo.after (hostOps12_3 (F := Ideal)) W (Proc.devRef .tc main_v16) = W (Proc.devRef .tc main_v16) := by stretch_keeps hostOps12_3
theorem k0_v17 : StableHlo.after (hostOps12 (F := Ideal)) W (Proc.devRef .tc main_v17) = W (Proc.devRef .tc main_v17) := by stretch_keeps hostOps12
theorem k1_v17 : StableHlo.after (hostOps12_1 (F := Ideal)) W (Proc.devRef .tc main_v17) = W (Proc.devRef .tc main_v17) := by stretch_keeps hostOps12_1
theorem k2_v17 : StableHlo.after (hostOps12_2 (F := Ideal)) W (Proc.devRef .tc main_v17) = W (Proc.devRef .tc main_v17) := by stretch_keeps hostOps12_2
theorem k3_v17 : StableHlo.after (hostOps12_3 (F := Ideal)) W (Proc.devRef .tc main_v17) = W (Proc.devRef .tc main_v17) := by stretch_keeps hostOps12_3

/-! ## The four stretches chained -/

/-- Launch 12's first operand: the layer's features, feature-major and padded. -/
theorem entry_x : step V (Proc.devRef .tc main_v234) = Cert.Sage.K.padT (Cert.Sage.K.unpadT (V (Proc.devRef .tc main_v219))) := by
  refine (k3_x _).trans ((k2_x _).trans ((s1_x _).trans ?_))
  rw [s0_x, s0_c]
  rfl

/-- Launch 12's second operand: the sums of the neighbours' features, feature-major and padded. -/
theorem entry_a : step V (Proc.devRef .tc main_v235)
    = Cert.Sage.K.padT (Cert.Sage.K.agg (Cert.Sage.K.unpadT (V (Proc.devRef .tc main_v219)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost12

end
-- ==== Proof.KStep12.lean ====
/-
  Layer 12 of the kernel program's run: if launch 11 left `O (p-1)` in its output array, with the edge lists and the
  four once-computed operands in their buffers, then launch 12 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg12
import proofs.«147323_j54408645706323_1_alg».proof.Proof.KHost12

set_option maxRecDepth 16384

noncomputable section

namespace Cert.Sage.KStep12

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W62 m ρ c (Proc.devRef .tc main_v219) = O v1 v3 Wt bb x0 11)
    (h1 : W62 m ρ c (Proc.devRef .tc main_v1) = v1) (h3 : W62 m ρ c (Proc.devRef .tc main_v3) = v3)
    (h13 : W62 m ρ c (Proc.devRef .tc main_v13) = inv v3) (h15 : W62 m ρ c (Proc.devRef .tc main_v15) = wx Wt)
    (h16 : W62 m ρ c (Proc.devRef .tc main_v16) = wm Wt) (h17 : W62 m ρ c (Proc.devRef .tc main_v17) = bc bb) :
    W67 m ρ c (Proc.devRef .tc main_v236) = O v1 v3 Wt bb x0 12
    ∧ W67 m ρ c (Proc.devRef .tc main_v1) = v1 ∧ W67 m ρ c (Proc.devRef .tc main_v3) = v3
    ∧ W67 m ρ c (Proc.devRef .tc main_v13) = inv v3 ∧ W67 m ρ c (Proc.devRef .tc main_v15) = wx Wt
    ∧ W67 m ρ c (Proc.devRef .tc main_v16) = wm Wt ∧ W67 m ρ c (Proc.devRef .tc main_v17) = bc bb := by
  -- the launch's operands at its entry
  have ex : W66 m ρ c (Proc.devRef .tc main_v234) = padT (X v1 v3 Wt bb x0 12) := by
    refine (Cert.Sage.KHost12.entry_x (W62 m ρ c)).trans ?_
    rw [ho, unpadT_O]
  have ea : W66 m ρ c (Proc.devRef .tc main_v235) = padT (agg (X v1 v3 Wt bb x0 12) v1 v3) := by
    refine (Cert.Sage.KHost12.entry_a (W62 m ρ c)).trans ?_
    rw [ho, unpadT_O, h1, h3]
  have e1 : W66 m ρ c (Proc.devRef .tc main_v1) = v1 := (Cert.Sage.KHost12.kept_v1 (W62 m ρ c)).trans h1
  have e3 : W66 m ρ c (Proc.devRef .tc main_v3) = v3 := (Cert.Sage.KHost12.kept_v3 (W62 m ρ c)).trans h3
  have e13 : W66 m ρ c (Proc.devRef .tc main_v13) = inv v3 := (Cert.Sage.KHost12.kept_v13 (W62 m ρ c)).trans h13
  have e15 : W66 m ρ c (Proc.devRef .tc main_v15) = wx Wt := (Cert.Sage.KHost12.kept_v15 (W62 m ρ c)).trans h15
  have e16 : W66 m ρ c (Proc.devRef .tc main_v16) = wm Wt := (Cert.Sage.KHost12.kept_v16 (W62 m ρ c)).trans h16
  have e17 : W66 m ρ c (Proc.devRef .tc main_v17) = bc bb := (Cert.Sage.KHost12.kept_v17 (W62 m ρ c)).trans h17
  -- an operand array of the launch is left as entered
  have hin : ∀ w : Fin cfg12.W, (cfg12.win w).isOut = false →
      W67 m ρ c (Proc.devRef .tc (Pipeline.arrRef spec12 w)) = V66 m ρ c (Pipeline.arrRef spec12 w) := fun w hw =>
    (W67_arr m ρ c w).trans (((dat12 (V66 m ρ) c).arrAt_in w hw cfg12.N).trans (A_eq12 (V66 m ρ) c w))
  refine ⟨?_, ?_, ?_, ?_, ?_, ?_, ?_⟩
  · refine (W67_arr m ρ c 6).trans ?_
    rw [Cert.Sage.KReg12.final (V66 m ρ) c]
    show cols (W66 m ρ c (Proc.devRef .tc main_v234)) (W66 m ρ c (Proc.devRef .tc main_v235))
      (W66 m ρ c (Proc.devRef .tc main_v13)) (W66 m ρ c (Proc.devRef .tc main_v15))
      (W66 m ρ c (Proc.devRef .tc main_v16)) (W66 m ρ c (Proc.devRef .tc main_v17)) = _
    rw [ex, ea, e13, e15, e16, e17]
    rfl
  · exact (W67_of_ne m ρ c main_v1 (by decide)).trans e1
  · exact (W67_of_ne m ρ c main_v3 (by decide)).trans e3
  · exact (hin 2 rfl).trans e13
  · exact (hin 3 rfl).trans e15
  · exact (hin 4 rfl).trans e16
  · exact (hin 5 rfl).trans e17

end Cert.Sage.KStep12

end
-- ==== Proof.KReg13.lean ====
/-
  Launch 13 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg13

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg13.N,
    win13_0.index t (0 : Fin 2) = 0 ∧ win13_0.index t (1 : Fin 2) = t.val
    ∧ win13_1.index t (0 : Fin 2) = 0 ∧ win13_1.index t (1 : Fin 2) = t.val
    ∧ win13_2.index t (0 : Fin 2) = 0 ∧ win13_2.index t (1 : Fin 2) = t.val
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = t.val ∧ t.val < 4 :=
  (by decide +kernel : ∀ t : Fin grid13.N, _)

/-- What point `t` writes back is block `t` of `cols` of the operand arrays as the launch finds them. -/
theorem flushed_eq (c : Dev nD) (t : Fin cfg13.N) :
    (dat13 V c).flushed 6 t = ((cfg13.win 6).blk t).view.read (Elt Ideal)
      (Cert.Sage.K.cols (V c main_v251) (V c main_v252) (V c main_v13) (V c main_v15) (V c main_v16) (V c main_v17)) := by
  show (cfg13.win 6).cut (grid13.coords t) ((dat13 V c).after 6 t) = _
  rw [after13_6]
  unfold out13_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk13 V c 0 t (ix2 k q) = V c main_v251 (ix2 k (col t.val ht q)) := fun k q => by
    show V c main_v251 (((cfg13.win 0).blk t).view.emb (ix2 k q)) = _
    refine congrArg (V c main_v251) ?_
    funext a; apply Fin.ext
    match a with
    | ⟨0, _⟩ => show win13_0.index t (0 : Fin 2) * 3 + 1 * k.val = k.val; omega
    | ⟨1, _⟩ => show win13_0.index t (1 : Fin 2) * 51200 + 1 * q.val = t.val * 51200 + q.val; omega
  have r1 : ∀ (k : Fin 3) (q : Fin 51200), iblk13 V c 1 t (ix2 k q) = V c main_v252 (ix2 k (col t.val ht q)) := fun k q => by
    show V c main_v252 (((cfg13.win 1).blk t).view.emb (ix2 k q)) = _
    refine congrArg (V c main_v252) ?_
    funext a; apply Fin.ext
    match a with
    | ⟨0, _⟩ => show win13_1.index t (0 : Fin 2) * 3 + 1 * k.val = k.val; omega
    | ⟨1, _⟩ => show win13_1.index t (1 : Fin 2) * 51200 + 1 * q.val = t.val * 51200 + q.val; omega
  have r2 : ∀ q : Fin 51200, iblk13 V c 2 t (ix2 (0 : Fin 1) q) = V c main_v13 (ix2 (0 : Fin 1) (col t.val ht q)) := fun q => by
    show V c main_v13 (((cfg13.win 2).blk t).view.emb (ix2 (0 : Fin 1) q)) = _
    refine congrArg (V c main_v13) ?_
    funext a; apply Fin.ext
    match a with
    | ⟨0, _⟩ => show win13_2.index t (0 : Fin 2) * 1 + 1 * 0 = 0; omega
    | ⟨1, _⟩ => show win13_2.index t (1 : Fin 2) * 51200 + 1 * q.val = t.val * 51200 + q.val; omega
  have r3 : ∀ j k : Fin 3, iblk13 V c 3 t (ix2 j k) = V c main_v15 (ix2 j k) := fun j k => by
    show V c main_v15 (((cfg13.win 3).blk t).view.emb (ix2 j k)) = _
    refine congrArg (V c main_v15) ?_
    funext a; apply Fin.ext
    match a with
    | ⟨0, _⟩ => show win13_3.index t (0 : Fin 2) * 3 + 1 * j.val = j.val; omega
    | ⟨1, _⟩ => show win13_3.index t (1 : Fin 2) * 3 + 1 * k.val = k.val; omega
  have r4 : ∀ j k : Fin 3, iblk13 V c 4 t (ix2 j k) = V c main_v16 (ix2 j k) := fun j k => by
    show V c main_v16 (((cfg13.win 4).blk t).view.emb (ix2 j k)) = _
    refine congrArg (V c main_v16) ?_
    funext a; apply Fin.ext
    match a with
    | ⟨0, _⟩ => show win13_4.index t (0 : Fin 2) * 3 + 1 * j.val = j.val; omega
    | ⟨1, _⟩ => show win13_4.index t (1 : Fin 2) * 3 + 1 * k.val = k.val; omega
  have r5 : ∀ j : Fin 3, iblk13 V c 5 t (ix2 j (0 : Fin 1)) = V c main_v17 (ix2 j (0 : Fin 1)) := fun j => by
    show V c main_v17 (((cfg13.win 5).blk t).view.emb (ix2 j (0 : Fin 1))) = _
    refine congrArg (V c main_v17) ?_
    funext a; apply Fin.ext
    match a with
    | ⟨0, _⟩ => show win13_5.index t (0 : Fin 2) * 3 + 1 * j.val = j.val; omega
    | ⟨1, _⟩ => show win13_5.index t (1 : Fin 2) * 1 + 1 * 0 = 0; omega
  funext y
  show k13_pay1 (iblk13 V c 0 t) (iblk13 V c 1 t) (iblk13 V c 2 t) (iblk13 V c 3 t) (iblk13 V c 4 t) (iblk13 V c 5 t) y
    = Cert.Sage.K.cols (V c main_v251) (V c main_v252) (V c main_v13) (V c main_v15) (V c main_v16) (V c main_v17)
        (((cfg13.win 6).blk t).view.emb y)
  have hemb : ((cfg13.win 6).blk t).view.emb y = ix2 (y 0) (col t.val ht (y 1)) := by
    funext a; apply Fin.ext
    match a with
    | ⟨0, _⟩ => show win13_6.index t (0 : Fin 2) * 3 + 1 * (y 0).val = (y 0).val; omega
    | ⟨1, _⟩ => show win13_6.index t (1 : Fin 2) * 51200 + 1 * (y 1).val = t.val * 51200 + (y 1).val; omega
  rw [hemb]
  exact block_eq_idx (iblk13 V c 0 t) (iblk13 V c 1 t) (iblk13 V c 2 t) (iblk13 V c 3 t) (iblk13 V c 4 t)
    (iblk13 V c 5 t) (V c main_v251) (V c main_v252) (V c main_v13) (V c main_v15) (V c main_v16) (V c main_v17)
    t.val ht r0 r1 r2 r3 r4 r5 y

/-- An entry of the output array lies in point `t`'s block iff each of its coordinates lies in the block's range. -/
theorem mem_blk (t : Fin cfg13.N) (i : S3x204800.Idx) :
    i ∈ ((cfg13.win 6).blk t).view.set ↔ ∀ a : Fin 2, win13_6.index t a * S3x51200.size a ≤ (i a).val
      ∧ (i a).val < win13_6.index t a * S3x51200.size a + S3x51200.size a := by
  show i ∈ ((View.whole main_v253).slice (win13_6.rect t)).set ↔ _
  rw [View.set_slice_whole, Rect.mem_set_unit]
  exact Iff.rfl

/-- Every entry of the output array is in the block of the point that owns its column. -/
theorem cover (i : S3x204800.Idx) :
    ∃ t : Fin cfg13.N, (cfg13.win 6).flush t = true ∧ i ∈ ((cfg13.win 6).blk t).view.set := by
  have hi0 : (i 0).val < 3 := (i 0).isLt
  have hi1 : (i 1).val < 204800 := (i 1).isLt
  have hN : grid13.N = 4 := N_13
  have hlt : (i 1).val / 51200 < grid13.N := by rw [hN]; omega
  obtain ⟨e00, e01, e10, e11, e20, e21, e30, e31, e40, e41, e50, e51, e60, e61, ht⟩ :=
    idx_facts (⟨(i 1).val / 51200, hlt⟩ : Fin cfg13.N)
  refine ⟨⟨(i 1).val / 51200, hlt⟩, flush13_6 _, ?_⟩
  rw [mem_blk]
  intro a
  match a with
  | ⟨0, _⟩ =>
    show win13_6.index ⟨(i 1).val / 51200, hlt⟩ (0 : Fin 2) * 3 ≤ (i 0).val
      ∧ (i 0).val < win13_6.index ⟨(i 1).val / 51200, hlt⟩ (0 : Fin 2) * 3 + 3
    omega
  | ⟨1, _⟩ =>
    show win13_6.index ⟨(i 1).val / 51200, hlt⟩ (1 : Fin 2) * 51200 ≤ (i 1).val
      ∧ (i 1).val < win13_6.index ⟨(i 1).val / 51200, hlt⟩ (1 : Fin 2) * 51200 + 51200
    have e : (⟨(i 1).val / 51200, hlt⟩ : Fin cfg13.N).val = (i 1).val / 51200 := rfl
    omega

/-- The output array after the launch: `cols` of the operand arrays as the launch found them. -/
theorem final (c : Dev nD) :
    (dat13 V c).arrAt 6 cfg13.N
      = Cert.Sage.K.cols (V c main_v251) (V c main_v252) (V c main_v13) (V c main_v15) (V c main_v16) (V c main_v17) :=
  (dat13 V c).arrAt_eq_of_cover 6 _ (fun t _ => flushed_eq V c t) (fun i => cover i)

end Cert.Sage.KReg13

end
-- ==== Proof.KHost13.lean ====
/-
  The host operations between launch 12 and launch 13, read as functions of whole arrays, from ANY buffer contents
  `V`: they cut the padding columns off the previous launch's output and lay it node-major (the layer's features
  `X`), gather the features of every edge's source, add them up at the edges' targets, and lay `X` and that sum
  feature-major again, padded: the two wide operands of launch 13. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost13

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps13_3 (F := Ideal)) (StableHlo.after (hostOps13_2 (F := Ideal))
    (StableHlo.after (hostOps13_1 (F := Ideal)) (StableHlo.after (hostOps13 (F := Ideal)) V)))

/-! ## Each stretch on its own -/

/-- The first stretch leaves the layer's features, feature-major, … -/
theorem s0_x : StableHlo.after (hostOps13 (F := Ideal)) V (Proc.devRef .tc main_v249)
    = transpose S3x200000 [1, 0] (Cert.Sage.K.unpadT (V (Proc.devRef .tc main_v236))) Facts₀.transposes_S200000x3_S3x200000_1_0 := by
  after_results
  all_goals rfl
set_option maxHeartbeats 1000000 in
/-- … the sums of the neighbours' features, feature-major, … -/
theorem s0_a : StableHlo.after (hostOps13 (F := Ideal)) V (Proc.devRef .tc main_v250)
    = transpose S3x200000 [1, 0] (Cert.Sage.K.agg (Cert.Sage.K.unpadT (V (Proc.devRef .tc main_v236)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps13 (F := Ideal)) V (Proc.devRef .tc main_c_71) = constantI S_ 32 0#32 := by
  after_results
/-- The second stretch pads the features. -/
theorem s1_x : StableHlo.after (hostOps13_1 (F := Ideal)) W (Proc.devRef .tc main_v251)
    = pad S3x204800 ![0, 0] ![0, 4800] ![0, 0] (W (Proc.devRef .tc main_v249)) (sitofp (F := Ideal) .f32 (W (Proc.devRef .tc main_c_71)))
        Facts₀.pads_S3x200000_S3x204800_000_048000 Facts₀.h_S_ := by
  after_results
  all_goals rfl
/-- The third stretch is the second padding value. -/
theorem s2_c : StableHlo.after (hostOps13_2 (F := Ideal)) W (Proc.devRef .tc main_c_72) = constantI S_ 32 0#32 := by
  after_results
/-- The fourth stretch pads the sums. -/
theorem s3_a : StableHlo.after (hostOps13_3 (F := Ideal)) W (Proc.devRef .tc main_v252)
    = pad S3x204800 ![0, 0] ![0, 4800] ![0, 0] (W (Proc.devRef .tc main_v250)) (sitofp (F := Ideal) .f32 (W (Proc.devRef .tc main_c_72)))
        Facts₀.pads_S3x200000_S3x204800_000_048000 Facts₀.h_S_ := by
  after_results
  all_goals rfl

/-! ## What the stretches do not write -/

theorem k3_x : StableHlo.after (hostOps13_3 (F := Ideal)) W (Proc.devRef .tc main_v251) = W (Proc.devRef .tc main_v251) := by stretch_keeps hostOps13_3
theorem k2_x : StableHlo.after (hostOps13_2 (F := Ideal)) W (Proc.devRef .tc main_v251) = W (Proc.devRef .tc main_v251) := by stretch_keeps hostOps13_2
theorem k2_a : StableHlo.after (hostOps13_2 (F := Ideal)) W (Proc.devRef .tc main_v250) = W (Proc.devRef .tc main_v250) := by stretch_keeps hostOps13_2
theorem k1_a : StableHlo.after (hostOps13_1 (F := Ideal)) W (Proc.devRef .tc main_v250) = W (Proc.devRef .tc main_v250) := by stretch_keeps hostOps13_1
theorem k0_v1 : StableHlo.after (hostOps13 (F := Ideal)) W (Proc.devRef .tc main_v1) = W (Proc.devRef .tc main_v1) := by stretch_keeps hostOps13
theorem k1_v1 : StableHlo.after (hostOps13_1 (F := Ideal)) W (Proc.devRef .tc main_v1) = W (Proc.devRef .tc main_v1) := by stretch_keeps hostOps13_1
theorem k2_v1 : StableHlo.after (hostOps13_2 (F := Ideal)) W (Proc.devRef .tc main_v1) = W (Proc.devRef .tc main_v1) := by stretch_keeps hostOps13_2
theorem k3_v1 : StableHlo.after (hostOps13_3 (F := Ideal)) W (Proc.devRef .tc main_v1) = W (Proc.devRef .tc main_v1) := by stretch_keeps hostOps13_3
theorem k0_v3 : StableHlo.after (hostOps13 (F := Ideal)) W (Proc.devRef .tc main_v3) = W (Proc.devRef .tc main_v3) := by stretch_keeps hostOps13
theorem k1_v3 : StableHlo.after (hostOps13_1 (F := Ideal)) W (Proc.devRef .tc main_v3) = W (Proc.devRef .tc main_v3) := by stretch_keeps hostOps13_1
theorem k2_v3 : StableHlo.after (hostOps13_2 (F := Ideal)) W (Proc.devRef .tc main_v3) = W (Proc.devRef .tc main_v3) := by stretch_keeps hostOps13_2
theorem k3_v3 : StableHlo.after (hostOps13_3 (F := Ideal)) W (Proc.devRef .tc main_v3) = W (Proc.devRef .tc main_v3) := by stretch_keeps hostOps13_3
theorem k0_v13 : StableHlo.after (hostOps13 (F := Ideal)) W (Proc.devRef .tc main_v13) = W (Proc.devRef .tc main_v13) := by stretch_keeps hostOps13
theorem k1_v13 : StableHlo.after (hostOps13_1 (F := Ideal)) W (Proc.devRef .tc main_v13) = W (Proc.devRef .tc main_v13) := by stretch_keeps hostOps13_1
theorem k2_v13 : StableHlo.after (hostOps13_2 (F := Ideal)) W (Proc.devRef .tc main_v13) = W (Proc.devRef .tc main_v13) := by stretch_keeps hostOps13_2
theorem k3_v13 : StableHlo.after (hostOps13_3 (F := Ideal)) W (Proc.devRef .tc main_v13) = W (Proc.devRef .tc main_v13) := by stretch_keeps hostOps13_3
theorem k0_v15 : StableHlo.after (hostOps13 (F := Ideal)) W (Proc.devRef .tc main_v15) = W (Proc.devRef .tc main_v15) := by stretch_keeps hostOps13
theorem k1_v15 : StableHlo.after (hostOps13_1 (F := Ideal)) W (Proc.devRef .tc main_v15) = W (Proc.devRef .tc main_v15) := by stretch_keeps hostOps13_1
theorem k2_v15 : StableHlo.after (hostOps13_2 (F := Ideal)) W (Proc.devRef .tc main_v15) = W (Proc.devRef .tc main_v15) := by stretch_keeps hostOps13_2
theorem k3_v15 : StableHlo.after (hostOps13_3 (F := Ideal)) W (Proc.devRef .tc main_v15) = W (Proc.devRef .tc main_v15) := by stretch_keeps hostOps13_3
theorem k0_v16 : StableHlo.after (hostOps13 (F := Ideal)) W (Proc.devRef .tc main_v16) = W (Proc.devRef .tc main_v16) := by stretch_keeps hostOps13
theorem k1_v16 : StableHlo.after (hostOps13_1 (F := Ideal)) W (Proc.devRef .tc main_v16) = W (Proc.devRef .tc main_v16) := by stretch_keeps hostOps13_1
theorem k2_v16 : StableHlo.after (hostOps13_2 (F := Ideal)) W (Proc.devRef .tc main_v16) = W (Proc.devRef .tc main_v16) := by stretch_keeps hostOps13_2
theorem k3_v16 : StableHlo.after (hostOps13_3 (F := Ideal)) W (Proc.devRef .tc main_v16) = W (Proc.devRef .tc main_v16) := by stretch_keeps hostOps13_3
theorem k0_v17 : StableHlo.after (hostOps13 (F := Ideal)) W (Proc.devRef .tc main_v17) = W (Proc.devRef .tc main_v17) := by stretch_keeps hostOps13
theorem k1_v17 : StableHlo.after (hostOps13_1 (F := Ideal)) W (Proc.devRef .tc main_v17) = W (Proc.devRef .tc main_v17) := by stretch_keeps hostOps13_1
theorem k2_v17 : StableHlo.after (hostOps13_2 (F := Ideal)) W (Proc.devRef .tc main_v17) = W (Proc.devRef .tc main_v17) := by stretch_keeps hostOps13_2
theorem k3_v17 : StableHlo.after (hostOps13_3 (F := Ideal)) W (Proc.devRef .tc main_v17) = W (Proc.devRef .tc main_v17) := by stretch_keeps hostOps13_3

/-! ## The four stretches chained -/

/-- Launch 13's first operand: the layer's features, feature-major and padded. -/
theorem entry_x : step V (Proc.devRef .tc main_v251) = Cert.Sage.K.padT (Cert.Sage.K.unpadT (V (Proc.devRef .tc main_v236))) := by
  refine (k3_x _).trans ((k2_x _).trans ((s1_x _).trans ?_))
  rw [s0_x, s0_c]
  rfl

/-- Launch 13's second operand: the sums of the neighbours' features, feature-major and padded. -/
theorem entry_a : step V (Proc.devRef .tc main_v252)
    = Cert.Sage.K.padT (Cert.Sage.K.agg (Cert.Sage.K.unpadT (V (Proc.devRef .tc main_v236)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost13

end
-- ==== Proof.KStep13.lean ====
/-
  Layer 13 of the kernel program's run: if launch 12 left `O (p-1)` in its output array, with the edge lists and the
  four once-computed operands in their buffers, then launch 13 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg13
import proofs.«147323_j54408645706323_1_alg».proof.Proof.KHost13

set_option maxRecDepth 16384

noncomputable section

namespace Cert.Sage.KStep13

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W67 m ρ c (Proc.devRef .tc main_v236) = O v1 v3 Wt bb x0 12)
    (h1 : W67 m ρ c (Proc.devRef .tc main_v1) = v1) (h3 : W67 m ρ c (Proc.devRef .tc main_v3) = v3)
    (h13 : W67 m ρ c (Proc.devRef .tc main_v13) = inv v3) (h15 : W67 m ρ c (Proc.devRef .tc main_v15) = wx Wt)
    (h16 : W67 m ρ c (Proc.devRef .tc main_v16) = wm Wt) (h17 : W67 m ρ c (Proc.devRef .tc main_v17) = bc bb) :
    W72 m ρ c (Proc.devRef .tc main_v253) = O v1 v3 Wt bb x0 13
    ∧ W72 m ρ c (Proc.devRef .tc main_v1) = v1 ∧ W72 m ρ c (Proc.devRef .tc main_v3) = v3
    ∧ W72 m ρ c (Proc.devRef .tc main_v13) = inv v3 ∧ W72 m ρ c (Proc.devRef .tc main_v15) = wx Wt
    ∧ W72 m ρ c (Proc.devRef .tc main_v16) = wm Wt ∧ W72 m ρ c (Proc.devRef .tc main_v17) = bc bb := by
  -- the launch's operands at its entry
  have ex : W71 m ρ c (Proc.devRef .tc main_v251) = padT (X v1 v3 Wt bb x0 13) := by
    refine (Cert.Sage.KHost13.entry_x (W67 m ρ c)).trans ?_
    rw [ho, unpadT_O]
  have ea : W71 m ρ c (Proc.devRef .tc main_v252) = padT (agg (X v1 v3 Wt bb x0 13) v1 v3) := by
    refine (Cert.Sage.KHost13.entry_a (W67 m ρ c)).trans ?_
    rw [ho, unpadT_O, h1, h3]
  have e1 : W71 m ρ c (Proc.devRef .tc main_v1) = v1 := (Cert.Sage.KHost13.kept_v1 (W67 m ρ c)).trans h1
  have e3 : W71 m ρ c (Proc.devRef .tc main_v3) = v3 := (Cert.Sage.KHost13.kept_v3 (W67 m ρ c)).trans h3
  have e13 : W71 m ρ c (Proc.devRef .tc main_v13) = inv v3 := (Cert.Sage.KHost13.kept_v13 (W67 m ρ c)).trans h13
  have e15 : W71 m ρ c (Proc.devRef .tc main_v15) = wx Wt := (Cert.Sage.KHost13.kept_v15 (W67 m ρ c)).trans h15
  have e16 : W71 m ρ c (Proc.devRef .tc main_v16) = wm Wt := (Cert.Sage.KHost13.kept_v16 (W67 m ρ c)).trans h16
  have e17 : W71 m ρ c (Proc.devRef .tc main_v17) = bc bb := (Cert.Sage.KHost13.kept_v17 (W67 m ρ c)).trans h17
  -- an operand array of the launch is left as entered
  have hin : ∀ w : Fin cfg13.W, (cfg13.win w).isOut = false →
      W72 m ρ c (Proc.devRef .tc (Pipeline.arrRef spec13 w)) = V71 m ρ c (Pipeline.arrRef spec13 w) := fun w hw =>
    (W72_arr m ρ c w).trans (((dat13 (V71 m ρ) c).arrAt_in w hw cfg13.N).trans (A_eq13 (V71 m ρ) c w))
  refine ⟨?_, ?_, ?_, ?_, ?_, ?_, ?_⟩
  · refine (W72_arr m ρ c 6).trans ?_
    rw [Cert.Sage.KReg13.final (V71 m ρ) c]
    show cols (W71 m ρ c (Proc.devRef .tc main_v251)) (W71 m ρ c (Proc.devRef .tc main_v252))
      (W71 m ρ c (Proc.devRef .tc main_v13)) (W71 m ρ c (Proc.devRef .tc main_v15))
      (W71 m ρ c (Proc.devRef .tc main_v16)) (W71 m ρ c (Proc.devRef .tc main_v17)) = _
    rw [ex, ea, e13, e15, e16, e17]
    rfl
  · exact (W72_of_ne m ρ c main_v1 (by decide)).trans e1
  · exact (W72_of_ne m ρ c main_v3 (by decide)).trans e3
  · exact (hin 2 rfl).trans e13
  · exact (hin 3 rfl).trans e15
  · exact (hin 4 rfl).trans e16
  · exact (hin 5 rfl).trans e17

end Cert.Sage.KStep13

end
-- ==== Proof.KReg14.lean ====
/-
  Launch 14 of the layer kernel, read as a function of whole arrays: whatever the six operand arrays hold when the launch
  is entered, the output array ends holding `cols` of them — at row `j` and column `n`,
      max( Σ_k wx(j,k)·x(k,n) + Σ_k wm(j,k)·(agg(k,n)·inv(0,n)) + bc(j,0) , 0 ).
  The grid has four points; point `t` works on columns t·51200 … t·51200+51199 of the three wide operands and of the
  output and on the whole of the three small operands, and writes its block of the output back; the four blocks tile
  the output's 204800 columns, so every entry of the output is written by exactly the point that owns its column.
-/
import proofs.«147323_j54408645706323_1_alg».proof.Proof.Gen.KernelIdeal.Frame
import proofs.«147323_j54408645706323_1_alg».proof.Proof.KLayer
import proofs.«147323_j54408645706323_1_alg».proof.Proof.KPayload
import Idealize.ShloMosaic.Lib.Pipeline.Value
import Idealize.ShloMosaic.Lib.ValueIdx

set_option maxRecDepth 16384

noncomputable section

namespace Cert.Sage.KReg14

open Idealize.ShloMosaic Idealize.ShloMosaic.TcCoe Idealize.ShloMosaic.ValueIdx Idealize.SL.Sem
open Cert.KernelIdeal Cert.KernelIdeal.Gen Cert.Sage.KPay
open Idealize.ShloMosaic.Pipeline (Dat Cfg Window)

variable (V : (c : Dev nD) → (b : Ref sig .tc) → Buf (Elt Ideal) ((c : Thread nD τ).loc b))

/-- The index maps over the four grid points: the wide windows and the output move along the columns with the point,
    the small windows stay. -/
theorem idx_facts : ∀ t : Fin cfg14.N,
    win14_0.index t (0 : Fin 2) = 0 ∧ win14_0.index t (1 : Fin 2) = t.val
    ∧ win14_1.index t (0 : Fin 2) = 0 ∧ win14_1.index t (1 : Fin 2) = t.val
    ∧ win14_2.index t (0 : Fin 2) = 0 ∧ win14_2.index t (1 : Fin 2) = t.val
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = 0 ∧ win14_6.index t (1 : Fin 2) = t.val ∧ t.val < 4 :=
  (by decide +kernel : ∀ t : Fin grid14.N, _)

/-- What point `t` writes back is block `t` of `cols` of the operand arrays as the launch finds them. -/
theorem flushed_eq (c : Dev nD) (t : Fin cfg14.N) :
    (dat14 V c).flushed 6 t = ((cfg14.win 6).blk t).view.read (Elt Ideal)
      (Cert.Sage.K.cols (V c main_v268) (V c main_v269) (V c main_v13) (V c main_v15) (V c main_v16) (V c main_v17)) := by
  show (cfg14.win 6).cut (grid14.coords t) ((dat14 V c).after 6 t) = _
  rw [after14_6]
  unfold out14_6
  rw [View.canon_unit_zero hz]
  simp only [View.ld_unit_zero (S := S3x51200) hz, View.ld_unit_zero (S := S1x51200) hz,
    View.ld_unit_zero (S := S3x3) hz, View.ld_unit_zero (S := S3x1) hz]
  obtain ⟨e00, e01, e10, e11, e20, e21, e30, e31, e40, e41, e50, e51, e60, e61, ht⟩ := idx_facts t
  -- each loaded block, entry by entry, is the operand array at the block's place
  have r0 : ∀ (k : Fin 3) (q : Fin 51200), iblk14 V c 0 t (ix2 k q) = V c main_v268 (ix2 k (col t.val ht q)) := fun k q => by
    show V c main_v268 (((cfg14.win 0).blk t).view.emb (ix2 k q)) = _
    refine congrArg (V c main_v268) ?_
    funext a; apply Fin.ext
    match a with
    | ⟨0, _⟩ => show win14_0.index t (0 : Fin 2) * 3 + 1 * k.val = k.val; omega
    | ⟨1, _⟩ => show win14_0.index t (1 : Fin 2) * 51200 + 1 * q.val = t.val * 51200 + q.val; omega
  have r1 : ∀ (k : Fin 3) (q : Fin 51200), iblk14 V c 1 t (ix2 k q) = V c main_v269 (ix2 k (col t.val ht q)) := fun k q => by
    show V c main_v269 (((cfg14.win 1).blk t).view.emb (ix2 k q)) = _
    refine congrArg (V c main_v269) ?_
    funext a; apply Fin.ext
    match a with
    | ⟨0, _⟩ => show win14_1.index t (0 : Fin 2) * 3 + 1 * k.val = k.val; omega
    | ⟨1, _⟩ => show win14_1.index t (1 : Fin 2) * 51200 + 1 * q.val = t.val * 51200 + q.val; omega
  have r2 : ∀ q : Fin 51200, iblk14 V c 2 t (ix2 (0 : Fin 1) q) = V c main_v13 (ix2 (0 : Fin 1) (col t.val ht q)) := fun q => by
    show V c main_v13 (((cfg14.win 2).blk t).view.emb (ix2 (0 : Fin 1) q)) = _
    refine congrArg (V c main_v13) ?_
    funext a; apply Fin.ext
    match a with
    | ⟨0, _⟩ => show win14_2.index t (0 : Fin 2) * 1 + 1 * 0 = 0; omega
    | ⟨1, _⟩ => show win14_2.index t (1 : Fin 2) * 51200 + 1 * q.val = t.val * 51200 + q.val; omega
  have r3 : ∀ j k : Fin 3, iblk14 V c 3 t (ix2 j k) = V c main_v15 (ix2 j k) := fun j k => by
    show V c main_v15 (((cfg14.win 3).blk t).view.emb (ix2 j k)) = _
    refine congrArg (V c main_v15) ?_
    funext a; apply Fin.ext
    match a with
    | ⟨0, _⟩ => show win14_3.index t (0 : Fin 2) * 3 + 1 * j.val = j.val; omega
    | ⟨1, _⟩ => show win14_3.index t (1 : Fin 2) * 3 + 1 * k.val = k.val; omega
  have r4 : ∀ j k : Fin 3, iblk14 V c 4 t (ix2 j k) = V c main_v16 (ix2 j k) := fun j k => by
    show V c main_v16 (((cfg14.win 4).blk t).view.emb (ix2 j k)) = _
    refine congrArg (V c main_v16) ?_
    funext a; apply Fin.ext
    match a with
    | ⟨0, _⟩ => show win14_4.index t (0 : Fin 2) * 3 + 1 * j.val = j.val; omega
    | ⟨1, _⟩ => show win14_4.index t (1 : Fin 2) * 3 + 1 * k.val = k.val; omega
  have r5 : ∀ j : Fin 3, iblk14 V c 5 t (ix2 j (0 : Fin 1)) = V c main_v17 (ix2 j (0 : Fin 1)) := fun j => by
    show V c main_v17 (((cfg14.win 5).blk t).view.emb (ix2 j (0 : Fin 1))) = _
    refine congrArg (V c main_v17) ?_
    funext a; apply Fin.ext
    match a with
    | ⟨0, _⟩ => show win14_5.index t (0 : Fin 2) * 3 + 1 * j.val = j.val; omega
    | ⟨1, _⟩ => show win14_5.index t (1 : Fin 2) * 1 + 1 * 0 = 0; omega
  funext y
  show k14_pay1 (iblk14 V c 0 t) (iblk14 V c 1 t) (iblk14 V c 2 t) (iblk14 V c 3 t) (iblk14 V c 4 t) (iblk14 V c 5 t) y
    = Cert.Sage.K.cols (V c main_v268) (V c main_v269) (V c main_v13) (V c main_v15) (V c main_v16) (V c main_v17)
        (((cfg14.win 6).blk t).view.emb y)
  have hemb : ((cfg14.win 6).blk t).view.emb y = ix2 (y 0) (col t.val ht (y 1)) := by
    funext a; apply Fin.ext
    match a with
    | ⟨0, _⟩ => show win14_6.index t (0 : Fin 2) * 3 + 1 * (y 0).val = (y 0).val; omega
    | ⟨1, _⟩ => show win14_6.index t (1 : Fin 2) * 51200 + 1 * (y 1).val = t.val * 51200 + (y 1).val; omega
  rw [hemb]
  exact block_eq_idx (iblk14 V c 0 t) (iblk14 V c 1 t) (iblk14 V c 2 t) (iblk14 V c 3 t) (iblk14 V c 4 t)
    (iblk14 V c 5 t) (V c main_v268) (V c main_v269) (V c main_v13) (V c main_v15) (V c main_v16) (V c main_v17)
    t.val ht r0 r1 r2 r3 r4 r5 y

/-- An entry of the output array lies in point `t`'s block iff each of its coordinates lies in the block's range. -/
theorem mem_blk (t : Fin cfg14.N) (i : S3x204800.Idx) :
    i ∈ ((cfg14.win 6).blk t).view.set ↔ ∀ a : Fin 2, win14_6.index t a * S3x51200.size a ≤ (i a).val
      ∧ (i a).val < win14_6.index t a * S3x51200.size a + S3x51200.size a := by
  show i ∈ ((View.whole main_v270).slice (win14_6.rect t)).set ↔ _
  rw [View.set_slice_whole, Rect.mem_set_unit]
  exact Iff.rfl

/-- Every entry of the output array is in the block of the point that owns its column. -/
theorem cover (i : S3x204800.Idx) :
    ∃ t : Fin cfg14.N, (cfg14.win 6).flush t = true ∧ i ∈ ((cfg14.win 6).blk t).view.set := by
  have hi0 : (i 0).val < 3 := (i 0).isLt
  have hi1 : (i 1).val < 204800 := (i 1).isLt
  have hN : grid14.N = 4 := N_14
  have hlt : (i 1).val / 51200 < grid14.N := by rw [hN]; omega
  obtain ⟨e00, e01, e10, e11, e20, e21, e30, e31, e40, e41, e50, e51, e60, e61, ht⟩ :=
    idx_facts (⟨(i 1).val / 51200, hlt⟩ : Fin cfg14.N)
  refine ⟨⟨(i 1).val / 51200, hlt⟩, flush14_6 _, ?_⟩
  rw [mem_blk]
  intro a
  match a with
  | ⟨0, _⟩ =>
    show win14_6.index ⟨(i 1).val / 51200, hlt⟩ (0 : Fin 2) * 3 ≤ (i 0).val
      ∧ (i 0).val < win14_6.index ⟨(i 1).val / 51200, hlt⟩ (0 : Fin 2) * 3 + 3
    omega
  | ⟨1, _⟩ =>
    show win14_6.index ⟨(i 1).val / 51200, hlt⟩ (1 : Fin 2) * 51200 ≤ (i 1).val
      ∧ (i 1).val < win14_6.index ⟨(i 1).val / 51200, hlt⟩ (1 : Fin 2) * 51200 + 51200
    have e : (⟨(i 1).val / 51200, hlt⟩ : Fin cfg14.N).val = (i 1).val / 51200 := rfl
    omega

/-- The output array after the launch: `cols` of the operand arrays as the launch found them. -/
theorem final (c : Dev nD) :
    (dat14 V c).arrAt 6 cfg14.N
      = Cert.Sage.K.cols (V c main_v268) (V c main_v269) (V c main_v13) (V c main_v15) (V c main_v16) (V c main_v17) :=
  (dat14 V c).arrAt_eq_of_cover 6 _ (fun t _ => flushed_eq V c t) (fun i => cover i)

end Cert.Sage.KReg14

end
-- ==== Proof.KHost14.lean ====
/-
  The host operations between launch 13 and launch 14, read as functions of whole arrays, from ANY buffer contents
  `V`: they cut the padding columns off the previous launch's output and lay it node-major (the layer's features
  `X`), gather the features of every edge's source, add them up at the edges' targets, and lay `X` and that sum
  feature-major again, padded: the two wide operands of launch 14. The edge lists and the four operands computed once
  before the first launch are not touched. Each of the four stretches is read on its own, from arbitrary contents, and
  the four readings are chained.
-/
import proofs.«147323_j54408645706323_1_alg».proof.Proof.Gen.KernelIdeal.Launch
import proofs.«147323_j54408645706323_1_alg».proof.Proof.KLayer
import proofs.«147323_j54408645706323_1_alg».proof.Proof.KHostKit
import Idealize.ShloMosaic.Lib.StableHlo.Run

set_option maxRecDepth 16384

noncomputable section

namespace Cert.Sage.KHost14

open Idealize.ShloMosaic Idealize.ShloMosaic.TcCoe Idealize.ShloMosaic.StableHlo Idealize.SL.Sem
open Cert.KernelIdeal Cert.KernelIdeal.Gen

variable (V W : Valuation τ sig (Elt Ideal))

/-- The buffer contents after the four stretches of host operations, from `V`. -/
abbrev step : Valuation τ sig (Elt Ideal) :=
  StableHlo.after (hostOps14_3 (F := Ideal)) (StableHlo.after (hostOps14_2 (F := Ideal))
    (StableHlo.after (hostOps14_1 (F := Ideal)) (StableHlo.after (hostOps14 (F := Ideal)) V)))

/-! ## Each stretch on its own -/

/-- The first stretch leaves the layer's features, feature-major, … -/
theorem s0_x : StableHlo.after (hostOps14 (F := Ideal)) V (Proc.devRef .tc main_v266)
    = transpose S3x200000 [1, 0] (Cert.Sage.K.unpadT (V (Proc.devRef .tc main_v253))) Facts₀.transposes_S200000x3_S3x200000_1_0 := by
  after_results
  all_goals rfl
set_option maxHeartbeats 1000000 in
/-- … the sums of the neighbours' features, feature-major, … -/
theorem s0_a : StableHlo.after (hostOps14 (F := Ideal)) V (Proc.devRef .tc main_v267)
    = transpose S3x200000 [1, 0] (Cert.Sage.K.agg (Cert.Sage.K.unpadT (V (Proc.devRef .tc main_v253)))
        (V (Proc.devRef .tc main_v1)) (V (Proc.devRef .tc main_v3))) Facts₀.transposes_S200000x3_S3x200000_1_0 := by
  after_results
  all_goals rfl
/-- … and the integer zero that becomes the padding value. -/
theorem s0_c : StableHlo.after (hostOps14 (F := Ideal)) V (Proc.devRef .tc main_c_76) = constantI S_ 32 0#32 := by
  after_results
/-- The second stretch pads the features. -/
theorem s1_x : StableHlo.after (hostOps14_1 (F := Ideal)) W (Proc.devRef .tc main_v268)
    = pad S3x204800 ![0, 0] ![0, 4800] ![0, 0] (W (Proc.devRef .tc main_v266)) (sitofp (F := Ideal) .f32 (W (Proc.devRef .tc main_c_76)))
        Facts₀.pads_S3x200000_S3x204800_000_048000 Facts₀.h_S_ := by
  after_results
  all_goals rfl
/-- The third stretch is the second padding value. -/
theorem s2_c : StableHlo.after (hostOps14_2 (F := Ideal)) W (Proc.devRef .tc main_c_77) = constantI S_ 32 0#32 := by
  after_results
/-- The fourth stretch pads the sums. -/
theorem s3_a : StableHlo.after (hostOps14_3 (F := Ideal)) W (Proc.devRef .tc main_v269)
    = pad S3x204800 ![0, 0] ![0, 4800] ![0, 0] (W (Proc.devRef .tc main_v267)) (sitofp (F := Ideal) .f32 (W (Proc.devRef .tc main_c_77)))
        Facts₀.pads_S3x200000_S3x204800_000_048000 Facts₀.h_S_ := by
  after_results
  all_goals rfl

/-! ## What the stretches do not write -/

theorem k3_x : StableHlo.after (hostOps14_3 (F := Ideal)) W (Proc.devRef .tc main_v268) = W (Proc.devRef .tc main_v268) := by stretch_keeps hostOps14_3
theorem k2_x : StableHlo.after (hostOps14_2 (F := Ideal)) W (Proc.devRef .tc main_v268) = W (Proc.devRef .tc main_v268) := by stretch_keeps hostOps14_2
theorem k2_a : StableHlo.after (hostOps14_2 (F := Ideal)) W (Proc.devRef .tc main_v267) = W (Proc.devRef .tc main_v267) := by stretch_keeps hostOps14_2
theorem k1_a : StableHlo.after (hostOps14_1 (F := Ideal)) W (Proc.devRef .tc main_v267) = W (Proc.devRef .tc main_v267) := by stretch_keeps hostOps14_1
theorem k0_v1 : StableHlo.after (hostOps14 (F := Ideal)) W (Proc.devRef .tc main_v1) = W (Proc.devRef .tc main_v1) := by stretch_keeps hostOps14
theorem k1_v1 : StableHlo.after (hostOps14_1 (F := Ideal)) W (Proc.devRef .tc main_v1) = W (Proc.devRef .tc main_v1) := by stretch_keeps hostOps14_1
theorem k2_v1 : StableHlo.after (hostOps14_2 (F := Ideal)) W (Proc.devRef .tc main_v1) = W (Proc.devRef .tc main_v1) := by stretch_keeps hostOps14_2
theorem k3_v1 : StableHlo.after (hostOps14_3 (F := Ideal)) W (Proc.devRef .tc main_v1) = W (Proc.devRef .tc main_v1) := by stretch_keeps hostOps14_3
theorem k0_v3 : StableHlo.after (hostOps14 (F := Ideal)) W (Proc.devRef .tc main_v3) = W (Proc.devRef .tc main_v3) := by stretch_keeps hostOps14
theorem k1_v3 : StableHlo.after (hostOps14_1 (F := Ideal)) W (Proc.devRef .tc main_v3) = W (Proc.devRef .tc main_v3) := by stretch_keeps hostOps14_1
theorem k2_v3 : StableHlo.after (hostOps14_2 (F := Ideal)) W (Proc.devRef .tc main_v3) = W (Proc.devRef .tc main_v3) := by stretch_keeps hostOps14_2
theorem k3_v3 : StableHlo.after (hostOps14_3 (F := Ideal)) W (Proc.devRef .tc main_v3) = W (Proc.devRef .tc main_v3) := by stretch_keeps hostOps14_3
theorem k0_v13 : StableHlo.after (hostOps14 (F := Ideal)) W (Proc.devRef .tc main_v13) = W (Proc.devRef .tc main_v13) := by stretch_keeps hostOps14
theorem k1_v13 : StableHlo.after (hostOps14_1 (F := Ideal)) W (Proc.devRef .tc main_v13) = W (Proc.devRef .tc main_v13) := by stretch_keeps hostOps14_1
theorem k2_v13 : StableHlo.after (hostOps14_2 (F := Ideal)) W (Proc.devRef .tc main_v13) = W (Proc.devRef .tc main_v13) := by stretch_keeps hostOps14_2
theorem k3_v13 : StableHlo.after (hostOps14_3 (F := Ideal)) W (Proc.devRef .tc main_v13) = W (Proc.devRef .tc main_v13) := by stretch_keeps hostOps14_3
theorem k0_v15 : StableHlo.after (hostOps14 (F := Ideal)) W (Proc.devRef .tc main_v15) = W (Proc.devRef .tc main_v15) := by stretch_keeps hostOps14
theorem k1_v15 : StableHlo.after (hostOps14_1 (F := Ideal)) W (Proc.devRef .tc main_v15) = W (Proc.devRef .tc main_v15) := by stretch_keeps hostOps14_1
theorem k2_v15 : StableHlo.after (hostOps14_2 (F := Ideal)) W (Proc.devRef .tc main_v15) = W (Proc.devRef .tc main_v15) := by stretch_keeps hostOps14_2
theorem k3_v15 : StableHlo.after (hostOps14_3 (F := Ideal)) W (Proc.devRef .tc main_v15) = W (Proc.devRef .tc main_v15) := by stretch_keeps hostOps14_3
theorem k0_v16 : StableHlo.after (hostOps14 (F := Ideal)) W (Proc.devRef .tc main_v16) = W (Proc.devRef .tc main_v16) := by stretch_keeps hostOps14
theorem k1_v16 : StableHlo.after (hostOps14_1 (F := Ideal)) W (Proc.devRef .tc main_v16) = W (Proc.devRef .tc main_v16) := by stretch_keeps hostOps14_1
theorem k2_v16 : StableHlo.after (hostOps14_2 (F := Ideal)) W (Proc.devRef .tc main_v16) = W (Proc.devRef .tc main_v16) := by stretch_keeps hostOps14_2
theorem k3_v16 : StableHlo.after (hostOps14_3 (F := Ideal)) W (Proc.devRef .tc main_v16) = W (Proc.devRef .tc main_v16) := by stretch_keeps hostOps14_3
theorem k0_v17 : StableHlo.after (hostOps14 (F := Ideal)) W (Proc.devRef .tc main_v17) = W (Proc.devRef .tc main_v17) := by stretch_keeps hostOps14
theorem k1_v17 : StableHlo.after (hostOps14_1 (F := Ideal)) W (Proc.devRef .tc main_v17) = W (Proc.devRef .tc main_v17) := by stretch_keeps hostOps14_1
theorem k2_v17 : StableHlo.after (hostOps14_2 (F := Ideal)) W (Proc.devRef .tc main_v17) = W (Proc.devRef .tc main_v17) := by stretch_keeps hostOps14_2
theorem k3_v17 : StableHlo.after (hostOps14_3 (F := Ideal)) W (Proc.devRef .tc main_v17) = W (Proc.devRef .tc main_v17) := by stretch_keeps hostOps14_3

/-! ## The four stretches chained -/

/-- Launch 14's first operand: the layer's features, feature-major and padded. -/
theorem entry_x : step V (Proc.devRef .tc main_v268) = Cert.Sage.K.padT (Cert.Sage.K.unpadT (V (Proc.devRef .tc main_v253))) := by
  refine (k3_x _).trans ((k2_x _).trans ((s1_x _).trans ?_))
  rw [s0_x, s0_c]
  rfl

/-- Launch 14's second operand: the sums of the neighbours' features, feature-major and padded. -/
theorem entry_a : step V (Proc.devRef .tc main_v269)
    = Cert.Sage.K.padT (Cert.Sage.K.agg (Cert.Sage.K.unpadT (V (Proc.devRef .tc main_v253)))
        (V (Proc.devRef .tc main_v1)) (V (Proc.devRef .tc main_v3))) := by
  refine (s3_a _).trans ?_
  rw [s2_c, k2_a, k1_a, s0_a]
  rfl

theorem kept_v1 : step V (Proc.devRef .tc main_v1) = V (Proc.devRef .tc main_v1) :=
  (k3_v1 _).trans ((k2_v1 _).trans ((k1_v1 _).trans (k0_v1 _)))
theorem kept_v3 : step V (Proc.devRef .tc main_v3) = V (Proc.devRef .tc main_v3) :=
  (k3_v3 _).trans ((k2_v3 _).trans ((k1_v3 _).trans (k0_v3 _)))
theorem kept_v13 : step V (Proc.devRef .tc main_v13) = V (Proc.devRef .tc main_v13) :=
  (k3_v13 _).trans ((k2_v13 _).trans ((k1_v13 _).trans (k0_v13 _)))
theorem kept_v15 : step V (Proc.devRef .tc main_v15) = V (Proc.devRef .tc main_v15) :=
  (k3_v15 _).trans ((k2_v15 _).trans ((k1_v15 _).trans (k0_v15 _)))
theorem kept_v16 : step V (Proc.devRef .tc main_v16) = V (Proc.devRef .tc main_v16) :=
  (k3_v16 _).trans ((k2_v16 _).trans ((k1_v16 _).trans (k0_v16 _)))
theorem kept_v17 : step V (Proc.devRef .tc main_v17) = V (Proc.devRef .tc main_v17) :=
  (k3_v17 _).trans ((k2_v17 _).trans ((k1_v17 _).trans (k0_v17 _)))

end Cert.Sage.KHost14

end
-- ==== Proof.KStep14.lean ====
/-
  Layer 14 of the kernel program's run: if launch 13 left `O (p-1)` in its output array, with the edge lists and the
  four once-computed operands in their buffers, then launch 14 leaves `O p` in its output array and the same six
  buffers are as they were. The host operations in between produce the launch's two wide operands from the previous
  output; the launch computes `cols` of its six operands and writes nothing else.
-/
import proofs.«147323_j54408645706323_1_alg».proof.Proof.Gen.KernelIdeal.Frame
import proofs.«147323_j54408645706323_1_alg».proof.Proof.KIter
import proofs.«147323_j54408645706323_1_alg».proof.Proof.KReg14
import proofs.«147323_j54408645706323_1_alg».proof.Proof.KHost14

set_option maxRecDepth 16384

noncomputable section

namespace Cert.Sage.KStep14

open Idealize.ShloMosaic Idealize.ShloMosaic.TcCoe Idealize.SL.Sem
open Cert.KernelIdeal Cert.KernelIdeal.Gen Cert.Sage.K
open Idealize.ShloMosaic.Pipeline (Dat Cfg Window)

variable (m : (ℓ : Loc nD τ sig) → Buf (Elt Ideal) ℓ) (ρ : Dev nD → PrngReg) (c : Dev nD)
variable (v1 v3 : EdgeVec) (Wt : FVec Ideal S6x3 .f32) (bb : FVec Ideal S3 .f32) (x0 : FVec Ideal S200000x3 .f32)

theorem step
    (ho : W72 m ρ c (Proc.devRef .tc main_v253) = O v1 v3 Wt bb x0 13)
    (h1 : W72 m ρ c (Proc.devRef .tc main_v1) = v1) (h3 : W72 m ρ c (Proc.devRef .tc main_v3) = v3)
    (h13 : W72 m ρ c (Proc.devRef .tc main_v13) = inv v3) (h15 : W72 m ρ c (Proc.devRef .tc main_v15) = wx Wt)
    (h16 : W72 m ρ c (Proc.devRef .tc main_v16) = wm Wt) (h17 : W72 m ρ c (Proc.devRef .tc main_v17) = bc bb) :
    W77 m ρ c (Proc.devRef .tc main_v270) = O v1 v3 Wt bb x0 14
    ∧ W77 m ρ c (Proc.devRef .tc main_v1) = v1 ∧ W77 m ρ c (Proc.devRef .tc main_v3) = v3
    ∧ W77 m ρ c (Proc.devRef .tc main_v13) = inv v3 ∧ W77 m ρ c (Proc.devRef .tc main_v15) = wx Wt
    ∧ W77 m ρ c (Proc.devRef .tc main_v16) = wm Wt ∧ W77 m ρ c (Proc.devRef .tc main_v17) = bc bb := by
  -- the launch's operands at its entry
  have ex : W76 m ρ c (Proc.devRef .tc main_v268) = padT (X v1 v3 Wt bb x0 14) := by
    refine (Cert.Sage.KHost14.entry_x (W72 m ρ c)).trans ?_
    rw [ho, unpadT_O]
  have ea : W76 m ρ c (Proc.devRef .tc main_v269) = padT (agg (X v1 v3 Wt bb x0 14) v1 v3) := by
    refine (Cert.Sage.KHost14.entry_a (W72 m ρ c)).trans ?_
    rw [ho, unpadT_O, h1, h3]
  have e1 : W76 m ρ c (Proc.devRef .tc main_v1) = v1 := (Cert.Sage.KHost14.kept_v1 (W72 m ρ c)).trans h1
  have e3 : W76 m ρ c (Proc.devRef .tc main_v3) = v3 := (Cert.Sage.KHost14.kept_v3 (W72 m ρ c)).trans h3
  have e13 : W76 m ρ c (Proc.devRef .tc main_v13) = inv v3 := (Cert.Sage.KHost14.kept_v13 (W72 m ρ c)).trans h13
  have e15 : W76 m ρ c (Proc.devRef .tc main_v15) = wx Wt := (Cert.Sage.KHost14.kept_v15 (W72 m ρ c)).trans h15
  have e16 : W76 m ρ c (Proc.devRef .tc main_v16) = wm Wt := (Cert.Sage.KHost14.kept_v16 (W72 m ρ c)).trans h16
  have e17 : W76 m ρ c (Proc.devRef .tc main_v17) = bc bb := (Cert.Sage.KHost14.kept_v17 (W72 m ρ c)).trans h17
  -- an operand array of the launch is left as entered
  have hin : ∀ w : Fin cfg14.W, (cfg14.win w).isOut = false →
      W77 m ρ c (Proc.devRef .tc (Pipeline.arrRef spec14 w)) = V76 m ρ c (Pipeline.arrRef spec14 w) := fun w hw =>
    (W77_arr m ρ c w).trans (((dat14 (V76 m ρ) c).arrAt_in w hw cfg14.N).trans (A_eq14 (V76 m ρ) c w))
  refine ⟨?_, ?_, ?_, ?_, ?_, ?_, ?_⟩
  · refine (W77_arr m ρ c 6).trans ?_
    rw [Cert.Sage.KReg14.final (V76 m ρ) c]
    show cols (W76 m ρ c (Proc.devRef .tc main_v268)) (W76 m ρ c (Proc.devRef .tc main_v269))
      (W76 m ρ c (Proc.devRef .tc main_v13)) (W76 m ρ c (Proc.devRef .tc main_v15))
      (W76 m ρ c (Proc.devRef .tc main_v16)) (W76 m ρ c (Proc.devRef .tc main_v17)) = _
    rw [ex, ea, e13, e15, e16, e17]
    rfl
  · exact (W77_of_ne m ρ c main_v1 (by decide)).trans e1
  · exact (W77_of_ne m ρ c main_v3 (by decide)).trans e3
  · exact (hin 2 rfl).trans e13
  · exact (hin 3 rfl).trans e15
  · exact (hin 4 rfl).trans e16
  · exact (hin 5 rfl).trans e17

end Cert.Sage.KStep14

end
-- ==== Proof.KTail.lean ====
/-
  The two host operations after the last launch, read as a function of whole arrays, from ANY buffer contents `V`:
  they cut the padding columns off the last launch's output and lay it node-major, which is the program's result.
-/
import proofs.«147323_j54408645706323_1_alg».proof.Proof.Gen.KernelIdeal.Launch
import proofs.«147323_j54408645706323_1_alg».proof.Proof.KLayer
import Idealize.ShloMosaic.Lib.StableHlo.Run

set_option maxRecDepth 16384

noncomputable section

namespace Cert.Sage.KTail

open Idealize.ShloMosaic Idealize.ShloMosaic.TcCoe Idealize.ShloMosaic.StableHlo Idealize.SL.Sem
open Cert.KernelIdeal Cert.KernelIdeal.Gen

variable (V : Valuation τ sig (Elt Ideal))

/-- The program's result: the first 200000 columns of the last launch's output, laid node-major. -/
theorem tail : StableHlo.after (hostOps15 (F := Ideal)) V (Proc.devRef .tc main_v272)
    = Cert.Sage.K.unpadT (V (Proc.devRef .tc main_v270)) := by
  after_results
  all_goals rfl

end Cert.Sage.KTail

end
-- ==== Proof.KChain.lean ====
/-
  The kernel program's result: fifteen layers. The first launch's output is `O 0`; each later launch turns `O (p-1)`
  into `O p`; the last host operations cut the padding off `O 14` and lay it node-major: the features after fifteen
  layers.
-/
import proofs.«147323_j54408645706323_1_alg».proof.Proof.KStep0
import proofs.«147323_j54408645706323_1_alg».proof.Proof.KStep1
import proofs.«147323_j54408645706323_1_alg».proof.Proof.KStep2
import proofs.«147323_j54408645706323_1_alg».proof.Proof.KStep3
import proofs.«147323_j54408645706323_1_alg».proof.Proof.KStep4
import proofs.«147323_j54408645706323_1_alg».proof.Proof.KStep5
import proofs.«147323_j54408645706323_1_alg».proof.Proof.KStep6
import proofs.«147323_j54408645706323_1_alg».proof.Proof.KStep7
import proofs.«147323_j54408645706323_1_alg».proof.Proof.KStep8
import proofs.«147323_j54408645706323_1_alg».proof.Proof.KStep9
import proofs.«147323_j54408645706323_1_alg».proof.Proof.KStep10
import proofs.«147323_j54408645706323_1_alg».proof.Proof.KStep11
import proofs.«147323_j54408645706323_1_alg».proof.Proof.KStep12
import proofs.«147323_j54408645706323_1_alg».proof.Proof.KStep13
import proofs.«147323_j54408645706323_1_alg».proof.Proof.KStep14
import proofs.«147323_j54408645706323_1_alg».proof.Proof.KTail

set_option maxRecDepth 16384

noncomputable section

namespace Cert.Sage.KChain

open Idealize.ShloMosaic Idealize.ShloMosaic.TcCoe Idealize.SL.Sem
open Cert.KernelIdeal Cert.KernelIdeal.Gen Cert.Sage.K

variable (m : (ℓ : Loc nD τ sig) → Buf (Elt Ideal) ℓ) (ρ : Dev nD → PrngReg) (c : Dev nD)

/-- The result buffer after the run's fold: fifteen layers of the input features. -/
theorem result :
    W78 m ρ c (Proc.devRef .tc main_v272)
      = X (src (m ((c : Thread nD τ).loc main_arg1))) (dst (m ((c : Thread nD τ).loc main_arg1)))
          (m ((c : Thread nD τ).loc main_arg2)) (m ((c : Thread nD τ).loc main_arg3)) (m ((c : Thread nD τ).loc main_arg0)) 15 := by
  obtain ⟨o0, p0_1, p0_3, p0_13, p0_15, p0_16, p0_17⟩ := Cert.Sage.KStep0.step m ρ c
  obtain ⟨o1, p1_1, p1_3, p1_13, p1_15, p1_16, p1_17⟩ :=
    Cert.Sage.KStep1.step m ρ c _ _ _ _ _ o0 p0_1 p0_3 p0_13 p0_15 p0_16 p0_17
  obtain ⟨o2, p2_1, p2_3, p2_13, p2_15, p2_16, p2_17⟩ :=
    Cert.Sage.KStep2.step m ρ c _ _ _ _ _ o1 p1_1 p1_3 p1_13 p1_15 p1_16 p1_17
  obtain ⟨o3, p3_1, p3_3, p3_13, p3_15, p3_16, p3_17⟩ :=
    Cert.Sage.KStep3.step m ρ c _ _ _ _ _ o2 p2_1 p2_3 p2_13 p2_15 p2_16 p2_17
  obtain ⟨o4, p4_1, p4_3, p4_13, p4_15, p4_16, p4_17⟩ :=
    Cert.Sage.KStep4.step m ρ c _ _ _ _ _ o3 p3_1 p3_3 p3_13 p3_15 p3_16 p3_17
  obtain ⟨o5, p5_1, p5_3, p5_13, p5_15, p5_16, p5_17⟩ :=
    Cert.Sage.KStep5.step m ρ c _ _ _ _ _ o4 p4_1 p4_3 p4_13 p4_15 p4_16 p4_17
  obtain ⟨o6, p6_1, p6_3, p6_13, p6_15, p6_16, p6_17⟩ :=
    Cert.Sage.KStep6.step m ρ c _ _ _ _ _ o5 p5_1 p5_3 p5_13 p5_15 p5_16 p5_17
  obtain ⟨o7, p7_1, p7_3, p7_13, p7_15, p7_16, p7_17⟩ :=
    Cert.Sage.KStep7.step m ρ c _ _ _ _ _ o6 p6_1 p6_3 p6_13 p6_15 p6_16 p6_17
  obtain ⟨o8, p8_1, p8_3, p8_13, p8_15, p8_16, p8_17⟩ :=
    Cert.Sage.KStep8.step m ρ c _ _ _ _ _ o7 p7_1 p7_3 p7_13 p7_15 p7_16 p7_17
  obtain ⟨o9, p9_1, p9_3, p9_13, p9_15, p9_16, p9_17⟩ :=
    Cert.Sage.KStep9.step m ρ c _ _ _ _ _ o8 p8_1 p8_3 p8_13 p8_15 p8_16 p8_17
  obtain ⟨o10, p10_1, p10_3, p10_13, p10_15, p10_16, p10_17⟩ :=
    Cert.Sage.KStep10.step m ρ c _ _ _ _ _ o9 p9_1 p9_3 p9_13 p9_15 p9_16 p9_17
  obtain ⟨o11, p11_1, p11_3, p11_13, p11_15, p11_16, p11_17⟩ :=
    Cert.Sage.KStep11.step m ρ c _ _ _ _ _ o10 p10_1 p10_3 p10_13 p10_15 p10_16 p10_17
  obtain ⟨o12, p12_1, p12_3, p12_13, p12_15, p12_16, p12_17⟩ :=
    Cert.Sage.KStep12.step m ρ c _ _ _ _ _ o11 p11_1 p11_3 p11_13 p11_15 p11_16 p11_17
  obtain ⟨o13, p13_1, p13_3, p13_13, p13_15, p13_16, p13_17⟩ :=
    Cert.Sage.KStep13.step m ρ c _ _ _ _ _ o12 p12_1 p12_3 p12_13 p12_15 p12_16 p12_17
  obtain ⟨o14, p14_1, p14_3, p14_13, p14_15, p14_16, p14_17⟩ :=
    Cert.Sage.KStep14.step m ρ c _ _ _ _ _ o13 p13_1 p13_3 p13_13 p13_15 p13_16 p13_17
  refine (Cert.Sage.KTail.tail (W77 m ρ c)).trans ?_
  rw [o14, unpadT_O]

end Cert.Sage.KChain

end
-- ==== Proof.RLayer.lean ====
/-
  One layer of the reference program as a function of whole arrays, at the extended reals:
  the features `x` ([N,3]) and the mean of the neighbours' features (the sum `agg` over the edges pointing at a node,
  divided by `max(deg, 1)`) side by side as an [N,6] array, times the [6,3] weights, plus the bias along every row,
  and the maximum with 0.
-/
import proofs.«147323_j54408645706323_1_alg».proof.ReferenceIdeal
import proofs.«147323_j54408645706323_1_alg».proof.Proof.Gen.ReferenceIdeal
import Idealize.ShloMosaic.PureOps.Ideal

noncomputable section

namespace Cert.Sage.R

open Idealize.ShloMosaic Cert.ReferenceIdeal Cert.ReferenceIdeal.Facts₀

/-- A 32-bit integer vector with one entry per edge. -/
abbrev EdgeVec : Type := (⟨S12800000, .i32⟩ : BufTy).Contents (Elt Ideal)

/-- The sources as a column of start indices, a negative one wrapped by the number of nodes. -/
def srcIdx (v1 : EdgeVec) : (⟨S12800000x1, .i32⟩ : BufTy).Contents (Elt Ideal) :=
  broadcastInDim S12800000x1 ![0] bcast_S12800000_S12800000x1_0
    (select (cmpi .slt v1 (broadcastInDim S12800000 ![] bcast_S_S12800000 (constantI S_ 32 0#32)))
      (addi v1 (broadcastInDim S12800000 ![] bcast_S_S12800000 (constantI S_ 32 200000#32))) v1)

/-- The sum, at every node, of the features of the sources of the edges that point at it. -/
def agg (x : FVec Ideal S200000x3 .f32) (v1 v3 : EdgeVec) : FVec Ideal S200000x3 .f32 :=
  Host.scatterAdd (F := Ideal) scatter_S200000x3_S12800000x1_S12800000x3_1_0_0_1
    (broadcastInDim S200000x3 ![] bcast_S_S200000x3 (constant (F := Ideal) S_ .f32 0x00000000#32))
    (broadcastInDim S12800000x1 ![0] bcast_S12800000_S12800000x1_0 v3)
    (Host.gather gather_S200000x3_S12800000x1_S12800000x3_1_0_n_n_0_1_13 x (srcIdx v1))

/-- The number of edges that point at each node. -/
def deg (v3 : EdgeVec) : FVec Ideal S200000 .f32 :=
  Host.scatterAdd (F := Ideal) scatter_S200000_S12800000x1_S12800000_n_0_0_1
    (broadcastInDim S200000 ![] bcast_S_S200000 (constant (F := Ideal) S_ .f32 0x00000000#32))
    (broadcastInDim S12800000x1 ![0] bcast_S12800000_S12800000x1_0 v3)
    (broadcastInDim S12800000 ![] bcast_S_S12800000 (constant (F := Ideal) S_ .f32 0x3F800000#32))

/-- The mean of the neighbours' features: `agg / max(deg, 1)`, the divisor laid along every row. -/
def mean (x : FVec Ideal S200000x3 .f32) (v1 v3 : EdgeVec) : FVec Ideal S200000x3 .f32 :=
  Host.divf (F := Ideal) (agg x v1 v3)
    (broadcastInDim S200000x3 ![0, 1] bcast_S200000x1_S200000x3_0_1
      (broadcastInDim S200000x1 ![0] bcast_S200000_S200000x1_0
        (maximumf (deg v3) (broadcastInDim S200000 ![] bcast_S_S200000 (constant (F := Ideal) S_ .f32 0x3F800000#32)))))

/-- One layer of the reference program. -/
def layer (v1 v3 : EdgeVec) (W : FVec Ideal S6x3 .f32) (b : FVec Ideal S3 .f32) (x : FVec Ideal S200000x3 .f32) :
    FVec Ideal S200000x3 .f32 :=
  maximumf
    (addf
      (Host.dotGeneral (F := Ideal) dot_S200000x6_S6x3_S200000x3_1_0_0_1_n_n none
        (concatenate S200000x6 1 [⟨S200000x3, x⟩, ⟨S200000x3, mean x v1 v3⟩] concatenates_S200000x3_S200000x3_S200000x6_d1) W)
      (broadcastInDim S200000x3 ![0, 1] bcast_S1x3_S200000x3_0_1 (broadcastInDim S1x3 ![1] bcast_S3_S1x3_1 b)))
    (broadcastInDim S200000x3 ![] bcast_S_S200000x3 (constant (F := Ideal) S_ .f32 0x00000000#32))

end Cert.Sage.R

end
-- ==== Proof.RSrcDst.lean ====
/-
  The two edge vectors the reference program's first four operations cut out of the [2, E] edge list `e`:
  row 0 (the sources) and row 1 (the targets), each a [1, E] slice re-read at the shape [E].
-/
import proofs.«147323_j54408645706323_1_alg».proof.Proof.RLayer

noncomputable section

namespace Cert.Sage.R

open Idealize.ShloMosaic Cert.ReferenceIdeal Cert.ReferenceIdeal.Facts₀

/-- The [2, E] edge list: row 0 the sources, row 1 the targets. -/
abbrev EdgeList : Type := (⟨S2x12800000, .i32⟩ : BufTy).Contents (Elt Ideal)

/-- Row 0 of the edge list, as a vector: the source of every edge. -/
def src (e : EdgeList) : EdgeVec :=
  fun i => shapeCast S12800000 (extractStridedSlice S1x12800000 ![0, 0] e slices_S2x12800000_S1x12800000_0_0)
    shapeCasts_S1x12800000_S12800000 i

/-- Row 1 of the edge list, as a vector: the target of every edge. -/
def dst (e : EdgeList) : EdgeVec :=
  fun i => shapeCast S12800000 (extractStridedSlice S1x12800000 ![1, 0] e slices_S2x12800000_S1x12800000_1_0)
    shapeCasts_S1x12800000_S12800000 i

end Cert.Sage.R

end
-- ==== Proof.RefBase.lean ====
/-
  What reading the reference program layer by layer needs: the contents after two lists of operations run one after
  the other; a layer's last steps (the features and the neighbours' mean side by side, times the weights, plus the
  bias, maximum with 0) as a function of the mean; and the facts every layer keeps — the two edge vectors and the
  four arguments hold what they held.
-/
import proofs.«147323_j54408645706323_1_alg».proof.Proof.RSrcDst
import Idealize.ShloMosaic.Lib.StableHlo.Run

noncomputable section

namespace Cert.Sage.RefChain

open Cert.ReferenceIdeal Cert.ReferenceIdeal.Gen Idealize.ShloMosaic Idealize.ShloMosaic.TcCoe Idealize.SL.Sem Idealize.ShloMosaic.StableHlo

/-- Two lists of operations run one after the other: the second runs from what the first leaves. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A layer's last steps as a function of the features `x` and the neighbours' mean `mn`. -/
def top (W : FVec Ideal S6x3 .f32) (b : FVec Ideal S3 .f32) (x mn : FVec Ideal S200000x3 .f32) : FVec Ideal S200000x3 .f32 :=
  maximumf
    (addf
      (Host.dotGeneral (F := Ideal) dot_S200000x6_S6x3_S200000x3_1_0_0_1_n_n none
        (concatenate S200000x6 1 [⟨S200000x3, x⟩, ⟨S200000x3, mn⟩] concatenates_S200000x3_S200000x3_S200000x6_d1) W)
      (broadcastInDim S200000x3 ![0, 1] bcast_S1x3_S200000x3_0_1 (broadcastInDim S1x3 ![1] bcast_S3_S1x3_1 b)))
    (broadcastInDim S200000x3 ![] bcast_S_S200000x3 (constant (F := Ideal) S_ .f32 0x00000000#32))

/-- One layer is its last steps at the mean of the neighbours' features. -/
theorem layer_eq_top (v1 v3 : R.EdgeVec) (W : FVec Ideal S6x3 .f32) (b : FVec Ideal S3 .f32) (x : FVec Ideal S200000x3 .f32) :
    R.layer v1 v3 W b x = top W b x (R.mean x v1 v3) := rfl

/-- What every layer keeps: the edge vectors are the rows of the edge list `e`, and the four arguments hold the
    features `x0`, the edge list, the weights `W` and the bias `b`. -/
structure Keep (e : R.EdgeList) (W : FVec Ideal S6x3 .f32) (b : FVec Ideal S3 .f32) (x0 : FVec Ideal S200000x3 .f32)
    (V : Valuation τ sig (Elt Ideal)) : Prop where
  v1 : V (Proc.devRef .tc main_v1) = R.src e
  v3 : V (Proc.devRef .tc main_v3) = R.dst e
  a0 : V (Proc.devRef .tc main_arg0) = x0
  a1 : V (Proc.devRef .tc main_arg1) = e
  a2 : V (Proc.devRef .tc main_arg2) = W
  a3 : V (Proc.devRef .tc main_arg3) = b

end Cert.Sage.RefChain

end
-- ==== Proof.RefLayer01.lean ====
/-
  Layer 1 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L1A_out (V : Valuation τ sig (Elt Ideal)) :
    after (L1A (F := Ideal)) V (Proc.devRef .tc main_v22)
      = R.mean (V (Proc.devRef .tc main_arg0)) (V (Proc.devRef .tc main_v1)) (V (Proc.devRef .tc main_v3)) := by
  simp only [L1A]
  after_results_simp
  unfold R.mean R.agg R.deg R.srcIdx
  with_reducible rfl

set_option maxHeartbeats 1000000 in
/-- The layer's result, of the contents before its last steps. -/
theorem L1B_out (V : Valuation τ sig (Elt Ideal)) :
    after (L1B (F := Ideal)) V (Proc.devRef .tc main_v28)
      = top (V (Proc.devRef .tc main_arg2)) (V (Proc.devRef .tc main_arg3)) (V (Proc.devRef .tc main_arg0)) (V (Proc.devRef .tc main_v22)) := by
  simp only [L1B]
  after_results_simp
  unfold top
  rfl

/-- The buffers `L1A`'s operations write. -/
abbrev L1A_W : List (Ref sig .tc) := [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22]
theorem L1A_writes : (L1A : List (HloOp τ sig (Elt Ideal))).Forall fun op =>
    op.writes ⊆ (L1A_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L1B`'s operations write. -/
abbrev L1B_W : List (Ref sig .tc) := [main_v23, main_v24, main_v25, main_v26, main_v27, main_call0_cst, main_call0_v0, main_v28]
theorem L1B_writes : (L1B : List (HloOp τ sig (Elt Ideal))).Forall fun op =>
    op.writes ⊆ (L1B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 1 from contents that keep the edge vectors and the arguments, its input holding `y`. -/
theorem L1_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_arg0) = y) :
    Keep e W b x0 (after (L1B (F := Ideal)) (after (L1A (F := Ideal)) V))
      ∧ after (L1B (F := Ideal)) (after (L1A (F := Ideal)) V) (Proc.devRef .tc main_v28) = R.layer (R.src e) (R.dst e) W b y := by
  have kA : ∀ r : Ref sig .tc, r ∉ L1A_W → after (L1A (F := Ideal)) V (Proc.devRef .tc r) = V (Proc.devRef .tc r) :=
    fun r hr => after_of_writes_sub _ V L1A_writes hr
  have kB : ∀ r : Ref sig .tc, r ∉ L1B_W → r ∉ L1A_W →
      after (L1B (F := Ideal)) (after (L1A (F := Ideal)) V) (Proc.devRef .tc r) = V (Proc.devRef .tc r) :=
    fun r hr hr' => (after_of_writes_sub _ _ L1B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L1B_out, kA main_arg2 (by decide), kA main_arg3 (by decide), kA main_arg0 (by decide), L1A_out,
    h.v1, h.v3, h.a2, h.a3, hy, layer_eq_top]

end Cert.Sage.RefChain

end
-- ==== Proof.RefLayer02.lean ====
/-
  Layer 2 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L2A_out (V : Valuation τ sig (Elt Ideal)) :
    after (L2A (F := Ideal)) V (Proc.devRef .tc main_v47)
      = R.mean (V (Proc.devRef .tc main_v28)) (V (Proc.devRef .tc main_v1)) (V (Proc.devRef .tc main_v3)) := by
  simp only [L2A]
  after_results_simp
  unfold R.mean R.agg R.deg R.srcIdx
  with_reducible rfl

set_option maxHeartbeats 1000000 in
/-- The layer's result, of the contents before its last steps. -/
theorem L2B_out (V : Valuation τ sig (Elt Ideal)) :
    after (L2B (F := Ideal)) V (Proc.devRef .tc main_v53)
      = top (V (Proc.devRef .tc main_arg2)) (V (Proc.devRef .tc main_arg3)) (V (Proc.devRef .tc main_v28)) (V (Proc.devRef .tc main_v47)) := by
  simp only [L2B]
  after_results_simp
  unfold top
  rfl

/-- The buffers `L2A`'s operations write. -/
abbrev L2A_W : List (Ref sig .tc) := [main_c_4, main_v29, main_v30, main_c_5, main_v31, main_v32, main_v33, main_v34, main_v35, main_cst_6, main_v36, main_v37, main_v38, main_cst_7, main_v39, main_cst_8, main_v40, main_v41, main_v42, main_cst_9, main_v43, main_v44, main_v45, main_v46, main_v47]
theorem L2A_writes : (L2A : List (HloOp τ sig (Elt Ideal))).Forall fun op =>
    op.writes ⊆ (L2A_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L2B`'s operations write. -/
abbrev L2B_W : List (Ref sig .tc) := [main_v48, main_v49, main_v50, main_v51, main_v52, main_call1_cst, main_call1_v0, main_v53]
theorem L2B_writes : (L2B : List (HloOp τ sig (Elt Ideal))).Forall fun op =>
    op.writes ⊆ (L2B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 2 from contents that keep the edge vectors and the arguments, its input holding `y`. -/
theorem L2_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v28) = y) :
    Keep e W b x0 (after (L2B (F := Ideal)) (after (L2A (F := Ideal)) V))
      ∧ after (L2B (F := Ideal)) (after (L2A (F := Ideal)) V) (Proc.devRef .tc main_v53) = R.layer (R.src e) (R.dst e) W b y := by
  have kA : ∀ r : Ref sig .tc, r ∉ L2A_W → after (L2A (F := Ideal)) V (Proc.devRef .tc r) = V (Proc.devRef .tc r) :=
    fun r hr => after_of_writes_sub _ V L2A_writes hr
  have kB : ∀ r : Ref sig .tc, r ∉ L2B_W → r ∉ L2A_W →
      after (L2B (F := Ideal)) (after (L2A (F := Ideal)) V) (Proc.devRef .tc r) = V (Proc.devRef .tc r) :=
    fun r hr hr' => (after_of_writes_sub _ _ L2B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L2B_out, kA main_arg2 (by decide), kA main_arg3 (by decide), kA main_v28 (by decide), L2A_out,
    h.v1, h.v3, h.a2, h.a3, hy, layer_eq_top]

end Cert.Sage.RefChain

end
-- ==== Proof.RefLayer03.lean ====
/-
  Layer 3 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L3A_out (V : Valuation τ sig (Elt Ideal)) :
    after (L3A (F := Ideal)) V (Proc.devRef .tc main_v72)
      = R.mean (V (Proc.devRef .tc main_v53)) (V (Proc.devRef .tc main_v1)) (V (Proc.devRef .tc main_v3)) := by
  simp only [L3A]
  after_results_simp
  unfold R.mean R.agg R.deg R.srcIdx
  with_reducible rfl

set_option maxHeartbeats 1000000 in
/-- The layer's result, of the contents before its last steps. -/
theorem L3B_out (V : Valuation τ sig (Elt Ideal)) :
    after (L3B (F := Ideal)) V (Proc.devRef .tc main_v78)
      = top (V (Proc.devRef .tc main_arg2)) (V (Proc.devRef .tc main_arg3)) (V (Proc.devRef .tc main_v53)) (V (Proc.devRef .tc main_v72)) := by
  simp only [L3B]
  after_results_simp
  unfold top
  rfl

/-- The buffers `L3A`'s operations write. -/
abbrev L3A_W : List (Ref sig .tc) := [main_c_10, main_v54, main_v55, main_c_11, main_v56, main_v57, main_v58, main_v59, main_v60, main_cst_12, main_v61, main_v62, main_v63, main_cst_13, main_v64, main_cst_14, main_v65, main_v66, main_v67, main_cst_15, main_v68, main_v69, main_v70, main_v71, main_v72]
theorem L3A_writes : (L3A : List (HloOp τ sig (Elt Ideal))).Forall fun op =>
    op.writes ⊆ (L3A_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L3B`'s operations write. -/
abbrev L3B_W : List (Ref sig .tc) := [main_v73, main_v74, main_v75, main_v76, main_v77, main_call2_cst, main_call2_v0, main_v78]
theorem L3B_writes : (L3B : List (HloOp τ sig (Elt Ideal))).Forall fun op =>
    op.writes ⊆ (L3B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 3 from contents that keep the edge vectors and the arguments, its input holding `y`. -/
theorem L3_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v53) = y) :
    Keep e W b x0 (after (L3B (F := Ideal)) (after (L3A (F := Ideal)) V))
      ∧ after (L3B (F := Ideal)) (after (L3A (F := Ideal)) V) (Proc.devRef .tc main_v78) = R.layer (R.src e) (R.dst e) W b y := by
  have kA : ∀ r : Ref sig .tc, r ∉ L3A_W → after (L3A (F := Ideal)) V (Proc.devRef .tc r) = V (Proc.devRef .tc r) :=
    fun r hr => after_of_writes_sub _ V L3A_writes hr
  have kB : ∀ r : Ref sig .tc, r ∉ L3B_W → r ∉ L3A_W →
      after (L3B (F := Ideal)) (after (L3A (F := Ideal)) V) (Proc.devRef .tc r) = V (Proc.devRef .tc r) :=
    fun r hr hr' => (after_of_writes_sub _ _ L3B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L3B_out, kA main_arg2 (by decide), kA main_arg3 (by decide), kA main_v53 (by decide), L3A_out,
    h.v1, h.v3, h.a2, h.a3, hy, layer_eq_top]

end Cert.Sage.RefChain

end
-- ==== Proof.RefLayer04.lean ====
/-
  Layer 4 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L4A_out (V : Valuation τ sig (Elt Ideal)) :
    after (L4A (F := Ideal)) V (Proc.devRef .tc main_v97)
      = R.mean (V (Proc.devRef .tc main_v78)) (V (Proc.devRef .tc main_v1)) (V (Proc.devRef .tc main_v3)) := by
  simp only [L4A, L4A1, L4A2, List.cons_append, List.nil_append]
  after_results_simp
  unfold R.mean R.agg R.deg R.srcIdx
  with_reducible rfl

set_option maxHeartbeats 1000000 in
/-- The layer's result, of the contents before its last steps. -/
theorem L4B_out (V : Valuation τ sig (Elt Ideal)) :
    after (L4B (F := Ideal)) V (Proc.devRef .tc main_v103)
      = top (V (Proc.devRef .tc main_arg2)) (V (Proc.devRef .tc main_arg3)) (V (Proc.devRef .tc main_v78)) (V (Proc.devRef .tc main_v97)) := by
  simp only [L4B]
  after_results_simp
  unfold top
  rfl

/-- The buffers `L4A`'s operations write. -/
abbrev L4A_W : List (Ref sig .tc) := [main_c_16, main_v79, main_v80, main_c_17, main_v81, main_v82, main_v83, main_v84, main_v85, main_cst_18, main_v86, main_v87, main_v88, main_cst_19, main_v89, main_cst_20, main_v90, main_v91, main_v92, main_cst_21, main_v93, main_v94, main_v95, main_v96, main_v97]
theorem L4A_writes : (L4A : List (HloOp τ sig (Elt Ideal))).Forall fun op =>
    op.writes ⊆ (L4A_W.map (Proc.devRef (τ := τ) .tc)).toFinset := by
  simp only [L4A, L4A1, L4A2, List.cons_append, List.nil_append, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L4B`'s operations write. -/
abbrev L4B_W : List (Ref sig .tc) := [main_v98, main_v99, main_v100, main_v101, main_v102, main_call3_cst, main_call3_v0, main_v103]
theorem L4B_writes : (L4B : List (HloOp τ sig (Elt Ideal))).Forall fun op =>
    op.writes ⊆ (L4B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 4 from contents that keep the edge vectors and the arguments, its input holding `y`. -/
theorem L4_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v78) = y) :
    Keep e W b x0 (after (L4B (F := Ideal)) (after (L4A (F := Ideal)) V))
      ∧ after (L4B (F := Ideal)) (after (L4A (F := Ideal)) V) (Proc.devRef .tc main_v103) = R.layer (R.src e) (R.dst e) W b y := by
  have kA : ∀ r : Ref sig .tc, r ∉ L4A_W → after (L4A (F := Ideal)) V (Proc.devRef .tc r) = V (Proc.devRef .tc r) :=
    fun r hr => after_of_writes_sub _ V L4A_writes hr
  have kB : ∀ r : Ref sig .tc, r ∉ L4B_W → r ∉ L4A_W →
      after (L4B (F := Ideal)) (after (L4A (F := Ideal)) V) (Proc.devRef .tc r) = V (Proc.devRef .tc r) :=
    fun r hr hr' => (after_of_writes_sub _ _ L4B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L4B_out, kA main_arg2 (by decide), kA main_arg3 (by decide), kA main_v78 (by decide), L4A_out,
    h.v1, h.v3, h.a2, h.a3, hy, layer_eq_top]

end Cert.Sage.RefChain

end
-- ==== Proof.RefLayer05.lean ====
/-
  Layer 5 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L5A_out (V : Valuation τ sig (Elt Ideal)) :
    after (L5A (F := Ideal)) V (Proc.devRef .tc main_v122)
      = R.mean (V (Proc.devRef .tc main_v103)) (V (Proc.devRef .tc main_v1)) (V (Proc.devRef .tc main_v3)) := by
  simp only [L5A]
  after_results_simp
  unfold R.mean R.agg R.deg R.srcIdx
  with_reducible rfl

set_option maxHeartbeats 1000000 in
/-- The layer's result, of the contents before its last steps. -/
theorem L5B_out (V : Valuation τ sig (Elt Ideal)) :
    after (L5B (F := Ideal)) V (Proc.devRef .tc main_v128)
      = top (V (Proc.devRef .tc main_arg2)) (V (Proc.devRef .tc main_arg3)) (V (Proc.devRef .tc main_v103)) (V (Proc.devRef .tc main_v122)) := by
  simp only [L5B]
  after_results_simp
  unfold top
  rfl

/-- The buffers `L5A`'s operations write. -/
abbrev L5A_W : List (Ref sig .tc) := [main_c_22, main_v104, main_v105, main_c_23, main_v106, main_v107, main_v108, main_v109, main_v110, main_cst_24, main_v111, main_v112, main_v113, main_cst_25, main_v114, main_cst_26, main_v115, main_v116, main_v117, main_cst_27, main_v118, main_v119, main_v120, main_v121, main_v122]
theorem L5A_writes : (L5A : List (HloOp τ sig (Elt Ideal))).Forall fun op =>
    op.writes ⊆ (L5A_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L5B`'s operations write. -/
abbrev L5B_W : List (Ref sig .tc) := [main_v123, main_v124, main_v125, main_v126, main_v127, main_call4_cst, main_call4_v0, main_v128]
theorem L5B_writes : (L5B : List (HloOp τ sig (Elt Ideal))).Forall fun op =>
    op.writes ⊆ (L5B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 5 from contents that keep the edge vectors and the arguments, its input holding `y`. -/
theorem L5_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v103) = y) :
    Keep e W b x0 (after (L5B (F := Ideal)) (after (L5A (F := Ideal)) V))
      ∧ after (L5B (F := Ideal)) (after (L5A (F := Ideal)) V) (Proc.devRef .tc main_v128) = R.layer (R.src e) (R.dst e) W b y := by
  have kA : ∀ r : Ref sig .tc, r ∉ L5A_W → after (L5A (F := Ideal)) V (Proc.devRef .tc r) = V (Proc.devRef .tc r) :=
    fun r hr => after_of_writes_sub _ V L5A_writes hr
  have kB : ∀ r : Ref sig .tc, r ∉ L5B_W → r ∉ L5A_W →
      after (L5B (F := Ideal)) (after (L5A (F := Ideal)) V) (Proc.devRef .tc r) = V (Proc.devRef .tc r) :=
    fun r hr hr' => (after_of_writes_sub _ _ L5B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L5B_out, kA main_arg2 (by decide), kA main_arg3 (by decide), kA main_v103 (by decide), L5A_out,
    h.v1, h.v3, h.a2, h.a3, hy, layer_eq_top]

end Cert.Sage.RefChain

end
-- ==== Proof.RefLayer06.lean ====
/-
  Layer 6 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L6A_out (V : Valuation τ sig (Elt Ideal)) :
    after (L6A (F := Ideal)) V (Proc.devRef .tc main_v147)
      = R.mean (V (Proc.devRef .tc main_v128)) (V (Proc.devRef .tc main_v1)) (V (Proc.devRef .tc main_v3)) := by
  simp only [L6A, L6A1, L6A2, List.cons_append, List.nil_append]
  after_results_simp
  unfold R.mean R.agg R.deg R.srcIdx
  with_reducible rfl

set_option maxHeartbeats 1000000 in
/-- The layer's result, of the contents before its last steps. -/
theorem L6B_out (V : Valuation τ sig (Elt Ideal)) :
    after (L6B (F := Ideal)) V (Proc.devRef .tc main_v153)
      = top (V (Proc.devRef .tc main_arg2)) (V (Proc.devRef .tc main_arg3)) (V (Proc.devRef .tc main_v128)) (V (Proc.devRef .tc main_v147)) := by
  simp only [L6B]
  after_results_simp
  unfold top
  rfl

/-- The buffers `L6A`'s operations write. -/
abbrev L6A_W : List (Ref sig .tc) := [main_c_28, main_v129, main_v130, main_c_29, main_v131, main_v132, main_v133, main_v134, main_v135, main_cst_30, main_v136, main_v137, main_v138, main_cst_31, main_v139, main_cst_32, main_v140, main_v141, main_v142, main_cst_33, main_v143, main_v144, main_v145, main_v146, main_v147]
theorem L6A_writes : (L6A : List (HloOp τ sig (Elt Ideal))).Forall fun op =>
    op.writes ⊆ (L6A_W.map (Proc.devRef (τ := τ) .tc)).toFinset := by
  simp only [L6A, L6A1, L6A2, List.cons_append, List.nil_append, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L6B`'s operations write. -/
abbrev L6B_W : List (Ref sig .tc) := [main_v148, main_v149, main_v150, main_v151, main_v152, main_call5_cst, main_call5_v0, main_v153]
theorem L6B_writes : (L6B : List (HloOp τ sig (Elt Ideal))).Forall fun op =>
    op.writes ⊆ (L6B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 6 from contents that keep the edge vectors and the arguments, its input holding `y`. -/
theorem L6_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v128) = y) :
    Keep e W b x0 (after (L6B (F := Ideal)) (after (L6A (F := Ideal)) V))
      ∧ after (L6B (F := Ideal)) (after (L6A (F := Ideal)) V) (Proc.devRef .tc main_v153) = R.layer (R.src e) (R.dst e) W b y := by
  have kA : ∀ r : Ref sig .tc, r ∉ L6A_W → after (L6A (F := Ideal)) V (Proc.devRef .tc r) = V (Proc.devRef .tc r) :=
    fun r hr => after_of_writes_sub _ V L6A_writes hr
  have kB : ∀ r : Ref sig .tc, r ∉ L6B_W → r ∉ L6A_W →
      after (L6B (F := Ideal)) (after (L6A (F := Ideal)) V) (Proc.devRef .tc r) = V (Proc.devRef .tc r) :=
    fun r hr hr' => (after_of_writes_sub _ _ L6B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L6B_out, kA main_arg2 (by decide), kA main_arg3 (by decide), kA main_v128 (by decide), L6A_out,
    h.v1, h.v3, h.a2, h.a3, hy, layer_eq_top]

end Cert.Sage.RefChain

end
-- ==== Proof.RefLayer07.lean ====
/-
  Layer 7 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L7A_out (V : Valuation τ sig (Elt Ideal)) :
    after (L7A (F := Ideal)) V (Proc.devRef .tc main_v172)
      = R.mean (V (Proc.devRef .tc main_v153)) (V (Proc.devRef .tc main_v1)) (V (Proc.devRef .tc main_v3)) := by
  simp only [L7A]
  after_results_simp
  unfold R.mean R.agg R.deg R.srcIdx
  with_reducible rfl

set_option maxHeartbeats 1000000 in
/-- The layer's result, of the contents before its last steps. -/
theorem L7B_out (V : Valuation τ sig (Elt Ideal)) :
    after (L7B (F := Ideal)) V (Proc.devRef .tc main_v178)
      = top (V (Proc.devRef .tc main_arg2)) (V (Proc.devRef .tc main_arg3)) (V (Proc.devRef .tc main_v153)) (V (Proc.devRef .tc main_v172)) := by
  simp only [L7B]
  after_results_simp
  unfold top
  rfl

/-- The buffers `L7A`'s operations write. -/
abbrev L7A_W : List (Ref sig .tc) := [main_c_34, main_v154, main_v155, main_c_35, main_v156, main_v157, main_v158, main_v159, main_v160, main_cst_36, main_v161, main_v162, main_v163, main_cst_37, main_v164, main_cst_38, main_v165, main_v166, main_v167, main_cst_39, main_v168, main_v169, main_v170, main_v171, main_v172]
theorem L7A_writes : (L7A : List (HloOp τ sig (Elt Ideal))).Forall fun op =>
    op.writes ⊆ (L7A_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L7B`'s operations write. -/
abbrev L7B_W : List (Ref sig .tc) := [main_v173, main_v174, main_v175, main_v176, main_v177, main_call6_cst, main_call6_v0, main_v178]
theorem L7B_writes : (L7B : List (HloOp τ sig (Elt Ideal))).Forall fun op =>
    op.writes ⊆ (L7B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 7 from contents that keep the edge vectors and the arguments, its input holding `y`. -/
theorem L7_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v153) = y) :
    Keep e W b x0 (after (L7B (F := Ideal)) (after (L7A (F := Ideal)) V))
      ∧ after (L7B (F := Ideal)) (after (L7A (F := Ideal)) V) (Proc.devRef .tc main_v178) = R.layer (R.src e) (R.dst e) W b y := by
  have kA : ∀ r : Ref sig .tc, r ∉ L7A_W → after (L7A (F := Ideal)) V (Proc.devRef .tc r) = V (Proc.devRef .tc r) :=
    fun r hr => after_of_writes_sub _ V L7A_writes hr
  have kB : ∀ r : Ref sig .tc, r ∉ L7B_W → r ∉ L7A_W →
      after (L7B (F := Ideal)) (after (L7A (F := Ideal)) V) (Proc.devRef .tc r) = V (Proc.devRef .tc r) :=
    fun r hr hr' => (after_of_writes_sub _ _ L7B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L7B_out, kA main_arg2 (by decide), kA main_arg3 (by decide), kA main_v153 (by decide), L7A_out,
    h.v1, h.v3, h.a2, h.a3, hy, layer_eq_top]

end Cert.Sage.RefChain

end
-- ==== Proof.RefLayer08.lean ====
/-
  Layer 8 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L8A_out (V : Valuation τ sig (Elt Ideal)) :
    after (L8A (F := Ideal)) V (Proc.devRef .tc main_v197)
      = R.mean (V (Proc.devRef .tc main_v178)) (V (Proc.devRef .tc main_v1)) (V (Proc.devRef .tc main_v3)) := by
  simp only [L8A, L8A1, L8A2, List.cons_append, List.nil_append]
  after_results_simp
  unfold R.mean R.agg R.deg R.srcIdx
  with_reducible rfl

set_option maxHeartbeats 1000000 in
/-- The layer's result, of the contents before its last steps. -/
theorem L8B_out (V : Valuation τ sig (Elt Ideal)) :
    after (L8B (F := Ideal)) V (Proc.devRef .tc main_v203)
      = top (V (Proc.devRef .tc main_arg2)) (V (Proc.devRef .tc main_arg3)) (V (Proc.devRef .tc main_v178)) (V (Proc.devRef .tc main_v197)) := by
  simp only [L8B]
  after_results_simp
  unfold top
  rfl

/-- The buffers `L8A`'s operations write. -/
abbrev L8A_W : List (Ref sig .tc) := [main_c_40, main_v179, main_v180, main_c_41, main_v181, main_v182, main_v183, main_v184, main_v185, main_cst_42, main_v186, main_v187, main_v188, main_cst_43, main_v189, main_cst_44, main_v190, main_v191, main_v192, main_cst_45, main_v193, main_v194, main_v195, main_v196, main_v197]
theorem L8A_writes : (L8A : List (HloOp τ sig (Elt Ideal))).Forall fun op =>
    op.writes ⊆ (L8A_W.map (Proc.devRef (τ := τ) .tc)).toFinset := by
  simp only [L8A, L8A1, L8A2, List.cons_append, List.nil_append, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L8B`'s operations write. -/
abbrev L8B_W : List (Ref sig .tc) := [main_v198, main_v199, main_v200, main_v201, main_v202, main_call7_cst, main_call7_v0, main_v203]
theorem L8B_writes : (L8B : List (HloOp τ sig (Elt Ideal))).Forall fun op =>
    op.writes ⊆ (L8B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 8 from contents that keep the edge vectors and the arguments, its input holding `y`. -/
theorem L8_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v178) = y) :
    Keep e W b x0 (after (L8B (F := Ideal)) (after (L8A (F := Ideal)) V))
      ∧ after (L8B (F := Ideal)) (after (L8A (F := Ideal)) V) (Proc.devRef .tc main_v203) = R.layer (R.src e) (R.dst e) W b y := by
  have kA : ∀ r : Ref sig .tc, r ∉ L8A_W → after (L8A (F := Ideal)) V (Proc.devRef .tc r) = V (Proc.devRef .tc r) :=
    fun r hr => after_of_writes_sub _ V L8A_writes hr
  have kB : ∀ r : Ref sig .tc, r ∉ L8B_W → r ∉ L8A_W →
      after (L8B (F := Ideal)) (after (L8A (F := Ideal)) V) (Proc.devRef .tc r) = V (Proc.devRef .tc r) :=
    fun r hr hr' => (after_of_writes_sub _ _ L8B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L8B_out, kA main_arg2 (by decide), kA main_arg3 (by decide), kA main_v178 (by decide), L8A_out,
    h.v1, h.v3, h.a2, h.a3, hy, layer_eq_top]

end Cert.Sage.RefChain

end
-- ==== Proof.RefLayer09.lean ====
/-
  Layer 9 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L9A_out (V : Valuation τ sig (Elt Ideal)) :
    after (L9A (F := Ideal)) V (Proc.devRef .tc main_v222)
      = R.mean (V (Proc.devRef .tc main_v203)) (V (Proc.devRef .tc main_v1)) (V (Proc.devRef .tc main_v3)) := by
  simp only [L9A]
  after_results_simp
  unfold R.mean R.agg R.deg R.srcIdx
  with_reducible rfl

set_option maxHeartbeats 1000000 in
/-- The layer's result, of the contents before its last steps. -/
theorem L9B_out (V : Valuation τ sig (Elt Ideal)) :
    after (L9B (F := Ideal)) V (Proc.devRef .tc main_v228)
      = top (V (Proc.devRef .tc main_arg2)) (V (Proc.devRef .tc main_arg3)) (V (Proc.devRef .tc main_v203)) (V (Proc.devRef .tc main_v222)) := by
  simp only [L9B]
  after_results_simp
  unfold top
  rfl

/-- The buffers `L9A`'s operations write. -/
abbrev L9A_W : List (Ref sig .tc) := [main_c_46, main_v204, main_v205, main_c_47, main_v206, main_v207, main_v208, main_v209, main_v210, main_cst_48, main_v211, main_v212, main_v213, main_cst_49, main_v214, main_cst_50, main_v215, main_v216, main_v217, main_cst_51, main_v218, main_v219, main_v220, main_v221, main_v222]
theorem L9A_writes : (L9A : List (HloOp τ sig (Elt Ideal))).Forall fun op =>
    op.writes ⊆ (L9A_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L9B`'s operations write. -/
abbrev L9B_W : List (Ref sig .tc) := [main_v223, main_v224, main_v225, main_v226, main_v227, main_call8_cst, main_call8_v0, main_v228]
theorem L9B_writes : (L9B : List (HloOp τ sig (Elt Ideal))).Forall fun op =>
    op.writes ⊆ (L9B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 9 from contents that keep the edge vectors and the arguments, its input holding `y`. -/
theorem L9_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v203) = y) :
    Keep e W b x0 (after (L9B (F := Ideal)) (after (L9A (F := Ideal)) V))
      ∧ after (L9B (F := Ideal)) (after (L9A (F := Ideal)) V) (Proc.devRef .tc main_v228) = R.layer (R.src e) (R.dst e) W b y := by
  have kA : ∀ r : Ref sig .tc, r ∉ L9A_W → after (L9A (F := Ideal)) V (Proc.devRef .tc r) = V (Proc.devRef .tc r) :=
    fun r hr => after_of_writes_sub _ V L9A_writes hr
  have kB : ∀ r : Ref sig .tc, r ∉ L9B_W → r ∉ L9A_W →
      after (L9B (F := Ideal)) (after (L9A (F := Ideal)) V) (Proc.devRef .tc r) = V (Proc.devRef .tc r) :=
    fun r hr hr' => (after_of_writes_sub _ _ L9B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L9B_out, kA main_arg2 (by decide), kA main_arg3 (by decide), kA main_v203 (by decide), L9A_out,
    h.v1, h.v3, h.a2, h.a3, hy, layer_eq_top]

end Cert.Sage.RefChain

end
-- ==== Proof.RefLayer10.lean ====
/-
  Layer 10 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L10A_out (V : Valuation τ sig (Elt Ideal)) :
    after (L10A (F := Ideal)) V (Proc.devRef .tc main_v247)
      = R.mean (V (Proc.devRef .tc main_v228)) (V (Proc.devRef .tc main_v1)) (V (Proc.devRef .tc main_v3)) := by
  simp only [L10A, L10A1, L10A2, List.cons_append, List.nil_append]
  after_results_simp
  unfold R.mean R.agg R.deg R.srcIdx
  with_reducible rfl

set_option maxHeartbeats 1000000 in
/-- The layer's result, of the contents before its last steps. -/
theorem L10B_out (V : Valuation τ sig (Elt Ideal)) :
    after (L10B (F := Ideal)) V (Proc.devRef .tc main_v253)
      = top (V (Proc.devRef .tc main_arg2)) (V (Proc.devRef .tc main_arg3)) (V (Proc.devRef .tc main_v228)) (V (Proc.devRef .tc main_v247)) := by
  simp only [L10B]
  after_results_simp
  unfold top
  rfl

/-- The buffers `L10A`'s operations write. -/
abbrev L10A_W : List (Ref sig .tc) := [main_c_52, main_v229, main_v230, main_c_53, main_v231, main_v232, main_v233, main_v234, main_v235, main_cst_54, main_v236, main_v237, main_v238, main_cst_55, main_v239, main_cst_56, main_v240, main_v241, main_v242, main_cst_57, main_v243, main_v244, main_v245, main_v246, main_v247]
theorem L10A_writes : (L10A : List (HloOp τ sig (Elt Ideal))).Forall fun op =>
    op.writes ⊆ (L10A_W.map (Proc.devRef (τ := τ) .tc)).toFinset := by
  simp only [L10A, L10A1, L10A2, List.cons_append, List.nil_append, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L10B`'s operations write. -/
abbrev L10B_W : List (Ref sig .tc) := [main_v248, main_v249, main_v250, main_v251, main_v252, main_call9_cst, main_call9_v0, main_v253]
theorem L10B_writes : (L10B : List (HloOp τ sig (Elt Ideal))).Forall fun op =>
    op.writes ⊆ (L10B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 10 from contents that keep the edge vectors and the arguments, its input holding `y`. -/
theorem L10_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v228) = y) :
    Keep e W b x0 (after (L10B (F := Ideal)) (after (L10A (F := Ideal)) V))
      ∧ after (L10B (F := Ideal)) (after (L10A (F := Ideal)) V) (Proc.devRef .tc main_v253) = R.layer (R.src e) (R.dst e) W b y := by
  have kA : ∀ r : Ref sig .tc, r ∉ L10A_W → after (L10A (F := Ideal)) V (Proc.devRef .tc r) = V (Proc.devRef .tc r) :=
    fun r hr => after_of_writes_sub _ V L10A_writes hr
  have kB : ∀ r : Ref sig .tc, r ∉ L10B_W → r ∉ L10A_W →
      after (L10B (F := Ideal)) (after (L10A (F := Ideal)) V) (Proc.devRef .tc r) = V (Proc.devRef .tc r) :=
    fun r hr hr' => (after_of_writes_sub _ _ L10B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L10B_out, kA main_arg2 (by decide), kA main_arg3 (by decide), kA main_v228 (by decide), L10A_out,
    h.v1, h.v3, h.a2, h.a3, hy, layer_eq_top]

end Cert.Sage.RefChain

end
-- ==== Proof.RefLayer11.lean ====
/-
  Layer 11 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L11A_out (V : Valuation τ sig (Elt Ideal)) :
    after (L11A (F := Ideal)) V (Proc.devRef .tc main_v272)
      = R.mean (V (Proc.devRef .tc main_v253)) (V (Proc.devRef .tc main_v1)) (V (Proc.devRef .tc main_v3)) := by
  simp only [L11A]
  after_results_simp
  unfold R.mean R.agg R.deg R.srcIdx
  with_reducible rfl

set_option maxHeartbeats 1000000 in
/-- The layer's result, of the contents before its last steps. -/
theorem L11B_out (V : Valuation τ sig (Elt Ideal)) :
    after (L11B (F := Ideal)) V (Proc.devRef .tc main_v278)
      = top (V (Proc.devRef .tc main_arg2)) (V (Proc.devRef .tc main_arg3)) (V (Proc.devRef .tc main_v253)) (V (Proc.devRef .tc main_v272)) := by
  simp only [L11B]
  after_results_simp
  unfold top
  rfl

/-- The buffers `L11A`'s operations write. -/
abbrev L11A_W : List (Ref sig .tc) := [main_c_58, main_v254, main_v255, main_c_59, main_v256, main_v257, main_v258, main_v259, main_v260, main_cst_60, main_v261, main_v262, main_v263, main_cst_61, main_v264, main_cst_62, main_v265, main_v266, main_v267, main_cst_63, main_v268, main_v269, main_v270, main_v271, main_v272]
theorem L11A_writes : (L11A : List (HloOp τ sig (Elt Ideal))).Forall fun op =>
    op.writes ⊆ (L11A_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L11B`'s operations write. -/
abbrev L11B_W : List (Ref sig .tc) := [main_v273, main_v274, main_v275, main_v276, main_v277, main_call10_cst, main_call10_v0, main_v278]
theorem L11B_writes : (L11B : List (HloOp τ sig (Elt Ideal))).Forall fun op =>
    op.writes ⊆ (L11B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 11 from contents that keep the edge vectors and the arguments, its input holding `y`. -/
theorem L11_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v253) = y) :
    Keep e W b x0 (after (L11B (F := Ideal)) (after (L11A (F := Ideal)) V))
      ∧ after (L11B (F := Ideal)) (after (L11A (F := Ideal)) V) (Proc.devRef .tc main_v278) = R.layer (R.src e) (R.dst e) W b y := by
  have kA : ∀ r : Ref sig .tc, r ∉ L11A_W → after (L11A (F := Ideal)) V (Proc.devRef .tc r) = V (Proc.devRef .tc r) :=
    fun r hr => after_of_writes_sub _ V L11A_writes hr
  have kB : ∀ r : Ref sig .tc, r ∉ L11B_W → r ∉ L11A_W →
      after (L11B (F := Ideal)) (after (L11A (F := Ideal)) V) (Proc.devRef .tc r) = V (Proc.devRef .tc r) :=
    fun r hr hr' => (after_of_writes_sub _ _ L11B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L11B_out, kA main_arg2 (by decide), kA main_arg3 (by decide), kA main_v253 (by decide), L11A_out,
    h.v1, h.v3, h.a2, h.a3, hy, layer_eq_top]

end Cert.Sage.RefChain

end
-- ==== Proof.RefLayer12.lean ====
/-
  Layer 12 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L12A_out (V : Valuation τ sig (Elt Ideal)) :
    after (L12A (F := Ideal)) V (Proc.devRef .tc main_v297)
      = R.mean (V (Proc.devRef .tc main_v278)) (V (Proc.devRef .tc main_v1)) (V (Proc.devRef .tc main_v3)) := by
  simp only [L12A, L12A1, L12A2, List.cons_append, List.nil_append]
  after_results_simp
  unfold R.mean R.agg R.deg R.srcIdx
  with_reducible rfl

set_option maxHeartbeats 1000000 in
/-- The layer's result, of the contents before its last steps. -/
theorem L12B_out (V : Valuation τ sig (Elt Ideal)) :
    after (L12B (F := Ideal)) V (Proc.devRef .tc main_v303)
      = top (V (Proc.devRef .tc main_arg2)) (V (Proc.devRef .tc main_arg3)) (V (Proc.devRef .tc main_v278)) (V (Proc.devRef .tc main_v297)) := by
  simp only [L12B]
  after_results_simp
  unfold top
  rfl

/-- The buffers `L12A`'s operations write. -/
abbrev L12A_W : List (Ref sig .tc) := [main_c_64, main_v279, main_v280, main_c_65, main_v281, main_v282, main_v283, main_v284, main_v285, main_cst_66, main_v286, main_v287, main_v288, main_cst_67, main_v289, main_cst_68, main_v290, main_v291, main_v292, main_cst_69, main_v293, main_v294, main_v295, main_v296, main_v297]
theorem L12A_writes : (L12A : List (HloOp τ sig (Elt Ideal))).Forall fun op =>
    op.writes ⊆ (L12A_W.map (Proc.devRef (τ := τ) .tc)).toFinset := by
  simp only [L12A, L12A1, L12A2, List.cons_append, List.nil_append, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L12B`'s operations write. -/
abbrev L12B_W : List (Ref sig .tc) := [main_v298, main_v299, main_v300, main_v301, main_v302, main_call11_cst, main_call11_v0, main_v303]
theorem L12B_writes : (L12B : List (HloOp τ sig (Elt Ideal))).Forall fun op =>
    op.writes ⊆ (L12B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 12 from contents that keep the edge vectors and the arguments, its input holding `y`. -/
theorem L12_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v278) = y) :
    Keep e W b x0 (after (L12B (F := Ideal)) (after (L12A (F := Ideal)) V))
      ∧ after (L12B (F := Ideal)) (after (L12A (F := Ideal)) V) (Proc.devRef .tc main_v303) = R.layer (R.src e) (R.dst e) W b y := by
  have kA : ∀ r : Ref sig .tc, r ∉ L12A_W → after (L12A (F := Ideal)) V (Proc.devRef .tc r) = V (Proc.devRef .tc r) :=
    fun r hr => after_of_writes_sub _ V L12A_writes hr
  have kB : ∀ r : Ref sig .tc, r ∉ L12B_W → r ∉ L12A_W →
      after (L12B (F := Ideal)) (after (L12A (F := Ideal)) V) (Proc.devRef .tc r) = V (Proc.devRef .tc r) :=
    fun r hr hr' => (after_of_writes_sub _ _ L12B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L12B_out, kA main_arg2 (by decide), kA main_arg3 (by decide), kA main_v278 (by decide), L12A_out,
    h.v1, h.v3, h.a2, h.a3, hy, layer_eq_top]

end Cert.Sage.RefChain

end
-- ==== Proof.RefLayer13.lean ====
/-
  Layer 13 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L13A_out (V : Valuation τ sig (Elt Ideal)) :
    after (L13A (F := Ideal)) V (Proc.devRef .tc main_v322)
      = R.mean (V (Proc.devRef .tc main_v303)) (V (Proc.devRef .tc main_v1)) (V (Proc.devRef .tc main_v3)) := by
  simp only [L13A]
  after_results_simp
  unfold R.mean R.agg R.deg R.srcIdx
  with_reducible rfl

set_option maxHeartbeats 1000000 in
/-- The layer's result, of the contents before its last steps. -/
theorem L13B_out (V : Valuation τ sig (Elt Ideal)) :
    after (L13B (F := Ideal)) V (Proc.devRef .tc main_v328)
      = top (V (Proc.devRef .tc main_arg2)) (V (Proc.devRef .tc main_arg3)) (V (Proc.devRef .tc main_v303)) (V (Proc.devRef .tc main_v322)) := by
  simp only [L13B]
  after_results_simp
  unfold top
  rfl

/-- The buffers `L13A`'s operations write. -/
abbrev L13A_W : List (Ref sig .tc) := [main_c_70, main_v304, main_v305, main_c_71, main_v306, main_v307, main_v308, main_v309, main_v310, main_cst_72, main_v311, main_v312, main_v313, main_cst_73, main_v314, main_cst_74, main_v315, main_v316, main_v317, main_cst_75, main_v318, main_v319, main_v320, main_v321, main_v322]
theorem L13A_writes : (L13A : List (HloOp τ sig (Elt Ideal))).Forall fun op =>
    op.writes ⊆ (L13A_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L13B`'s operations write. -/
abbrev L13B_W : List (Ref sig .tc) := [main_v323, main_v324, main_v325, main_v326, main_v327, main_call12_cst, main_call12_v0, main_v328]
theorem L13B_writes : (L13B : List (HloOp τ sig (Elt Ideal))).Forall fun op =>
    op.writes ⊆ (L13B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 13 from contents that keep the edge vectors and the arguments, its input holding `y`. -/
theorem L13_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v303) = y) :
    Keep e W b x0 (after (L13B (F := Ideal)) (after (L13A (F := Ideal)) V))
      ∧ after (L13B (F := Ideal)) (after (L13A (F := Ideal)) V) (Proc.devRef .tc main_v328) = R.layer (R.src e) (R.dst e) W b y := by
  have kA : ∀ r : Ref sig .tc, r ∉ L13A_W → after (L13A (F := Ideal)) V (Proc.devRef .tc r) = V (Proc.devRef .tc r) :=
    fun r hr => after_of_writes_sub _ V L13A_writes hr
  have kB : ∀ r : Ref sig .tc, r ∉ L13B_W → r ∉ L13A_W →
      after (L13B (F := Ideal)) (after (L13A (F := Ideal)) V) (Proc.devRef .tc r) = V (Proc.devRef .tc r) :=
    fun r hr hr' => (after_of_writes_sub _ _ L13B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L13B_out, kA main_arg2 (by decide), kA main_arg3 (by decide), kA main_v303 (by decide), L13A_out,
    h.v1, h.v3, h.a2, h.a3, hy, layer_eq_top]

end Cert.Sage.RefChain

end
-- ==== Proof.RefLayer14.lean ====
/-
  Layer 14 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L14A_out (V : Valuation τ sig (Elt Ideal)) :
    after (L14A (F := Ideal)) V (Proc.devRef .tc main_v347)
      = R.mean (V (Proc.devRef .tc main_v328)) (V (Proc.devRef .tc main_v1)) (V (Proc.devRef .tc main_v3)) := by
  simp only [L14A, L14A1, L14A2, List.cons_append, List.nil_append]
  after_results_simp
  unfold R.mean R.agg R.deg R.srcIdx
  with_reducible rfl

set_option maxHeartbeats 1000000 in
/-- The layer's result, of the contents before its last steps. -/
theorem L14B_out (V : Valuation τ sig (Elt Ideal)) :
    after (L14B (F := Ideal)) V (Proc.devRef .tc main_v353)
      = top (V (Proc.devRef .tc main_arg2)) (V (Proc.devRef .tc main_arg3)) (V (Proc.devRef .tc main_v328)) (V (Proc.devRef .tc main_v347)) := by
  simp only [L14B]
  after_results_simp
  unfold top
  rfl

/-- The buffers `L14A`'s operations write. -/
abbrev L14A_W : List (Ref sig .tc) := [main_c_76, main_v329, main_v330, main_c_77, main_v331, main_v332, main_v333, main_v334, main_v335, main_cst_78, main_v336, main_v337, main_v338, main_cst_79, main_v339, main_cst_80, main_v340, main_v341, main_v342, main_cst_81, main_v343, main_v344, main_v345, main_v346, main_v347]
theorem L14A_writes : (L14A : List (HloOp τ sig (Elt Ideal))).Forall fun op =>
    op.writes ⊆ (L14A_W.map (Proc.devRef (τ := τ) .tc)).toFinset := by
  simp only [L14A, L14A1, L14A2, List.cons_append, List.nil_append, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L14B`'s operations write. -/
abbrev L14B_W : List (Ref sig .tc) := [main_v348, main_v349, main_v350, main_v351, main_v352, main_call13_cst, main_call13_v0, main_v353]
theorem L14B_writes : (L14B : List (HloOp τ sig (Elt Ideal))).Forall fun op =>
    op.writes ⊆ (L14B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 14 from contents that keep the edge vectors and the arguments, its input holding `y`. -/
theorem L14_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v328) = y) :
    Keep e W b x0 (after (L14B (F := Ideal)) (after (L14A (F := Ideal)) V))
      ∧ after (L14B (F := Ideal)) (after (L14A (F := Ideal)) V) (Proc.devRef .tc main_v353) = R.layer (R.src e) (R.dst e) W b y := by
  have kA : ∀ r : Ref sig .tc, r ∉ L14A_W → after (L14A (F := Ideal)) V (Proc.devRef .tc r) = V (Proc.devRef .tc r) :=
    fun r hr => after_of_writes_sub _ V L14A_writes hr
  have kB : ∀ r : Ref sig .tc, r ∉ L14B_W → r ∉ L14A_W →
      after (L14B (F := Ideal)) (after (L14A (F := Ideal)) V) (Proc.devRef .tc r) = V (Proc.devRef .tc r) :=
    fun r hr hr' => (after_of_writes_sub _ _ L14B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L14B_out, kA main_arg2 (by decide), kA main_arg3 (by decide), kA main_v328 (by decide), L14A_out,
    h.v1, h.v3, h.a2, h.a3, hy, layer_eq_top]

end Cert.Sage.RefChain

end
-- ==== Proof.RefLayer15.lean ====
/-
  Layer 15 of the reference program, read from ANY contents `V` of the buffers: its first 25 operations leave the
  mean of the neighbours' features, its last 8 the layer's result, and neither writes an edge vector, an argument or the
  layer's input; so from contents that keep the edge vectors and the arguments the layer's result is `R.layer` of its
  input, and the contents after it still keep them.
-/
import proofs.«147323_j54408645706323_1_alg».proof.Proof.RefRunP
import proofs.«147323_j54408645706323_1_alg».proof.Proof.RefBase

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

set_option maxHeartbeats 1000000 in
/-- The mean of the neighbours' features, of the contents before. -/
theorem L15A_out (V : Valuation τ sig (Elt Ideal)) :
    after (L15A (F := Ideal)) V (Proc.devRef .tc main_v372)
      = R.mean (V (Proc.devRef .tc main_v353)) (V (Proc.devRef .tc main_v1)) (V (Proc.devRef .tc main_v3)) := by
  simp only [L15A]
  after_results_simp
  unfold R.mean R.agg R.deg R.srcIdx
  with_reducible rfl

set_option maxHeartbeats 1000000 in
/-- The layer's result, of the contents before its last steps. -/
theorem L15B_out (V : Valuation τ sig (Elt Ideal)) :
    after (L15B (F := Ideal)) V (Proc.devRef .tc main_v378)
      = top (V (Proc.devRef .tc main_arg2)) (V (Proc.devRef .tc main_arg3)) (V (Proc.devRef .tc main_v353)) (V (Proc.devRef .tc main_v372)) := by
  simp only [L15B]
  after_results_simp
  unfold top
  rfl

/-- The buffers `L15A`'s operations write. -/
abbrev L15A_W : List (Ref sig .tc) := [main_c_82, main_v354, main_v355, main_c_83, main_v356, main_v357, main_v358, main_v359, main_v360, main_cst_84, main_v361, main_v362, main_v363, main_cst_85, main_v364, main_cst_86, main_v365, main_v366, main_v367, main_cst_87, main_v368, main_v369, main_v370, main_v371, main_v372]
theorem L15A_writes : (L15A : List (HloOp τ sig (Elt Ideal))).Forall fun op =>
    op.writes ⊆ (L15A_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- The buffers `L15B`'s operations write. -/
abbrev L15B_W : List (Ref sig .tc) := [main_v373, main_v374, main_v375, main_v376, main_v377, main_call14_cst, main_call14_v0, main_v378]
theorem L15B_writes : (L15B : List (HloOp τ sig (Elt Ideal))).Forall fun op =>
    op.writes ⊆ (L15B_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Layer 15 from contents that keep the edge vectors and the arguments, its input holding `y`. -/
theorem L15_step (e : R.EdgeList) (W : FVec Ideal S6x3 .f32) (b : FVec Ideal S3 .f32) (x0 y : FVec Ideal S200000x3 .f32)
    (V : Valuation τ sig (Elt Ideal)) (h : Keep e W b x0 V) (hy : V (Proc.devRef .tc main_v353) = y) :
    Keep e W b x0 (after (L15B (F := Ideal)) (after (L15A (F := Ideal)) V))
      ∧ after (L15B (F := Ideal)) (after (L15A (F := Ideal)) V) (Proc.devRef .tc main_v378) = R.layer (R.src e) (R.dst e) W b y := by
  have kA : ∀ r : Ref sig .tc, r ∉ L15A_W → after (L15A (F := Ideal)) V (Proc.devRef .tc r) = V (Proc.devRef .tc r) :=
    fun r hr => after_of_writes_sub _ V L15A_writes hr
  have kB : ∀ r : Ref sig .tc, r ∉ L15B_W → r ∉ L15A_W →
      after (L15B (F := Ideal)) (after (L15A (F := Ideal)) V) (Proc.devRef .tc r) = V (Proc.devRef .tc r) :=
    fun r hr hr' => (after_of_writes_sub _ _ L15B_writes hr).trans (kA r hr')
  refine ⟨⟨(kB main_v1 (by decide) (by decide)).trans h.v1, (kB main_v3 (by decide) (by decide)).trans h.v3,
    (kB main_arg0 (by decide) (by decide)).trans h.a0, (kB main_arg1 (by decide) (by decide)).trans h.a1,
    (kB main_arg2 (by decide) (by decide)).trans h.a2, (kB main_arg3 (by decide) (by decide)).trans h.a3⟩, ?_⟩
  rw [L15B_out, kA main_arg2 (by decide), kA main_arg3 (by decide), kA main_v353 (by decide), L15A_out,
    h.v1, h.v3, h.a2, h.a3, hy, layer_eq_top]

end Cert.Sage.RefChain

end
-- ==== Proof.RefChain.lean ====
/-
  The run of the reference program, read layer by layer. The program is four operations that cut the two edge vectors
  (the rows of the edge list) followed by fifteen identical layers; each layer, from contents that keep the edge vectors
  and the four arguments, leaves `R.layer` of its input in its result buffer and keeps them (the modules RefLayer01 …
  RefLayer15). So after the fifteenth the program's result holds the fifteenth iterate of `R.layer` at the launch
  contents of the features, and the arguments hold what they held at launch.
-/
import proofs.«147323_j54408645706323_1_alg».proof.Proof.RefLayer01
import proofs.«147323_j54408645706323_1_alg».proof.Proof.RefLayer02
import proofs.«147323_j54408645706323_1_alg».proof.Proof.RefLayer03
import proofs.«147323_j54408645706323_1_alg».proof.Proof.RefLayer04
import proofs.«147323_j54408645706323_1_alg».proof.Proof.RefLayer05
import proofs.«147323_j54408645706323_1_alg».proof.Proof.RefLayer06
import proofs.«147323_j54408645706323_1_alg».proof.Proof.RefLayer07
import proofs.«147323_j54408645706323_1_alg».proof.Proof.RefLayer08
import proofs.«147323_j54408645706323_1_alg».proof.Proof.RefLayer09
import proofs.«147323_j54408645706323_1_alg».proof.Proof.RefLayer10
import proofs.«147323_j54408645706323_1_alg».proof.Proof.RefLayer11
import proofs.«147323_j54408645706323_1_alg».proof.Proof.RefLayer12
import proofs.«147323_j54408645706323_1_alg».proof.Proof.RefLayer13
import proofs.«147323_j54408645706323_1_alg».proof.Proof.RefLayer14
import proofs.«147323_j54408645706323_1_alg».proof.Proof.RefLayer15

noncomputable section

namespace Cert.Sage.RefChain

open Cert.ReferenceIdeal Cert.ReferenceIdeal.Gen Idealize.ShloMosaic Idealize.ShloMosaic.TcCoe Idealize.SL.Sem Idealize.ShloMosaic.StableHlo Cert.ReferenceIdeal.ValueP

/-! ## The four operations before the first layer -/

set_option maxHeartbeats 400000 in
/-- They leave row 0 of the edge list in the sources' buffer. -/
theorem pre_v1 (V : Valuation τ sig (Elt Ideal)) :
    after (pre (F := Ideal)) V (Proc.devRef .tc main_v1) = R.src (V (Proc.devRef .tc main_arg1)) := by
  simp only [pre]
  after_results_simp
  rfl

set_option maxHeartbeats 400000 in
/-- They leave row 1 of the edge list in the targets' buffer. -/
theorem pre_v3 (V : Valuation τ sig (Elt Ideal)) :
    after (pre (F := Ideal)) V (Proc.devRef .tc main_v3) = R.dst (V (Proc.devRef .tc main_arg1)) := by
  simp only [pre]
  after_results_simp
  rfl

/-- The buffers they write. -/
abbrev pre_W : List (Ref sig .tc) := [main_v0, main_v1, main_v2, main_v3]
theorem pre_writes : (pre : List (HloOp τ sig (Elt Ideal))).Forall fun op =>
    op.writes ⊆ (pre_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

/-- After them the edge vectors are the rows of the edge list and the arguments hold what they held. -/
theorem pre_keep (V : Valuation τ sig (Elt Ideal)) :
    Keep (V (Proc.devRef .tc main_arg1)) (V (Proc.devRef .tc main_arg2)) (V (Proc.devRef .tc main_arg3)) (V (Proc.devRef .tc main_arg0))
      (after (pre (F := Ideal)) V) :=
  have k : ∀ r : Ref sig .tc, r ∉ pre_W → after (pre (F := Ideal)) V (Proc.devRef .tc r) = V (Proc.devRef .tc r) :=
    fun r hr => after_of_writes_sub _ V pre_writes hr
  ⟨pre_v1 V, pre_v3 V, k main_arg0 (by decide), k main_arg1 (by decide), k main_arg2 (by decide), k main_arg3 (by decide)⟩

/-! ## The fifteen layers -/

/-- The contents after the fifteen layers, from the contents `V0` before the first. -/
def layers (V0 : Valuation τ sig (Elt Ideal)) : Valuation τ sig (Elt Ideal) :=
  after (L15B (F := Ideal)) (after (L15A (F := Ideal)) (after (L14B (F := Ideal)) (after (L14A (F := Ideal)) (after (L13B (F := Ideal)) (after (L13A (F := Ideal)) (after (L12B (F := Ideal)) (after (L12A (F := Ideal)) (after (L11B (F := Ideal)) (after (L11A (F := Ideal)) (after (L10B (F := Ideal)) (after (L10A (F := Ideal)) (after (L9B (F := Ideal)) (after (L9A (F := Ideal)) (after (L8B (F := Ideal)) (after (L8A (F := Ideal)) (after (L7B (F := Ideal)) (after (L7A (F := Ideal)) (after (L6B (F := Ideal)) (after (L6A (F := Ideal)) (after (L5B (F := Ideal)) (after (L5A (F := Ideal)) (after (L4B (F := Ideal)) (after (L4A (F := Ideal)) (after (L3B (F := Ideal)) (after (L3A (F := Ideal)) (after (L2B (F := Ideal)) (after (L2A (F := Ideal)) (after (L1B (F := Ideal)) (after (L1A (F := Ideal)) V0)))))))))))))))))))))))))))))

/-- The program's operations run as the four first operations, then the fifteen layers. -/
theorem after_ops (V : Valuation τ sig (Elt Ideal)) :
    after (Cert.ReferenceIdeal.ValueP.ops (F := Ideal)) V = layers (after (pre (F := Ideal)) V) := by
  simp only [ops, part0, part1, part2, part3, part4, part5, part6, part7, after_app]
  unfold layers
  simp only [L4A, L6A, L8A, L10A, L12A, L14A, after_app]

/-- From contents that keep the edge vectors and the arguments, the fifteen layers leave the fifteenth iterate of
    `R.layer` at the features in the result buffer, and keep them. -/
theorem chain (e : R.EdgeList) (W : FVec Ideal S6x3 .f32) (b : FVec Ideal S3 .f32) (x0 : FVec Ideal S200000x3 .f32)
    (V0 : Valuation τ sig (Elt Ideal)) (h0 : Keep e W b x0 V0) :
    Keep e W b x0 (layers V0) ∧ layers V0 (Proc.devRef .tc main_v378) = (R.layer (R.src e) (R.dst e) W b)^[15] x0 := by
  unfold layers
  obtain ⟨h1, y1⟩ := L1_step e W b x0 x0 V0 h0 h0.a0
  obtain ⟨h2, y2⟩ := L2_step e W b x0 _ _ h1 (y1.trans (Function.iterate_succ_apply' (R.layer (R.src e) (R.dst e) W b) 0 x0).symm)
  obtain ⟨h3, y3⟩ := L3_step e W b x0 _ _ h2 (y2.trans (Function.iterate_succ_apply' (R.layer (R.src e) (R.dst e) W b) 1 x0).symm)
  obtain ⟨h4, y4⟩ := L4_step e W b x0 _ _ h3 (y3.trans (Function.iterate_succ_apply' (R.layer (R.src e) (R.dst e) W b) 2 x0).symm)
  obtain ⟨h5, y5⟩ := L5_step e W b x0 _ _ h4 (y4.trans (Function.iterate_succ_apply' (R.layer (R.src e) (R.dst e) W b) 3 x0).symm)
  obtain ⟨h6, y6⟩ := L6_step e W b x0 _ _ h5 (y5.trans (Function.iterate_succ_apply' (R.layer (R.src e) (R.dst e) W b) 4 x0).symm)
  obtain ⟨h7, y7⟩ := L7_step e W b x0 _ _ h6 (y6.trans (Function.iterate_succ_apply' (R.layer (R.src e) (R.dst e) W b) 5 x0).symm)
  obtain ⟨h8, y8⟩ := L8_step e W b x0 _ _ h7 (y7.trans (Function.iterate_succ_apply' (R.layer (R.src e) (R.dst e) W b) 6 x0).symm)
  obtain ⟨h9, y9⟩ := L9_step e W b x0 _ _ h8 (y8.trans (Function.iterate_succ_apply' (R.layer (R.src e) (R.dst e) W b) 7 x0).symm)
  obtain ⟨h10, y10⟩ := L10_step e W b x0 _ _ h9 (y9.trans (Function.iterate_succ_apply' (R.layer (R.src e) (R.dst e) W b) 8 x0).symm)
  obtain ⟨h11, y11⟩ := L11_step e W b x0 _ _ h10 (y10.trans (Function.iterate_succ_apply' (R.layer (R.src e) (R.dst e) W b) 9 x0).symm)
  obtain ⟨h12, y12⟩ := L12_step e W b x0 _ _ h11 (y11.trans (Function.iterate_succ_apply' (R.layer (R.src e) (R.dst e) W b) 10 x0).symm)
  obtain ⟨h13, y13⟩ := L13_step e W b x0 _ _ h12 (y12.trans (Function.iterate_succ_apply' (R.layer (R.src e) (R.dst e) W b) 11 x0).symm)
  obtain ⟨h14, y14⟩ := L14_step e W b x0 _ _ h13 (y13.trans (Function.iterate_succ_apply' (R.layer (R.src e) (R.dst e) W b) 12 x0).symm)
  obtain ⟨h15, y15⟩ := L15_step e W b x0 _ _ h14 (y14.trans (Function.iterate_succ_apply' (R.layer (R.src e) (R.dst e) W b) 13 x0).symm)
  exact ⟨h15, y15.trans (Function.iterate_succ_apply' (R.layer (R.src e) (R.dst e) W b) 14 x0).symm⟩

/-! ## The run -/

/-- On every device, from any memory with zero counters: every weakly fair execution of the reference program
    terminates with its result at the fifteenth iterate of `R.layer` — at the rows of the edge list, the weights and the
    bias — of the features, all at their launch contents, and the four arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v378) = (Cert.Sage.R.layer (Cert.Sage.R.src (m ((c.tc : Thread Cert.ReferenceIdeal.nD Cert.ReferenceIdeal.τ).loc Cert.ReferenceIdeal.main_arg1))) (Cert.Sage.R.dst (m ((c.tc : Thread Cert.ReferenceIdeal.nD Cert.ReferenceIdeal.τ).loc Cert.ReferenceIdeal.main_arg1))) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)))^[15] (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run _ _ _).mono (fun r h c => by
      obtain ⟨hK, hy⟩ := chain _ _ _ _ _ (pre_keep (launchContents m c))
      have hb : ∀ b : Ref sig .tc, r.2.mem ((c.tc : Thread nD τ).loc b)
          = layers (after (pre (F := Ideal)) (launchContents m c)) (Proc.devRef .tc b) :=
        fun b => (h c b).trans (congrFun (after_ops (launchContents m c)) _)
      exact ⟨(hb main_v378).trans hy, (hb main_arg0).trans hK.a0, (hb main_arg1).trans hK.a1,
        (hb main_arg2).trans hK.a2, (hb main_arg3).trans hK.a3⟩)
    (Cert.ReferenceIdeal.ValueP.run_all (F := Ideal) m ρ)

end Cert.Sage.RefChain

end
-- ==== Proof.BridgeScalar.lean ====
/-
  The arithmetic of one output entry of a layer, on the extended reals.

  At a node and an output feature, one side computes
      max ( (w0·x0 + w1·x1 + w2·x2) + (w3·(a0·r) + w4·(a1·r) + w5·(a2·r)) + b , 0 )      with r = 1 / max(d, 1),
  the other
      max ( (x0·w0 + x1·w1 + x2·w2 + (a0/m)·w3 + (a1/m)·w4 + (a2/m)·w5) + b , 0 )          with m = max(d, 1).
  They are equal at EVERY extended real, the infinities included: the divisor m is at least 1, so it is not zero and
  a / m = a · m⁻¹ = a · (1 · m⁻¹) = a · (1 / m); the rest is the commutativity of the product and the commutativity and
  associativity of the sum. Neither distributivity nor a cancellation is used (both fail at the infinities).
-/
import Mathlib.Data.EReal.Operations
import Mathlib.Algebra.BigOperators.Fin
import Mathlib.Tactic.Abel
import Idealize.ShloMosaic.PureOps.Ideal

namespace Cert.Sage

open Idealize.ShloMosaic

/-- The maximum of an extended real with 1 is not zero. -/
theorem max_one_ne_zero (d : EReal) : max d 1 ≠ 0 :=
  ne_of_gt (lt_of_lt_of_le zero_lt_one (le_max_right d 1))

/-- Multiplying by the reciprocal of max(d, 1) is dividing by max(d, 1), at every extended real. -/
theorem mul_div_one_max (a d : EReal) : a * Ideal.div 1 (max d 1) = Ideal.div a (max d 1) := by
  unfold Ideal.div
  rw [if_neg (max_one_ne_zero d), if_neg (max_one_ne_zero d), one_mul]

/-- One output entry of a layer: the feature-major form with the reciprocal equals the node-major form with the quotient. -/
theorem entry_eq (x0 x1 x2 a0 a1 a2 d w0 w1 w2 w3 w4 w5 b : EReal) :
    max (((w0 * x0 + w1 * x1 + w2 * x2)
        + (w3 * (a0 * Ideal.div 1 (max d 1)) + w4 * (a1 * Ideal.div 1 (max d 1)) + w5 * (a2 * Ideal.div 1 (max d 1)))) + b) 0
      = max ((x0 * w0 + x1 * w1 + x2 * w2 + Ideal.div a0 (max d 1) * w3 + Ideal.div a1 (max d 1) * w4
          + Ideal.div a2 (max d 1) * w5) + b) 0 := by
  rw [mul_div_one_max, mul_div_one_max, mul_div_one_max,
    mul_comm w0 x0, mul_comm w1 x1, mul_comm w2 x2, mul_comm w3, mul_comm w4, mul_comm w5]
  congr 2
  abel

end Cert.Sage
-- ==== Proof.BridgeIdx.lean ====
/-
  Layout operations of the two layer programs read at one index: each lemma says which entry of its operand a chain of
  transposes, slices, paddings, shape casts, broadcasts or a concatenation reads at given coordinates. Nodes are
  `n : Fin 200000`, features `j k : Fin 3`; a padded array has 204800 columns, of which only the first 200000 are read.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.Sage

open Idealize.ShloMosaic Idealize.ShloMosaic.ValueIdx
open scoped BigOperators

variable {α : Type}

/-- A node as a column of the padded feature-major arrays. -/
abbrev col (n : Fin 200000) : Fin 204800 := ⟨n.val, by omega⟩
/-- A feature as one of the first three rows of the weights. -/
abbrev lo (k : Fin 3) : Fin 6 := ⟨k.val, by omega⟩
/-- A feature as one of the last three rows of the weights. -/
abbrev hi (k : Fin 3) : Fin 6 := ⟨3 + k.val, by omega⟩

/-- A sum over six indices, written as the first three then the last three. -/
theorem sum_six {M : Type*} [AddCommMonoid M] (f : Fin 6 → M) :
    ∑ k, f k = f (lo 0) + f (lo 1) + f (lo 2) + f (hi 0) + f (hi 1) + f (hi 2) :=
  Fin.sum_univ_six f

/-- The first 200000 columns of a feature-major array, laid node-major: entry (n, j) is entry (j, n). -/
theorem unpad_read (o : (⟨2, ![3, 204800]⟩ : Shape).Idx → α)
    (hs : (⟨2, ![3, 204800]⟩ : Shape).Slices ![0, 0] ⟨2, ![3, 200000]⟩)
    (ht : (⟨2, ![3, 200000]⟩ : Shape).Transposes [1, 0] ⟨2, ![200000, 3]⟩) (n : Fin 200000) (j : Fin 3) :
    transpose ⟨2, ![200000, 3]⟩ [1, 0] (extractStridedSlice ⟨2, ![3, 200000]⟩ ![0, 0] o hs) ht (ix2 n j)
      = o (ix2 j (col n)) :=
  (transpose_ix2_apply _ ht n j).trans (slice2_axis1_apply 0 o hs j n (col n) (Nat.zero_add _).symm)

/-- A node-major array laid feature-major and padded: column n < 200000 of row k is entry (n, k). -/
theorem padT_read (y : (⟨2, ![200000, 3]⟩ : Shape).Idx → α)
    (ht : (⟨2, ![200000, 3]⟩ : Shape).Transposes [1, 0] ⟨2, ![3, 200000]⟩) {u : Shape} (v : u.Idx → α)
    (hp : (⟨2, ![3, 200000]⟩ : Shape).Pads (![0, 0] : Fin 2 → Nat) ![0, 4800] ![0, 0] ⟨2, ![3, 204800]⟩)
    (hu : 0 < u.numel) (k : Fin 3) (n : Fin 200000) :
    pad ⟨2, ![3, 204800]⟩ ![0, 0] ![0, 4800] ![0, 0] (transpose ⟨2, ![3, 200000]⟩ [1, 0] y ht) v hp hu (ix2 k (col n))
      = y (ix2 n k) :=
  (pad_apply_of_inside _ _ _ _ v hp hu (ix2 k (col n)) (ix2 k n) (fun a => by
    match a with
    | ⟨0, _⟩ => show k.val = 0 + k.val * (0 + 1); omega
    | ⟨1, _⟩ => show n.val = 0 + n.val * (0 + 1); omega)).trans (transpose_ix2_apply y ht k n)

/-- A vector laid as one row and padded: column n < 200000 is entry n. -/
theorem padRow_read (q : (⟨1, ![200000]⟩ : Shape).Idx → α)
    (hc : (⟨1, ![200000]⟩ : Shape).ShapeCasts ⟨2, ![1, 200000]⟩) {u : Shape} (v : u.Idx → α)
    (hp : (⟨2, ![1, 200000]⟩ : Shape).Pads (![0, 0] : Fin 2 → Nat) ![0, 4800] ![0, 0] ⟨2, ![1, 204800]⟩)
    (hu : 0 < u.numel) (z : Fin 1) (n : Fin 200000) :
    pad ⟨2, ![1, 204800]⟩ ![0, 0] ![0, 4800] ![0, 0] (shapeCast ⟨2, ![1, 200000]⟩ q hc) v hp hu (ix2 z (col n))
      = q (ix1 n) :=
  (pad_apply_of_inside _ _ _ _ v hp hu (ix2 z (col n)) (ix2 z n) (fun a => by
    match a with
    | ⟨0, _⟩ => show z.val = 0 + z.val * (0 + 1); omega
    | ⟨1, _⟩ => show n.val = 0 + n.val * (0 + 1); omega)).trans (shapeCast_a_1a_apply q hc z n)

/-- The first three columns of the transposed weights: entry (j, k) is W (k, j). -/
theorem wlo_read (W : (⟨2, ![6, 3]⟩ : Shape).Idx → α)
    (ht : (⟨2, ![6, 3]⟩ : Shape).Transposes [1, 0] ⟨2, ![3, 6]⟩)
    (hs : (⟨2, ![3, 6]⟩ : Shape).Slices ![0, 0] ⟨2, ![3, 3]⟩) (j k : Fin 3) :
    extractStridedSlice ⟨2, ![3, 3]⟩ ![0, 0] (transpose ⟨2, ![3, 6]⟩ [1, 0] W ht) hs (ix2 j k) = W (ix2 (lo k) j) :=
  (slice2_axis1_apply 0 _ hs j k (lo k) (Nat.zero_add _).symm).trans (transpose_ix2_apply W ht j (lo k))

/-- The last three columns of the transposed weights: entry (j, k) is W (3 + k, j). -/
theorem whi_read (W : (⟨2, ![6, 3]⟩ : Shape).Idx → α)
    (ht : (⟨2, ![6, 3]⟩ : Shape).Transposes [1, 0] ⟨2, ![3, 6]⟩)
    (hs : (⟨2, ![3, 6]⟩ : Shape).Slices ![0, 3] ⟨2, ![3, 3]⟩) (j k : Fin 3) :
    extractStridedSlice ⟨2, ![3, 3]⟩ ![0, 3] (transpose ⟨2, ![3, 6]⟩ [1, 0] W ht) hs (ix2 j k) = W (ix2 (hi k) j) :=
  (slice2_axis1_apply 3 _ hs j k (hi k) rfl).trans (transpose_ix2_apply W ht j (hi k))

/-- A vector laid as a column: entry (j, 0) is entry j. -/
theorem colCast_read (b : (⟨1, ![3]⟩ : Shape).Idx → α) (hc : (⟨1, ![3]⟩ : Shape).ShapeCasts ⟨2, ![3, 1]⟩)
    (j : Fin 3) (z : Fin 1) : shapeCast ⟨2, ![3, 1]⟩ b hc (ix2 j z) = b (ix1 j) :=
  shapeCast_apply b hc _ _ (by
    have hz : z.val = 0 := by omega
    rw [Shape.rowMajor_val_two, Shape.rowMajor_val_one]
    show j.val = j.val * 1 + z.val
    omega)

/-- A scalar laid over a whole array reads the scalar everywhere. -/
theorem splat_read {t : Shape} (c : (⟨0, ![]⟩ : Shape).Idx → α)
    (h : (⟨0, ![]⟩ : Shape).BroadcastsInDim t (![] : Fin 0 → Fin t.rank)) (i : t.Idx) :
    broadcastInDim t ![] h c i = c ix0 :=
  broadcastInDim_apply ![] h c i ix0 (fun a => a.elim0)

/-- The 32-bit pattern of 1.0 laid over a whole array reads the extended real 1 everywhere. -/
theorem ones_read {t : Shape} (h : (⟨0, ![]⟩ : Shape).BroadcastsInDim t (![] : Fin 0 → Fin t.rank)) (i : t.Idx) :
    broadcastInDim t ![] h (constant (F := Ideal) ⟨0, ![]⟩ .f32 0x3F800000#32) i = (1 : EReal) :=
  (splat_read _ h i).trans (IdealRules.sign_bit.ideal_onePat .f32)

/-- The 32-bit pattern of 0.0 laid over a whole array reads the extended real 0 everywhere. -/
theorem zeros_read {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) :=
  (splat_read _ h i).trans Ideal.ofBits_zero_f32

/-- The host's quotient of two arrays at an index is the extended reals' division of the entries. -/
theorem hostDivf_read {s : Shape} (a c : FVec Ideal s .f32) (i : s.Idx) :
    Host.divf (F := Ideal) a c i = Ideal.div (a i) (c i) := rfl

/-- A vector laid along every row: entry (n, j) is entry j. -/
theorem rowBcast_read (b : (⟨1, ![3]⟩ : Shape).Idx → α)
    (h1 : (⟨1, ![3]⟩ : Shape).BroadcastsInDim ⟨2, ![1, 3]⟩ ![1])
    (h2 : (⟨2, ![1, 3]⟩ : Shape).BroadcastsInDim ⟨2, ![200000, 3]⟩ ![0, 1]) (n : Fin 200000) (j : Fin 3) :
    broadcastInDim ⟨2, ![200000, 3]⟩ ![0, 1] h2 (broadcastInDim ⟨2, ![1, 3]⟩ ![1] h1 b) (ix2 n j) = b (ix1 j) :=
  (broadcastInDim_oneRow_apply h2 _ n j).trans
    (broadcastInDim_apply ![1] h1 b (ix2 (0 : Fin 1) j) (ix1 j) (fun a => by
      match a with
      | ⟨0, _⟩ => show j.val = if (3 : ℕ) = 1 then 0 else j.val; simp))

/-- A vector laid along every column: entry (n, k) is entry n. -/
theorem colBcast_read (m : (⟨1, ![200000]⟩ : Shape).Idx → α)
    (h1 : (⟨1, ![200000]⟩ : Shape).BroadcastsInDim ⟨2, ![200000, 1]⟩ ![0])
    (h2 : (⟨2, ![200000, 1]⟩ : Shape).BroadcastsInDim ⟨2, ![200000, 3]⟩ ![0, 1]) (n : Fin 200000) (k : Fin 3) :
    broadcastInDim ⟨2, ![200000, 3]⟩ ![0, 1] h2 (broadcastInDim ⟨2, ![200000, 1]⟩ ![0] h1 m) (ix2 n k) = m (ix1 n) :=
  (broadcastInDim_apply ![0, 1] h2 _ (ix2 n k) (ix2 n (0 : Fin 1)) (fun a => by
      match a with
      | ⟨0, _⟩ => show n.val = if (200000 : ℕ) = 1 then 0 else n.val; simp
      | ⟨1, _⟩ => show (0 : ℕ) = if (1 : ℕ) = 1 then 0 else k.val; simp)).trans
    (broadcastInDim_apply ![0] h1 m (ix2 n (0 : Fin 1)) (ix1 n) (fun a => by
      match a with
      | ⟨0, _⟩ => show n.val = if (200000 : ℕ) = 1 then 0 else n.val; simp))

/-- Two [N,3] arrays side by side: the first three columns are the first array's. -/
theorem cat_read_lo (x₁ x₂ : (⟨2, ![200000, 3]⟩ : Shape).Idx → α)
    (h : Shape.Concatenates [(⟨2, ![200000, 3]⟩ : Shape), ⟨2, ![200000, 3]⟩] ⟨2, ![200000, 6]⟩ 1)
    (n : Fin 200000) (k : Fin 3) :
    concatenate ⟨2, ![200000, 6]⟩ 1 [⟨⟨2, ![200000, 3]⟩, x₁⟩, ⟨⟨2, ![200000, 3]⟩, x₂⟩] h (ix2 n (lo k)) = x₁ (ix2 n k) :=
  concatenate_pair_apply_left 1 x₁ x₂ h (ix2 n (lo k)) rfl (ix2 n k) (fun b => by
    match b with
    | ⟨0, _⟩ => rfl
    | ⟨1, _⟩ => rfl)

/-- … and the last three columns are the second array's. -/
theorem cat_read_hi (x₁ x₂ : (⟨2, ![200000, 3]⟩ : Shape).Idx → α)
    (h : Shape.Concatenates [(⟨2, ![200000, 3]⟩ : Shape), ⟨2, ![200000, 3]⟩] ⟨2, ![200000, 6]⟩ 1)
    (n : Fin 200000) (k : Fin 3) :
    concatenate ⟨2, ![200000, 6]⟩ 1 [⟨⟨2, ![200000, 3]⟩, x₁⟩, ⟨⟨2, ![200000, 3]⟩, x₂⟩] h (ix2 n (hi k)) = x₂ (ix2 n k) :=
  concatenate_pair_apply_right 1 x₁ x₂ h (ix2 n (hi k)) rfl rfl (ix2 n k) (fun b hb => by
    match b, hb with
    | ⟨0, _⟩, _ => rfl
    | ⟨1, _⟩, hb => exact absurd rfl hb) (by show k.val + 3 = 3 + k.val; omega)

end Cert.Sage

end
-- ==== Proof.LibAffine.lean ====
import Idealize.ShloMosaic.Lib.ValueIdx
import Idealize.ShloMosaic.Lib.Pipeline.Value
import Idealize.ShloMosaic.Lib.KernelVsHost
import Idealize.ShloMosaic.PureOps.Ideal.Laws

/-!
# An affine layer and a biased rectifier, row by row, at the exact extended reals

For a matrix `X` of `m` rows and `k` columns, a matrix `W` of `k` rows and `n` columns and a one-row matrix `Y`
of `n` entries, the affine layer is `(r, j) ↦ (∑ c, X (r, c) · W (c, j)) + Y (0, j)`; the biased rectifier is
`(r, j) ↦ max (X (r, j) + Y (0, j)) 0`.  Both are stated here as functions of whole arrays, together with their
spellings by the host's operations (a contraction, a broadcast of the row along both axes, a sum, a maximum with the
zero array), and with the fact that adding the zero row changes nothing: `x + 0 = x` for every extended real, the
infinities included.
-/

noncomputable section

namespace Cert.LibAffine

open Idealize.ShloMosaic Idealize.ShloMosaic.ValueIdx

variable {m k n : ℕ}

/-- The host's contraction of the second axis of `A` with the first of `B`, read at `(a, b)`: the sum over the
    contracted coordinate of the products of the entries. -/
theorem hostDot_plain_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The affine layer: row `r` of `X` against column `j` of `W`, plus entry `j` of the row `Y`. -/
def affine (X : (⟨2, ![m, k]⟩ : Shape).Idx → EReal) (W : (⟨2, ![k, n]⟩ : Shape).Idx → EReal)
    (Y : (⟨2, ![1, n]⟩ : Shape).Idx → EReal) : (⟨2, ![m, n]⟩ : Shape).Idx → EReal :=
  fun i => (∑ c : Fin k, X (ix2 (i 0) c) * W (ix2 c (i 1))) + Y (ix2 (0 : Fin 1) (i 1))

theorem affine_apply (X : (⟨2, ![m, k]⟩ : Shape).Idx → EReal) (W : (⟨2, ![k, n]⟩ : Shape).Idx → EReal)
    (Y : (⟨2, ![1, n]⟩ : Shape).Idx → EReal) (p : Fin m) (q : Fin n) :
    affine X W Y (ix2 p q) = (∑ c : Fin k, X (ix2 p c) * W (ix2 c q)) + Y (ix2 (0 : Fin 1) q) := rfl

/-- The biased rectifier: entry `(r, j)` of `X` plus entry `j` of the row `Y`, or zero if that is larger. -/
def biasRelu (X : (⟨2, ![m, n]⟩ : Shape).Idx → EReal) (Y : (⟨2, ![1, n]⟩ : Shape).Idx → EReal) :
    (⟨2, ![m, n]⟩ : Shape).Idx → EReal :=
  fun i => max (X i + Y (ix2 (0 : Fin 1) (i 1))) 0

theorem biasRelu_apply (X : (⟨2, ![m, n]⟩ : Shape).Idx → EReal) (Y : (⟨2, ![1, n]⟩ : Shape).Idx → EReal)
    (p : Fin m) (q : Fin n) : biasRelu X Y (ix2 p q) = max (X (ix2 p q) + Y (ix2 (0 : Fin 1) q)) 0 := rfl

/-- The affine layer in the host's spelling: the contraction, plus the row laid down every row. -/
theorem affine_eq_host
    (w : DotDims.WF ⟨2, ![m, k]⟩ ⟨2, ![k, n]⟩ ⟨2, ![m, n]⟩ [1] [0] [0] [1] [] [])
    (prec : Option ContractPrecision)
    (hd : (⟨2, ![1, n]⟩ : Shape).BroadcastsInDim ⟨2, ![m, n]⟩ ![0, 1])
    (X : FVec Ideal ⟨2, ![m, k]⟩ .f32) (W : FVec Ideal ⟨2, ![k, n]⟩ .f32) (Y : FVec Ideal ⟨2, ![1, n]⟩ .f32) :
    affine X W Y
      = addf (Host.dotGeneral (⟨[1], [0], [0], [1], [], [], w⟩ : DotDims _ _ _) prec X W)
          (broadcastInDim ⟨2, ![m, n]⟩ ![0, 1] hd Y) := by
  funext i
  obtain ⟨p, q, rfl⟩ : ∃ (p : Fin m) (q : Fin n), i = ix2 p q := ⟨i 0, i 1, eq_ix2 i⟩
  show _ = FloatOps.addf (Host.dotGeneral _ prec X W (ix2 p q)) (broadcastInDim _ ![0, 1] hd Y (ix2 p q))
  rw [hostDot_plain_apply, broadcastInDim_oneRow_apply]
  rfl

/-- The zero row adds nothing: the affine layer with the zero row is the contraction alone. -/
theorem affine_zero_eq_host
    (w : DotDims.WF ⟨2, ![m, k]⟩ ⟨2, ![k, n]⟩ ⟨2, ![m, n]⟩ [1] [0] [0] [1] [] [])
    (prec : Option ContractPrecision)
    (X : FVec Ideal ⟨2, ![m, k]⟩ .f32) (W : FVec Ideal ⟨2, ![k, n]⟩ .f32) (Y : FVec Ideal ⟨2, ![1, n]⟩ .f32)
    (hY : ∀ j, Y j = 0) :
    affine X W Y = Host.dotGeneral (⟨[1], [0], [0], [1], [], [], w⟩ : DotDims _ _ _) prec X W := by
  funext i
  obtain ⟨p, q, rfl⟩ : ∃ (p : Fin m) (q : Fin n), i = ix2 p q := ⟨i 0, i 1, eq_ix2 i⟩
  rw [hostDot_plain_apply, affine_apply, hY, add_zero]

/-- The biased rectifier in the host's spelling: the sum with the row laid down every row, then the maximum with the
    zero array. -/
theorem biasRelu_eq_host
    (hd : (⟨2, ![1, n]⟩ : Shape).BroadcastsInDim ⟨2, ![m, n]⟩ ![0, 1])
    (hz : (⟨0, ![]⟩ : Shape).BroadcastsInDim ⟨2, ![m, n]⟩ ![])
    (X : FVec Ideal ⟨2, ![m, n]⟩ .f32) (Y : FVec Ideal ⟨2, ![1, n]⟩ .f32) :
    biasRelu X Y
      = maximumf (addf X (broadcastInDim ⟨2, ![m, n]⟩ ![0, 1] hd Y))
          (broadcastInDim ⟨2, ![m, n]⟩ ![] hz (constant ⟨0, ![]⟩ .f32 0x00000000#32)) := by
  funext i
  obtain ⟨p, q, rfl⟩ : ∃ (p : Fin m) (q : Fin n), i = ix2 p q := ⟨i 0, i 1, eq_ix2 i⟩
  show _ = FloatOps.maximumf (FloatOps.addf (X (ix2 p q)) (broadcastInDim _ ![0, 1] hd Y (ix2 p q)))
    (broadcastInDim _ ![] hz (constant ⟨0, ![]⟩ .f32 0x00000000#32) (ix2 p q))
  rw [broadcastInDim_oneRow_apply, broadcastInDim_apply ![] hz _ (ix2 p q) ix0 (fun a => a.elim0)]
  show _ = max (X (ix2 p q) + Y (ix2 (0 : Fin 1) q)) (Ideal.ofBits .f32 0x00000000#32)
  rw [Ideal.ofBits_zero_f32]
  rfl

end Cert.LibAffine

end
-- ==== Proof.Bridge.lean ====
/-
  One layer of the feature-major (padded, transposed) program equals one layer of the node-major program, as functions
  of whole arrays at the extended reals.

  At node n < 200000 and output feature j < 3 the feature-major program reads
      max ( Σ_{k<3} W(k,j)·x(n,k) + Σ_{k<3} W(3+k,j)·(agg(n,k)·(1 / max(deg n, 1))) + b(j) , 0 )
  (the 4800 padding columns are never read), and the node-major program reads
      max ( Σ_{k<6} cat(n,k)·W(k,j) + b(j) , 0 ),   cat(n,k) = x(n,k) for k < 3 and agg(n,k−3) / max(deg n, 1) for k ≥ 3.
  The two programs compute agg and deg by the same gather and scatter-add, and the two expressions are equal at every
  extended real (BridgeScalar: the divisor is at least 1, and sums and products commute).
-/
import proofs.«147323_j54408645706323_1_alg».proof.Proof.KLayer
import proofs.«147323_j54408645706323_1_alg».proof.Proof.RLayer
import proofs.«147323_j54408645706323_1_alg».proof.Proof.BridgeScalar
import proofs.«147323_j54408645706323_1_alg».proof.Proof.BridgeIdx
import proofs.«147323_j54408645706323_1_alg».proof.Proof.LibAffine

noncomputable section

namespace Cert.Sage

open Idealize.ShloMosaic Idealize.ShloMosaic.ValueIdx
open scoped BigOperators

/-! ## The two programs gather and add up along the same edges -/

set_option maxHeartbeats 400000 in
/-- The two programs' sums over the incoming edges are one array. -/
theorem agg_eq (x : FVec Ideal Cert.KernelIdeal.S200000x3 .f32) (v1 v3 : K.EdgeVec) :
    K.agg x v1 v3 = R.agg x v1 v3 := rfl

set_option maxHeartbeats 400000 in
/-- The two programs' in-degrees are one vector. -/
theorem deg_eq (v3 : K.EdgeVec) : K.deg v3 = R.deg v3 := rfl

/-! ## The feature-major program read at a node and an output feature -/

theorem K.unpadT_apply (o : FVec Ideal Cert.KernelIdeal.S3x204800 .f32) (n : Fin 200000) (j : Fin 3) :
    K.unpadT o (ix2 n j) = o (ix2 j (col n)) :=
  unpad_read o _ _ n j

theorem K.padT_apply (y : FVec Ideal Cert.KernelIdeal.S200000x3 .f32) (k : Fin 3) (n : Fin 200000) :
    K.padT y (ix2 k (col n)) = y (ix2 n k) :=
  padT_read y _ _ _ _ k n

theorem K.wx_apply (W : FVec Ideal Cert.KernelIdeal.S6x3 .f32) (j k : Fin 3) : K.wx W (ix2 j k) = W (ix2 (lo k) j) :=
  wlo_read W _ _ j k

theorem K.wm_apply (W : FVec Ideal Cert.KernelIdeal.S6x3 .f32) (j k : Fin 3) : K.wm W (ix2 j k) = W (ix2 (hi k) j) :=
  whi_read W _ _ j k

theorem K.bc_apply (b : FVec Ideal Cert.KernelIdeal.S3 .f32) (j : Fin 3) (z : Fin 1) : K.bc b (ix2 j z) = b (ix1 j) :=
  colCast_read b _ j z

theorem K.inv_apply (v3 : K.EdgeVec) (z : Fin 1) (n : Fin 200000) :
    K.inv v3 (ix2 z (col n)) = Ideal.div 1 (max (K.deg v3 (ix1 n)) 1) := by
  unfold K.inv
  rw [padRow_read, hostDivf_read, maximumf_apply, ones_read]

/-- One layer of the feature-major program at node `n` and output feature `j`. -/
theorem K.layer_apply (v1 v3 : K.EdgeVec) (W : FVec Ideal Cert.KernelIdeal.S6x3 .f32)
    (b : FVec Ideal Cert.KernelIdeal.S3 .f32) (x : FVec Ideal Cert.KernelIdeal.S200000x3 .f32)
    (n : Fin 200000) (j : Fin 3) :
    K.layer v1 v3 W b x (ix2 n j)
      = max (((W (ix2 (lo 0) j) * x (ix2 n 0) + W (ix2 (lo 1) j) * x (ix2 n 1) + W (ix2 (lo 2) j) * x (ix2 n 2))
          + (W (ix2 (hi 0) j) * (K.agg x v1 v3 (ix2 n 0) * Ideal.div 1 (max (K.deg v3 (ix1 n)) 1))
            + W (ix2 (hi 1) j) * (K.agg x v1 v3 (ix2 n 1) * Ideal.div 1 (max (K.deg v3 (ix1 n)) 1))
            + W (ix2 (hi 2) j) * (K.agg x v1 v3 (ix2 n 2) * Ideal.div 1 (max (K.deg v3 (ix1 n)) 1))))
          + b (ix1 j)) 0 := by
  unfold K.layer
  rw [K.unpadT_apply]
  show max (((∑ k : Fin 3, K.wx W (ix2 j k) * K.padT x (ix2 k (col n)))
      + (∑ k : Fin 3, K.wm W (ix2 j k) * (K.padT (K.agg x v1 v3) (ix2 k (col n)) * K.inv v3 (ix2 (0 : Fin 1) (col n)))))
      + K.bc b (ix2 j (0 : Fin 1))) 0 = _
  simp only [K.wx_apply, K.wm_apply, K.padT_apply, K.inv_apply, K.bc_apply, Fin.sum_univ_three]

/-! ## The node-major program read at a node and an output feature -/

/-- The mean of the neighbours' features at a node: the sum over the incoming edges divided by max(deg, 1). -/
theorem R.mean_apply (x : FVec Ideal Cert.ReferenceIdeal.S200000x3 .f32) (v1 v3 : R.EdgeVec) (n : Fin 200000) (k : Fin 3) :
    R.mean x v1 v3 (ix2 n k) = Ideal.div (R.agg x v1 v3 (ix2 n k)) (max (R.deg v3 (ix1 n)) 1) := by
  unfold R.mean
  rw [hostDivf_read, colBcast_read, maximumf_apply, ones_read]

/-- The [N,6] x [6,3] contraction at (n, j) is the sum over the six rows of the weights. -/
theorem R.dot_apply (A : FVec Ideal Cert.ReferenceIdeal.S200000x6 .f32) (W : FVec Ideal Cert.ReferenceIdeal.S6x3 .f32)
    (n : Fin 200000) (j : Fin 3) :
    Host.dotGeneral (F := Ideal) Cert.ReferenceIdeal.dot_S200000x6_S6x3_S200000x3_1_0_0_1_n_n none A W (ix2 n j)
      = ∑ c : Fin 6, A (ix2 n c) * W (ix2 c j) :=
  Cert.LibAffine.hostDot_plain_apply Cert.ReferenceIdeal.Facts₀.dot_S200000x6_S6x3_S200000x3_1_0_0_1_n_n_wf none A W n j

/-- One layer of the node-major program at node `n` and output feature `j`. -/
theorem R.layer_apply (v1 v3 : R.EdgeVec) (W : FVec Ideal Cert.ReferenceIdeal.S6x3 .f32)
    (b : FVec Ideal Cert.ReferenceIdeal.S3 .f32) (x : FVec Ideal Cert.ReferenceIdeal.S200000x3 .f32)
    (n : Fin 200000) (j : Fin 3) :
    R.layer v1 v3 W b x (ix2 n j)
      = max ((x (ix2 n 0) * W (ix2 (lo 0) j) + x (ix2 n 1) * W (ix2 (lo 1) j) + x (ix2 n 2) * W (ix2 (lo 2) j)
          + Ideal.div (R.agg x v1 v3 (ix2 n 0)) (max (R.deg v3 (ix1 n)) 1) * W (ix2 (hi 0) j)
          + Ideal.div (R.agg x v1 v3 (ix2 n 1)) (max (R.deg v3 (ix1 n)) 1) * W (ix2 (hi 1) j)
          + Ideal.div (R.agg x v1 v3 (ix2 n 2)) (max (R.deg v3 (ix1 n)) 1) * W (ix2 (hi 2) j))
          + b (ix1 j)) 0 := by
  unfold R.layer
  show max (Host.dotGeneral (F := Ideal) Cert.ReferenceIdeal.dot_S200000x6_S6x3_S200000x3_1_0_0_1_n_n none _ W (ix2 n j)
      + broadcastInDim _ _ _ (broadcastInDim _ _ _ b) (ix2 n j)) (broadcastInDim _ _ _ _ (ix2 n j)) = _
  rw [rowBcast_read, zeros_read, R.dot_apply, sum_six]
  simp only [cat_read_lo, cat_read_hi, R.mean_apply]

/-! ## One layer of the one program is one layer of the other -/

/-- At every node and output feature the two layers compute the same extended real, whatever the inputs. -/
theorem layer_eq (v1 v3 : K.EdgeVec) (W : FVec Ideal Cert.KernelIdeal.S6x3 .f32) (b : FVec Ideal Cert.KernelIdeal.S3 .f32)
    (x : FVec Ideal Cert.KernelIdeal.S200000x3 .f32) :
    K.layer v1 v3 W b x = R.layer v1 v3 W b x := by
  funext i
  obtain ⟨n, j, rfl⟩ : ∃ (n : Fin 200000) (j : Fin 3), i = ix2 n j := ⟨i 0, i 1, eq_ix2 i⟩
  rw [K.layer_apply, R.layer_apply, agg_eq, deg_eq]
  exact entry_eq _ _ _ _ _ _ _ _ _ _ _ _ _ _

end Cert.Sage

end
-- ==== Proof.lean ====
/-
  A fifteen-layer graph network, kernel against reference, on the extended reals.

  Every layer gathers the node features along the edges, adds them up at the edges' targets, divides by the number of
  incoming edges (at least one), and applies one affine map to the node's own features and that mean, side by side,
  followed by the maximum with zero. The reference does this node-major with one [N,6] x [6,3] product; the kernel
  program lays the features feature-major, multiplies by the reciprocal degree instead of dividing, and splits the
  product into the two 3x3 halves of the transposed weights inside a launch over four blocks of columns. On the
  extended reals the two layers are one function of the features, the edge lists, the weights and the bias
  (`Cert.Sage.layer_eq`: a quotient by a divisor at least 1 is the product with its reciprocal, and a sum of six terms
  is the sum of its two halves; no finiteness is used), so fifteen layers of the one are fifteen layers of the other.

  The three frames: the two kernel programs' are the generated frame certificates; the reference has no launch and its
  frame is its run with the result dropped. The idealization rewrote nothing, so `preserves` is trivial.
-/
import proofs.«147323_j54408645706323_1_alg».proof.Defs
import proofs.«147323_j54408645706323_1_alg».proof.Proof.Gen.Kernel
import proofs.«147323_j54408645706323_1_alg».proof.Proof.Gen.Kernel.Frame
import proofs.«147323_j54408645706323_1_alg».proof.Proof.Gen.KernelIdeal
import proofs.«147323_j54408645706323_1_alg».proof.Proof.Gen.KernelIdeal.Frame
import proofs.«147323_j54408645706323_1_alg».proof.Proof.Gen.ReferenceIdeal
import proofs.«147323_j54408645706323_1_alg».proof.Proof.Gen.Pre_finite_inputs
import proofs.«147323_j54408645706323_1_alg».proof.Proof.KRun
import proofs.«147323_j54408645706323_1_alg».proof.Proof.KChain
import proofs.«147323_j54408645706323_1_alg».proof.Proof.RefChain
import proofs.«147323_j54408645706323_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.Sage.RefChain.run m ρ)

/-- The edge lists cut out of the edge array are the same vectors in either program's vocabulary. -/
theorem src_eq (e : (⟨Cert.KernelIdeal.S2x12800000, .i32⟩ : BufTy).Contents (Elt Ideal)) :
    Cert.Sage.R.src e = Cert.Sage.K.src e := rfl
theorem dst_eq (e : (⟨Cert.KernelIdeal.S2x12800000, .i32⟩ : BufTy).Contents (Elt Ideal)) :
    Cert.Sage.R.dst e = Cert.Sage.K.dst e := rfl

/-- Both programs end with the features after fifteen layers. -/
theorem algebraic : Cert.algebraic_KernelIdeal_ReferenceIdeal := by
  intro m ρ m' ρ' _ hagree
  refine ⟨fun c => Cert.Sage.K.X
      (Cert.Sage.K.src (m ((c.tc : Thread Cert.KernelIdeal.nD Cert.KernelIdeal.τ).loc Cert.KernelIdeal.main_arg1)))
      (Cert.Sage.K.dst (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg0)) 15, ?_, ?_⟩
  · exact (θ_run Cert.KernelIdeal.defs _ _).mono
      (fun r h c => ⟨(h c).1.trans (Cert.Sage.KChain.result m ρ c), (h c).2⟩)
      (Cert.KernelIdeal.Named.run (F := Ideal) m ρ)
  · refine (θ_run Cert.ReferenceIdeal.defs _ _).mono (fun r h c => ⟨(h c).1.trans ?_, (h c).2⟩)
      (Cert.Sage.RefChain.run m' ρ')
    rw [(hagree c).1, (hagree c).2.1, (hagree c).2.2.1, (hagree c).2.2.2, src_eq, dst_eq]
    unfold Cert.Sage.K.X
    refine congrFun (congrArg (fun f => Nat.iterate f 15) (funext fun x => ?_)) _
    exact (Cert.Sage.layer_eq _ _ _ _ x).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
